-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S40960x128 : Shape := ⟨2, ![40960, 128]⟩
abbrev S1024x200 : Shape := ⟨2, ![1024, 200]⟩
abbrev S40960 : Shape := ⟨1, ![40960]⟩
abbrev S1024 : Shape := ⟨1, ![1024]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40960x128 : S_.BroadcastsInDim S40960x128 (![] : Fin 0 → Fin S40960x128.rank)
  reducesTo_S40960x128_S_d0_1 : S40960x128.ReducesTo [0, 1] S_
  bcast_S_S1024x200 : S_.BroadcastsInDim S1024x200 (![] : Fin 0 → Fin S1024x200.rank)
  reducesTo_S1024x200_S_d0_1 : S1024x200.ReducesTo [0, 1] S_
  bcast_S_S40960 : S_.BroadcastsInDim S40960 (![] : Fin 0 → Fin S40960.rank)
  reducesTo_S40960_S_d0 : S40960.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg5 : IVec S40960 32) (main_arg6 : IVec S1024 32) (main_v29 : IVec S_ 1) (main_v31 : IVec S40960 1) (main_v32 : IVec S40960 32) : IVec S_ 1 :=
  let main_v33 : IVec S40960 1 := cmpi .sle main_arg5 main_v32
  let main_v34 : IVec S40960 1 := andi main_v31 main_v33
  let main_c_13 : IVec S_ 1 := constantI S_ 1 1#1
  let main_v35 : IVec S_ 1 := (fun x v => Host.reduce IntOp.andi x v reducesTo_S40960_S_d0 h_S_) main_v34 main_c_13
  let main_v36 : IVec S_ 1 := andi main_v29 main_v35
  let main_c_14 : IVec S_ 32 := constantI S_ 32 0#32
  let main_v37 : IVec S1024 32 := broadcastInDim S1024 ![] bcast_S_S1024 main_c_14
  let main_v38 : IVec S1024 1 := cmpi .sge main_arg6 main_v37
  let main_c_15 : IVec S_ 32 := constantI S_ 32 199#32
  let main_v39 : IVec S1024 32 := broadcastInDim S1024 ![] bcast_S_S1024 main_c_15
  let main_v40 : IVec S1024 1 := cmpi .sle main_arg6 main_v39
  let main_v41 : IVec S1024 1 := andi main_v38 main_v40
  let main_c_16 : IVec S_ 1 := constantI S_ 1 1#1
  let main_v42 : IVec S_ 1 := (fun x v => Host.reduce IntOp.andi x v reducesTo_S1024_S_d0 h_S_) main_v41 main_c_16
  let main_v43 : IVec S_ 1 := andi main_v36 main_v42
  main_v43

def fn_part1 {F : FTy → Type} [FloatOps F] (main_arg3 : IVec S1024x200 32) (main_arg4 : IVec S40960 32) (main_arg5 : IVec S40960 32) (main_arg6 : IVec S1024 32) (main_v15 : IVec S_ 1) (main_c_5 : IVec S_ 32) : IVec S_ 1 :=
  let main_v16 : IVec S1024x200 32 := broadcastInDim S1024x200 ![] bcast_S_S1024x200 main_c_5
  let main_v17 : IVec S1024x200 1 := cmpi .sge main_arg3 main_v16
  let main_c_6 : IVec S_ 32 := constantI S_ 32 1#32
  let main_v18 : IVec S1024x200 32 := broadcastInDim S1024x200 ![] bcast_S_S1024x200 main_c_6
  let main_v19 : IVec S1024x200 1 := cmpi .sle main_arg3 main_v18
  let main_v20 : IVec S1024x200 1 := andi main_v17 main_v19
  let main_c_7 : IVec S_ 1 := constantI S_ 1 1#1
  let main_v21 : IVec S_ 1 := (fun x v => Host.reduce IntOp.andi x v reducesTo_S1024x200_S_d0_1 h_S_) main_v20 main_c_7
  let main_v22 : IVec S_ 1 := andi main_v15 main_v21
  let main_c_8 : IVec S_ 32 := constantI S_ 32 0#32
  let main_v23 : IVec S40960 32 := broadcastInDim S40960 ![] bcast_S_S40960 main_c_8
  let main_v24 : IVec S40960 1 := cmpi .sge main_arg4 main_v23
  let main_c_9 : IVec S_ 32 := constantI S_ 32 1023#32
  let main_v25 : IVec S40960 32 := broadcastInDim S40960 ![] bcast_S_S40960 main_c_9
  let main_v26 : IVec S40960 1 := cmpi .sle main_arg4 main_v25
  let main_v27 : IVec S40960 1 := andi main_v24 main_v26
  let main_c_10 : IVec S_ 1 := constantI S_ 1 1#1
  let main_v28 : IVec S_ 1 := (fun x v => Host.reduce IntOp.andi x v reducesTo_S40960_S_d0 h_S_) main_v27 main_c_10
  let main_v29 : IVec S_ 1 := andi main_v22 main_v28
  let main_c_11 : IVec S_ 32 := constantI S_ 32 0#32
  let main_v30 : IVec S40960 32 := broadcastInDim S40960 ![] bcast_S_S40960 main_c_11
  let main_v31 : IVec S40960 1 := cmpi .sge main_arg5 main_v30
  let main_c_12 : IVec S_ 32 := constantI S_ 32 199#32
  let main_v32 : IVec S40960 32 := broadcastInDim S40960 ![] bcast_S_S40960 main_c_12
  fn_part2 (F := F) main_arg5 main_arg6 main_v29 main_v31 main_v32

def fn {F : FTy → Type} [FloatOps F] (main_arg0 : FVec F S100000x128 .f32) (main_arg1 : FVec F S40960x128 .f32) (main_arg2 : IVec S1024x200 32) (main_arg3 : IVec S1024x200 32) (main_arg4 : IVec S40960 32) (main_arg5 : IVec S40960 32) (main_arg6 : IVec S1024 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40960x128 .f32 := Host.absf main_arg1
  let main_cst_0 : FVec F S_ .f32 := constant S_ .f32 0x7F800000#32
  let main_v5 : FVec F S40960x128 .f32 := broadcastInDim S40960x128 ![] bcast_S_S40960x128 main_cst_0
  let main_v6 : IVec S40960x128 1 := cmpf .olt main_v4 main_v5
  let main_c_1 : IVec S_ 1 := constantI S_ 1 1#1
  let main_v7 : IVec S_ 1 := (fun x v => Host.reduce IntOp.andi x v reducesTo_S40960x128_S_d0_1 h_S_) main_v6 main_c_1
  let main_v8 : IVec S_ 1 := andi main_v3 main_v7
  let main_c_2 : IVec S_ 32 := constantI S_ 32 0#32
  let main_v9 : IVec S1024x200 32 := broadcastInDim S1024x200 ![] bcast_S_S1024x200 main_c_2
  let main_v10 : IVec S1024x200 1 := cmpi .sge main_arg2 main_v9
  let main_c_3 : IVec S_ 32 := constantI S_ 32 99999#32
  let main_v11 : IVec S1024x200 32 := broadcastInDim S1024x200 ![] bcast_S_S1024x200 main_c_3
  let main_v12 : IVec S1024x200 1 := cmpi .sle main_arg2 main_v11
  let main_v13 : IVec S1024x200 1 := andi main_v10 main_v12
  let main_c_4 : IVec S_ 1 := constantI S_ 1 1#1
  let main_v14 : IVec S_ 1 := (fun x v => Host.reduce IntOp.andi x v reducesTo_S1024x200_S_d0_1 h_S_) main_v13 main_c_4
  let main_v15 : IVec S_ 1 := andi main_v8 main_v14
  let main_c_5 : IVec S_ 32 := constantI S_ 32 0#32
  fn_part1 (F := F) main_arg3 main_arg4 main_arg5 main_arg6 main_v15 main_c_5
-- ==== Kernel.lean ====
abbrev S100000x128 : Shape := ⟨2, ![100000, 128]⟩
abbrev S40960x128 : Shape := ⟨2, ![40960, 128]⟩
abbrev S1024x200 : Shape := ⟨2, ![1024, 200]⟩
abbrev S40960 : Shape := ⟨1, ![40960]⟩
abbrev S1024 : Shape := ⟨1, ![1024]⟩
abbrev S_ : Shape := ⟨0, ![]⟩
abbrev S128x128 : Shape := ⟨2, ![128, 128]⟩
abbrev S141088x128 : Shape := ⟨2, ![141088, 128]⟩
abbrev S204800 : Shape := ⟨1, ![204800]⟩
abbrev S40960x1 : Shape := ⟨2, ![40960, 1]⟩
abbrev S204800x128 : Shape := ⟨2, ![204800, 128]⟩
abbrev S6400 : Shape := ⟨1, ![6400]⟩
abbrev S16 : Shape := ⟨1, ![16]⟩
abbrev S128 : Shape := ⟨1, ![128]⟩
abbrev S1024x1 : Shape := ⟨2, ![1024, 1]⟩
abbrev S1024x200x128 : Shape := ⟨3, ![1024, 200, 128]⟩

abbrev nBuf : Table → Nat
  | .hbm => 35
  | .local .tc .vmem => 2
  | .local .scVector .vmem => 9
  | _ => 0

abbrev bufTy : (tb : Table) → Fin (nBuf tb) → BufTy
  | .hbm, ⟨0, _⟩ => ⟨S100000x128, .f32⟩
  | .hbm, ⟨1, _⟩ => ⟨S40960x128, .f32⟩
  | .hbm, ⟨2, _⟩ => ⟨S1024x200, .i32⟩
  | .hbm, ⟨3, _⟩ => ⟨S1024x200, .i32⟩
  | .hbm, ⟨4, _⟩ => ⟨S40960, .i32⟩
  | .hbm, ⟨5, _⟩ => ⟨S40960, .i32⟩
  | .hbm, ⟨6, _⟩ => ⟨S1024, .i32⟩
  | .hbm, ⟨7, _⟩ => ⟨S_, .f32⟩
  | .hbm, ⟨8, _⟩ => ⟨S128x128, .f32⟩
  | .hbm, ⟨9, _⟩ => ⟨S141088x128, .f32⟩
  | .hbm, ⟨10, _⟩ => ⟨S_, .i32⟩
  | .hbm, ⟨11, _⟩ => ⟨S40960, .i32⟩
  | .hbm, ⟨12, _⟩ => ⟨S40960, .i32⟩
  | .hbm, ⟨13, _⟩ => ⟨S40960, .i32⟩
  | .hbm, ⟨14, _⟩ => ⟨S_, .i32⟩
  | .hbm, ⟨15, _⟩ => ⟨S204800, .i32⟩
  | .hbm, ⟨16, _⟩ => ⟨S40960, .i32⟩
  | .hbm, ⟨17, _⟩ => ⟨S_, .i32⟩
  | .hbm, ⟨18, _⟩ => ⟨S40960, .i32⟩
  | .hbm, ⟨19, _⟩ => ⟨S40960, .i32⟩
  | .hbm, ⟨20, _⟩ => ⟨S_, .i32⟩
  | .hbm, ⟨21, _⟩ => ⟨S40960, .i32⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S40960x1, .i32⟩
  | .hbm, ⟨28, _⟩ => ⟨S204800, .i32⟩
  | .hbm, ⟨29, _⟩ => ⟨S204800, .i32⟩
  | .hbm, ⟨30, _⟩ => ⟨S204800, .i32⟩
  | .hbm, ⟨31, _⟩ => ⟨S204800x128, .f32⟩
  | .hbm, ⟨32, _⟩ => ⟨S1024x1, .i32⟩
  | .hbm, ⟨33, _⟩ => ⟨S1024x200, .f32⟩
  | .hbm, ⟨34, _⟩ => ⟨S1024x200x128, .f32⟩
  | .local .tc .vmem, ⟨0, _⟩ => ⟨S1024x1, .i32⟩
  | .local .tc .vmem, ⟨1, _⟩ => ⟨S1024x200, .f32⟩
  | .local .scVector .vmem, ⟨0, _⟩ => ⟨S6400, .i32⟩
  | .local .scVector .vmem, ⟨1, _⟩ => ⟨S6400, .i32⟩
  | .local .scVector .vmem, ⟨2, _⟩ => ⟨S6400, .i32⟩
  | .local .scVector .vmem, ⟨3, _⟩ => ⟨S6400, .i32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v1_scv : Ref sig .scVector := ⟨.hbm, 9, rfl⟩
abbrev main_v16_scv : Ref sig .scVector := ⟨.hbm, 29, rfl⟩
abbrev main_v17_scv : Ref sig .scVector := ⟨.hbm, 30, rfl⟩
abbrev main_v15_scv : Ref sig .scVector := ⟨.hbm, 28, rfl⟩
abbrev main_v18_scv : Ref sig .scVector := ⟨.hbm, 31, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 13
abbrev cc1_sem1_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32 : BitVec 32 := 0#32
  let c400_i32 : BitVec 32 := 400#32
  let v4 : BitVec 32 := Scalar.addi c0_i32 c400_i32
  let c1_i32 : BitVec 32 := 1#32
  ⟨c0_i32, v4, c1_i32⟩
def k0_off2 (k0_t1 : Fin k0_t1_loop.trips) : Fin 1 → Nat :=
  let c0_i32_26 : BitVec 32 := 0#32
  let c0_i32 : BitVec 32 := 0#32
  let c1_i32 : BitVec 32 := 1#32
  let arg26 : BitVec 32 := Scf.iv c0_i32 c1_i32 k0_t1
  let c1_i32_25 : BitVec 32 := 1#32
  let v31 : BitVec 32 := Scalar.muli arg26 c1_i32_25
  let v32 : BitVec 32 := Scalar.addi c0_i32_26 v31
  let c16_i32 : BitVec 32 := 16#32
  let v33 : BitVec 32 := Scalar.muli v32 c16_i32
  let v34 : Index := Scalar.indexCast v33
  ![v34.toNat]
@[reducible] def k0_t2_loop : Scf.Loop 32 :=
  let c0_i32_12 : BitVec 32 := 0#32
  let c10_i32 : BitVec 32 := 10#32
  let v15 : BitVec 32 := Scalar.addi c0_i32_12 c10_i32
  let c1_i32_13 : BitVec 32 := 1#32
  ⟨c0_i32_12, v15, c1_i32_13⟩
def k0_off3 (k0_t2 : Fin k0_t2_loop.trips) (c0_i32_26 : BitVec 32) : Fin 1 → Nat :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let v33 : BitVec 32 := Scalar.addi v32 c0_i32_26
  let c128_i32_27 : BitVec 32 := 128#32
  let v34 : BitVec 32 := Scalar.muli v33 c128_i32_27
  ![v34.toNat]
def k0_off4 (i : grid0.Coords) (k0_t2 : Fin k0_t2_loop.trips) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let v33 : BitVec 32 := Scalar.addi v32 c0_i32_26
  let c128_i32_30 : BitVec 32 := 128#32
  let v37 : BitVec 32 := Scalar.muli v33 c128_i32_30
  let v38 : BitVec 32 := Scalar.addi v2 v37
  let c0_i32_31 : BitVec 32 := 0#32
  ![v38.toNat, 0]
def k0_cond1 (k0_t2 : Fin k0_t2_loop.trips) : BitVec 1 :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c0_i32_26 : BitVec 32 := 0#32
  let v33 : BitVec 32 := Scalar.addi v32 c0_i32_26
  let c5_i32_33 : BitVec 32 := 5#32
  let v41 : BitVec 32 := Scalar.addi v33 c5_i32_33
  let c50_i32 : BitVec 32 := 50#32
  let v42 : BitVec 1 := Scalar.cmpi .slt v41 c50_i32
  let v43 : BitVec 32 := Scalar.extui v42
  let c0_i32_34 : BitVec 32 := 0#32
  let v44 : BitVec 1 := Scalar.cmpi .ne v43 c0_i32_34
  v44

def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c0_i32_26 : BitVec 32 := 0#32
  let v33 : BitVec 32 := Scalar.addi v32 c0_i32_26
  let c128_i32_73 : BitVec 32 := 128#32
  let v93 : BitVec 32 := Scalar.muli v33 c128_i32_73
  let v94 : BitVec 32 := Scalar.addi v2 v93
  let c0_i32_74 : BitVec 32 := 0#32
  ![v94.toNat, 0]
def k0_off6 (k0_t2 : Fin k0_t2_loop.trips) : Fin 1 → Nat :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c0_i32_26 : BitVec 32 := 0#32
  let v33 : BitVec 32 := Scalar.addi v32 c0_i32_26
  let c5_i32_76 : BitVec 32 := 5#32
  let v97 : BitVec 32 := Scalar.addi v33 c5_i32_76
  let c128_i32_77 : BitVec 32 := 128#32
  let v98 : BitVec 32 := Scalar.muli v97 c128_i32_77
  ![v98.toNat]
def k0_cond2 (k0_t2 : Fin k0_t2_loop.trips) : BitVec 1 :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c1_i32_35 : BitVec 32 := 1#32
  let v45 : BitVec 32 := Scalar.addi v32 c1_i32_35
  let c5_i32_42 : BitVec 32 := 5#32
  let v53 : BitVec 32 := Scalar.addi v45 c5_i32_42
  let c50_i32_43 : BitVec 32 := 50#32
  let v54 : BitVec 1 := Scalar.cmpi .slt v53 c50_i32_43
  let v55 : BitVec 32 := Scalar.extui v54
  let c0_i32_44 : BitVec 32 := 0#32
  let v56 : BitVec 1 := Scalar.cmpi .ne v55 c0_i32_44
  v56

def k0_off7 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c1_i32_35 : BitVec 32 := 1#32
  let v45 : BitVec 32 := Scalar.addi v32 c1_i32_35
  let c128_i32_73 : BitVec 32 := 128#32
  let v93 : BitVec 32 := Scalar.muli v45 c128_i32_73
  let v94 : BitVec 32 := Scalar.addi v2 v93
  let c0_i32_74 : BitVec 32 := 0#32
  ![v94.toNat, 0]
def k0_off8 (k0_t2 : Fin k0_t2_loop.trips) : Fin 1 → Nat :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c1_i32_35 : BitVec 32 := 1#32
  let v45 : BitVec 32 := Scalar.addi v32 c1_i32_35
  let c5_i32_76 : BitVec 32 := 5#32
  let v97 : BitVec 32 := Scalar.addi v45 c5_i32_76
  let c128_i32_77 : BitVec 32 := 128#32
  let v98 : BitVec 32 := Scalar.muli v97 c128_i32_77
  ![v98.toNat]
def k0_cond3 (k0_t2 : Fin k0_t2_loop.trips) : BitVec 1 :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c2_i32_45 : BitVec 32 := 2#32
  let v57 : BitVec 32 := Scalar.addi v32 c2_i32_45
  let c5_i32_52 : BitVec 32 := 5#32
  let v65 : BitVec 32 := Scalar.addi v57 c5_i32_52
  let c50_i32_53 : BitVec 32 := 50#32
  let v66 : BitVec 1 := Scalar.cmpi .slt v65 c50_i32_53
  let v67 : BitVec 32 := Scalar.extui v66
  let c0_i32_54 : BitVec 32 := 0#32
  let v68 : BitVec 1 := Scalar.cmpi .ne v67 c0_i32_54
  v68

def k0_off9 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c2_i32_45 : BitVec 32 := 2#32
  let v57 : BitVec 32 := Scalar.addi v32 c2_i32_45
  let c128_i32_73 : BitVec 32 := 128#32
  let v93 : BitVec 32 := Scalar.muli v57 c128_i32_73
  let v94 : BitVec 32 := Scalar.addi v2 v93
  let c0_i32_74 : BitVec 32 := 0#32
  ![v94.toNat, 0]
def k0_off10 (k0_t2 : Fin k0_t2_loop.trips) : Fin 1 → Nat :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c2_i32_45 : BitVec 32 := 2#32
  let v57 : BitVec 32 := Scalar.addi v32 c2_i32_45
  let c5_i32_76 : BitVec 32 := 5#32
  let v97 : BitVec 32 := Scalar.addi v57 c5_i32_76
  let c128_i32_77 : BitVec 32 := 128#32
  let v98 : BitVec 32 := Scalar.muli v97 c128_i32_77
  ![v98.toNat]
def k0_cond4 (k0_t2 : Fin k0_t2_loop.trips) : BitVec 1 :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c3_i32 : BitVec 32 := 3#32
  let v69 : BitVec 32 := Scalar.addi v32 c3_i32
  let c5_i32_61 : BitVec 32 := 5#32
  let v77 : BitVec 32 := Scalar.addi v69 c5_i32_61
  let c50_i32_62 : BitVec 32 := 50#32
  let v78 : BitVec 1 := Scalar.cmpi .slt v77 c50_i32_62
  let v79 : BitVec 32 := Scalar.extui v78
  let c0_i32_63 : BitVec 32 := 0#32
  let v80 : BitVec 1 := Scalar.cmpi .ne v79 c0_i32_63
  v80

def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c3_i32 : BitVec 32 := 3#32
  let v69 : BitVec 32 := Scalar.addi v32 c3_i32
  let c128_i32_73 : BitVec 32 := 128#32
  let v93 : BitVec 32 := Scalar.muli v69 c128_i32_73
  let v94 : BitVec 32 := Scalar.addi v2 v93
  let c0_i32_74 : BitVec 32 := 0#32
  ![v94.toNat, 0]
def k0_off12 (k0_t2 : Fin k0_t2_loop.trips) : Fin 1 → Nat :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c3_i32 : BitVec 32 := 3#32
  let v69 : BitVec 32 := Scalar.addi v32 c3_i32
  let c5_i32_76 : BitVec 32 := 5#32
  let v97 : BitVec 32 := Scalar.addi v69 c5_i32_76
  let c128_i32_77 : BitVec 32 := 128#32
  let v98 : BitVec 32 := Scalar.muli v97 c128_i32_77
  ![v98.toNat]
def k0_cond5 (k0_t2 : Fin k0_t2_loop.trips) : BitVec 1 :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c4_i32 : BitVec 32 := 4#32
  let v81 : BitVec 32 := Scalar.addi v32 c4_i32
  let c5_i32_70 : BitVec 32 := 5#32
  let v89 : BitVec 32 := Scalar.addi v81 c5_i32_70
  let c50_i32_71 : BitVec 32 := 50#32
  let v90 : BitVec 1 := Scalar.cmpi .slt v89 c50_i32_71
  let v91 : BitVec 32 := Scalar.extui v90
  let c0_i32_72 : BitVec 32 := 0#32
  let v92 : BitVec 1 := Scalar.cmpi .ne v91 c0_i32_72
  v92

def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c4_i32 : BitVec 32 := 4#32
  let v81 : BitVec 32 := Scalar.addi v32 c4_i32
  let c128_i32_73 : BitVec 32 := 128#32
  let v93 : BitVec 32 := Scalar.muli v81 c128_i32_73
  let v94 : BitVec 32 := Scalar.addi v2 v93
  let c0_i32_74 : BitVec 32 := 0#32
  ![v94.toNat, 0]
def k0_off14 (k0_t2 : Fin k0_t2_loop.trips) : Fin 1 → Nat :=
  let c0_i32_25 : BitVec 32 := 0#32
  let c0_i32_12 : BitVec 32 := 0#32
  let c1_i32_13 : BitVec 32 := 1#32
  let arg26 : BitVec 32 := Scf.iv c0_i32_12 c1_i32_13 k0_t2
  let c5_i32 : BitVec 32 := 5#32
  let v31 : BitVec 32 := Scalar.muli arg26 c5_i32
  let v32 : BitVec 32 := Scalar.addi c0_i32_25 v31
  let c4_i32 : BitVec 32 := 4#32
  let v81 : BitVec 32 := Scalar.addi v32 c4_i32
  let c5_i32_76 : BitVec 32 := 5#32
  let v97 : BitVec 32 := Scalar.addi v81 c5_i32_76
  let c128_i32_77 : BitVec 32 := 128#32
  let v98 : BitVec 32 := Scalar.muli v97 c128_i32_77
  ![v98.toNat]
def k0_off15 (i : grid0.Coords) (c5760_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v16 : BitVec 32 := Scalar.addi v2 c5760_i32
  let c0_i32_15 : BitVec 32 := 0#32
  ![v16.toNat, 0]
abbrev grid1 : Pipeline.Grid := .none

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S128x128 : S_.BroadcastsInDim S128x128 (![] : Fin 0 → Fin S128x128.rank)
  concatenates_S100000x128_S128x128_S40960x128_S141088x128_d0 : Shape.Concatenates [S100000x128, S128x128, S40960x128] S141088x128 0
  bcast_S_S40960 : S_.BroadcastsInDim S40960 (![] : Fin 0 → Fin S40960.rank)
  bcast_S_S204800 : S_.BroadcastsInDim S204800 (![] : Fin 0 → Fin S204800.rank)
  bcast_S40960_S40960x1_0 : S40960.BroadcastsInDim S40960x1 (![0] : Fin 1 → Fin S40960x1.rank)
  shapeCasts_S1024x200_S204800 : S1024x200.ShapeCasts S204800
  iota_S16_d0_w32_scVector : S16.Iotas .scVector 32 [0]
  h_S16 : 0 < S16.numel
  shapeCasts_S16_S16 : S16.ShapeCasts S16
  inb_S6400_S128_0 : ∀ a, (![0] : Fin 1 → Nat) a + S128.size a ≤ S6400.size a
  inb_S141088x128_S141088x128_0_0 : ∀ a, (![0, 0] : Fin 2 → Nat) a + S141088x128.size a ≤ S141088x128.size a
  gathers_S141088x128_S128x128 : S141088x128.Gathers 0 S128x128
  inb_S6400_S128_128 : ∀ a, (![128] : Fin 1 → Nat) a + S128.size a ≤ S6400.size a
  inb_S6400_S128_256 : ∀ a, (![256] : Fin 1 → Nat) a + S128.size a ≤ S6400.size a
  inb_S6400_S128_384 : ∀ a, (![384] : Fin 1 → Nat) a + S128.size a ≤ S6400.size a
  inb_S6400_S128_512 : ∀ a, (![512] : Fin 1 → Nat) a + S128.size a ≤ S6400.size a
  shapeCasts_S1024_S1024x1 : S1024.ShapeCasts S1024x1
  iota_S1024x200_d1_w32 : S1024x200.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x200 : S1024x1.Broadcasts S1024x200
  natLt_1_32 : 1 < 32
  inb_S1024x200_S1024x200_0_0 : ∀ a, (![0, 0] : Fin 2 → Nat) a + S1024x200.size a ≤ S1024x200.size a
  h_S1024x200 : 0 < S1024x200.numel
  shapeCasts_S204800x128_S1024x200x128 : S204800x128.ShapeCasts S1024x200x128
  scatter_S204800_S40960x1_S40960_n_0_0_1_wf : ScatterDims.WF S204800 S40960x1 S40960 [] [0] [0] 1
  hcc0_scratch9 : 0 + S_.numel ≤ 15
  hcc0_scratch10 : 1 + S_.numel ≤ 15
  hcc0_scratch11 : 2 + S_.numel ≤ 15
  hcc0_scratch12 : 3 + S_.numel ≤ 15
  hcc0_scratch13 : 4 + S_.numel ≤ 15
  hcc0_scratch14 : 5 + S_.numel ≤ 15
  hcc0_scratch15 : 6 + S_.numel ≤ 15
  hcc0_scratch16 : 7 + S_.numel ≤ 15
  hcc0_scratch17 : 8 + S_.numel ≤ 15
  hcc0_scratch18 : 9 + S_.numel ≤ 15
  hcc0_scoped0 : 10 + S_.numel ≤ 15
  hcc0_scoped1 : 11 + S_.numel ≤ 15
  hcc0_scoped2 : 12 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6400.size a ≤ S204800.size a
  k0_t1_ok : k0_t1_loop.OK
  k0_off2_inb : ∀ k0_t1 : Fin k0_t1_loop.trips, ∀ a, (k0_off2 k0_t1) a + S16.size a ≤ S6400.size a
  k0_t2_ok : k0_t2_loop.OK
  k0_off3_inb : ∀ k0_t2 : Fin k0_t2_loop.trips, ∀ (r : Fin 5), ∀ a, (k0_off3 k0_t2 (BitVec.ofNat 32 r.val)) a + S128.size a ≤ S6400.size a
  k0_off4_inb : ∀ (i : grid0.Coords) (k0_t2 : Fin k0_t2_loop.trips), ∀ (r : Fin 5), ∀ a, (k0_off4 i k0_t2 (BitVec.ofNat 32 r.val)) a + S128x128.size a ≤ S204800x128.size a
  k0_off5_inb : ∀ (i : grid0.Coords) (k0_t2 : Fin k0_t2_loop.trips), ∀ (k0_h1 : k0_cond1 k0_t2 = 1#1), ∀ a, (k0_off5 i k0_t2) a + S128x128.size a ≤ S204800x128.size a
  k0_off6_inb : ∀ k0_t2 : Fin k0_t2_loop.trips, ∀ (k0_h1 : k0_cond1 k0_t2 = 1#1), ∀ a, (k0_off6 k0_t2) a + S128.size a ≤ S6400.size a
  k0_off7_inb : ∀ (i : grid0.Coords) (k0_t2 : Fin k0_t2_loop.trips), ∀ (k0_h2 : k0_cond2 k0_t2 = 1#1), ∀ a, (k0_off7 i k0_t2) a + S128x128.size a ≤ S204800x128.size a
  k0_off8_inb : ∀ k0_t2 : Fin k0_t2_loop.trips, ∀ (k0_h2 : k0_cond2 k0_t2 = 1#1), ∀ a, (k0_off8 k0_t2) a + S128.size a ≤ S6400.size a
  k0_off9_inb : ∀ (i : grid0.Coords) (k0_t2 : Fin k0_t2_loop.trips), ∀ (k0_h3 : k0_cond3 k0_t2 = 1#1), ∀ a, (k0_off9 i k0_t2) a + S128x128.size a ≤ S204800x128.size a
  k0_off10_inb : ∀ k0_t2 : Fin k0_t2_loop.trips, ∀ (k0_h3 : k0_cond3 k0_t2 = 1#1), ∀ a, (k0_off10 k0_t2) a + S128.size a ≤ S6400.size a
  k0_off11_inb : ∀ (i : grid0.Coords) (k0_t2 : Fin k0_t2_loop.trips), ∀ (k0_h4 : k0_cond4 k0_t2 = 1#1), ∀ a, (k0_off11 i k0_t2) a + S128x128.size a ≤ S204800x128.size a
  k0_off12_inb : ∀ k0_t2 : Fin k0_t2_loop.trips, ∀ (k0_h4 : k0_cond4 k0_t2 = 1#1), ∀ a, (k0_off12 k0_t2) a + S128.size a ≤ S6400.size a
  k0_off13_inb : ∀ (i : grid0.Coords) (k0_t2 : Fin k0_t2_loop.trips), ∀ (k0_h5 : k0_cond5 k0_t2 = 1#1), ∀ a, (k0_off13 i k0_t2) a + S128x128.size a ≤ S204800x128.size a
  k0_off14_inb : ∀ k0_t2 : Fin k0_t2_loop.trips, ∀ (k0_h5 : k0_cond5 k0_t2 = 1#1), ∀ a, (k0_off14 k0_t2) a + S128.size a ≤ S6400.size a
  k0_off15_inb : ∀ i : grid0.Coords, ∀ (r : Fin 5), ∀ a, (k0_off15 i (BitVec.ofNat 32 (5760 + 128 * r.val))) a + S128x128.size a ≤ S204800x128.size a
  hstage1_0 : ∀ j, (stage1_0 j).IsWhole
  hstage1_1 : ∀ j, (stage1_1 j).IsWhole

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scratch17 : DmaSems sig S_ := SemArray.consecutive 8 S_ hcc0_scratch17
abbrev cc0_scratch18 : DmaSems sig S_ := SemArray.consecutive 9 S_ hcc0_scratch18
abbrev cc0_scoped0 : DmaSems sig S_ := SemArray.consecutive 10 S_ hcc0_scoped0
abbrev cc0_scoped1 : DmaSems sig S_ := SemArray.consecutive 11 S_ hcc0_scoped1
abbrev cc0_scoped2 : DmaSems sig S_ := SemArray.consecutive 12 S_ hcc0_scoped2
def scatter_S204800_S40960x1_S40960_n_0_0_1 : ScatterDims S204800 S40960x1 S40960 where
  updateWindowDims := []
  insertedWindowDims := [0]
  scatterDimsToOperandDims := [0]
  indexVectorDim := 1
  wf := scatter_S204800_S40960x1_S40960_n_0_0_1_wf

abbrev win1_0 : Pipeline.Window sig grid1 :=
  Pipeline.Window.whole (Memref.whole main_v19) false false (stage1_0 0) (sem1_0 0) (Memref.isWhole_whole _) (hstage1_0 0)

abbrev win1_1 : Pipeline.Window sig grid1 :=
  Pipeline.Window.whole (Memref.whole main_v20) true false (stage1_1 0) (sem1_1 0) (Memref.isWhole_whole _) (hstage1_1 0)

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S40960x128 : Shape := ⟨2, ![40960, 128]⟩
abbrev S1024x200 : Shape := ⟨2, ![1024, 200]⟩
abbrev S40960 : Shape := ⟨1, ![40960]⟩
abbrev S1024 : Shape := ⟨1, ![1024]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S40960x1 : Shape := ⟨2, ![40960, 1]⟩
abbrev S40960x2 : Shape := ⟨2, ![40960, 2]⟩
abbrev S200 : Shape := ⟨1, ![200]⟩
abbrev S1x200 : Shape := ⟨2, ![1, 200]⟩
abbrev S1024x1 : Shape := ⟨2, ![1024, 1]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40960x128, .f32⟩
  | .hbm, ⟨2, _⟩ => ⟨S1024x200, .i32⟩
  | .hbm, ⟨3, _⟩ => ⟨S1024x200, .i32⟩
  | .hbm, ⟨4, _⟩ => ⟨S40960, .i32⟩
  | .hbm, ⟨5, _⟩ => ⟨S40960, .i32⟩
  | .hbm, ⟨6, _⟩ => ⟨S1024, .i32⟩
  | .hbm, ⟨7, _⟩ => ⟨S1024x200, .f32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S1024x200x1, .f32⟩
  | .hbm, ⟨32, _⟩ => ⟨S1024x200x128, .f32⟩
  | .hbm, ⟨33, _⟩ => ⟨S1024x200x128, .f32⟩
  | .hbm, ⟨34, _⟩ => ⟨S_, .i32⟩
  | .hbm, ⟨35, _⟩ => ⟨S40960, .i32⟩
  | .hbm, ⟨36, _⟩ => ⟨S40960, .i1⟩
  | .hbm, ⟨37, _⟩ => ⟨S_, .i32⟩
  | .hbm, ⟨38, _⟩ => ⟨S40960, .i32⟩
  | .hbm, ⟨39, _⟩ => ⟨S40960, .i32⟩
  | .hbm, ⟨40, _⟩ => ⟨S40960, .i32⟩
  | .hbm, ⟨41, _⟩ => ⟨S_, .i32⟩
  | .hbm, ⟨42, _⟩ => ⟨S40960, .i32⟩
  | .hbm, ⟨43, _⟩ => ⟨S40960, .i1⟩
  | .hbm, ⟨44, _⟩ => ⟨S_, .i32⟩
  | .hbm, ⟨45, _⟩ => ⟨S40960, .i32⟩
  | .hbm, ⟨46, _⟩ => ⟨S40960, .i32⟩
  | .hbm, ⟨47, _⟩ => ⟨S40960, .i32⟩
  | .hbm, ⟨48, _⟩ => ⟨S40960x1, .i32⟩
  | .hbm, ⟨49, _⟩ => ⟨S40960x1, .i32⟩
  | .hbm, ⟨50, _⟩ => ⟨S40960x2, .i32⟩
  | .hbm, ⟨51, _⟩ => ⟨S1024x200x128, .f32⟩
  | .hbm, ⟨52, _⟩ => ⟨S200, .i32⟩
  | .hbm, ⟨53, _⟩ => ⟨S1x200, .i32⟩
  | .hbm, ⟨54, _⟩ => ⟨S1024x1, .i32⟩
  | .hbm, ⟨55, _⟩ => ⟨S1024x200, .i32⟩
  | .hbm, ⟨56, _⟩ => ⟨S1024x200, .i32⟩
  | .hbm, ⟨57, _⟩ => ⟨S1024x200, .i1⟩
  | .hbm, ⟨58, _⟩ => ⟨S1024x200, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_c_1 : Ref sig .tc := ⟨.hbm, 41, rfl⟩
abbrev main_v10 : Ref sig .tc := ⟨.hbm, 42, rfl⟩
abbrev main_v11 : Ref sig .tc := ⟨.hbm, 43, rfl⟩
abbrev main_c_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S1024x200x1_S1024x200x128_0_1_2 : S1024x200x1.BroadcastsInDim S1024x200x128 (![0, 1, 2] : Fin 3 → Fin S1024x200x128.rank)
  bcast_S_S40960 : S_.BroadcastsInDim S40960 (![] : Fin 0 → Fin S40960.rank)
  bcast_S40960_S40960x1_0 : S40960.BroadcastsInDim S40960x1 (![0] : Fin 1 → Fin S40960x1.rank)
  concatenates_S40960x1_S40960x1_S40960x2_d1 : Shape.Concatenates [S40960x1, S40960x1] S40960x2 1
  bcast_S200_S1x200_1 : S200.BroadcastsInDim S1x200 (![1] : Fin 1 → Fin S1x200.rank)
  bcast_S1024_S1024x1_0 : S1024.BroadcastsInDim S1024x1 (![0] : Fin 1 → Fin S1024x1.rank)
  bcast_S1x200_S1024x200_0_1 : S1x200.BroadcastsInDim S1024x200 (![0, 1] : Fin 2 → Fin S1024x200.rank)
  bcast_S1024x1_S1024x200_0_1 : S1024x1.BroadcastsInDim S1024x200 (![0, 1] : Fin 2 → Fin S1024x200.rank)
  gather_S100000x128_S1024x200x1_S1024x200x128_2_0_n_n_0_2_1128_wf : GatherDims.WF S100000x128 S1024x200x1 S1024x200x128 [2] [0] [] [0] [] 2 ![1, 128]
  scatter_S1024x200x128_S40960x2_S40960x128_1_01_01_1_wf : ScatterDims.WF S1024x200x128 S40960x2 S40960x128 [1] [0, 1] [0, 1] 1

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def scatter_S1024x200x128_S40960x2_S40960x128_1_01_01_1 : ScatterDims S1024x200x128 S40960x2 S40960x128 where
  updateWindowDims := [1]
  insertedWindowDims := [0, 1]
  scatterDimsToOperandDims := [0, 1]
  indexVectorDim := 1
  wf := scatter_S1024x200x128_S40960x2_S40960x128_1_01_01_1_wf

class Facts : Prop extends Facts₀ where

variable [Facts]
-- ==== Proof.RefOps.lean ====
/- The reference program's straight line: @main's operations in order, the outlined gather function and the
   select it calls written out at the call site, over the call's own buffers; and the program's run read back as
   the fold of those operations over the launch memory. -/
import proofs.«213838_g73864847557071_cont_9to1_m_429_11_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's fifty-two operations in order. The second to the twenty-fourth are the row lookup
    `take(table, ids)`: the ids below zero moved up by the table's height (the comparison, the sum, the select),
    the gather of the rows, and the select that replaces a row whose id is outside `[0, 99999]` by NaN. -/
abbrev ops : List (HloOp τ sig (Elt F)) :=
  [ unary main_arg3 main_v0 (sitofp .f32 : (⟨S1024x200, .i32⟩ : BufTy).Contents (Elt F) → (⟨S1024x200, .f32⟩ : BufTy).Contents (Elt F)),
    TRef.nullary main_call0.c (constantI S_ 32 0#32),
    TRef.unary main_call0.c main_call0.v0 (broadcastInDim S1024x200 ![] bcast_S_S1024x200),
    TRef.binary (.of main_arg2) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg2) main_call0.v2 main_call0.v3 addi,
    TRef.ternary main_call0.v1 main_call0.v3 (.of main_arg2) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg0) main_call0.v5 main_call0.v13 (fun x i => Host.gather gather_S100000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    unary main_v0 main_v2 (broadcastInDim S1024x200x1 ![0, 1] bcast_S1024x200_S1024x200x1_0_1 : (⟨S1024x200, .f32⟩ : BufTy).Contents (Elt F) → (⟨S1024x200x1, .f32⟩ : BufTy).Contents (Elt F)),
    unary main_v2 main_v3 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v1 main_v3 main_v4 (mulf : (⟨S1024x200x128, .f32⟩ : BufTy).Contents (Elt F) → (⟨S1024x200x128, .f32⟩ : BufTy).Contents (Elt F) → (⟨S1024x200x128, .f32⟩ : BufTy).Contents (Elt F)),
    nullary main_c (constantI S_ 32 0#32),
    unary main_c main_v5 (broadcastInDim S40960 ![] bcast_S_S40960 : (⟨S_, .i32⟩ : BufTy).Contents (Elt F) → (⟨S40960, .i32⟩ : BufTy).Contents (Elt F)),
    binary main_arg4 main_v5 main_v6 (cmpi .slt : (⟨S40960, .i32⟩ : BufTy).Contents (Elt F) → (⟨S40960, .i32⟩ : BufTy).Contents (Elt F) → (⟨S40960, .i1⟩ : BufTy).Contents (Elt F)),
    nullary main_c_0 (constantI S_ 32 1024#32),
    unary main_c_0 main_v7 (broadcastInDim S40960 ![] bcast_S_S40960 : (⟨S_, .i32⟩ : BufTy).Contents (Elt F) → (⟨S40960, .i32⟩ : BufTy).Contents (Elt F)),
    binary main_arg4 main_v7 main_v8 (addi : (⟨S40960, .i32⟩ : BufTy).Contents (Elt F) → (⟨S40960, .i32⟩ : BufTy).Contents (Elt F) → (⟨S40960, .i32⟩ : BufTy).Contents (Elt F)),
    ternary main_v6 main_v8 main_arg4 main_v9 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    nullary main_c_1 (constantI S_ 32 0#32),
    unary main_c_1 main_v10 (broadcastInDim S40960 ![] bcast_S_S40960 : (⟨S_, .i32⟩ : BufTy).Contents (Elt F) → (⟨S40960, .i32⟩ : BufTy).Contents (Elt F)),
    binary main_arg5 main_v10 main_v11 (cmpi .slt : (⟨S40960, .i32⟩ : BufTy).Contents (Elt F) → (⟨S40960, .i32⟩ : BufTy).Contents (Elt F) → (⟨S40960, .i1⟩ : BufTy).Contents (Elt F)),
    nullary main_c_2 (constantI S_ 32 200#32),
    unary main_c_2 main_v12 (broadcastInDim S40960 ![] bcast_S_S40960 : (⟨S_, .i32⟩ : BufTy).Contents (Elt F) → (⟨S40960, .i32⟩ : BufTy).Contents (Elt F)),
    binary main_arg5 main_v12 main_v13 (addi : (⟨S40960, .i32⟩ : BufTy).Contents (Elt F) → (⟨S40960, .i32⟩ : BufTy).Contents (Elt F) → (⟨S40960, .i32⟩ : BufTy).Contents (Elt F)),
    ternary main_v11 main_v13 main_arg5 main_v14 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v9 main_v15 (broadcastInDim S40960x1 ![0] bcast_S40960_S40960x1_0 : (⟨S40960, .i32⟩ : BufTy).Contents (Elt F) → (⟨S40960x1, .i32⟩ : BufTy).Contents (Elt F)),
    unary main_v14 main_v16 (broadcastInDim S40960x1 ![0] bcast_S40960_S40960x1_0 : (⟨S40960, .i32⟩ : BufTy).Contents (Elt F) → (⟨S40960x1, .i32⟩ : BufTy).Contents (Elt F)),
    binary main_v15 main_v16 main_v17 ((fun a b => concatenate S40960x2 1 [⟨S40960x1, a⟩, ⟨S40960x1, b⟩] concatenates_S40960x1_S40960x1_S40960x2_d1) : (⟨S40960x1, .i32⟩ : BufTy).Contents (Elt F) → (⟨S40960x1, .i32⟩ : BufTy).Contents (Elt F) → (⟨S40960x2, .i32⟩ : BufTy).Contents (Elt F)),
    ternary main_v4 main_v17 main_arg1 main_v18 ((fun x i u => Host.scatter scatter_S1024x200x128_S40960x2_S40960x128_1_01_01_1 (fun _ b => b) x i u) : (⟨S1024x200x128, .f32⟩ : BufTy).Contents (Elt F) → (⟨S40960x2, .i32⟩ : BufTy).Contents (Elt F) → (⟨S40960x128, .f32⟩ : BufTy).Contents (Elt F) → (⟨S1024x200x128, .f32⟩ : BufTy).Contents (Elt F)),
    nullary main_v19 (iotaInDim S200 32 0),
    unary main_v19 main_v20 (broadcastInDim S1x200 ![1] bcast_S200_S1x200_1 : (⟨S200, .i32⟩ : BufTy).Contents (Elt F) → (⟨S1x200, .i32⟩ : BufTy).Contents (Elt F)),
    unary main_arg6 main_v21 (broadcastInDim S1024x1 ![0] bcast_S1024_S1024x1_0 : (⟨S1024, .i32⟩ : BufTy).Contents (Elt F) → (⟨S1024x1, .i32⟩ : BufTy).Contents (Elt F)),
    unary main_v20 main_v22 (broadcastInDim S1024x200 ![0, 1] bcast_S1x200_S1024x200_0_1 : (⟨S1x200, .i32⟩ : BufTy).Contents (Elt F) → (⟨S1024x200, .i32⟩ : BufTy).Contents (Elt F)),
    unary main_v21 main_v23 (broadcastInDim S1024x200 ![0, 1] bcast_S1024x1_S1024x200_0_1 : (⟨S1024x1, .i32⟩ : BufTy).Contents (Elt F) → (⟨S1024x200, .i32⟩ : BufTy).Contents (Elt F)),
    binary main_v22 main_v23 main_v24 (cmpi .slt : (⟨S1024x200, .i32⟩ : BufTy).Contents (Elt F) → (⟨S1024x200, .i32⟩ : BufTy).Contents (Elt F) → (⟨S1024x200, .i1⟩ : BufTy).Contents (Elt F)),
    unary main_v24 main_v25 (uitofp .f32 : (⟨S1024x200, .i1⟩ : BufTy).Contents (Elt F) → (⟨S1024x200, .f32⟩ : BufTy).Contents (Elt F)) ]

-- fifty-two binds re-associated: the rewrite under the chain recurses once per statement
set_option maxRecDepth 2048 in
/-- @main is that straight line: the two functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., ternary_bufs_sub .., nullary_bufs_sub .., unary_bufs_sub .., unary_bufs_sub ..,
    unary_bufs_sub .., unary_bufs_sub .., binary_bufs_sub .., unary_bufs_sub ..⟩

/-- From any memory with zero counters every weakly fair execution of @main terminates, and every buffer ends at the
    fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.RefRun.lean ====
/- The reference program's two results as terms of its seven arguments, and its run stated at those terms. -/
import proofs.«213838_g73864847557071_cont_9to1_m_429_11_alg».proof.Proof.RefOps
import Idealize.ShloMosaic.PureOps.Ideal

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

/-- An index vector with its negative entries moved up by `n`: `where(a < 0, a + n, a)`. -/
def wrapIdx (a : S40960.Idx → BitVec 32) (n : BitVec 32) : S40960.Idx → BitVec 32 :=
  select (cmpi .slt a (broadcastInDim S40960 ![] bcast_S_S40960 (constantI S_ 32 0#32)))
    (addi a (broadcastInDim S40960 ![] bcast_S_S40960 (constantI S_ 32 n))) a

/-- The scatter's index table: column 0 the wrapped rows, column 1 the wrapped columns. -/
def idxTerm (a4 a5 : S40960.Idx → BitVec 32) : S40960x2.Idx → BitVec 32 :=
  concatenate S40960x2 1
    [⟨S40960x1, broadcastInDim S40960x1 ![0] bcast_S40960_S40960x1_0 (wrapIdx a4 1024#32)⟩,
     ⟨S40960x1, broadcastInDim S40960x1 ![0] bcast_S40960_S40960x1_0 (wrapIdx a5 200#32)⟩]
    concatenates_S40960x1_S40960x1_S40960x2_d1

/-- The ids the gather reads: those below zero moved up by the table's height, with a unit axis appended. -/
def takeIdx (a2 : S1024x200.Idx → BitVec 32) : S1024x200x1.Idx → BitVec 32 :=
  broadcastInDim S1024x200x1 ![0, 1] bcast_S1024x200_S1024x200x1_0_1
    (select (cmpi .slt a2 (broadcastInDim S1024x200 ![] bcast_S_S1024x200 (constantI S_ 32 0#32)))
      (addi a2 (broadcastInDim S1024x200 ![] bcast_S_S1024x200 (constantI S_ 32 100000#32))) a2)

/-- The row lookup `take(table, ids)`: the gathered rows, a row whose id is outside `[0, 99999]` replaced by NaN. -/
def takeTerm (a0 : S100000x128.Idx → EReal) (a2 : S1024x200.Idx → BitVec 32) : S1024x200x128.Idx → EReal :=
  select
    (broadcastInDim S1024x200x128 ![0, 1] bcast_S1024x200_S1024x200x128_0_1
      (Host.reduce IntOp.andi
        (andi (cmpi .sge (takeIdx a2) (broadcastInDim S1024x200x1 ![] bcast_S_S1024x200x1 (constantI S_ 32 0#32)))
          (cmpi .sle (takeIdx a2)
            (broadcastInDim S1024x200x1 ![0, 1, 2] bcast_S1x1x1_S1024x200x1_0_1_2
              (broadcastInDim S1x1x1 ![2] bcast_S1_S1x1x1_2 (constantI S1 32 99999#32)))))
        (constantI S_ 1 1#1) reducesTo_S1024x200x1_S1024x200_d2 h_S_))
    (Host.gather gather_S100000x128_S1024x200x1_S1024x200x128_2_0_n_n_0_2_1128 a0 (takeIdx a2))
    (broadcastInDim S1024x200x128 ![] bcast_S_S1024x200x128 (constant (F := Ideal) S_ .f32 0x7FC00000#32))

/-- The first result: the looked-up rows times the flag as a float, then the update rows written at the
    (row, column) pairs. -/
def embTerm (a0 : S100000x128.Idx → EReal) (a1 : S40960x128.Idx → EReal) (a2 a3 : S1024x200.Idx → BitVec 32)
    (a4 a5 : S40960.Idx → BitVec 32) : S1024x200x128.Idx → EReal :=
  Host.scatter scatter_S1024x200x128_S40960x2_S40960x128_1_01_01_1 (fun _ b => b)
    (mulf (F := Ideal) (takeTerm a0 a2)
      (broadcastInDim S1024x200x128 ![0, 1, 2] bcast_S1024x200x1_S1024x200x128_0_1_2
        (broadcastInDim S1024x200x1 ![0, 1] bcast_S1024x200_S1024x200x1_0_1 (sitofp (F := Ideal) .f32 a3))))
    (idxTerm a4 a5) a1

/-- The second result: one where the column number is below the row's length, else zero. -/
def maskTerm (a6 : S1024.Idx → BitVec 32) : S1024x200.Idx → EReal :=
  uitofp (F := Ideal) .f32
    (cmpi .slt
      (broadcastInDim S1024x200 ![0, 1] bcast_S1x200_S1024x200_0_1
        (broadcastInDim S1x200 ![1] bcast_S200_S1x200_1 (iotaInDim S200 32 0)))
      (broadcastInDim S1024x200 ![0, 1] bcast_S1024x1_S1024x200_0_1
        (broadcastInDim S1024x1 ![0] bcast_S1024_S1024x1_0 a6)))

/-- The fold of the operations at the first result's buffer is `embTerm` of the arguments' contents. -/
theorem after_v18 (V : Valuation τ sig (Elt Ideal)) :
    after (ops (F := Ideal)) V (main_v18 : DevRef τ sig)
      = embTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.toBuf, TRef.ofBuf, cast_eq]
  unfold embTerm takeTerm takeIdx idxTerm wrapIdx
  rfl

/-- The fold of the operations at the second result's buffer is `maskTerm` of the last argument's contents. -/
theorem after_v25 (V : Valuation τ sig (Elt Ideal)) :
    after (ops (F := Ideal)) V (main_v25 : DevRef τ sig) = maskTerm (V (main_arg6 : DevRef τ sig)) := by
  after_results_simp
  rfl

/-- No operation writes an argument's buffer. -/
theorem after_arg0 (V : Valuation τ sig (Elt Ideal)) :
    after (ops (F := Ideal)) V (main_arg0 : DevRef τ sig) = V (main_arg0 : DevRef τ sig) := by
  after_results_simp
theorem after_arg1 (V : Valuation τ sig (Elt Ideal)) :
    after (ops (F := Ideal)) V (main_arg1 : DevRef τ sig) = V (main_arg1 : DevRef τ sig) := by
  after_results_simp
theorem after_arg2 (V : Valuation τ sig (Elt Ideal)) :
    after (ops (F := Ideal)) V (main_arg2 : DevRef τ sig) = V (main_arg2 : DevRef τ sig) := by
  after_results_simp
theorem after_arg3 (V : Valuation τ sig (Elt Ideal)) :
    after (ops (F := Ideal)) V (main_arg3 : DevRef τ sig) = V (main_arg3 : DevRef τ sig) := by
  after_results_simp
theorem after_arg4 (V : Valuation τ sig (Elt Ideal)) :
    after (ops (F := Ideal)) V (main_arg4 : DevRef τ sig) = V (main_arg4 : DevRef τ sig) := by
  after_results_simp
theorem after_arg5 (V : Valuation τ sig (Elt Ideal)) :
    after (ops (F := Ideal)) V (main_arg5 : DevRef τ sig) = V (main_arg5 : DevRef τ sig) := by
  after_results_simp
theorem after_arg6 (V : Valuation τ sig (Elt Ideal)) :
    after (ops (F := Ideal)) V (main_arg6 : DevRef τ sig) = V (main_arg6 : DevRef τ sig) := by
  after_results_simp

/-- From any memory with zero counters every weakly fair execution of the reference terminates with its first result
    at `embTerm` and its second at `maskTerm` of the arguments' launch contents, the seven arguments unchanged. -/
theorem run (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev nD,
        r.2.mem ((c.tc : Thread nD τ).loc main_v18) = embTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
        ∧ r.2.mem ((c.tc : Thread nD τ).loc main_v25) = maskTerm (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run defs _ _).mono (fun _ h c => ⟨(h c main_v18).trans (after_v18 _), (h c main_v25).trans (after_v25 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _)⟩)
    (run_fold m g)

end Cert.ReferenceIdeal.RefRun

end
-- ==== Proof.RefRead.lean ====
/- The reference's two results read at an index, when the integer arguments are in range: the first is the
   scatter of the update rows over `table[id] * flag`, the second the comparison of the column number with the
   row's length. -/
import proofs.«213838_g73864847557071_cont_9to1_m_429_11_alg».proof.Proof.RefRun
import Idealize.ShloMosaic.Lib.ValueIdx
import Idealize.ShloMosaic.Lib.IdealHost
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx

/-! ## Words -/

/-- A 32-bit word below `2^31` read signed is itself. -/
theorem toInt_of_lt {x : BitVec 32} (h : x.toNat < 2147483648) : x.toInt = (x.toNat : Int) := by
  rw [BitVec.toInt_eq_toNat_cond]
  split <;> omega

/-- A 32-bit word below `2^31` is not negative: the signed comparison with zero is the bit `0`. -/
theorem cmpi_slt_zero_of_lt {x : BitVec 32} (h : x.toNat < 2147483648) : IntOp.cmpi .slt x 0#32 = 0#1 := by
  have e : x.slt 0#32 = false := by
    rw [BitVec.slt, toInt_of_lt h]
    simp
  show BitVec.ofBool (x.slt 0#32) = 0#1
  rw [e]; rfl

/-- `where(a < 0, a + n, a)` leaves a word below `2^31` alone. -/
theorem wrap_word {x : BitVec 32} (n : BitVec 32) (h : x.toNat < 2147483648) :
    Scalar.select (IntOp.cmpi .slt x 0#32) (IntOp.addi x n) x = x := by
  rw [cmpi_slt_zero_of_lt h, select_zero]

/-! ## The scatter's index table, column by column -/

/-- A wrapped index vector at an entry below `2^31` is the entry. -/
theorem wrapIdx_apply (a : S40960.Idx → BitVec 32) (n : BitVec 32) (i : S40960.Idx) (h : (a i).toNat < 2147483648) :
    wrapIdx a n i = a i :=
  wrap_word n h

/-- Column 0 of the index table is the wrapped row vector. -/
theorem idxTerm_col0_wrapped (a4 a5 : S40960.Idx → BitVec 32) (u : Fin 40960) :
    idxTerm a4 a5 (ix2 u (0 : Fin 2)) = wrapIdx a4 1024#32 (ix1 u) := by
  unfold idxTerm
  rw [Idealize.ShloMosaic.concatenate_pair_apply_left (t := S40960x2) (s₁ := S40960x1) (s₂ := S40960x1) (1 : Fin 2) _ _ _ (ix2 u (0 : Fin 2)) rfl (ix2 u (0 : Fin 1))
    (fun b => by match b with | ⟨0, _⟩ => rfl | ⟨1, _⟩ => rfl)]
  exact Idealize.ShloMosaic.broadcastInDim_apply _ _ _ _ (ix1 u) (fun a => by match a with | ⟨0, _⟩ => rfl)

/-- Column 1 of the index table is the wrapped column vector. -/
theorem idxTerm_col1_wrapped (a4 a5 : S40960.Idx → BitVec 32) (u : Fin 40960) :
    idxTerm a4 a5 (ix2 u (1 : Fin 2)) = wrapIdx a5 200#32 (ix1 u) := by
  unfold idxTerm
  rw [Idealize.ShloMosaic.concatenate_pair_apply_right (t := S40960x2) (s₁ := S40960x1) (s₂ := S40960x1) (1 : Fin 2) _ _ _ (ix2 u (1 : Fin 2)) rfl rfl (ix2 u (0 : Fin 1))
    (fun b hb => by match b with | ⟨0, _⟩ => rfl | ⟨1, _⟩ => exact absurd rfl hb) rfl]
  exact Idealize.ShloMosaic.broadcastInDim_apply _ _ _ _ (ix1 u) (fun a => by match a with | ⟨0, _⟩ => rfl)

/-- With every row number below 1024, column 0 of the index table is the row vector. -/
theorem idxTerm_col0 (a4 a5 : S40960.Idx → BitVec 32) (hr : ∀ i, (a4 i).toNat < 1024) (u : Fin 40960) :
    idxTerm a4 a5 (ix2 u (0 : Fin 2)) = a4 (ix1 u) := by
  rw [idxTerm_col0_wrapped]
  exact wrapIdx_apply a4 _ _ (by have := hr (ix1 u); omega)

/-- With every column number below 200, column 1 of the index table is the column vector. -/
theorem idxTerm_col1 (a4 a5 : S40960.Idx → BitVec 32) (hc : ∀ i, (a5 i).toNat < 200) (u : Fin 40960) :
    idxTerm a4 a5 (ix2 u (1 : Fin 2)) = a5 (ix1 u) := by
  rw [idxTerm_col1_wrapped]
  exact wrapIdx_apply a5 _ _ (by have := hc (ix1 u); omega)

/-! ## The gather of table rows at an index -/

/-- THE ROW GATHER READ AT `(r, c, k)`: element `k` of the table row whose number is the start index
    `idx[r, c, 0]`, read signed and clamped into `[0, 99999]`. -/
theorem gather_rows_apply {α : Type} (x : S100000x128.Idx → α) (idx : IVec S1024x200x1 32)
    (r : Fin 1024) (c : Fin 200) (k : Fin 128) :
    Host.gather gather_S100000x128_S1024x200x1_S1024x200x128_2_0_n_n_0_2_1128 x idx (ix3 r c k)
      = x (ix2 (⟨min (idx (ix3 r c (0 : Fin 1))).toInt.toNat 99999, by omega⟩ : Fin 100000) k) := by
  unfold Host.gather
  refine congrArg x (funext fun a => Fin.ext ?_)
  match a with
  | ⟨0, _⟩ =>
    show gather_S100000x128_S1024x200x1_S1024x200x128_2_0_n_n_0_2_1128.start (ix3 r c k) idx 0 + gather_S100000x128_S1024x200x1_S1024x200x128_2_0_n_n_0_2_1128.batchCoord (ix3 r c k) 0 + gather_S100000x128_S1024x200x1_S1024x200x128_2_0_n_n_0_2_1128.offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1024x200x1_S1024x200x128_2_0_n_n_0_2_1128.startIndexMap from List.mem_singleton.mpr rfl)]
    have hsi : gather_S100000x128_S1024x200x1_S1024x200x128_2_0_n_n_0_2_1128.siIdx (ix3 r c k)
        ⟨List.idxOf (0 : Fin 2) gather_S100000x128_S1024x200x1_S1024x200x128_2_0_n_n_0_2_1128.startIndexMap,
          List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100000x128_S1024x200x1_S1024x200x128_2_0_n_n_0_2_1128.start (ix3 r c k) idx 1 + gather_S100000x128_S1024x200x1_S1024x200x128_2_0_n_n_0_2_1128.batchCoord (ix3 r c k) 1 + gather_S100000x128_S1024x200x1_S1024x200x128_2_0_n_n_0_2_1128.offCoord (ix3 r c k) 1 = k.val
    rw [GatherDims.batchCoord_eq_zero _ _ _ List.not_mem_nil]
    unfold GatherDims.start GatherDims.offCoord
    rw [dif_neg (by decide), dif_pos (by decide)]
    simp only [Nat.add_zero, Nat.zero_add]
    rfl

/-! ## The lookup's range test -/

/-- A word below 100000 passes the test `0 ≤ x ∧ x ≤ 99999` of signed comparisons. -/
theorem in_range_word {x : BitVec 32} (h : x.toNat < 100000) :
    IntOp.andi (IntOp.cmpi .sge x 0#32) (IntOp.cmpi .sle x 99999#32) = 1#1 := by
  have hx : x.toInt = (x.toNat : Int) := toInt_of_lt (by omega)
  have e1 : (0#32 : BitVec 32).sle x = true := by
    rw [BitVec.sle, hx]; simp
  have e2 : x.sle 99999#32 = true := by
    rw [BitVec.sle, hx, show (99999#32 : BitVec 32).toInt = 99999 from by decide]
    simp only [decide_eq_true_eq]; omega
  show BitVec.ofBool ((0#32 : BitVec 32).sle x) &&& BitVec.ofBool (x.sle 99999#32) = 1#1
  rw [e1, e2]; rfl

/-- A left fold by `and` over words that are all `1`, from `1`, is `1`. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a, show IntOp.andi (1#1 : BitVec 1) 1#1 = 1#1 from by decide]
    exact ih

/-- An `and`-reduction of an array of ones from the initial value one is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-! ## The lookup at an index -/

/-- With every id below 100000, the ids the gather reads are the ids. -/
theorem takeIdx_apply (a2 : S1024x200.Idx → BitVec 32) (ht : ∀ i, (a2 i).toNat < 100000)
    (r : Fin 1024) (c : Fin 200) (z : Fin 1) :
    RefRun.takeIdx a2 (ix3 r c z) = a2 (ix2 r c) := by
  unfold RefRun.takeIdx
  rw [Idealize.ShloMosaic.broadcastInDim_apply _ _ _ (ix3 r c z) (ix2 r c)
    (fun a => by match a with | ⟨0, _⟩ => rfl | ⟨1, _⟩ => rfl)]
  exact wrap_word _ (by have := ht (ix2 r c); omega)

/-- With every id below 100000, the lookup at `(r, c, k)` is element `k` of table row `ids[r, c]`: no id is
    moved, none is clamped, and no row is replaced by NaN. -/
theorem takeTerm_apply (a0 : S100000x128.Idx → EReal) (a2 : S1024x200.Idx → BitVec 32)
    (ht : ∀ i, (a2 i).toNat < 100000) (r : Fin 1024) (c : Fin 200) (k : Fin 128) :
    takeTerm a0 a2 (ix3 r c k) = a0 (ix2 (⟨(a2 (ix2 r c)).toNat, ht _⟩ : Fin 100000) k) := by
  unfold takeTerm
  rw [select_apply,
    Idealize.ShloMosaic.broadcastInDim_apply _ _ _ (ix3 r c k) (ix2 r c)
      (fun a => by match a with | ⟨0, _⟩ => rfl | ⟨1, _⟩ => rfl),
    reduce_andi_ones _ _ _ _ (fun i => by
      obtain ⟨r', c', z, rfl⟩ : ∃ (r' : Fin 1024) (c' : Fin 200) (z : Fin 1), i = ix3 r' c' z :=
        ⟨i 0, i 1, i 2, eq_ix3 i⟩
      show IntOp.andi (IntOp.cmpi .sge (RefRun.takeIdx a2 (ix3 r' c' z)) 0#32)
        (IntOp.cmpi .sle (RefRun.takeIdx a2 (ix3 r' c' z)) 99999#32) = 1#1
      rw [takeIdx_apply a2 ht r' c' z]
      exact in_range_word (ht _)) rfl,
    select_one, gather_rows_apply]
  refine congrArg a0 (congrArg (fun p : Fin 100000 => ix2 p k) (Fin.ext ?_))
  have h := ht (ix2 r c)
  show min (RefRun.takeIdx a2 (ix3 r c (0 : Fin 1))).toInt.toNat 99999 = (a2 (ix2 r c)).toNat
  rw [takeIdx_apply a2 ht r c 0, toInt_of_lt (by omega), Int.toNat_natCast]
  omega

/-! ## The two results at an index -/

/-- The scatter's operand at `(r, c, k)`, with every id below 100000: `table[ids[r, c], k]` times the flag
    `flags[r, c]` read as a signed integer. -/
theorem base_apply (a0 : S100000x128.Idx → EReal) (a2 a3 : S1024x200.Idx → BitVec 32)
    (ht : ∀ i, (a2 i).toNat < 100000) (r : Fin 1024) (c : Fin 200) (k : Fin 128) :
    mulf (F := Ideal) (takeTerm a0 a2)
        (broadcastInDim S1024x200x128 ![0, 1, 2] bcast_S1024x200x1_S1024x200x128_0_1_2
          (broadcastInDim S1024x200x1 ![0, 1] bcast_S1024x200_S1024x200x1_0_1 (sitofp (F := Ideal) .f32 a3))) (ix3 r c k)
      = a0 (ix2 (⟨(a2 (ix2 r c)).toNat, ht _⟩ : Fin 100000) k) * (((a3 (ix2 r c)).toInt : ℝ) : EReal) := by
  rw [mulf_apply, takeTerm_apply a0 a2 ht r c k,
    Idealize.ShloMosaic.broadcastInDim_apply _ _ _ (ix3 r c k) (ix3 r c (0 : Fin 1))
      (fun a => by match a with | ⟨0, _⟩ => rfl | ⟨1, _⟩ => rfl | ⟨2, _⟩ => rfl),
    Idealize.ShloMosaic.broadcastInDim_apply _ _ _ (ix3 r c (0 : Fin 1)) (ix2 r c)
      (fun a => by match a with | ⟨0, _⟩ => rfl | ⟨1, _⟩ => rfl)]
  rfl

/-- THE FIRST RESULT, with every id below 100000: the update rows scattered, at the (row, column) pairs of the
    index table, over the array whose element `(r, c, k)` is `table[ids[r, c], k]` times the flag `flags[r, c]`
    read as a signed integer. -/
theorem embTerm_eq (a0 : S100000x128.Idx → EReal) (a1 : S40960x128.Idx → EReal) (a2 a3 : S1024x200.Idx → BitVec 32)
    (a4 a5 : S40960.Idx → BitVec 32) (ht : ∀ i, (a2 i).toNat < 100000) :
    embTerm a0 a1 a2 a3 a4 a5
      = Host.scatter scatter_S1024x200x128_S40960x2_S40960x128_1_01_01_1 (fun _ b => b)
          (fun j : S1024x200x128.Idx =>
            a0 (ix2 (⟨(a2 (ix2 (j 0) (j 1))).toNat, ht _⟩ : Fin 100000) (j 2))
              * (((a3 (ix2 (j 0) (j 1))).toInt : ℝ) : EReal))
          (idxTerm a4 a5) a1 := by
  unfold embTerm
  refine congrArg (fun X => Host.scatter scatter_S1024x200x128_S40960x2_S40960x128_1_01_01_1 (fun _ b => b) X
    (idxTerm a4 a5) a1) (funext fun j => ?_)
  obtain ⟨r, c, k, rfl⟩ : ∃ (r : Fin 1024) (c : Fin 200) (k : Fin 128), j = ix3 r c k := ⟨j 0, j 1, j 2, eq_ix3 j⟩
  exact base_apply a0 a2 a3 ht r c k

/-- THE SECOND RESULT at `(r, c)`: one when the column number is below the row's length as signed words, else zero. -/
theorem maskTerm_apply (a6 : S1024.Idx → BitVec 32) (r : Fin 1024) (c : Fin 200) :
    maskTerm a6 (ix2 r c) = (if (BitVec.ofNat 32 c.val).slt (a6 (ix1 r)) then 1 else 0 : EReal) := by
  unfold maskTerm
  show (((IntOp.cmpi .slt
      (broadcastInDim S1024x200 ![0, 1] bcast_S1x200_S1024x200_0_1
        (broadcastInDim S1x200 ![1] bcast_S200_S1x200_1 (iotaInDim S200 32 0)) (ix2 r c))
      (broadcastInDim S1024x200 ![0, 1] bcast_S1024x1_S1024x200_0_1
        (broadcastInDim S1024x1 ![0] bcast_S1024_S1024x1_0 a6) (ix2 r c))).toNat : ℝ) : EReal) = _
  rw [Idealize.ShloMosaic.broadcastInDim_apply _ _ _ (ix2 r c) (ix2 (0 : Fin 1) c)
      (fun a => by match a with | ⟨0, _⟩ => rfl | ⟨1, _⟩ => rfl),
    Idealize.ShloMosaic.broadcastInDim_apply _ _ _ (ix2 (0 : Fin 1) c) (ix1 c)
      (fun a => by match a with | ⟨0, _⟩ => rfl),
    Idealize.ShloMosaic.broadcastInDim_apply _ _ _ (ix2 r c) (ix2 r (0 : Fin 1))
      (fun a => by match a with | ⟨0, _⟩ => rfl | ⟨1, _⟩ => rfl),
    Idealize.ShloMosaic.broadcastInDim_apply _ _ _ (ix2 r (0 : Fin 1)) (ix1 r)
      (fun a => by match a with | ⟨0, _⟩ => rfl)]
  show (((BitVec.ofBool ((BitVec.ofNat 32 c.val).slt (a6 (ix1 r)))).toNat : ℝ) : EReal) = _
  cases (BitVec.ofNat 32 c.val).slt (a6 (ix1 r)) <;> simp

end Cert.ReferenceIdeal.RefRead

end
-- ==== Proof.PreRanges.lean ====
/- The precondition read back: each `jnp.all` of the input-domain predicate gives its elementwise fact. Every
   integer argument lies between its two signed bounds, hence is a small natural number read unsigned; at the
   ideal instance every float argument is a real number. -/
import proofs.«213838_g73864847557071_cont_9to1_m_429_11_alg».proof.Pre_input_domain
import proofs.«213838_g73864847557071_cont_9to1_m_429_11_alg».proof.Proof.Gen.Pre_input_domain
import Idealize.ShloMosaic.Lib.ReduceAll
import Idealize.ShloMosaic.Lib.ValueIdx
import Idealize.ShloMosaic.PureOps.Ideal

noncomputable section

namespace Cert.Proof.PreRanges

open Cert.Pre_input_domain Idealize.ShloMosaic Idealize.ShloMosaic.ValueIdx

variable [Cert.Pre_input_domain.Facts]

/-- The result of the predicate has one index. -/
instance : Subsingleton S_.Idx := ⟨fun a b => funext fun d => d.elim0⟩

/-- A word between `0` and `c` as signed words, `c` itself a natural number `n` read signed, is at most `n`
    read unsigned. -/
theorem toNat_le_of_range {x c : BitVec 32} {n : Nat} (hc : c.toInt = (n : Int))
    (h : IntOp.andi (IntOp.cmpi .sge x 0#32) (IntOp.cmpi .sle x c) = 1#1) : x.toNat ≤ n := by
  obtain ⟨h0, h1⟩ := IntOp.andi_eq_one.1 h
  rw [IntOp.cmpi_sge, show (0#32 : BitVec 32).toInt = 0 from by decide] at h0
  rw [IntOp.cmpi_sle, hc] at h1
  have hx := BitVec.toInt_eq_toNat_cond x
  have := x.isLt
  split at hx <;> omega

/-- An extended real whose absolute value is below the word of `+∞` is a real number. -/
theorem finite_of_abs_lt {x : EReal}
    (h : Ideal.cmp .olt (max x (-x)) (Ideal.ofBits .f32 0x7F800000#32) = 1#1) : x ≠ ⊤ ∧ x ≠ ⊥ := by
  have hinf : Ideal.ofBits .f32 0x7F800000#32 = (⊤ : EReal) := by simp [Ideal.ofBits, Ideal.ieee]
  rw [hinf] at h
  have hlt : max x (-x) < (⊤ : EReal) := by
    unfold Ideal.cmp at h
    by_contra hn
    simp [hn] at h
  constructor
  · rintro rfl; simp at hlt
  · rintro rfl; simp at hlt

/-- THE PRECONDITION'S INTEGER HALF: the ids are below 100000, the flags at most 1, the rows below 1024, the
    columns below 200 and the lengths at most 199, each read unsigned. -/
theorem ranges_of_pre {F : FTy → Type} [FloatOps F] (a0 : FVec F S100000x128 .f32) (a1 : FVec F S40960x128 .f32)
    (a2 a3 : IVec S1024x200 32) (a4 a5 : IVec S40960 32) (a6 : IVec S1024 32)
    (h : Cert.Pre_input_domain.fn (F := F) a0 a1 a2 a3 a4 a5 a6 = fun _ => 1#1) :
    (∀ i, (a2 i).toNat < 100000) ∧ (∀ i, (a3 i).toNat ≤ 1) ∧ (∀ i, (a4 i).toNat < 1024)
      ∧ (∀ i, (a5 i).toNat < 200) ∧ (∀ i, (a6 i).toNat ≤ 199) := by
  have e := congrFun h ix0
  dsimp only [fn, fn_part1, fn_part2] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨-, h2⟩ := IntOp.andi_eq_one.1 e
  refine ⟨fun i => ?_, fun i => ?_, fun i => ?_, fun i => ?_, fun i => ?_⟩
  · have := toNat_le_of_range (x := a2 i) (c := 99999#32) (n := 99999) (by decide) (Host.reduce_andi_all _ _ _ _ _ h2 i)
    omega
  · exact toNat_le_of_range (x := a3 i) (c := 1#32) (n := 1) (by decide) (Host.reduce_andi_all _ _ _ _ _ h3 i)
  · have := toNat_le_of_range (x := a4 i) (c := 1023#32) (n := 1023) (by decide) (Host.reduce_andi_all _ _ _ _ _ h4 i)
    omega
  · have := toNat_le_of_range (x := a5 i) (c := 199#32) (n := 199) (by decide) (Host.reduce_andi_all _ _ _ _ _ h5 i)
    omega
  · exact toNat_le_of_range (x := a6 i) (c := 199#32) (n := 199) (by decide) (Host.reduce_andi_all _ _ _ _ _ h6 i)

/-- THE PRECONDITION'S FLOAT HALF at the ideal instance: every entry of the table and of the update rows is a real
    number. -/
theorem finite_of_pre (a0 : FVec Ideal S100000x128 .f32) (a1 : FVec Ideal S40960x128 .f32)
    (a2 a3 : IVec S1024x200 32) (a4 a5 : IVec S40960 32) (a6 : IVec S1024 32)
    (h : Cert.Pre_input_domain.fn (F := Ideal) a0 a1 a2 a3 a4 a5 a6 = fun _ => 1#1) :
    (∀ i, a0 i ≠ ⊤ ∧ a0 i ≠ ⊥) ∧ (∀ i, a1 i ≠ ⊤ ∧ a1 i ≠ ⊥) := by
  have e := congrFun h ix0
  dsimp only [fn, fn_part1, fn_part2] at e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨h0, h1⟩ := IntOp.andi_eq_one.1 e
  exact ⟨fun i => finite_of_abs_lt (Host.reduce_andi_all _ _ _ _ _ h0 i),
    fun i => finite_of_abs_lt (Host.reduce_andi_all _ _ _ _ _ h1 i)⟩

end Cert.Proof.PreRanges

end
-- ==== Proof.KISetup.lean ====
/-
  The embedding lookup's SparseCore call as the launch theorem sees it: the configuration, the ghost state, the arrays
  the call moves between the TensorCore and the thirty-two vector subcores, and what each handshake carries.

  Worker `w = 2·s + c` (vector subcore `s` of SparseCore `c`) owns positions `[6400·w, 6400·(w+1))` of the flattened
  token grid: it reads its slices of the token ids, the cache flags and the winners, builds its 6400 row numbers, and
  gathers those rows of the table into its slice of the output, 128 rows at a time. The table is read by every worker:
  each holds one of thirty-two pieces of its share.
-/
import proofs.«213838_g73864847557071_cont_9to1_m_429_11_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«213838_g73864847557071_cont_9to1_m_429_11_alg».proof.Proof.Gen.KernelIdeal
import proofs.«213838_g73864847557071_cont_9to1_m_429_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the mask pipeline's staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The arrays of the call -/

abbrev tblLoc (d : Dev nD) : Loc nD τ sig := (SparseCore.T d).loc main_v1
abbrev tidLoc (d : Dev nD) : Loc nD τ sig := (SparseCore.T d).loc main_v16
abbrev flgLoc (d : Dev nD) : Loc nD τ sig := (SparseCore.T d).loc main_v17
abbrev winLoc (d : Dev nD) : Loc nD τ sig := (SparseCore.T d).loc main_v15
abbrev outLoc (d : Dev nD) : Loc nD τ sig := (SparseCore.T d).loc main_v18

/-- The worker number of vector subcore `s` of SparseCore `c`. -/
def wid (c : Fin 2) (s : Fin 16) : Fin 32 := ⟨s.val * 2 + c.val, by omega⟩

theorem pdiv : 32 ∣ S204800.size 0 := ⟨6400, rfl⟩
theorem odiv : 32 ∣ S204800x128.size 0 := ⟨6400, rfl⟩
/-- Worker `w`'s 6400 positions, and its 6400 rows of the output. -/
abbrev posRect (w : Fin 32) : Rect S204800 := Rect.part (s := S204800) (a₀ := 0) pdiv w
abbrev outRect (w : Fin 32) : Rect S204800x128 := Rect.part (s := S204800x128) (a₀ := 0) odiv w
abbrev posSet (w : Fin 32) : Finset S204800.Idx := (posRect w).set
abbrev outSet (w : Fin 32) : Finset S204800x128.Idx := (outRect w).set

/-- Worker `w`'s piece of a share of the table. -/
abbrev tq (w : Fin 32) : PosShare TreeShare := pieceOf fullShare 32 (by decide) w

/-! ## The values -/

/-- The table row a position reads: an unknown token's fresh embedding (row `100128 + (w − 1)`, `w` its winner) when it
    has one; else its cached row when the flag is set; else one of the 128 zero rows after the cache (which one is
    picked by the position's place in its 128-chunk). -/
def idxAt (t f w pos : BitVec 32) : BitVec 32 :=
  Scalar.select (IntOp.cmpi .sgt w 0#32) (IntOp.addi w 100127#32)
    (Scalar.select (IntOp.cmpi .sgt f 0#32) t (IntOp.addi 100000#32 (IntOp.andi pos 127#32)))

/-- The row numbers over the whole flattened grid (a position's place inside its worker's slice is `p mod 6400`). -/
def idxG (tid flg win : S204800.Idx → BitVec 32) : S204800.Idx → BitVec 32 :=
  fun p => idxAt (tid p) (flg p) (win p) (BitVec.ofNat 32 ((p 0).val % 6400))

/-- The output: row `p` is the table's row `idx p`. -/
def outG (tbl : S141088x128.Idx → Elt F .f32) (idx : S204800.Idx → BitVec 32) : S204800x128.Idx → Elt F .f32 :=
  fun j => tbl (ValueIdx.ix2 (Fin.ofNat 141088 (idx (ValueIdx.ix1 (j 0))).toNat) (j 1))

/-- What the arrays of the call hold on device `d` when @main reaches it. -/
structure CallArrs (d : Dev nD) where
  tbl : Buf (Elt F) (tblLoc d)
  tid : Buf (Elt F) (tidLoc d)
  flg : Buf (Elt F) (flgLoc d)
  win : Buf (Elt F) (winLoc d)
  out0 : Buf (Elt F) (outLoc d)

variable (A : (d : Dev nD) → CallArrs (F := F) d)

/-- The row numbers and the output the call computes from those arrays. -/
def idxOf (d : Dev nD) : S204800.Idx → BitVec 32 := idxG (A d).tid (A d).flg (A d).win
def outOf (d : Dev nD) : Buf (Elt F) (outLoc d) := outG (F := F) (A d).tbl (idxOf A d)

/-- What the proof asks of the arrays: every row number names a row of the table. -/
def IdxOK : Prop := ∀ (d : Dev nD) (p : S204800.Idx), (idxOf A d p).toNat < 141088

/-! ## What the handshakes carry -/

/-- A worker's operands: its piece of the table's share, its slices of the three index arrays, its rows of the output. -/
def goRes (d : Dev nD) (w : Fin 32) : sProp 𝕄 :=
  iprop((tblLoc d ↦{tq w} (A d).tbl) ∗ (tidLoc d ↦[posSet w]{fullShare} (A d).tid) ∗ (flgLoc d ↦[posSet w]{fullShare} (A d).flg)
    ∗ (winLoc d ↦[posSet w]{fullShare} (A d).win) ∗ (outLoc d ↦[outSet w]{fullShare} (A d).out0))
/-- and what it hands back: the same, its rows of the output at the gathered rows. -/
def tdRes (d : Dev nD) (w : Fin 32) : sProp 𝕄 :=
  iprop((tblLoc d ↦{tq w} (A d).tbl) ∗ (tidLoc d ↦[posSet w]{fullShare} (A d).tid) ∗ (flgLoc d ↦[posSet w]{fullShare} (A d).flg)
    ∗ (winLoc d ↦[posSet w]{fullShare} (A d).win) ∗ ∃ f, (outLoc d ↦[outSet w]{fullShare} f) ∗ ⌜∀ j ∈ outSet w, f j = outOf A d j⌝)

def P : (K (F := F)).Pay (nD := nD) (Val := Elt F) (Name := ℕ) (U := UU) where
  st := fun q d c => match q with
    | 0 => bigSep Finset.univ fun s : Fin 16 => goRes A d (wid (Fin.cast nCore_zero c) s)
  dn := fun q d c => match q with
    | 0 => bigSep Finset.univ fun s : Fin 16 => tdRes A d (wid (Fin.cast nCore_zero c) s)
  go := fun q d c i => match q with
    | 0 => goRes A d (wid (Fin.cast nCore_zero c) (Fin.cast nSub_zero i))
  td := fun q d c i => match q with
    | 0 => tdRes A d (wid (Fin.cast nCore_zero c) (Fin.cast nSub_zero i))
  x := fun _ _ => iprop(emp)

instance goRes_storable (d : Dev nD) (w : Fin 32) : BI.Storable (upEmb : UEmb _ 𝕄) (goRes A d w) := by unfold goRes; infer_instance
instance tdRes_storable (d : Dev nD) (w : Fin 32) : BI.Storable (upEmb : UEmb _ 𝕄) (tdRes A d w) := by unfold tdRes; infer_instance

instance P_storable : (P (F := F) A).IsStorable where
  st q d c := match q with | 0 => (inferInstance : BI.Storable (upEmb : UEmb _ 𝕄) (bigSep Finset.univ fun s : Fin 16 => goRes A d (wid (Fin.cast nCore_zero c) s)))
  dn q d c := match q with | 0 => (inferInstance : BI.Storable (upEmb : UEmb _ 𝕄) (bigSep Finset.univ fun s : Fin 16 => tdRes A d (wid (Fin.cast nCore_zero c) s)))
  go q d c i := match q with | 0 => (inferInstance : BI.Storable (upEmb : UEmb _ 𝕄) (goRes A d (wid (Fin.cast nCore_zero c) (Fin.cast nSub_zero i))))
  td q d c i := match q with | 0 => (inferInstance : BI.Storable (upEmb : UEmb _ 𝕄) (tdRes A d (wid (Fin.cast nCore_zero c) (Fin.cast nSub_zero i))))

/-- A SparseCore's operands are its sixteen workers', and its results theirs. -/
theorem vecSplit : (K (F := F)).VecSplit' (P A) 0 := by
  intro d c
  show (bigSep Finset.univ fun s : Fin 16 => goRes A d (wid (Fin.cast nCore_zero c) s)) ⊢ |={Set.univ}=> iprop(
      (bigSep Finset.univ fun i : Fin ((K (F := F)).nSub 0) => goRes A d (wid (Fin.cast nCore_zero c) (Fin.cast nSub_zero i)))
      ∗ ((bigSep Finset.univ fun i : Fin ((K (F := F)).nSub 0) => tdRes A d (wid (Fin.cast nCore_zero c) (Fin.cast nSub_zero i)))
          -∗ bigSep Finset.univ fun s : Fin 16 => tdRes A d (wid (Fin.cast nCore_zero c) s)))
  iintro H; imodintro
  isplitl [H]; · iexact H
  iintro H; iexact H

end Cert.Proof.KI

end
-- ==== Proof.KIMask.lean ====
/-
  The padding mask of the embedding lookup: the one TensorCore call of the kernel program, which stands inside the
  SparseCore program's @main.

  The call stages the 1024×1 array of sequence lengths whole, computes `mask[i, j] = (j < lens[i]) ? 1.0 : 0.0` (a signed
  comparison of the column index with the row's length, zero-extended and converted to a float) and writes the
  1024×200 result back whole. It is a pipeline of one point over two whole-array windows. This module gives

  * `maskOf`, the mask as a pure function of the lengths — the value the body stores;
  * the body's run on its two staging buffers (`maskRun`) and the pipeline's proof data around it (`mdat`): the result's
    array ends holding `maskOf lens` (`arrAt_out`), the lengths' array what it held (`arrAt_in`);
  * `wp_mask`: inside @main on the TensorCore of device `d`, from the region boundary, the two arrays, what the core owes
    and the ghost state of the pipeline's two staging cells (`maskG d`), the call runs to the same with the result's
    array at `maskOf lens`; the TensorCore's waits on the two staging semaphores sit at index `none`, level zero, below
    everything it owes;
  * `fund_maskG`: the rounds' launch element at the staging cells funds `maskG d` on every device.
-/
import proofs.«213838_g73864847557071_cont_9to1_m_429_11_alg».proof.Proof.KISetup
import proofs.«213838_g73864847557071_cont_9to1_m_429_11_alg».proof.Proof.Gen.KernelIdeal.Launch
import proofs.«213838_g73864847557071_cont_9to1_m_429_11_alg».proof.Proof.Gen.KernelIdeal.Points
import Idealize.ShloMosaic.Lib.Pipeline.Regions
import Idealize.ShloMosaic.Lib.Pipeline.Value

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The mask as a pure function, and the body -/

/-- The padding mask as a pure function of the lengths: entry `(i, j)` is `1.0` when `j < lens i` (as signed words), else `0.0`. -/
def maskOf (lens : S1024x1.Idx → BitVec 32) : S1024x200.Idx → Elt F .f32 :=
  sitofp .f32 (extui 32 (cmpi .slt (iota .tc S1024x200 32 [1] iota_S1024x200_d1_w32)
    (broadcastTo S1024x200 (shapeCast S1024x1 lens shapeCasts_S1024x1_S1024x1) broadcasts_S1024x1_S1024x200)) natLt_1_32)

/-- It is the value the body stores, as the generated skeleton names it. -/
theorem maskOf_eq_pay (lens : S1024x1.Idx → BitVec 32) : maskOf (F := F) lens = k1_pay1 (F := F) lens := rfl

/-- A buffer's contents type on core `c`, and the buffer held whole. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

theorem offsets_zero : (![0, 0] : Fin 2 → Nat) = fun _ => 0 := funext fun a => by fin_cases a <;> rfl

/-- A load of a whole buffer through the unit rectangle at zero offsets reads its contents. -/
theorem readAt_stg0 (f0 : S1024x1.Idx → BitVec 32) :
    View.readAt (Elt F) (Memref.whole cc1_stg0_0).view (Rect.unit ![0, 0] S1024x1.size inb_S1024x1_S1024x1_0_0).toLoadRect f0 = f0 := by
  rw [View.readAt_eq_ld]
  exact View.ld_unit_zero (Val := Elt F) (S := S1024x1) (e := EltTy.i32) offsets_zero inb_S1024x1_S1024x1_0_0 f0

/-- One store through it over a whole buffer leaves its payload. -/
theorem writes_stg1 (f1 X : S1024x200.Idx → Elt F .f32) :
    (Memref.whole cc1_stg1_0).view.writes (Elt F) f1 [⟨Rect.unit ![0, 0] S1024x200.size inb_S1024x200_S1024x200_0_0, X⟩] = X := by
  have hcov : ∀ y : S1024x200.Idx, ∃ p ∈ [(⟨Rect.unit ![0, 0] S1024x200.size inb_S1024x200_S1024x200_0_0, X⟩ : View.Piece (Elt F) S1024x200 .f32)], y ∈ p.1.set :=
    fun y => ⟨_, List.mem_singleton_self _, View.mem_set_unit_zero (S := S1024x200) offsets_zero inb_S1024x200_S1024x200_0_0 y⟩
  have h := View.read_writes_eq_canon (Val := Elt F) (View.whole cc1_stg1_0) f1 _ hcov
  rw [View.read_whole] at h
  exact h.trans (View.canon_unit_zero (Val := Elt F) (S := S1024x200) offsets_zero inb_S1024x200_S1024x200_0_0 X)

/-- The body: it loads the lengths, and stores the mask over whatever the result's buffer held. -/
theorem maskRun (c : Dev nD) (f0 : S1024x1.Idx → BitVec 32) (f1 : S1024x200.Idx → Elt F .f32) (Q : PUnit → sProp 𝕄) :
    iprop(pt c (Memref.whole cc1_stg0_0) f0 ∗ pt c (Memref.whole cc1_stg1_0) f1
      ∗ (iprop(pt c (Memref.whole cc1_stg0_0) f0 ∗ pt c (Memref.whole cc1_stg1_0) (maskOf (F := F) f0)) -∗ Q ⟨⟩))
    ⊢ wp frame (wpE (defs₀ (F := F)) Variants.none c none) Set.univ
        (cc1_body (Memref.whole cc1_stg0_0) (Memref.isWhole_whole _) (Memref.whole cc1_stg1_0) (Memref.isWhole_whole _)) Q := by
  iintro ⟨H0, H1, Hk⟩
  simp only [cc1_body_eq_skeleton]; unfold cc1_body_skel
  sl_exec
  sl_step
  rw [writes_stg1, readAt_stg0]
  iapply Hk
  isplitl [H0]; · iexact H0
  iexact H1

/-! ## The pipeline's proof data -/

/-- The prefetched tables' admissible contents: no table. -/
abbrev adm : (p : Fin 1) → (pcfgs (F := F) p).Adm := fun p => (cfgs p).toPCfg_adm

abbrev 𝒱m : Variants := Variants.none

/-- The proof data on core `c`: the lengths' array at `lens`, the result's at `out0`; after the body the lengths' staging
    buffer as fetched and the result's at the mask; no invariant; the core owing `O` throughout, its recorded pairs at
    levels at most `b`. -/
def mdat (lens : S1024x1.Idx → BitVec 32) (out0 : S1024x200.Idx → Elt F .f32) (O : CellTallies nD τ sig (HIx 1)) (b : ℕ) (c : Dev nD) :
    Dat τ (Elt F) (HIx 1) ℕ UU ℕ cfg1 c where
  A w := match w with
    | ⟨0, _⟩ => lens
    | ⟨1, _⟩ => out0
  after w _ := match w with
    | ⟨0, _⟩ => lens
    | ⟨1, _⟩ => maskOf (F := F) lens
  Φ _ := iprop(emp)
  q _ := fullShare
  owed _ := O
  recorded _ := {p | (K (F := F)).lev ((T c : Thread nD τ), p.1) p.2 ≤ b}

def mdats (lens : S1024x1.Idx → BitVec 32) (out0 : S1024x200.Idx → Elt F .f32) (O : CellTallies nD τ sig (HIx 1)) (b : ℕ) :
    (p : Fin 1) → (c : Dev nD) → Dat τ (Elt F) (HIx 1) ℕ UU ℕ (Pipeline.pin (pcfgs (F := F)) adm p) c
  | 0 => mdat lens out0 O b

variable (lens : S1024x1.Idx → BitVec 32) (out0 : S1024x200.Idx → Elt F .f32) (O : CellTallies nD τ sig (HIx 1)) (b : ℕ)

/-- A whole-array window's one block is the array: an index under it is itself. -/
theorem emb_blk0 (x : S1024x1.Idx) : ((cfg1.win 0).blk t1_0).view.emb x = x := by
  funext a
  apply Fin.ext
  show (((View.whole main_v19).slice (win1_0.rect t1_0)).emb x a).val = (x a).val
  rw [View.emb_slice, Function.Embedding.trans_apply, View.emb_whole, Function.Embedding.refl_apply, Rect.emb_apply]
  have h1 : (win1_0.rect t1_0).off a = 0 := by
    show win1_0.index t1_0 a * win1_0.size a = 0
    rw [show win1_0.index t1_0 a = 0 from rfl, Nat.zero_mul]
  have h2 : (win1_0.rect t1_0).stride a = 1 := rfl
  rw [h1, h2, Nat.zero_add, Nat.one_mul]

theorem emb_blk1 (x : S1024x200.Idx) : ((cfg1.win 1).blk t1_0).view.emb x = x := by
  funext a
  apply Fin.ext
  show (((View.whole main_v20).slice (win1_1.rect t1_0)).emb x a).val = (x a).val
  rw [View.emb_slice, Function.Embedding.trans_apply, View.emb_whole, Function.Embedding.refl_apply, Rect.emb_apply]
  have h1 : (win1_1.rect t1_0).off a = 0 := by
    show win1_1.index t1_0 a * win1_1.size a = 0
    rw [show win1_1.index t1_0 a = 0 from rfl, Nat.zero_mul]
  have h2 : (win1_1.rect t1_0).stride a = 1 := rfl
  rw [h1, h2, Nat.zero_add, Nat.one_mul]

/-- The lengths' staging buffer holds the array when the body runs. -/
theorem before_in (c : Dev nD) (d : (cfg1.win 0).block.Idx → Elt F (cfg1.win 0).elt) :
    (mdat (F := F) lens out0 O b c).before 0 t1_0 d = lens := by
  unfold Dat.before; rw [if_pos (fetch1_0 t1_0)]
  funext x
  show ((cfg1.win 0).blk t1_0).view.read (Elt F) lens x = lens x
  rw [View.read_apply, emb_blk0]
  rfl

/-- Every index of the result lies in its one block. -/
theorem cover1 (i : S1024x200.Idx) : ∃ t : Fin cfg1.N, (cfg1.win 1).flush t = true ∧ i ∈ ((cfg1.win 1).blk t).view.set :=
  ⟨t1_0, flush1_1 _, by
    have h := ((cfg1.win 1).blk t1_0).view.emb_mem_set i
    rwa [emb_blk1] at h⟩

/-- What the write-back writes is the mask, read through the block. -/
theorem flushed1 (c : Dev nD) (t : Fin cfg1.N) :
    (mdat (F := F) lens out0 O b c).flushed 1 t = ((cfg1.win 1).blk t).view.read (Elt F) (maskOf (F := F) lens) := by
  obtain rfl := fin_N1 t
  funext x
  rw [View.read_apply, emb_blk1]
  rfl

/-- After the region the result's array holds the mask, -/
theorem arrAt_out (c : Dev nD) : (mdat (F := F) lens out0 O b c).arrAt 1 cfg1.N = maskOf (F := F) lens :=
  (mdat (F := F) lens out0 O b c).arrAt_eq_of_cover 1 (maskOf (F := F) lens) (fun t _ => flushed1 lens out0 O b c t) cover1

/-- and the lengths' array what it held. -/
theorem arrAt_in (c : Dev nD) : (mdat (F := F) lens out0 O b c).arrAt 0 cfg1.N = lens :=
  (mdat (F := F) lens out0 O b c).arrAt_in 0 rfl _

/-! ## The body obligation -/

/-- The body's obligation at the one point: from the lengths' staging buffer holding the array and the result's holding
    anything, the body leaves the first as it was and the second at the mask; what the core owes passes through. -/
theorem body_obligation (c : Dev nD) : BodyObligation (mdat (F := F) lens out0 O b c) (defs₀ (F := F)) 𝒱m none Set.univ := fun t => by
  obtain rfl := fin_N1 t
  rw [bigSep_W1, bigSep_W1]
  simp only [owns_whole_eq]
  rw [show (mdat (F := F) lens out0 O b c).Φ t1_0.castSucc = iprop(emp) from rfl, show (mdat (F := F) lens out0 O b c).Φ t1_0.succ = iprop(emp) from rfl]
  iintro ⟨-, HO, ⟨%d0, %f0, %hf0, H0⟩, ⟨%d1, %f1, %hf1, H1⟩⟩
  rw [before_in] at hf0
  subst hf0
  iapply (maskRun c f0 f1)
  isplitl [H0]; · iexact H0
  isplitl [H1]; · iexact H1
  iintro ⟨H0, H1⟩
  isplitr; · iempintro
  isplitl [HO]; · iexact HO
  isplitl [H0]
  · iexists _; isplitr; swap; (· iexact H0); ipureintro; dsimp only [mdat]
  · iexists _; isplitr; swap; (· iexact H1); ipureintro; dsimp only [mdat]

/-! ## The region -/

omit [FloatOps F] in
/-- A pair recorded by the region's own waits sits at level zero: within any bound. -/
theorem wbelow_of_bound (c : Dev nD) (W : Waits sig (HIx 1))
    (hW : (↑W : Set (SemLoc sig × HIx 1)) ⊆ {p | (K (F := F)).lev ((T c : Thread nD τ), p.1) p.2 ≤ b} ∪ Pipeline.Cfg.waitPairs cfg1 (none : HIx 1)) :
    (K (F := F)).WBelow (T c) W b := by
  intro p hp
  rcases hW (Finset.mem_coe.mpr hp) with h | ⟨w, s, rfl⟩
  · exact h
  · exact Nat.zero_le _

variable (lv : GSem nD τ sig → HIx 1 → ℕ) (hlv : (K (F := F)).Refines lv) (hO : ∀ g, O g none = 0)

-- the pipeline's configuration pinned at its (empty) prefetched tables is the configuration itself, by unfolding
set_option backward.isDefEq.respectTransparency.types false in
/-- The mask's call as a region of @main: entered from the two arrays and what the core owes, left with the lengths as
    they were, the result at the mask and the same owed; the kernel has no semaphore of its own and keeps no invariant. -/
def mreg : Pipeline.RegionSeg (pcfgs (F := F)) adm (mdats (F := F) lens out0 O b) (none : HIx 1) defs₀ 𝒱m (K (F := F)).L lv 0 where
  win := launch1.win.to₀
  block_pos := launch1.block_pos
  stage_whole := launch1.stage_whole
  K := PEmpty
  osem := fun k => k.elim
  ho := Pipeline.OwnSemFacts.none _
  hbody c := (body_obligation lens out0 O b c).loose
  hwaits c := Pipeline.cellsWaits_intro (Pipeline.pin (pcfgs (F := F)) adm) (mdats (F := F) lens out0 O b) none 0 c
    fun w s t => (K (F := F)).mayWait_none _ hO lv hlv
  pre c := iprop(((T c : Thread nD τ).loc main_v19 ↦{fullShare} lens) ∗ ((T c : Thread nD τ).loc main_v20 ↦{fullShare} out0)
    ∗ ∃ W, ⌜(K (F := F)).WBelow (T c) W b⌝ ∗ owes (T c) O W)
  post c := iprop(((T c : Thread nD τ).loc main_v19 ↦{fullShare} lens) ∗ ((T c : Thread nD τ).loc main_v20 ↦{fullShare} maskOf (F := F) lens)
    ∗ ∃ W, ⌜(K (F := F)).WBelow (T c) W b⌝ ∗ owes (T c) O W)
  X _ := iprop(emp)
  Y _ := iprop(emp)
  Z _ := iprop(emp)
  hentry c := by
    rw [Pipeline.arrays_eq (Pipeline.pin (pcfgs (F := F)) adm) (mdats (F := F) lens out0 O b) 0 c launch1.arr_whole
      ((mdats (F := F) lens out0 O b 0 c).share_full fun _ => rfl), bigSep_W1]
    iintro ⟨⟨H19, H20, ⟨%W, %hW, HO⟩⟩, -, -⟩
    imodintro
    isplitl [H19 H20]
    · isplitl [H19]; · iexact H19
      iexact H20
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    iintro -
    rw [show (mdats (F := F) lens out0 O b 0 c).Φ 0 = iprop(emp) from rfl]
    iempintro
  hout c := by
    rw [Pipeline.ownSems0_none, scopedRest1_eq]
    iintro -
    isplitr; · iempintro
    isplitr <;> iempintro
  hexit c := by
    rw [Pipeline.arrays_eq (Pipeline.pin (pcfgs (F := F)) adm) (mdats (F := F) lens out0 O b) 0 c launch1.arr_whole
      ((mdats (F := F) lens out0 O b 0 c).share_full fun _ => rfl), bigSep_W1]
    iintro ⟨⟨H19, H20⟩, HO, -, -⟩
    imodintro
    isplitl [H19]
    · rw [show (mdats (F := F) lens out0 O b 0 c).arrAt 0 (Pipeline.pin (pcfgs (F := F)) adm 0).N = lens from arrAt_in lens out0 O b c]
      iexact H19
    isplitl [H20]
    · rw [show (mdats (F := F) lens out0 O b 0 c).arrAt 1 (Pipeline.pin (pcfgs (F := F)) adm 0).N = maskOf (F := F) lens from arrAt_out lens out0 O b c]
      iexact H20
    unfold Pipeline.Dat.owesAt Pipeline.owesWithin
    icases HO with ⟨%W, %hW, HO⟩
    iexists W; isplitr; · ipureintro; exact wbelow_of_bound b c W hW
    iexact HO

/-! ## The launch element's half, and the region inside @main -/

/-- What the launch deals device `d` for the mask's pipeline: its two staging cells' ghost state and the duty tokens of
    its two transfers. -/
def maskG (d : Dev nD) : sProp 𝕄 :=
  iprop(Pipeline.cellsGhost (Pipeline.pin (pcfgs (F := F)) adm) (ER (F := F)) 0 d ∗ Pipeline.toksInit (Pipeline.pin (pcfgs (F := F)) adm) (ER (F := F)) 0 d)

/-- The rounds' launch element at the staging cells and the pipeline's transfers funds it on every device. -/
theorem fund_maskG :
    BI.own ((ER (F := F)) (initOf (Pipeline.cells (nD := nD) (τ := τ) cfgs cellOf_inj) (Pipeline.launchToks (nD := nD) (τ := τ) cfgs cellOf_inj)))
      ⊢ iprop(|==> bigSep Finset.univ fun d : Dev nD => maskG (F := F) d) := by
  have e1 : ∀ Φ : Fin 1 → sProp 𝕄, bigSep Finset.univ Φ = Φ 0 := fun Φ => by
    rw [show (Finset.univ : Finset (Fin 1)) = {0} from rfl, bigSep_singleton]
  iintro H
  imod (Pipeline.fund_ghost (nD := nD) (τ := τ) cfgs (ER (F := F)) cellOf_inj) $$ H with ⟨Hg, Ht⟩
  imodintro
  unfold maskG
  rw [bigSep_sep']
  simp only [e1]
  isplitl [Hg]
  · iexact Hg
  · iexact Ht

variable {lens O b lv}

/-- THE MASK'S CALL inside @main: from the region boundary, the lengths' array, the result's array at anything, the core's
    `owes` (owing nothing at index `none`, its recorded pairs at levels at most `b`), the level facts and what the launch
    dealt the pipeline, the call runs to the same with the result's array at the mask. -/
theorem wp_mask (hlv : (K (F := F)).Refines lv) (hO : ∀ g, O g none = 0) (d : Dev nD)
    {α : Type} (k : PUnit → Prog (TpuEff nD τ sig (Elt F) (SparseCore.Sig (ΛP (F := F)) 1) .tc) α) (Q : α → sProp 𝕄) :
    iprop(boundary (T d) ∗ ((T d : Thread nD τ).loc main_v19 ↦{fullShare} lens) ∗ (∃ f : S1024x200.Idx → Elt F .f32, (T d : Thread nD τ).loc main_v20 ↦{fullShare} f)
        ∗ (∃ W, ⌜(K (F := F)).WBelow (T d) W b⌝ ∗ owes (T d) O W) ∗ levAts (K (F := F)).L lv ∗ maskG (F := F) d
        ∗ ((boundary (T d) ∗ ((T d : Thread nD τ).loc main_v19 ↦{fullShare} lens) ∗ ((T d : Thread nD τ).loc main_v20 ↦{fullShare} maskOf (F := F) lens)
              ∗ (∃ W, ⌜(K (F := F)).WBelow (T d) W b⌝ ∗ owes (T d) O W))
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q := by
  unfold maskG
  iintro ⟨Hb, H19, ⟨%f, H20⟩, HO, #Hlev, ⟨Hg, Ht⟩, Hk⟩
  rw [wp_bind]
  iapply ((K (F := F)).wp_liftProg D 𝒱 (T d) Set.univ none (Prog.op (.customCall (Pipeline.entry 0) ()) fun u => .ret u) _)
  iapply (Pipeline.RegionSeg.wp (pcfgs (F := F)) adm (mdats (F := F) lens f O b) (none : HIx 1) cellOf_inj (ER (F := F)) defs₀ 𝒱m (K (F := F)).L lv
    (mreg lens f O b lv hlv hO) d none (fun u hu => nomatch hu) (fun u => .ret u) _)
  rw [show (mreg lens f O b lv hlv hO).pre d = iprop(((T d : Thread nD τ).loc main_v19 ↦{fullShare} lens) ∗ ((T d : Thread nD τ).loc main_v20 ↦{fullShare} f)
        ∗ ∃ W, ⌜(K (F := F)).WBelow (T d) W b⌝ ∗ owes (T d) O W) from rfl,
    show (mreg lens f O b lv hlv hO).post d = iprop(((T d : Thread nD τ).loc main_v19 ↦{fullShare} lens) ∗ ((T d : Thread nD τ).loc main_v20 ↦{fullShare} maskOf (F := F) lens)
        ∗ ∃ W, ⌜(K (F := F)).WBelow (T d) W b⌝ ∗ owes (T d) O W) from rfl]
  isplitl [Hk]
  · iintro ⟨Hb, H19, H20, HO⟩
    rw [wp_ret]; imodintro
    iapply Hk
    isplitl [Hb]; · iexact Hb
    isplitl [H19]; · iexact H19
    isplitl [H20]; · iexact H20
    iexact HO
  isplitl [Hb]; · iexact Hb
  isplitl [H19 H20 HO]
  · isplitl [H19]; · iexact H19
    isplitl [H20]; · iexact H20
    iexact HO
  isplitr; · iexact Hlev
  isplitl [Hg]; · iexact Hg
  iexact Ht

end Cert.Proof.KI

end
-- ==== Proof.MaskBridge.lean ====
/- The padding mask, two ways. The kernel program computes it on the TensorCore as the conversion of the
   zero-extended bit `column < length`; the reference converts the bit itself, read unsigned. Both are one where
   the column number is below the row's length as signed words, and zero elsewhere. -/
import proofs.«213838_g73864847557071_cont_9to1_m_429_11_alg».proof.Proof.KIMask
import proofs.«213838_g73864847557071_cont_9to1_m_429_11_alg».proof.Proof.RefRead

noncomputable section

namespace Cert.Proof.MaskBridge

open Idealize.ShloMosaic Idealize.ShloMosaic.ValueIdx

/-- A bit zero-extended to 32 bits and read as a signed integer is the real number one or zero. -/
theorem bit_signed (t : Bool) :
    ((((BitVec.ofBool t).setWidth 32).toInt : ℝ) : EReal) = (if t then 1 else 0 : EReal) := by
  cases t
  · simp
  · simp

/-- THE MASK BRIDGE at the ideal instance: the kernel program's mask of the lengths given a unit second axis is the
    reference's mask of the lengths. -/
theorem maskOf_eq_maskTerm (a6 : Cert.ReferenceIdeal.S1024.Idx → BitVec 32)
    (hsc : Cert.KernelIdeal.S1024.ShapeCasts Cert.KernelIdeal.S1024x1) :
    Cert.Proof.KI.maskOf (F := Ideal) (shapeCast Cert.KernelIdeal.S1024x1 a6 hsc)
      = Cert.ReferenceIdeal.RefRun.maskTerm a6 := by
  funext j
  obtain ⟨r, c, rfl⟩ : ∃ (r : Fin 1024) (c : Fin 200), j = ix2 r c := ⟨j 0, j 1, eq_ix2 j⟩
  rw [Cert.ReferenceIdeal.RefRead.maskTerm_apply]
  unfold Cert.Proof.KI.maskOf
  show ((((IntOp.cmpi .slt
        (iota .tc Cert.KernelIdeal.S1024x200 32 [1] Cert.KernelIdeal.Gen.iota_S1024x200_d1_w32 (ix2 r c))
        (broadcastTo Cert.KernelIdeal.S1024x200
          (shapeCast Cert.KernelIdeal.S1024x1 (shapeCast Cert.KernelIdeal.S1024x1 a6 hsc)
            Cert.KernelIdeal.Gen.shapeCasts_S1024x1_S1024x1)
          Cert.KernelIdeal.Gen.broadcasts_S1024x1_S1024x200 (ix2 r c))).setWidth 32).toInt : ℝ) : EReal) = _
  rw [iota_single_apply, shapeCast_self,
    broadcastTo_apply _ _ (ix2 r c) (ix2 r (0 : Fin 1)) (fun a => by match a with | ⟨0, _⟩ => rfl | ⟨1, _⟩ => rfl),
    shapeCast_apply a6 hsc (ix2 r (0 : Fin 1)) (ix1 r) (by
      rw [Shape.rowMajor_val_one, Shape.rowMajor_val_two]
      show r.val = r.val * 1 + 0
      omega)]
  exact bit_signed _

end Cert.Proof.MaskBridge

end
-- ==== Proof.KIArrs.lean ====
/-
  @main of the embedding lookup's kernel program, before the call: the host operations as one straight line, the
  TensorCore's unscoped buffers as one held set, and the arrays of the call as terms of the arguments.
-/
import proofs.«213838_g73864847557071_cont_9to1_m_429_11_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq seq after launchContents)
open Idealize.ShloMosaic.Tactic

variable {F : FTy → Type}

local notation "𝕄" => MT nD τ sig (HIx 1) (Elt F) ℕ UU ℕ

/-! ## The host operations before the call -/

section Ops
variable [FloatOps F]

/-- The twenty-four operations @main runs before the call, in order: the table (the cache, 128 zero rows, the fresh
    embeddings), the flattened positions of the updates, the winners (a scatter-max of the update numbers from zero),
    the flattened token ids and flags. -/
abbrev hostOps : List (HloOp τ sig (Elt F)) :=
  [ StableHlo.nullary main_cst (constant S_ .f32 0x00000000#32),
    StableHlo.unary main_cst main_v0 (broadcastInDim S128x128 ![] bcast_S_S128x128 : (⟨S_, .f32⟩ : BufTy).Contents (Elt F) → (⟨S128x128, .f32⟩ : BufTy).Contents (Elt F)),
    StableHlo.nary ![main_arg0, main_v0, main_arg1] main_v1 (fun u => concatenate S141088x128 0 [⟨S100000x128, u 0⟩, ⟨S128x128, u 1⟩, ⟨S40960x128, u 2⟩] concatenates_S100000x128_S128x128_S40960x128_S141088x128_d0),
    StableHlo.nullary main_c (constantI S_ 32 200#32),
    StableHlo.unary main_c main_v2 (broadcastInDim S40960 ![] bcast_S_S40960 : (⟨S_, .i32⟩ : BufTy).Contents (Elt F) → (⟨S40960, .i32⟩ : BufTy).Contents (Elt F)),
    StableHlo.binary main_arg4 main_v2 main_v3 (muli : (⟨S40960, .i32⟩ : BufTy).Contents (Elt F) → (⟨S40960, .i32⟩ : BufTy).Contents (Elt F) → (⟨S40960, .i32⟩ : BufTy).Contents (Elt F)),
    StableHlo.binary main_v3 main_arg5 main_v4 (addi : (⟨S40960, .i32⟩ : BufTy).Contents (Elt F) → (⟨S40960, .i32⟩ : BufTy).Contents (Elt F) → (⟨S40960, .i32⟩ : BufTy).Contents (Elt F)),
    StableHlo.nullary main_c_0 (constantI S_ 32 0#32),
    StableHlo.unary main_c_0 main_v5 (broadcastInDim S204800 ![] bcast_S_S204800 : (⟨S_, .i32⟩ : BufTy).Contents (Elt F) → (⟨S204800, .i32⟩ : BufTy).Contents (Elt F)),
    StableHlo.nullary main_v6 (iotaInDim S40960 32 0),
    StableHlo.nullary main_c_1 (constantI S_ 32 1#32),
    StableHlo.unary main_c_1 main_v7 (broadcastInDim S40960 ![] bcast_S_S40960 : (⟨S_, .i32⟩ : BufTy).Contents (Elt F) → (⟨S40960, .i32⟩ : BufTy).Contents (Elt F)),
    StableHlo.binary main_v7 main_v6 main_v8 (addi : (⟨S40960, .i32⟩ : BufTy).Contents (Elt F) → (⟨S40960, .i32⟩ : BufTy).Contents (Elt F) → (⟨S40960, .i32⟩ : BufTy).Contents (Elt F)),
    StableHlo.nullary main_c_2 (constantI S_ 32 0#32),
    StableHlo.unary main_c_2 main_v9 (broadcastInDim S40960 ![] bcast_S_S40960 : (⟨S_, .i32⟩ : BufTy).Contents (Elt F) → (⟨S40960, .i32⟩ : BufTy).Contents (Elt F)),
    StableHlo.binary main_v4 main_v9 main_v10 (cmpi .slt : (⟨S40960, .i32⟩ : BufTy).Contents (Elt F) → (⟨S40960, .i32⟩ : BufTy).Contents (Elt F) → (⟨S40960, .i1⟩ : BufTy).Contents (Elt F)),
    StableHlo.nullary main_c_3 (constantI S_ 32 204800#32),
    StableHlo.unary main_c_3 main_v11 (broadcastInDim S40960 ![] bcast_S_S40960 : (⟨S_, .i32⟩ : BufTy).Contents (Elt F) → (⟨S40960, .i32⟩ : BufTy).Contents (Elt F)),
    StableHlo.binary main_v4 main_v11 main_v12 (addi : (⟨S40960, .i32⟩ : BufTy).Contents (Elt F) → (⟨S40960, .i32⟩ : BufTy).Contents (Elt F) → (⟨S40960, .i32⟩ : BufTy).Contents (Elt F)),
    StableHlo.ternary main_v10 main_v12 main_v4 main_v13 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    StableHlo.unary main_v13 main_v14 (broadcastInDim S40960x1 ![0] bcast_S40960_S40960x1_0 : (⟨S40960, .i32⟩ : BufTy).Contents (Elt F) → (⟨S40960x1, .i32⟩ : BufTy).Contents (Elt F)),
    StableHlo.ternary main_v5 main_v14 main_v8 main_v15 ((fun x i u => Host.scatter scatter_S204800_S40960x1_S40960_n_0_0_1 IntOp.maxsi x i u) : (⟨S204800, .i32⟩ : BufTy).Contents (Elt F) → (⟨S40960x1, .i32⟩ : BufTy).Contents (Elt F) → (⟨S40960, .i32⟩ : BufTy).Contents (Elt F) → (⟨S204800, .i32⟩ : BufTy).Contents (Elt F)),
    StableHlo.reshape main_arg2 main_v16 rfl shapeCasts_S1024x200_S204800,
    StableHlo.reshape main_arg3 main_v17 rfl shapeCasts_S1024x200_S204800 ]

/-- What follows the host operations: the call, the reshape of the lengths, the mask's call, the reshape of the output. -/
abbrev mainTail (d : Dev nD) : Prog (TpuEff nD τ sig (Elt F) (SparseCore.Sig (ΛP (F := F)) 1) .tc) PUnit := do
  sc.run d 0
  hlo rfl (StableHlo.reshape main_arg6 main_v19 rfl shapeCasts_S1024_S1024x1) (fun _ => .ret ⟨⟩)
  Prog.lift (.customCall (SparseCore.inner (Pipeline.entry 0)) ())
  hlo rfl (StableHlo.reshape main_v18 main_v21 rfl shapeCasts_S204800x128_S1024x200x128) (fun _ => .ret ⟨⟩)
  pure ⟨⟩

set_option maxRecDepth 2048 in
/-- @main is that straight line, then the rest. -/
theorem main_eq (d : Dev nD) : main (F := F) d = seq hostOps >>= fun _ => mainTail d := by
  simp only [main, mainTail, seq, bind_assoc, pure_bind]

theorem hostOps_tc : (hostOps (F := F)).Forall fun op => op.bufs ⊆ StableHlo.tcRefs τ sig :=
  ⟨StableHlo.nullary_bufs_sub .., StableHlo.unary_bufs_sub .., StableHlo.nary_bufs_sub .., StableHlo.nullary_bufs_sub .., StableHlo.unary_bufs_sub ..,
    StableHlo.binary_bufs_sub .., StableHlo.binary_bufs_sub .., StableHlo.nullary_bufs_sub .., StableHlo.unary_bufs_sub .., StableHlo.nullary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.ternary_bufs_sub .., StableHlo.reshape_bufs_sub .., StableHlo.reshape_bufs_sub ..⟩

end Ops

/-! ## The TensorCore's unscoped buffers as one held set -/

/-- The TensorCore's unscoped references, as device buffers. -/
def SU : Finset (DevRef τ sig) :=
  (Finset.univ.filter fun b : Ref sig .tc => ¬ b.isScoped).map ⟨Proc.devRef (sig := sig) (.tc : Proc τ), Proc.devRef_injective _⟩

theorem mem_SU (b : Ref sig .tc) (h : b.isScoped = false) : Proc.devRef (τ := τ) .tc b ∈ SU :=
  Finset.mem_map_of_mem _ (Finset.mem_filter.2 ⟨Finset.mem_univ b, by simp [h]⟩)

theorem mem_SU_of {b : DevRef τ sig} (ht : b ∈ StableHlo.tcRefs τ sig) (h : b.isScoped = false) : b ∈ SU := by
  obtain ⟨r, -, rfl⟩ := Finset.mem_map.1 ht
  exact mem_SU r h

theorem sub_SU {op : HloOp τ sig (Elt F)} (h : op.bufs ⊆ StableHlo.tcRefs τ sig) : op.bufs ⊆ SU :=
  fun b hb => mem_SU_of (h hb) (op.no_scoped b hb)

theorem unscoped_held (m : (ℓ : Loc nD τ sig) → Buf (Elt F) ℓ) (d : Dev nD) :
    (unscopedBufs d (fun b => m ((SparseCore.T d).loc b)) : sProp 𝕄) = held (T d) SU (launchContents m d) := by
  unfold unscopedBufs held SU; rw [bigSep_map]; rfl

section Arrs
variable [FloatOps F]

theorem hostOps_sub : ∀ op ∈ (hostOps (F := F)), op.bufs ⊆ SU :=
  fun op hop => sub_SU ((List.forall_iff_forall_mem.mp hostOps_tc) op hop)

theorem hostOps_fresh : ∀ op ∈ (hostOps (F := F)), op.fresh = ∅ := by
  intro op hop
  simp only [hostOps, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl <;> rfl

variable (m : (ℓ : Loc nD τ sig) → Buf (Elt F) ℓ)

/-- What the buffers hold when @main reaches the call. -/
abbrev VC (d : Dev nD) : Valuation τ sig (Elt F) := after hostOps (launchContents m d)

/-- The flattened positions of the updates: row times 200 plus column. -/
def linOf (a4 a5 : S40960.Idx → BitVec 32) : S40960.Idx → BitVec 32 :=
  addi (muli a4 (broadcastInDim S40960 ![] bcast_S_S40960 (constantI S_ 32 200#32))) a5

/-- The winners: from zero, the maximum over the updates at each position of one plus the update's number. -/
def winOf (a4 a5 : S40960.Idx → BitVec 32) : S204800.Idx → BitVec 32 :=
  Host.scatter scatter_S204800_S40960x1_S40960_n_0_0_1 IntOp.maxsi
    (broadcastInDim S204800 ![] bcast_S_S204800 (constantI S_ 32 0#32))
    (broadcastInDim S40960x1 ![0] bcast_S40960_S40960x1_0
      (select (cmpi .slt (linOf a4 a5) (broadcastInDim S40960 ![] bcast_S_S40960 (constantI S_ 32 0#32)))
        (addi (linOf a4 a5) (broadcastInDim S40960 ![] bcast_S_S40960 (constantI S_ 32 204800#32))) (linOf a4 a5)))
    (addi (broadcastInDim S40960 ![] bcast_S_S40960 (constantI S_ 32 1#32)) (iotaInDim S40960 32 0))

/-- The table: the cache, 128 zero rows, the fresh embeddings. -/
def tblOf (a0 : S100000x128.Idx → Elt F .f32) (a1 : S40960x128.Idx → Elt F .f32) : S141088x128.Idx → Elt F .f32 :=
  concatenate S141088x128 0 [⟨S100000x128, a0⟩,
    ⟨S128x128, broadcastInDim S128x128 ![] bcast_S_S128x128 (constant (F := F) S_ .f32 0x00000000#32)⟩,
    ⟨S40960x128, a1⟩] concatenates_S100000x128_S128x128_S40960x128_S141088x128_d0

/-- The arrays of the call when @main reaches it, as terms of the arguments. -/
def arrs (d : Dev nD) : CallArrs (F := F) d where
  tbl := tblOf (m ((SparseCore.T d).loc main_arg0)) (m ((SparseCore.T d).loc main_arg1))
  tid := shapeCast S204800 (m ((SparseCore.T d).loc main_arg2)) shapeCasts_S1024x200_S204800
  flg := shapeCast S204800 (m ((SparseCore.T d).loc main_arg3)) shapeCasts_S1024x200_S204800
  win := winOf (m ((SparseCore.T d).loc main_arg4)) (m ((SparseCore.T d).loc main_arg5))
  out0 := m (outLoc d)

/-- That is what the host operations leave in the call's four input buffers. -/
theorem VC_tbl (d : Dev nD) : VC m d (Proc.devRef .tc main_v1) = tblOf (m ((SparseCore.T d).loc main_arg0)) (m ((SparseCore.T d).loc main_arg1)) := by
  after_results_simp
  rfl
theorem VC_tid (d : Dev nD) : VC m d (Proc.devRef .tc main_v16) = shapeCast S204800 (m ((SparseCore.T d).loc main_arg2)) shapeCasts_S1024x200_S204800 := by
  after_results_simp
  rfl
theorem VC_flg (d : Dev nD) : VC m d (Proc.devRef .tc main_v17) = shapeCast S204800 (m ((SparseCore.T d).loc main_arg3)) shapeCasts_S1024x200_S204800 := by
  after_results_simp
  rfl
theorem VC_win (d : Dev nD) : VC m d (Proc.devRef .tc main_v15) = winOf (m ((SparseCore.T d).loc main_arg4)) (m ((SparseCore.T d).loc main_arg5)) := by
  after_results_simp
  rfl

-- The two terms are opaque names from here on: nothing below depends on how the scatter's fold or the concatenation
-- evaluates (`unfold winOf` / `unfold tblOf` open them).
attribute [irreducible] winOf tblOf

theorem arrs_tbl (d : Dev nD) : (arrs m d).tbl = tblOf (m ((SparseCore.T d).loc main_arg0)) (m ((SparseCore.T d).loc main_arg1)) := rfl
theorem arrs_tid (d : Dev nD) : (arrs m d).tid = shapeCast S204800 (m ((SparseCore.T d).loc main_arg2)) shapeCasts_S1024x200_S204800 := rfl
theorem arrs_flg (d : Dev nD) : (arrs m d).flg = shapeCast S204800 (m ((SparseCore.T d).loc main_arg3)) shapeCasts_S1024x200_S204800 := rfl
theorem arrs_win (d : Dev nD) : (arrs m d).win = winOf (m ((SparseCore.T d).loc main_arg4)) (m ((SparseCore.T d).loc main_arg5)) := rfl
theorem arrs_out0 (d : Dev nD) : (arrs m d).out0 = m (outLoc d) := rfl

/-- The host operations write none of the arguments, nor the output, nor the three buffers written after the call. -/
theorem VC_keep (d : Dev nD) :
    VC m d (Proc.devRef .tc main_arg0) = m ((SparseCore.T d).loc main_arg0) ∧ VC m d (Proc.devRef .tc main_arg1) = m ((SparseCore.T d).loc main_arg1)
    ∧ VC m d (Proc.devRef .tc main_arg2) = m ((SparseCore.T d).loc main_arg2) ∧ VC m d (Proc.devRef .tc main_arg3) = m ((SparseCore.T d).loc main_arg3)
    ∧ VC m d (Proc.devRef .tc main_arg4) = m ((SparseCore.T d).loc main_arg4) ∧ VC m d (Proc.devRef .tc main_arg5) = m ((SparseCore.T d).loc main_arg5)
    ∧ VC m d (Proc.devRef .tc main_arg6) = m ((SparseCore.T d).loc main_arg6) ∧ VC m d (Proc.devRef .tc main_v18) = m (outLoc d) := by
  refine ⟨?_, ?_, ?_, ?_, ?_, ?_, ?_, ?_⟩ <;> (show after hostOps (launchContents m d) _ = _; after_results_simp)

end Arrs

end Cert.Proof.KI

end
-- ==== Proof.ScatterFold.lean ====
import Mathlib.Data.List.Sort
import Mathlib.Data.List.Induction
import Mathlib.Data.List.FinRange
import Mathlib.Order.Fin.Basic

/-!
# Folding a "replace at one position" step over a list

A scatter is a left fold, over the update elements in order, of a step that replaces the value at ONE position
of a function `κ → α` by `f` of the old value there and the update's value, or leaves the function alone.
The value the fold leaves at a fixed position `i'` depends only on the update elements that land on `i'`
(the "hits"), in order. When `f` of an earlier value and a later hit's value is the later hit's value — as
for "take the update" always, and for a maximum over increasing values — the fold leaves at `i'` the value of
the LAST hit, or the initial value when nothing hits.

`lastSat p` is the greatest `n : Fin N` with `p n`, as an `Option`.
-/

namespace Cert.Proof.ScatterLaws

/-- The value at position `i'` after folding `stepf` over `l`: `stepf` changes the value at `i'` only at a hit,
    to `f` of the old value and the hit's value `v n`; the initial value and every earlier hit's value are absorbed
    by a later hit's (`hx`, `hR` over a relation `R` that orders `l`). Then the last hit's value is left, or the
    initial value when there is no hit. -/
theorem foldl_at {ι κ α : Type} (stepf : (κ → α) → ι → (κ → α)) (i' : κ) (f : α → α → α) (v : ι → α)
    (hit : ι → Prop) [DecidablePred hit]
    (h_hit : ∀ r n, hit n → stepf r n i' = f (r i') (v n))
    (h_miss : ∀ r n, ¬ hit n → stepf r n i' = r i')
    (R : ι → ι → Prop) (x : κ → α)
    (hx : ∀ n, hit n → f (x i') (v n) = v n)
    (hR : ∀ m n, R m n → hit m → hit n → f (v m) (v n) = v n)
    (l : List ι) (hl : l.Pairwise R) :
    (l.foldl stepf x) i' = (l.reverse.find? (fun n => decide (hit n))).elim (x i') v := by
  induction l using List.reverseRecOn with
  | nil => rfl
  | append_singleton l n ih =>
    obtain ⟨hl1, -, hmn⟩ := List.pairwise_append.1 hl
    rw [List.foldl_append, List.foldl_cons, List.foldl_nil, List.reverse_append, List.reverse_singleton,
      List.singleton_append, List.find?_cons]
    by_cases hn : hit n
    · rw [h_hit _ _ hn, decide_eq_true hn, ih hl1]
      cases hfind : l.reverse.find? (fun n => decide (hit n)) with
      | none => exact hx n hn
      | some m =>
        have hm : hit m := of_decide_eq_true (List.find?_some (p := fun n => decide (hit n)) hfind)
        have hml : m ∈ l := List.mem_reverse.1 (List.mem_of_find?_eq_some hfind)
        exact hR m n (hmn m hml n (List.mem_singleton_self n)) hm hn
    · rw [h_miss _ _ hn, decide_eq_false hn]
      exact ih hl1

/-- The greatest `n : Fin N` satisfying `p`, if any: the first one met going down from `N - 1`. -/
def lastSat {N : Nat} (p : Fin N → Prop) [DecidablePred p] : Option (Fin N) :=
  (List.finRange N).reverse.find? (fun n => decide (p n))

theorem lastSat_eq_some_iff {N : Nat} (p : Fin N → Prop) [DecidablePred p] (a : Fin N) :
    lastSat p = some a ↔ p a ∧ ∀ b, a < b → ¬ p b := by
  have hpw : (List.finRange N).reverse.Pairwise (fun x y => y < x) :=
    List.pairwise_reverse.2 (List.sortedLT_finRange N).pairwise
  unfold lastSat
  constructor
  · intro h
    obtain ⟨hpa, as, bs, hsplit, has⟩ := List.find?_eq_some_iff_append.1 h
    refine ⟨of_decide_eq_true hpa, fun b hab hpb => ?_⟩
    rw [hsplit] at hpw
    obtain ⟨-, hpw2, -⟩ := List.pairwise_append.1 hpw
    have hb : b ∈ as ++ a :: bs := hsplit ▸ List.mem_reverse.2 (List.mem_finRange b)
    rcases List.mem_append.1 hb with hb | hb
    · have := has b hb
      simp [hpb] at this
    · rcases List.mem_cons.1 hb with rfl | hb
      · exact lt_irrefl _ hab
      · exact lt_asymm hab ((List.pairwise_cons.1 hpw2).1 b hb)
  · rintro ⟨hpa, hmax⟩
    obtain ⟨s, t, hsplit⟩ := List.append_of_mem (List.mem_reverse.2 (List.mem_finRange a))
    refine List.find?_eq_some_iff_append.2 ⟨decide_eq_true hpa, s, t, hsplit, fun x hx => ?_⟩
    rw [hsplit] at hpw
    obtain ⟨-, -, hst⟩ := List.pairwise_append.1 hpw
    have hax : a < x := hst x hx a List.mem_cons_self
    simp [hmax x hax]

theorem lastSat_eq_none_iff {N : Nat} (p : Fin N → Prop) [DecidablePred p] :
    lastSat p = none ↔ ∀ b, ¬ p b := by
  unfold lastSat
  rw [List.find?_eq_none]
  constructor
  · intro h b hb
    exact h b (List.mem_reverse.2 (List.mem_finRange b)) (decide_eq_true hb)
  · intro h b _ hb
    exact h b (of_decide_eq_true hb)

end Cert.Proof.ScatterLaws
-- ==== Proof.ScatterSet.lean ====
import proofs.«213838_g73864847557071_cont_9to1_m_429_11_alg».proof.Proof.ScatterFold
import Idealize.ShloMosaic.Lib.ValueIdx
import Idealize.ShloMosaic.PureOps

/-!
# A scatter that SETS whole rows at pairs of coordinates: the last writer wins

The operand has three axes `[N0, N1, N2]`; the scatter indices are `U` pairs `(row, col)`; update `u` is a row of
`N2` values written over the operand's row at `(row u, col u)`. The model's scatter is a left fold over the update
elements in row-major order, so with the body "take the update" the element `(r, c, e)` ends as
`upd (u, e)` for the GREATEST `u` whose pair is `(r, c)`, and is the operand's when no pair is `(r, c)`.
The pairs are assumed inside the operand (as words read unsigned), and the operand's first two sizes at most `2^31`,
so that the signed reading of a pair's word is the unsigned one.
-/

namespace Cert.Proof.ScatterLaws

open Idealize.ShloMosaic Idealize.ShloMosaic.ValueIdx

variable {N0 N1 N2 U : Nat}

/-- The dimension numbers of `x.at[rows, cols].set(upd)`: update axis 1 is the window (operand axis 2), operand axes
    0 and 1 are inserted and are the ones the index vector (axis 1 of the indices) names. -/
abbrev setDims (N0 N1 N2 U : Nat)
    (wf : ScatterDims.WF ⟨3, ![N0, N1, N2]⟩ ⟨2, ![U, 2]⟩ ⟨2, ![U, N2]⟩ [1] [0, 1] [0, 1] 1) :
    ScatterDims ⟨3, ![N0, N1, N2]⟩ ⟨2, ![U, 2]⟩ ⟨2, ![U, N2]⟩ where
  updateWindowDims := [1]
  insertedWindowDims := [0, 1]
  scatterDimsToOperandDims := [0, 1]
  indexVectorDim := 1
  wf := wf

section SetDims
variable (wf : ScatterDims.WF ⟨3, ![N0, N1, N2]⟩ ⟨2, ![U, 2]⟩ ⟨2, ![U, N2]⟩ [1] [0, 1] [0, 1] 1)

theorem setDims_window0 (j : (⟨2, ![U, N2]⟩ : Shape).Idx) : (setDims N0 N1 N2 U wf).window j 0 = 0 := rfl
theorem setDims_window1 (j : (⟨2, ![U, N2]⟩ : Shape).Idx) : (setDims N0 N1 N2 U wf).window j 1 = 0 := rfl
theorem setDims_window2 (j : (⟨2, ![U, N2]⟩ : Shape).Idx) : (setDims N0 N1 N2 U wf).window j 2 = (j 1).val := rfl

theorem setDims_start0 {w : Nat} (j : (⟨2, ![U, N2]⟩ : Shape).Idx) (idx : IVec ⟨2, ![U, 2]⟩ w) :
    (setDims N0 N1 N2 U wf).start j idx 0 = (idx (ix2 (j 0) 0)).toInt := by
  unfold ScatterDims.start
  rw [dif_pos (show (0 : Fin 3) ∈ (setDims N0 N1 N2 U wf).scatterDimsToOperandDims from
    (by decide : (0 : Fin 3) ∈ ([0, 1] : List (Fin 3))))]
  congr 2
  funext b
  match b with
  | ⟨0, _⟩ => rfl
  | ⟨1, _⟩ => rfl

theorem setDims_start1 {w : Nat} (j : (⟨2, ![U, N2]⟩ : Shape).Idx) (idx : IVec ⟨2, ![U, 2]⟩ w) :
    (setDims N0 N1 N2 U wf).start j idx 1 = (idx (ix2 (j 0) 1)).toInt := by
  unfold ScatterDims.start
  rw [dif_pos (show (1 : Fin 3) ∈ (setDims N0 N1 N2 U wf).scatterDimsToOperandDims from
    (by decide : (1 : Fin 3) ∈ ([0, 1] : List (Fin 3))))]
  congr 2
  funext b
  match b with
  | ⟨0, _⟩ => rfl
  | ⟨1, _⟩ => rfl

theorem setDims_start2 {w : Nat} (j : (⟨2, ![U, N2]⟩ : Shape).Idx) (idx : IVec ⟨2, ![U, 2]⟩ w) :
    (setDims N0 N1 N2 U wf).start j idx 2 = 0 := by
  unfold ScatterDims.start
  rw [dif_neg (show ¬ (2 : Fin 3) ∈ (setDims N0 N1 N2 U wf).scatterDimsToOperandDims from
    (by decide : ¬ (2 : Fin 3) ∈ ([0, 1] : List (Fin 3))))]

/-- Where update element `j = (u, e)` lands: row and column the words of pair `u`, the window coordinate `e`. -/
theorem setDims_resultIdx (hN0 : N0 ≤ 2 ^ 31) (hN1 : N1 ≤ 2 ^ 31)
    (j : (⟨2, ![U, N2]⟩ : Shape).Idx) (idx : IVec ⟨2, ![U, 2]⟩ 32)
    (hr : (idx (ix2 (j 0) 0)).toNat < N0) (hc : (idx (ix2 (j 0) 1)).toNat < N1) :
    (setDims N0 N1 N2 U wf).resultIdx? j idx
      = some (ix3 (⟨(idx (ix2 (j 0) 0)).toNat, hr⟩ : Fin N0) (⟨(idx (ix2 (j 0) 1)).toNat, hc⟩ : Fin N1) (j 1)) := by
  have e0 : (idx (ix2 (j 0) 0)).toInt = ((idx (ix2 (j 0) 0)).toNat : Int) :=
    BitVec.toInt_eq_toNat_of_lt (by omega)
  have e1 : (idx (ix2 (j 0) 1)).toInt = ((idx (ix2 (j 0) 1)).toNat : Int) :=
    BitVec.toInt_eq_toNat_of_lt (by omega)
  have s0 : (setDims N0 N1 N2 U wf).start j idx 0 + ((setDims N0 N1 N2 U wf).window j 0 : Int)
      = ((idx (ix2 (j 0) 0)).toNat : Int) := by
    rw [setDims_start0, setDims_window0, e0]; simp
  have s1 : (setDims N0 N1 N2 U wf).start j idx 1 + ((setDims N0 N1 N2 U wf).window j 1 : Int)
      = ((idx (ix2 (j 0) 1)).toNat : Int) := by
    rw [setDims_start1, setDims_window1, e1]; simp
  have s2 : (setDims N0 N1 N2 U wf).start j idx 2 + ((setDims N0 N1 N2 U wf).window j 2 : Int)
      = ((j 1).val : Int) := by
    rw [setDims_start2, setDims_window2]; simp
  have h2 : (j 1).val < N2 := (j 1).isLt
  have h : ∀ a, 0 ≤ (setDims N0 N1 N2 U wf).start j idx a + ((setDims N0 N1 N2 U wf).window j a : Int) ∧
      (setDims N0 N1 N2 U wf).start j idx a + ((setDims N0 N1 N2 U wf).window j a : Int)
        < ((⟨3, ![N0, N1, N2]⟩ : Shape).size a : Int) := by
    intro a
    match a with
    | ⟨0, _⟩ =>
      show 0 ≤ (setDims N0 N1 N2 U wf).start j idx 0 + ((setDims N0 N1 N2 U wf).window j 0 : Int) ∧
        (setDims N0 N1 N2 U wf).start j idx 0 + ((setDims N0 N1 N2 U wf).window j 0 : Int) < (N0 : Int)
      rw [s0]; omega
    | ⟨1, _⟩ =>
      show 0 ≤ (setDims N0 N1 N2 U wf).start j idx 1 + ((setDims N0 N1 N2 U wf).window j 1 : Int) ∧
        (setDims N0 N1 N2 U wf).start j idx 1 + ((setDims N0 N1 N2 U wf).window j 1 : Int) < (N1 : Int)
      rw [s1]; omega
    | ⟨2, _⟩ =>
      show 0 ≤ (setDims N0 N1 N2 U wf).start j idx 2 + ((setDims N0 N1 N2 U wf).window j 2 : Int) ∧
        (setDims N0 N1 N2 U wf).start j idx 2 + ((setDims N0 N1 N2 U wf).window j 2 : Int) < (N2 : Int)
      rw [s2]; omega
  unfold ScatterDims.resultIdx?
  rw [dif_pos h]
  congr 1
  funext a
  match a with
  | ⟨0, _⟩ =>
    refine Fin.ext ?_
    show ((setDims N0 N1 N2 U wf).start j idx 0 + ((setDims N0 N1 N2 U wf).window j 0 : Int)).toNat = _
    rw [s0]; rfl
  | ⟨1, _⟩ =>
    refine Fin.ext ?_
    show ((setDims N0 N1 N2 U wf).start j idx 1 + ((setDims N0 N1 N2 U wf).window j 1 : Int)).toNat = _
    rw [s1]; rfl
  | ⟨2, _⟩ =>
    refine Fin.ext ?_
    show ((setDims N0 N1 N2 U wf).start j idx 2 + ((setDims N0 N1 N2 U wf).window j 2 : Int)).toNat = _
    rw [s2]; rfl

end SetDims

/-- Two rank-3 indices given by coordinates are equal when their coordinates are. -/
theorem ix3_congr {a a' : Fin N0} {b b' : Fin N1} {c c' : Fin N2} (ha : a = a') (hb : b = b') (hc : c = c') :
    ix3 a b c = ix3 a' b' c' := by subst ha; subst hb; subst hc; rfl

/-- … and only then. -/
theorem ix3_inj {a a' : Fin N0} {b b' : Fin N1} {c c' : Fin N2} (h : ix3 a b c = ix3 a' b' c') :
    a = a' ∧ b = b' ∧ c = c' :=
  ⟨congrFun h 0, congrFun h 1, congrFun h 2⟩

/-- The greatest update `u` whose pair of words is `(r, c)`, if any. -/
def lastHit2 (idx : IVec ⟨2, ![U, 2]⟩ 32) (r : Fin N0) (c : Fin N1) : Option (Fin U) :=
  lastSat fun u => (idx (ix2 u 0)).toNat = r.val ∧ (idx (ix2 u 1)).toNat = c.val

theorem lastHit2_eq_some_iff (idx : IVec ⟨2, ![U, 2]⟩ 32) (r : Fin N0) (c : Fin N1) (u : Fin U) :
    lastHit2 idx r c = some u ↔
      ((idx (ix2 u 0)).toNat = r.val ∧ (idx (ix2 u 1)).toNat = c.val) ∧
      ∀ u', u < u' → ¬ ((idx (ix2 u' 0)).toNat = r.val ∧ (idx (ix2 u' 1)).toNat = c.val) :=
  lastSat_eq_some_iff _ u

theorem lastHit2_eq_none_iff (idx : IVec ⟨2, ![U, 2]⟩ 32) (r : Fin N0) (c : Fin N1) :
    lastHit2 idx r c = none ↔ ∀ u, ¬ ((idx (ix2 u 0)).toNat = r.val ∧ (idx (ix2 u 1)).toNat = c.val) :=
  lastSat_eq_none_iff _

set_option quotPrecheck false in
/-- The row-major position of an update element … -/
local notation "E₂" => Shape.rowMajor (⟨2, ![U, N2]⟩ : Shape)
set_option quotPrecheck false in
/-- … and the update element at a row-major position. -/
local notation "D₂" => Equiv.symm (Shape.rowMajor (⟨2, ![U, N2]⟩ : Shape))

/-- THE SET-SCATTER READ AT `(r, c, e)`: the last update whose pair is `(r, c)` wins; the operand's element stays
    when no pair is `(r, c)`. -/
theorem scatter_set_apply {α : Type}
    (wf : ScatterDims.WF ⟨3, ![N0, N1, N2]⟩ ⟨2, ![U, 2]⟩ ⟨2, ![U, N2]⟩ [1] [0, 1] [0, 1] 1)
    (hN0 : N0 ≤ 2 ^ 31) (hN1 : N1 ≤ 2 ^ 31)
    (x : (⟨3, ![N0, N1, N2]⟩ : Shape).Idx → α) (idx : IVec ⟨2, ![U, 2]⟩ 32) (upd : (⟨2, ![U, N2]⟩ : Shape).Idx → α)
    (hr : ∀ u : Fin U, (idx (ix2 u 0)).toNat < N0) (hc : ∀ u : Fin U, (idx (ix2 u 1)).toNat < N1)
    (r : Fin N0) (c : Fin N1) (e : Fin N2) :
    Host.scatter (setDims N0 N1 N2 U wf) (fun _ b => b) x idx upd (ix3 r c e)
      = match lastHit2 idx r c with
        | some u => upd (ix2 u e)
        | none => x (ix3 r c e) := by
  -- update element `n` hits `(r, c, e)` when its pair is `(r, c)` and its window coordinate is `e`
  let hit : Fin (⟨2, ![U, N2]⟩ : Shape).numel → Prop := fun n =>
    (idx (ix2 ((D₂ n) 0) 0)).toNat = r.val ∧ (idx (ix2 ((D₂ n) 0) 1)).toNat = c.val ∧
      ((D₂ n) 1).val = e.val
  haveI : DecidablePred hit := fun n => by
    show Decidable ((idx (ix2 ((D₂ n) 0) 0)).toNat = r.val ∧ (idx (ix2 ((D₂ n) 0) 1)).toNat = c.val ∧
      ((D₂ n) 1).val = e.val)
    infer_instance
  have htgt : ∀ n, (setDims N0 N1 N2 U wf).resultIdx? (D₂ n) idx
      = some (ix3 (⟨(idx (ix2 ((D₂ n) 0) 0)).toNat, hr _⟩ : Fin N0)
          (⟨(idx (ix2 ((D₂ n) 0) 1)).toNat, hc _⟩ : Fin N1) ((D₂ n) 1)) :=
    fun n => setDims_resultIdx wf hN0 hN1 (D₂ n) idx (hr _) (hc _)
  unfold Host.scatter
  refine (foldl_at _ (ix3 r c e) (fun _ b => b) (fun n => upd (D₂ n)) hit ?_ ?_ (· < ·) x
    (fun _ _ => rfl) (fun _ _ _ _ _ => rfl) _ (List.sortedLT_finRange _).pairwise).trans ?_
  · intro r' n hn
    have hp : ix3 r c e = ix3 (⟨(idx (ix2 ((D₂ n) 0) 0)).toNat, hr _⟩ : Fin N0)
        (⟨(idx (ix2 ((D₂ n) 0) 1)).toNat, hc _⟩ : Fin N1) ((D₂ n) 1) :=
      ix3_congr (Fin.ext hn.1.symm) (Fin.ext hn.2.1.symm) (Fin.ext hn.2.2.symm)
    rw [htgt n]
    dsimp only
    rw [if_pos hp]
  · intro r' n hn
    have hp : ¬ ix3 r c e = ix3 (⟨(idx (ix2 ((D₂ n) 0) 0)).toNat, hr _⟩ : Fin N0)
        (⟨(idx (ix2 ((D₂ n) 0) 1)).toNat, hc _⟩ : Fin N1) ((D₂ n) 1) := fun h => by
      obtain ⟨h0, h1, h2⟩ := ix3_inj h
      exact hn ⟨(congrArg Fin.val h0).symm, (congrArg Fin.val h1).symm, (congrArg Fin.val h2).symm⟩
    rw [htgt n]
    dsimp only
    rw [if_neg hp]
  · cases hL : lastHit2 idx r c with
    | none =>
      have hnone : List.find? (fun n => decide (hit n)) (List.finRange (⟨2, ![U, N2]⟩ : Shape).numel).reverse = none :=
        (lastSat_eq_none_iff hit).2 fun b hb =>
          (lastHit2_eq_none_iff idx r c).1 hL ((D₂ b) 0) ⟨hb.1, hb.2.1⟩
      rw [hnone]
      rfl
    | some u =>
      obtain ⟨hu, humax⟩ := (lastHit2_eq_some_iff idx r c u).1 hL
      have hsome : List.find? (fun n => decide (hit n)) (List.finRange (⟨2, ![U, N2]⟩ : Shape).numel).reverse
          = some (E₂ (ix2 u e)) := by
        refine (lastSat_eq_some_iff hit _).2 ⟨?_, ?_⟩
        · show (idx (ix2 ((D₂ (E₂ (ix2 u e))) 0) 0)).toNat = r.val ∧
            (idx (ix2 ((D₂ (E₂ (ix2 u e))) 0) 1)).toNat = c.val ∧ ((D₂ (E₂ (ix2 u e))) 1).val = e.val
          rw [Equiv.symm_apply_apply]
          exact ⟨hu.1, hu.2, rfl⟩
        · intro b hb hbhit
          have hbval : b.val = ((D₂ b) 0).val * N2 + ((D₂ b) 1).val := by
            have := Shape.rowMajor_val_two (d := ![U, N2]) (D₂ b)
            rw [Equiv.apply_symm_apply] at this
            exact this
          have huval : (E₂ (ix2 u e)).val = u.val * N2 + e.val :=
            Shape.rowMajor_val_two (d := ![U, N2]) (ix2 u e)
          have hlt : (E₂ (ix2 u e)).val < b.val := hb
          rw [huval, hbval, hbhit.2.2] at hlt
          have hmul : u.val * N2 < ((D₂ b) 0).val * N2 := by omega
          have hu' : u < (D₂ b) 0 := Nat.lt_of_mul_lt_mul_right hmul
          exact humax _ hu' ⟨hbhit.1, hbhit.2.1⟩
      rw [hsome]
      show upd (D₂ (E₂ (ix2 u e))) = upd (ix2 u e)
      rw [Equiv.symm_apply_apply]

-- From here on `lastHit2` is used through its two characterising facts only.
attribute [irreducible] lastHit2

end Cert.Proof.ScatterLaws
-- ==== Proof.ScatterMax.lean ====
import proofs.«213838_g73864847557071_cont_9to1_m_429_11_alg».proof.Proof.ScatterFold
import Idealize.ShloMosaic.Lib.ValueIdx
import Idealize.ShloMosaic.PureOps

/-!
# A scatter that takes the signed MAXIMUM of increasing positive words at single positions

The operand has one axis `[P]` and starts as zeros; the scatter indices are `U` positions; update `u` is the word
`u + 1`, combined into the operand's element at position `u`'s word by the signed maximum. The words `u + 1` are
positive (below `2^31`) and increase with `u`, and the model's scatter folds over the updates in order, so element `p`
ends as `u + 1` for the GREATEST `u` whose position is `p`, and stays `0` when no position is `p`.
-/

namespace Cert.Proof.ScatterLaws

open Idealize.ShloMosaic Idealize.ShloMosaic.ValueIdx

variable {P U : Nat}

/-- The dimension numbers of `x.at[pos].max(upd)` on a flat operand: no window axis, the operand's one axis inserted
    and named by the index vector (axis 1 of the indices, of length one). -/
abbrev maxDims (P U : Nat)
    (wf : ScatterDims.WF ⟨1, ![P]⟩ ⟨2, ![U, 1]⟩ ⟨1, ![U]⟩ [] [0] [0] 1) :
    ScatterDims ⟨1, ![P]⟩ ⟨2, ![U, 1]⟩ ⟨1, ![U]⟩ where
  updateWindowDims := []
  insertedWindowDims := [0]
  scatterDimsToOperandDims := [0]
  indexVectorDim := 1
  wf := wf

section MaxDims
variable (wf : ScatterDims.WF ⟨1, ![P]⟩ ⟨2, ![U, 1]⟩ ⟨1, ![U]⟩ [] [0] [0] 1)

theorem maxDims_window0 (j : (⟨1, ![U]⟩ : Shape).Idx) : (maxDims P U wf).window j 0 = 0 := rfl

theorem maxDims_start0 {w : Nat} (j : (⟨1, ![U]⟩ : Shape).Idx) (idx : IVec ⟨2, ![U, 1]⟩ w) :
    (maxDims P U wf).start j idx 0 = (idx (ix2 (j 0) 0)).toInt := by
  unfold ScatterDims.start
  rw [dif_pos (show (0 : Fin 1) ∈ (maxDims P U wf).scatterDimsToOperandDims from
    (by decide : (0 : Fin 1) ∈ ([0] : List (Fin 1))))]
  congr 2
  funext b
  match b with
  | ⟨0, _⟩ => rfl
  | ⟨1, _⟩ => rfl

/-- Where update element `j = (u)` lands: the position its word names. -/
theorem maxDims_resultIdx (hP : P ≤ 2 ^ 31) (j : (⟨1, ![U]⟩ : Shape).Idx) (idx : IVec ⟨2, ![U, 1]⟩ 32)
    (hl : (idx (ix2 (j 0) 0)).toNat < P) :
    (maxDims P U wf).resultIdx? j idx = some (ix1 (⟨(idx (ix2 (j 0) 0)).toNat, hl⟩ : Fin P)) := by
  have e0 : (idx (ix2 (j 0) 0)).toInt = ((idx (ix2 (j 0) 0)).toNat : Int) :=
    BitVec.toInt_eq_toNat_of_lt (by omega)
  have s0 : (maxDims P U wf).start j idx 0 + ((maxDims P U wf).window j 0 : Int)
      = ((idx (ix2 (j 0) 0)).toNat : Int) := by
    rw [maxDims_start0, maxDims_window0, e0]; simp
  have h : ∀ a, 0 ≤ (maxDims P U wf).start j idx a + ((maxDims P U wf).window j a : Int) ∧
      (maxDims P U wf).start j idx a + ((maxDims P U wf).window j a : Int)
        < ((⟨1, ![P]⟩ : Shape).size a : Int) := by
    intro a
    match a with
    | ⟨0, _⟩ =>
      show 0 ≤ (maxDims P U wf).start j idx 0 + ((maxDims P U wf).window j 0 : Int) ∧
        (maxDims P U wf).start j idx 0 + ((maxDims P U wf).window j 0 : Int) < (P : Int)
      rw [s0]; omega
  unfold ScatterDims.resultIdx?
  rw [dif_pos h]
  congr 1
  funext a
  match a with
  | ⟨0, _⟩ =>
    refine Fin.ext ?_
    show ((maxDims P U wf).start j idx 0 + ((maxDims P U wf).window j 0 : Int)).toNat = _
    rw [s0]; rfl

end MaxDims

/-- The signed maximum of two words below `2^31`, the second at least the first, is the second. -/
theorem maxsi_ofNat_of_le {a b : Nat} (hab : a ≤ b) (hb : b < 2 ^ 31) :
    IntOp.maxsi (BitVec.ofNat 32 a) (BitVec.ofNat 32 b) = BitVec.ofNat 32 b := by
  have ha : a < 2 ^ 31 := Nat.lt_of_le_of_lt hab hb
  have ta : (BitVec.ofNat 32 a).toNat = a := by rw [BitVec.toNat_ofNat]; exact Nat.mod_eq_of_lt (by omega)
  have tb : (BitVec.ofNat 32 b).toNat = b := by rw [BitVec.toNat_ofNat]; exact Nat.mod_eq_of_lt (by omega)
  have ia : (BitVec.ofNat 32 a).toInt = (a : Int) := by
    rw [BitVec.toInt_eq_toNat_of_lt (by rw [ta]; omega), ta]
  have ib : (BitVec.ofNat 32 b).toInt = (b : Int) := by
    rw [BitVec.toInt_eq_toNat_of_lt (by rw [tb]; omega), tb]
  unfold IntOp.maxsi
  rw [if_neg]
  intro h
  have := BitVec.slt_iff_toInt_lt.1 h
  rw [ia, ib] at this
  omega

/-- Two rank-1 indices given by their coordinate are equal when the coordinates are. -/
theorem ix1_congr {a a' : Fin P} (h : a = a') : ix1 a = ix1 a' := by subst h; rfl

/-- … and only then. -/
theorem ix1_inj {a a' : Fin P} (h : ix1 a = ix1 a') : a = a' := congrFun h 0

/-- The greatest update `u` whose word is the position `p`, if any. -/
def lastHit1 (idx : IVec ⟨2, ![U, 1]⟩ 32) (p : Fin P) : Option (Fin U) :=
  lastSat fun u => (idx (ix2 u 0)).toNat = p.val

theorem lastHit1_eq_some_iff (idx : IVec ⟨2, ![U, 1]⟩ 32) (p : Fin P) (u : Fin U) :
    lastHit1 idx p = some u ↔
      (idx (ix2 u 0)).toNat = p.val ∧ ∀ u', u < u' → ¬ (idx (ix2 u' 0)).toNat = p.val :=
  lastSat_eq_some_iff _ u

theorem lastHit1_eq_none_iff (idx : IVec ⟨2, ![U, 1]⟩ 32) (p : Fin P) :
    lastHit1 idx p = none ↔ ∀ u, ¬ (idx (ix2 u 0)).toNat = p.val :=
  lastSat_eq_none_iff _

set_option quotPrecheck false in
/-- The row-major position of an update element … -/
local notation "E₁" => Shape.rowMajor (⟨1, ![U]⟩ : Shape)
set_option quotPrecheck false in
/-- … and the update element at a row-major position. -/
local notation "D₁" => Equiv.symm (Shape.rowMajor (⟨1, ![U]⟩ : Shape))

/-- THE MAX-SCATTER OF `u + 1` INTO ZEROS READ AT `p`: one more than the last update whose position is `p`; zero when
    no position is `p`. -/
theorem scatter_max_apply
    (wf : ScatterDims.WF ⟨1, ![P]⟩ ⟨2, ![U, 1]⟩ ⟨1, ![U]⟩ [] [0] [0] 1)
    (hP : P ≤ 2 ^ 31) (hU : U < 2 ^ 31)
    (idx : IVec ⟨2, ![U, 1]⟩ 32) (upd : (⟨1, ![U]⟩ : Shape).Idx → BitVec 32)
    (hl : ∀ u : Fin U, (idx (ix2 u 0)).toNat < P)
    (hu : ∀ u : Fin U, upd (ix1 u) = BitVec.ofNat 32 (u.val + 1))
    (p : Fin P) :
    Host.scatter (maxDims P U wf) IntOp.maxsi (fun _ => 0#32) idx upd (ix1 p)
      = match lastHit1 idx p with
        | some u => BitVec.ofNat 32 (u.val + 1)
        | none => 0#32 := by
  -- update element `n` hits `p` when its word is `p`
  let hit : Fin (⟨1, ![U]⟩ : Shape).numel → Prop := fun n => (idx (ix2 ((D₁ n) 0) 0)).toNat = p.val
  haveI : DecidablePred hit := fun n => by
    show Decidable ((idx (ix2 ((D₁ n) 0) 0)).toNat = p.val)
    infer_instance
  have htgt : ∀ n, (maxDims P U wf).resultIdx? (D₁ n) idx
      = some (ix1 (⟨(idx (ix2 ((D₁ n) 0) 0)).toNat, hl _⟩ : Fin P)) :=
    fun n => maxDims_resultIdx wf hP (D₁ n) idx (hl _)
  -- the update's value at element `n`, and that element's coordinate
  have hval : ∀ n, upd (D₁ n) = BitVec.ofNat 32 (((D₁ n) 0).val + 1) := fun n => by
    conv_lhs => rw [eq_ix1 (D₁ n)]
    exact hu _
  have hcoord : ∀ n : Fin (⟨1, ![U]⟩ : Shape).numel, ((D₁ n) 0).val = n.val := fun n => by
    have := Shape.rowMajor_val_one (d := ![U]) (D₁ n)
    rw [Equiv.apply_symm_apply] at this
    exact this.symm
  have hbound : ∀ n : Fin (⟨1, ![U]⟩ : Shape).numel, ((D₁ n) 0).val < U := fun n => ((D₁ n) 0).isLt
  unfold Host.scatter
  refine (foldl_at _ (ix1 p) IntOp.maxsi (fun n => upd (D₁ n)) hit ?_ ?_ (· < ·) (fun _ => 0#32)
    ?_ ?_ _ (List.sortedLT_finRange _).pairwise).trans ?_
  · intro r' n hn
    have hp : ix1 p = ix1 (⟨(idx (ix2 ((D₁ n) 0) 0)).toNat, hl _⟩ : Fin P) := ix1_congr (Fin.ext hn.symm)
    rw [htgt n]
    dsimp only
    rw [if_pos hp, ← hp]
  · intro r' n hn
    have hp : ¬ ix1 p = ix1 (⟨(idx (ix2 ((D₁ n) 0) 0)).toNat, hl _⟩ : Fin P) := fun h =>
      hn (congrArg Fin.val (ix1_inj h)).symm
    rw [htgt n]
    dsimp only
    rw [if_neg hp]
  · intro n _
    show IntOp.maxsi (0#32) (upd (D₁ n)) = upd (D₁ n)
    rw [hval n]
    exact maxsi_ofNat_of_le (a := 0) (Nat.zero_le _) (by have := hbound n; omega)
  · intro m n hmn _ _
    show IntOp.maxsi (upd (D₁ m)) (upd (D₁ n)) = upd (D₁ n)
    rw [hval m, hval n]
    have hlt : m.val < n.val := hmn
    have := hbound n
    exact maxsi_ofNat_of_le (by rw [hcoord m, hcoord n]; omega) (by omega)
  · cases hL : lastHit1 idx p with
    | none =>
      have hnone : List.find? (fun n => decide (hit n)) (List.finRange (⟨1, ![U]⟩ : Shape).numel).reverse = none :=
        (lastSat_eq_none_iff hit).2 fun b hb => (lastHit1_eq_none_iff idx p).1 hL ((D₁ b) 0) hb
      rw [hnone]
      rfl
    | some u =>
      obtain ⟨hu1, humax⟩ := (lastHit1_eq_some_iff idx p u).1 hL
      have hsome : List.find? (fun n => decide (hit n)) (List.finRange (⟨1, ![U]⟩ : Shape).numel).reverse
          = some (E₁ (ix1 u)) := by
        refine (lastSat_eq_some_iff hit _).2 ⟨?_, ?_⟩
        · show (idx (ix2 ((D₁ (E₁ (ix1 u))) 0) 0)).toNat = p.val
          rw [Equiv.symm_apply_apply]
          exact hu1
        · intro b hb hbhit
          have huval : (E₁ (ix1 u)).val = u.val := Shape.rowMajor_val_one (d := ![U]) (ix1 u)
          have hlt : (E₁ (ix1 u)).val < b.val := hb
          rw [huval, ← hcoord b] at hlt
          exact humax _ hlt hbhit
      rw [hsome]
      show upd (D₁ (E₁ (ix1 u))) = BitVec.ofNat 32 (u.val + 1)
      rw [Equiv.symm_apply_apply]
      exact hu u

-- From here on `lastHit1` is used through its two characterising facts only.
attribute [irreducible] lastHit1

end Cert.Proof.ScatterLaws
-- ==== Proof.ScatterLaws.lean ====
import proofs.«213838_g73864847557071_cont_9to1_m_429_11_alg».proof.Proof.Gen.KernelIdeal
import proofs.«213838_g73864847557071_cont_9to1_m_429_11_alg».proof.Proof.Gen.ReferenceIdeal
import proofs.«213838_g73864847557071_cont_9to1_m_429_11_alg».proof.Proof.ScatterSet
import proofs.«213838_g73864847557071_cont_9to1_m_429_11_alg».proof.Proof.ScatterMax

/-!
# The two scatters of this pair of programs, read at one element

The reference writes rows of `unknown_embeddings` over the gathered embeddings at the pairs
`(unknown_rows, unknown_cols)`: where several pairs coincide the LAST one's row is left (`lawA`).
The kernel builds the table `winner` by an integer scatter-maximum of `1 + u` into zeros at the flat positions:
`winner[p]` is one more than the last `u` whose position is `p`, or `0` (`lawB`).
Both are the general laws of `ScatterSet` and `ScatterMax` at the two programs' dimension numbers and sizes.
-/

namespace Cert.Proof.ScatterLaws

open Idealize.ShloMosaic Idealize.ShloMosaic.ValueIdx

/-- LAW A. The reference's `emb.at[rows, cols].set(upd)` read at `(r, c, e)`: the row of the greatest `u` with
    `(rows u, cols u) = (r, c)`, at `e`; the operand's element when there is no such `u`. -/
theorem lawA [Cert.ReferenceIdeal.Facts₀] {α : Type}
    (x : Cert.ReferenceIdeal.S1024x200x128.Idx → α) (idx : IVec Cert.ReferenceIdeal.S40960x2 32)
    (upd : Cert.ReferenceIdeal.S40960x128.Idx → α)
    (hr : ∀ u : Fin 40960, (idx (ix2 u 0)).toNat < 1024) (hc : ∀ u : Fin 40960, (idx (ix2 u 1)).toNat < 200)
    (r : Fin 1024) (c : Fin 200) (e : Fin 128) :
    Host.scatter Cert.ReferenceIdeal.scatter_S1024x200x128_S40960x2_S40960x128_1_01_01_1 (fun _ b => b) x idx upd
        (ix3 r c e)
      = match lastHit2 idx r c with
        | some u => upd (ix2 u e)
        | none => x (ix3 r c e) := by
  refine (scatter_set_apply (N0 := 1024) (N1 := 200) (N2 := 128) (U := 40960)
    Cert.ReferenceIdeal.Facts₀.scatter_S1024x200x128_S40960x2_S40960x128_1_01_01_1_wf
    (by norm_num) (by norm_num) x idx upd hr hc r c e).trans ?_
  cases lastHit2 idx r c <;> rfl

/-- LAW B. The kernel's `zeros.at[pos].max(1 + iota)` read at `p`: one more than the greatest `u` with
    `pos u = p`; zero when there is no such `u`. -/
theorem lawB [Cert.KernelIdeal.Facts₀]
    (idx : IVec Cert.KernelIdeal.S40960x1 32) (upd : Cert.KernelIdeal.S40960.Idx → BitVec 32)
    (hl : ∀ u : Fin 40960, (idx (ix2 u 0)).toNat < 204800)
    (hu : ∀ u : Fin 40960, upd (ix1 u) = BitVec.ofNat 32 (u.val + 1))
    (p : Fin 204800) :
    Host.scatter Cert.KernelIdeal.scatter_S204800_S40960x1_S40960_n_0_0_1 IntOp.maxsi (fun _ => 0#32) idx upd (ix1 p)
      = match lastHit1 idx p with
        | some u => BitVec.ofNat 32 (u.val + 1)
        | none => 0#32 := by
  refine (scatter_max_apply (P := 204800) (U := 40960)
    Cert.KernelIdeal.Facts₀.scatter_S204800_S40960x1_S40960_n_0_0_1_wf
    (by norm_num) (by norm_num) idx upd hl hu p).trans ?_
  cases lastHit1 idx p <;> rfl

end Cert.Proof.ScatterLaws
-- ==== Proof.KIVals.lean ====
import proofs.«213838_g73864847557071_cont_9to1_m_429_11_alg».proof.Proof.KIArrs
import proofs.«213838_g73864847557071_cont_9to1_m_429_11_alg».proof.Proof.ScatterLaws
import Idealize.ShloMosaic.Lib.Pipeline.Value

/-!
# The call's arrays read at an index, and the row numbers' range

Under the ranges of the arguments (rows below 1024, columns below 200, token ids below 100000) the flat position of
update `u` is `200 · rows u + cols u` without wrap-around, below `204800`, so the sign test leaves it alone; the
winners are then the scatter-maximum law: `winners[p]` is one more than the last update at position `p`, or zero.
Every row number the call computes is therefore a row of the table: a winner `w ≤ 40960` gives `w + 100127 < 141088`,
a cached token gives its id below `100000`, and otherwise one of the 128 zero rows from `100000` on.
-/

noncomputable section

namespace Cert.Proof.KI

open Cert.KernelIdeal Cert.KernelIdeal.Gen
open Idealize.ShloMosaic Idealize.ShloMosaic.ValueIdx
open Cert.Proof.ScatterLaws

/-! ## The updates' positions -/

/-- The position of update `u` after the sign test. -/
def posOf (a4 a5 : S40960.Idx → BitVec 32) : S40960.Idx → BitVec 32 :=
  select (cmpi .slt (linOf a4 a5) (broadcastInDim S40960 ![] bcast_S_S40960 (constantI S_ 32 0#32)))
    (addi (linOf a4 a5) (broadcastInDim S40960 ![] bcast_S_S40960 (constantI S_ 32 204800#32))) (linOf a4 a5)

/-- The positions as the scatter's column of indices. -/
def posColOf (a4 a5 : S40960.Idx → BitVec 32) : S40960x1.Idx → BitVec 32 :=
  broadcastInDim S40960x1 ![0] bcast_S40960_S40960x1_0 (posOf a4 a5)

/-- The scatter's updates: one plus the update's number. -/
def updOf : S40960.Idx → BitVec 32 :=
  addi (broadcastInDim S40960 ![] bcast_S_S40960 (constantI S_ 32 1#32)) (iotaInDim S40960 32 0)

/-- The winners over those pieces, from zeros. -/
theorem winOf_eq (a4 a5 : S40960.Idx → BitVec 32) :
    winOf a4 a5 = Host.scatter scatter_S204800_S40960x1_S40960_n_0_0_1 IntOp.maxsi (fun _ => 0#32) (posColOf a4 a5) updOf := by
  unfold winOf
  rfl

theorem linOf_apply (a4 a5 : S40960.Idx → BitVec 32) (i : S40960.Idx) :
    linOf a4 a5 i = IntOp.addi (IntOp.muli (a4 i) 200#32) (a5 i) := rfl

/-- Row below 1024 and column below 200: the position is `200 · row + column`, no wrap-around. -/
theorem linOf_toNat (a4 a5 : S40960.Idx → BitVec 32) (i : S40960.Idx)
    (hr : (a4 i).toNat < 1024) (hc : (a5 i).toNat < 200) :
    (linOf a4 a5 i).toNat = 200 * (a4 i).toNat + (a5 i).toNat := by
  rw [linOf_apply]
  unfold IntOp.addi IntOp.muli
  rw [BitVec.toNat_add, BitVec.toNat_mul]
  show ((a4 i).toNat * 200 % 2 ^ 32 + (a5 i).toNat) % 2 ^ 32 = _
  omega

theorem posOf_apply (a4 a5 : S40960.Idx → BitVec 32) (i : S40960.Idx) :
    posOf a4 a5 i = Scalar.select (IntOp.cmpi .slt (linOf a4 a5 i) 0#32)
      (IntOp.addi (linOf a4 a5 i) 204800#32) (linOf a4 a5 i) := rfl

/-- … and the sign test leaves it alone. -/
theorem posOf_eq_linOf (a4 a5 : S40960.Idx → BitVec 32) (i : S40960.Idx)
    (hr : (a4 i).toNat < 1024) (hc : (a5 i).toNat < 200) :
    posOf a4 a5 i = linOf a4 a5 i := by
  have hlin := linOf_toNat a4 a5 i hr hc
  have hnn : ¬ (linOf a4 a5 i).slt 0#32 = true := by
    intro h
    have h1 := BitVec.slt_iff_toInt_lt.1 h
    rw [BitVec.toInt_eq_toNat_of_lt (by omega), BitVec.toInt_zero] at h1
    omega
  rw [posOf_apply]
  unfold IntOp.cmpi
  show Scalar.select (BitVec.ofBool ((linOf a4 a5 i).slt 0#32)) _ _ = _
  rw [Bool.eq_false_iff.2 hnn]
  exact select_zero _ _

theorem posColOf_apply (a4 a5 : S40960.Idx → BitVec 32) (u : Fin 40960) :
    posColOf a4 a5 (ix2 u 0) = posOf a4 a5 (ix1 u) := by
  unfold posColOf
  exact Idealize.ShloMosaic.broadcastInDim_apply _ _ _ _ (ix1 u) (fun a => by match a with | ⟨0, _⟩ => rfl)

/-- The position of update `u` as a natural number. -/
theorem posColOf_toNat (a4 a5 : S40960.Idx → BitVec 32) (u : Fin 40960)
    (hr : (a4 (ix1 u)).toNat < 1024) (hc : (a5 (ix1 u)).toNat < 200) :
    (posColOf a4 a5 (ix2 u 0)).toNat = 200 * (a4 (ix1 u)).toNat + (a5 (ix1 u)).toNat := by
  rw [posColOf_apply, posOf_eq_linOf a4 a5 _ hr hc, linOf_toNat a4 a5 _ hr hc]

theorem updOf_apply (u : Fin 40960) : updOf (ix1 u) = BitVec.ofNat 32 (u.val + 1) := by
  show IntOp.addi 1#32 (BitVec.ofNat 32 u.val) = _
  unfold IntOp.addi
  rw [Nat.add_comm, BitVec.ofNat_add]

/-! ## The winners -/

section Ranges
variable (a4 a5 : S40960.Idx → BitVec 32)
variable (hr : ∀ u : Fin 40960, (a4 (ix1 u)).toNat < 1024) (hc : ∀ u : Fin 40960, (a5 (ix1 u)).toNat < 200)
include hr hc

/-- THE WINNERS READ AT `p`: one more than the last update whose position is `p`; zero when there is none. -/
theorem winOf_apply (p : Fin 204800) :
    winOf a4 a5 (ix1 p) = match lastHit1 (posColOf a4 a5) p with
      | some u => BitVec.ofNat 32 (u.val + 1)
      | none => 0#32 := by
  rw [winOf_eq]
  refine (lawB (posColOf a4 a5) updOf
    (fun u => by rw [posColOf_toNat a4 a5 u (hr u) (hc u)]; have := hr u; have := hc u; omega)
    updOf_apply p).trans ?_
  cases lastHit1 (posColOf a4 a5) p <;> rfl

/-- A winner is at most the number of updates. -/
theorem winOf_toNat_le (p : S204800.Idx) : (winOf a4 a5 p).toNat ≤ 40960 := by
  obtain ⟨q, rfl⟩ : ∃ q : Fin 204800, p = ix1 q := ⟨p 0, eq_ix1 p⟩
  rw [winOf_apply a4 a5 hr hc]
  cases lastHit1 (posColOf a4 a5) q with
  | none => show (0#32).toNat ≤ 40960; decide
  | some u =>
    show (BitVec.ofNat 32 (u.val + 1)).toNat ≤ 40960
    rw [BitVec.toNat_ofNat]
    have := u.isLt
    omega

end Ranges

/-! ## The row numbers name rows of the table -/

/-- Token id below 100000 and winner at most 40960: the row number is below 141088, whatever the flag and the place. -/
theorem idxAt_lt (t f w pos : BitVec 32) (ht : t.toNat < 100000) (hw : w.toNat ≤ 40960) :
    (idxAt t f w pos).toNat < 141088 := by
  unfold idxAt Scalar.select
  split
  · unfold IntOp.addi
    rw [BitVec.toNat_add]
    show (w.toNat + 100127 % 2 ^ 32) % 2 ^ 32 < 141088
    omega
  · split
    · omega
    · unfold IntOp.addi IntOp.andi
      rw [BitVec.toNat_add, BitVec.toNat_and]
      have h127 : pos.toNat &&& (127#32).toNat ≤ 127 := Nat.and_le_right
      show (100000 % 2 ^ 32 + (pos.toNat &&& (127#32).toNat)) % 2 ^ 32 < 141088
      omega

/-- THE ROW NUMBERS' RANGE, over the arrays as terms of the arguments. -/
theorem idxOK_of_ranges (a2 a3 : S1024x200.Idx → BitVec 32) (a4 a5 : S40960.Idx → BitVec 32)
    (ht : ∀ i, (a2 i).toNat < 100000)
    (hr : ∀ u : Fin 40960, (a4 (ix1 u)).toNat < 1024) (hc : ∀ u : Fin 40960, (a5 (ix1 u)).toNat < 200)
    (p : S204800.Idx) :
    (idxG (shapeCast S204800 a2 shapeCasts_S1024x200_S204800) (shapeCast S204800 a3 shapeCasts_S1024x200_S204800)
      (winOf a4 a5) p).toNat < 141088 :=
  idxAt_lt _ _ _ _ (ht _) (winOf_toNat_le a4 a5 hr hc p)

/-- … and over the call's arrays at a launch memory whose argument arrays are in range. -/
theorem idxOK_arrs {F : FTy → Type} [FloatOps F] (m : (ℓ : Loc nD τ sig) → Buf (Elt F) ℓ)
    (ht : ∀ (d : Dev nD) i, (m ((SparseCore.T d).loc main_arg2) i).toNat < 100000)
    (hr : ∀ (d : Dev nD) (u : Fin 40960), (m ((SparseCore.T d).loc main_arg4) (ix1 u)).toNat < 1024)
    (hc : ∀ (d : Dev nD) (u : Fin 40960), (m ((SparseCore.T d).loc main_arg5) (ix1 u)).toNat < 200) :
    IdxOK (arrs m) :=
  fun d p => idxOK_of_ranges (m ((SparseCore.T d).loc main_arg2)) (m ((SparseCore.T d).loc main_arg3))
    (m ((SparseCore.T d).loc main_arg4)) (m ((SparseCore.T d).loc main_arg5)) (ht d) (hr d) (hc d) p

end Cert.Proof.KI

end
-- ==== Proof.KIBridge.lean ====
import proofs.«213838_g73864847557071_cont_9to1_m_429_11_alg».proof.Proof.KIVals
import proofs.«213838_g73864847557071_cont_9to1_m_429_11_alg».proof.Proof.RefRead

/-!
# The kernel's output is the reference's first result

Position `p = 200 · r + c` of the flattened grid reads row `idx p` of the table (cache rows, 128 zero rows, fresh
rows). When some update's pair is `(r, c)`, the winner is one more than the last such `u` and the row is the fresh
row `u`: the reference's scatter leaves the same row there, the last writer's. Otherwise the reference keeps
`table[ids[r, c]]` times the flag: with the flag `1` the kernel reads that cached row, with the flag `0` one of the
zero rows, and an extended real times zero is zero. The pairs `(rows u, cols u) = (r, c)` and the flat positions
`200 · rows u + cols u = 200 · r + c` name the same updates because every column is below `200`.
-/

noncomputable section

namespace Cert.Proof.KI

open Cert.KernelIdeal Cert.KernelIdeal.Gen
open Idealize.ShloMosaic Idealize.ShloMosaic.ValueIdx
open Cert.Proof.ScatterLaws

/-! ## The table read at a row -/

section Table
variable {F : FTy → Type} [FloatOps F]
variable (a0 : S100000x128.Idx → Elt F .f32) (a1 : S40960x128.Idx → Elt F .f32)

/-- The table's three pieces, in order. -/
abbrev tblPieces : List ((s : Shape) × (s.Idx → Elt F .f32)) :=
  [⟨S100000x128, a0⟩,
   ⟨S128x128, broadcastInDim S128x128 ![] bcast_S_S128x128 (constant (F := F) S_ .f32 0x00000000#32)⟩,
   ⟨S40960x128, a1⟩]

/-- A row below `100000` is the cache's row. -/
theorem tblOf_cache (row : Fin 141088) (e : Fin 128) (h : row.val < 100000) :
    tblOf a0 a1 (ix2 row e) = a0 (ix2 (⟨row.val, h⟩ : Fin 100000) e) := by
  unfold tblOf
  refine concatenate_apply_piece (t := S141088x128) (0 : Fin 2) (tblPieces a0 a1)
    concatenates_S100000x128_S128x128_S40960x128_S141088x128_d0 (ix2 row e) 0 ?_ S100000x128 a0 rfl rfl 0 rfl
    (ix2 (⟨row.val, h⟩ : Fin 100000) e)
    (fun b hb => by match b with | ⟨0, _⟩ => exact absurd rfl hb | ⟨1, _⟩ => rfl) ?_
  · simp
  · show 0 + row.val = row.val; omega

/-- A row from `100000` to `100127` is a row of zeros: the zero literal. -/
theorem tblOf_zero (row : Fin 141088) (e : Fin 128) (h1 : 100000 ≤ row.val) (h2 : row.val < 100128) :
    tblOf a0 a1 (ix2 row e) = FloatOps.ofBits (F := F) .f32 0x00000000#32 := by
  unfold tblOf
  refine concatenate_apply_piece (t := S141088x128) (0 : Fin 2) (tblPieces a0 a1)
    concatenates_S100000x128_S128x128_S40960x128_S141088x128_d0 (ix2 row e) 1 ?_ S128x128 _ rfl rfl 100000 rfl
    (ix2 (⟨row.val - 100000, by omega⟩ : Fin 128) e)
    (fun b hb => by match b with | ⟨0, _⟩ => exact absurd rfl hb | ⟨1, _⟩ => rfl) ?_
  · simp
  · show 100000 + (row.val - 100000) = row.val; omega

/-- A row from `100128` on is a fresh embedding's row. -/
theorem tblOf_fresh (row : Fin 141088) (e : Fin 128) (h : 100128 ≤ row.val) :
    tblOf a0 a1 (ix2 row e) = a1 (ix2 (⟨row.val - 100128, by have := row.isLt; omega⟩ : Fin 40960) e) := by
  unfold tblOf
  refine concatenate_apply_piece (t := S141088x128) (0 : Fin 2) (tblPieces a0 a1)
    concatenates_S100000x128_S128x128_S40960x128_S141088x128_d0 (ix2 row e) 2 ?_ S40960x128 a1 rfl rfl 100128 rfl
    (ix2 (⟨row.val - 100128, by have := row.isLt; omega⟩ : Fin 40960) e)
    (fun b hb => by match b with | ⟨0, _⟩ => exact absurd rfl hb | ⟨1, _⟩ => rfl) ?_
  · simp
  · show 100128 + (row.val - 100128) = row.val; omega

end Table

/-! ## The flattened arrays read at a position -/

/-- A `[1024, 200]` array flattened, read at position `200 · r + c`: the array at `(r, c)`. -/
theorem flat_apply (a : S1024x200.Idx → BitVec 32) (r : Fin 1024) (c : Fin 200) (P : Fin 204800)
    (hP : P.val = 200 * r.val + c.val) :
    shapeCast S204800 a shapeCasts_S1024x200_S204800 (ix1 P) = a (ix2 r c) := by
  refine shapeCast_apply a _ (ix1 P) (ix2 r c) ?_
  have h2 := Shape.rowMajor_val_two (d := ![1024, 200]) (ix2 r c)
  have h1 := Shape.rowMajor_val_one (d := ![204800]) (ix1 P)
  rw [h2, h1]
  show r.val * 200 + c.val = P.val
  omega

/-- … and at position `p`: the array at `(p / 200, p % 200)`. -/
theorem flat_apply_divmod (a : S1024x200.Idx → BitVec 32) (P : Fin 204800) :
    shapeCast S204800 a shapeCasts_S1024x200_S204800 (ix1 P)
      = a (ix2 (⟨P.val / 200, by have := P.isLt; omega⟩ : Fin 1024) (⟨P.val % 200, Nat.mod_lt _ (by decide)⟩ : Fin 200)) :=
  flat_apply a _ _ P (by show P.val = 200 * (P.val / 200) + P.val % 200; omega)

/-! ## The row number, case by case -/

/-- A positive winner `u + 1`: row `100128 + u`. -/
theorem idxAt_win (t f pos : BitVec 32) (u : Nat) (hu : u < 40960) :
    (idxAt t f (BitVec.ofNat 32 (u + 1)) pos).toNat = u + 100128 := by
  have hw : (BitVec.ofNat 32 (u + 1)).toNat = u + 1 := by rw [BitVec.toNat_ofNat]; omega
  have hpos : IntOp.cmpi .sgt (BitVec.ofNat 32 (u + 1)) 0#32 = 1#1 := by
    unfold IntOp.cmpi
    show BitVec.ofBool ((0#32).slt (BitVec.ofNat 32 (u + 1))) = 1#1
    have : (0#32).slt (BitVec.ofNat 32 (u + 1)) = true := by
      rw [BitVec.slt_iff_toInt_lt, BitVec.toInt_zero, BitVec.toInt_eq_toNat_of_lt (by omega), hw]
      omega
    rw [this]; rfl
  unfold idxAt
  rw [hpos, select_one]
  unfold IntOp.addi
  rw [BitVec.toNat_add, hw]
  show (u + 1 + 100127 % 2 ^ 32) % 2 ^ 32 = u + 100128
  omega

/-- No winner, the flag set: the token's id. -/
theorem idxAt_cached (t pos : BitVec 32) : idxAt t 1#32 0#32 pos = t := by
  unfold idxAt
  rw [show IntOp.cmpi .sgt (0#32) 0#32 = 0#1 from by decide, select_zero,
    show IntOp.cmpi .sgt (1#32) 0#32 = 1#1 from by decide, select_one]

/-- No winner, the flag clear: one of the 128 rows from `100000` on. -/
theorem idxAt_clear (t pos : BitVec 32) :
    100000 ≤ (idxAt t 0#32 0#32 pos).toNat ∧ (idxAt t 0#32 0#32 pos).toNat < 100128 := by
  unfold idxAt
  rw [show IntOp.cmpi .sgt (0#32) 0#32 = 0#1 from by decide, select_zero, select_zero]
  unfold IntOp.addi IntOp.andi
  rw [BitVec.toNat_add, BitVec.toNat_and]
  have h127 : pos.toNat &&& (127#32).toNat ≤ 127 := Nat.and_le_right
  show 100000 ≤ (100000 % 2 ^ 32 + (pos.toNat &&& (127#32).toNat)) % 2 ^ 32 ∧
    (100000 % 2 ^ 32 + (pos.toNat &&& (127#32).toNat)) % 2 ^ 32 < 100128
  omega

/-- A word that is `0` or `1` as a natural number. -/
theorem word_zero_or_one {x : BitVec 32} (h : x.toNat ≤ 1) : x = 0#32 ∨ x = 1#32 := by
  rcases Nat.le_one_iff_eq_zero_or_eq_one.1 h with h0 | h1
  · exact Or.inl (BitVec.eq_of_toNat_eq (by rw [h0]; rfl))
  · exact Or.inr (BitVec.eq_of_toNat_eq (by rw [h1]; rfl))

/-! ## The bridge -/

section Bridge
variable (a0 : S100000x128.Idx → EReal) (a1 : S40960x128.Idx → EReal) (a2 a3 : S1024x200.Idx → BitVec 32)
  (a4 a5 : S40960.Idx → BitVec 32)
variable (ht : ∀ i, (a2 i).toNat < 100000) (hf : ∀ i, (a3 i).toNat ≤ 1)
  (hr : ∀ u : Fin 40960, (a4 (ix1 u)).toNat < 1024) (hc : ∀ u : Fin 40960, (a5 (ix1 u)).toNat < 200)

include hr hc in
/-- The last update whose pair is `(r, c)` is the last update whose flat position is `200 · r + c`. -/
theorem lastHit_bridge (r : Fin 1024) (c : Fin 200) (P : Fin 204800) (hP : P.val = 200 * r.val + c.val) :
    lastHit2 (Cert.ReferenceIdeal.RefRun.idxTerm a4 a5) r c = lastHit1 (posColOf a4 a5) P := by
  have hr' : ∀ i : S40960.Idx, (a4 i).toNat < 1024 := fun i => by rw [eq_ix1 i]; exact hr _
  have hc' : ∀ i : S40960.Idx, (a5 i).toNat < 200 := fun i => by rw [eq_ix1 i]; exact hc _
  have hiff : ∀ u : Fin 40960,
      ((Cert.ReferenceIdeal.RefRun.idxTerm a4 a5 (ix2 u 0)).toNat = r.val ∧
        (Cert.ReferenceIdeal.RefRun.idxTerm a4 a5 (ix2 u 1)).toNat = c.val) ↔
      (posColOf a4 a5 (ix2 u 0)).toNat = P.val := by
    intro u
    rw [Cert.ReferenceIdeal.RefRead.idxTerm_col0 a4 a5 hr' u, Cert.ReferenceIdeal.RefRead.idxTerm_col1 a4 a5 hc' u,
      posColOf_toNat a4 a5 u (hr u) (hc u), hP]
    have := hr u; have := hc u; have := c.isLt
    constructor
    · rintro ⟨h1, h2⟩; rw [h1, h2]
    · intro h; constructor <;> omega
  cases h1 : lastHit1 (posColOf a4 a5) P with
  | none =>
    exact (lastHit2_eq_none_iff _ r c).2 fun u hu => (lastHit1_eq_none_iff _ P).1 h1 u ((hiff u).1 hu)
  | some u =>
    obtain ⟨hu, hmax⟩ := (lastHit1_eq_some_iff _ P u).1 h1
    exact (lastHit2_eq_some_iff _ r c u).2 ⟨(hiff u).2 hu, fun u' hlt h' => hmax u' hlt ((hiff u').1 h')⟩

include ht hf hr hc in
/-- THE KERNEL'S OUTPUT IS THE REFERENCE'S FIRST RESULT, element by element: row `200 · r + c` of the gathered rows, at
    `e`, is the reference's embedding at `(r, c, e)`. -/
theorem out_eq_emb (r : Fin 1024) (c : Fin 200) (e : Fin 128) (P : Fin 204800) (hP : P.val = 200 * r.val + c.val) :
    outG (F := Ideal) (tblOf (F := Ideal) a0 a1)
        (idxG (shapeCast S204800 a2 shapeCasts_S1024x200_S204800) (shapeCast S204800 a3 shapeCasts_S1024x200_S204800)
          (winOf a4 a5)) (ix2 P e)
      = Cert.ReferenceIdeal.RefRun.embTerm a0 a1 a2 a3 a4 a5 (ix3 r c e) := by
  have hr' : ∀ i : S40960.Idx, (a4 i).toNat < 1024 := fun i => by rw [eq_ix1 i]; exact hr _
  have hc' : ∀ i : S40960.Idx, (a5 i).toNat < 200 := fun i => by rw [eq_ix1 i]; exact hc _
  -- the reference's side: the set-scatter law, over the flat positions' last hit
  rw [Cert.ReferenceIdeal.RefRead.embTerm_eq a0 a1 a2 a3 a4 a5 ht]
  refine Eq.trans ?_ (lawA _ (Cert.ReferenceIdeal.RefRun.idxTerm a4 a5) a1
    (fun u => by rw [Cert.ReferenceIdeal.RefRead.idxTerm_col0 a4 a5 hr' u]; exact hr u)
    (fun u => by rw [Cert.ReferenceIdeal.RefRead.idxTerm_col1 a4 a5 hc' u]; exact hc u) r c e).symm
  rw [lastHit_bridge a4 a5 hr hc r c P hP]
  -- the kernel's side: the row number at position P
  show tblOf (F := Ideal) a0 a1 (ix2 (Fin.ofNat 141088
      (idxAt (shapeCast S204800 a2 shapeCasts_S1024x200_S204800 (ix1 P))
        (shapeCast S204800 a3 shapeCasts_S1024x200_S204800 (ix1 P)) (winOf a4 a5 (ix1 P))
        (BitVec.ofNat 32 (P.val % 6400))).toNat) e) = _
  rw [flat_apply a2 r c P hP, flat_apply a3 r c P hP, winOf_apply a4 a5 hr hc P]
  cases lastHit1 (posColOf a4 a5) P with
  | some u =>
    show tblOf (F := Ideal) a0 a1 (ix2 (Fin.ofNat 141088
      (idxAt (a2 (ix2 r c)) (a3 (ix2 r c)) (BitVec.ofNat 32 (u.val + 1)) (BitVec.ofNat 32 (P.val % 6400))).toNat) e)
      = a1 (ix2 u e)
    rw [idxAt_win _ _ _ u.val u.isLt]
    have hlt : u.val + 100128 < 141088 := by have := u.isLt; omega
    have hrow : Fin.ofNat 141088 (u.val + 100128) = (⟨u.val + 100128, hlt⟩ : Fin 141088) :=
      Fin.ext (Nat.mod_eq_of_lt hlt)
    rw [hrow, tblOf_fresh (F := Ideal) a0 a1 ⟨u.val + 100128, hlt⟩ e (by show 100128 ≤ u.val + 100128; omega)]
    exact congrArg (fun q : Fin 40960 => a1 (ix2 q e)) (Fin.ext (by show u.val + 100128 - 100128 = u.val; omega))
  | none =>
    show tblOf (F := Ideal) a0 a1 (ix2 (Fin.ofNat 141088
      (idxAt (a2 (ix2 r c)) (a3 (ix2 r c)) 0#32 (BitVec.ofNat 32 (P.val % 6400))).toNat) e)
      = a0 (ix2 (⟨(a2 (ix2 r c)).toNat, ht _⟩ : Fin 100000) e) * (((a3 (ix2 r c)).toInt : ℝ) : EReal)
    rcases word_zero_or_one (hf (ix2 r c)) with h0 | h1
    · -- the flag clear: a zero row against the cached row times zero
      rw [h0]
      obtain ⟨hlo, hhi⟩ := idxAt_clear (a2 (ix2 r c)) (BitVec.ofNat 32 (P.val % 6400))
      have hlt : (idxAt (a2 (ix2 r c)) 0#32 0#32 (BitVec.ofNat 32 (P.val % 6400))).toNat < 141088 := by omega
      have hrow : Fin.ofNat 141088 (idxAt (a2 (ix2 r c)) 0#32 0#32 (BitVec.ofNat 32 (P.val % 6400))).toNat
          = (⟨_, hlt⟩ : Fin 141088) := Fin.ext (Nat.mod_eq_of_lt hlt)
      rw [hrow, tblOf_zero (F := Ideal) a0 a1 ⟨_, hlt⟩ e hlo hhi]
      have hz : FloatOps.ofBits (F := Ideal) .f32 0x00000000#32 = (0 : EReal) := by
        show Ideal.ofBits .f32 0x00000000#32 = 0
        simp [Ideal.ofBits, Ideal.ieee]
      rw [hz]
      show (0 : EReal) = _ * (((0#32 : BitVec 32).toInt : ℝ) : EReal)
      rw [BitVec.toInt_zero]
      simp
    · -- the flag set: the cached row against itself times one
      rw [h1, idxAt_cached]
      have hlt : (a2 (ix2 r c)).toNat < 141088 := by have := ht (ix2 r c); omega
      have hrow : Fin.ofNat 141088 (a2 (ix2 r c)).toNat = (⟨_, hlt⟩ : Fin 141088) := Fin.ext (Nat.mod_eq_of_lt hlt)
      rw [hrow, tblOf_cache (F := Ideal) a0 a1 ⟨_, hlt⟩ e (ht _)]
      have h1i : ((1#32 : BitVec 32).toInt : ℝ) = 1 := by
        rw [show (1#32 : BitVec 32).toInt = 1 from by decide]; simp
      rw [h1i]
      simp

end Bridge

end Cert.Proof.KI

end
-- ==== Proof.EmbBridge.lean ====
/- The kernel program's output against the reference's first result. The SparseCore call writes a flat array of
   204800 rows; the program's last line views it as [1024, 200, 128], row `200 r + c` becoming entry `(r, c)`. Entry
   by entry that is the reference's scatter over `table[id] * flag`, when the integer arguments are in range. -/
import proofs.«213838_g73864847557071_cont_9to1_m_429_11_alg».proof.Proof.KIBridge
import Idealize.ShloMosaic.Lib.Pipeline.Value

noncomputable section

namespace Cert.Proof.EmbBridge

open Idealize.ShloMosaic Idealize.ShloMosaic.TcCoe Idealize.SL.Sem Idealize.ShloMosaic.ValueIdx
open Cert.KernelIdeal

/-- THE VALUE BRIDGE's first half: the kernel program's output rows, viewed as [1024, 200, 128] (row `200 r + c` of
    the flat output is entry `(r, c)`), are the reference's first result, when the integer arguments are in range. -/
theorem out_reshape_eq_emb (m : (ℓ : Loc nD τ sig) → Buf (Elt Ideal) ℓ) (d : Dev nD)
    (hsc : S204800x128.ShapeCasts S1024x200x128)
    (ht : ∀ i, (m ((SparseCore.T d).loc main_arg2) i).toNat < 100000)
    (hf : ∀ i, (m ((SparseCore.T d).loc main_arg3) i).toNat ≤ 1)
    (hr : ∀ i, (m ((SparseCore.T d).loc main_arg4) i).toNat < 1024)
    (hc : ∀ i, (m ((SparseCore.T d).loc main_arg5) i).toNat < 200) :
    shapeCast S1024x200x128 (KI.outOf (KI.arrs m) d) hsc
      = Cert.ReferenceIdeal.RefRun.embTerm (m ((SparseCore.T d).loc main_arg0)) (m ((SparseCore.T d).loc main_arg1))
          (m ((SparseCore.T d).loc main_arg2)) (m ((SparseCore.T d).loc main_arg3))
          (m ((SparseCore.T d).loc main_arg4)) (m ((SparseCore.T d).loc main_arg5)) := by
  funext j
  obtain ⟨r, c, e, rfl⟩ : ∃ (r : Fin 1024) (c : Fin 200) (e : Fin 128), j = ix3 r c e := ⟨j 0, j 1, j 2, eq_ix3 j⟩
  have hlt : 200 * r.val + c.val < 204800 := by omega
  rw [← KI.out_eq_emb _ _ _ _ _ _ ht hf (fun u => hr (ix1 u)) (fun u => hc (ix1 u)) r c e ⟨200 * r.val + c.val, hlt⟩ rfl,
    shapeCast_apply _ hsc (ix3 r c e) (ix2 (⟨200 * r.val + c.val, hlt⟩ : Fin 204800) e) (by
      rw [Shape.rowMajor_val_two, Shape.rowMajor_val_three]
      show (200 * r.val + c.val) * 128 + e.val = (r.val * 200 + c.val) * 128 + e.val
      omega)]
  rfl

end Cert.Proof.EmbBridge

end
-- ==== Proof.KBSetup.lean ====
/-
  The embedding lookup's SparseCore call as the launch theorem sees it: the configuration, the ghost state, the arrays
  the call moves between the TensorCore and the thirty-two vector subcores, and what each handshake carries.

  Worker `w = 2·s + c` (vector subcore `s` of SparseCore `c`) owns positions `[6400·w, 6400·(w+1))` of the flattened
  token grid: it reads its slices of the token ids, the cache flags and the winners, builds its 6400 row numbers, and
  gathers those rows of the table into its slice of the output, 128 rows at a time. The table is read by every worker:
  each holds one of thirty-two pieces of its share.
-/
import proofs.«213838_g73864847557071_cont_9to1_m_429_11_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«213838_g73864847557071_cont_9to1_m_429_11_alg».proof.Proof.Gen.Kernel
import proofs.«213838_g73864847557071_cont_9to1_m_429_11_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the mask pipeline's staging rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb
instance ER_landsIn : (ER : Emb UR 𝕄).LandsIn (upEmb : UEmb _ 𝕄) := by unfold ER; infer_instance

/-! ## The arrays of the call -/

abbrev tblLoc (d : Dev nD) : Loc nD τ sig := (SparseCore.T d).loc main_v1
abbrev tidLoc (d : Dev nD) : Loc nD τ sig := (SparseCore.T d).loc main_v16
abbrev flgLoc (d : Dev nD) : Loc nD τ sig := (SparseCore.T d).loc main_v17
abbrev winLoc (d : Dev nD) : Loc nD τ sig := (SparseCore.T d).loc main_v15
abbrev outLoc (d : Dev nD) : Loc nD τ sig := (SparseCore.T d).loc main_v18

/-- The worker number of vector subcore `s` of SparseCore `c`. -/
def wid (c : Fin 2) (s : Fin 16) : Fin 32 := ⟨s.val * 2 + c.val, by omega⟩

theorem pdiv : 32 ∣ S204800.size 0 := ⟨6400, rfl⟩
theorem odiv : 32 ∣ S204800x128.size 0 := ⟨6400, rfl⟩
/-- Worker `w`'s 6400 positions, and its 6400 rows of the output. -/
abbrev posRect (w : Fin 32) : Rect S204800 := Rect.part (s := S204800) (a₀ := 0) pdiv w
abbrev outRect (w : Fin 32) : Rect S204800x128 := Rect.part (s := S204800x128) (a₀ := 0) odiv w
abbrev posSet (w : Fin 32) : Finset S204800.Idx := (posRect w).set
abbrev outSet (w : Fin 32) : Finset S204800x128.Idx := (outRect w).set

/-- Worker `w`'s piece of a share of the table. -/
abbrev tq (w : Fin 32) : PosShare TreeShare := pieceOf fullShare 32 (by decide) w

/-! ## The values -/

/-- The table row a position reads: an unknown token's fresh embedding (row `100128 + (w − 1)`, `w` its winner) when it
    has one; else its cached row when the flag is set; else one of the 128 zero rows after the cache (which one is
    picked by the position's place in its 128-chunk). -/
def idxAt (t f w pos : BitVec 32) : BitVec 32 :=
  Scalar.select (IntOp.cmpi .sgt w 0#32) (IntOp.addi w 100127#32)
    (Scalar.select (IntOp.cmpi .sgt f 0#32) t (IntOp.addi 100000#32 (IntOp.andi pos 127#32)))

/-- The row numbers over the whole flattened grid (a position's place inside its worker's slice is `p mod 6400`). -/
def idxG (tid flg win : S204800.Idx → BitVec 32) : S204800.Idx → BitVec 32 :=
  fun p => idxAt (tid p) (flg p) (win p) (BitVec.ofNat 32 ((p 0).val % 6400))

/-- The output: row `p` is the table's row `idx p`. -/
def outG (tbl : S141088x128.Idx → Elt F .f32) (idx : S204800.Idx → BitVec 32) : S204800x128.Idx → Elt F .f32 :=
  fun j => tbl (ValueIdx.ix2 (Fin.ofNat 141088 (idx (ValueIdx.ix1 (j 0))).toNat) (j 1))

/-- What the arrays of the call hold on device `d` when @main reaches it. -/
structure CallArrs (d : Dev nD) where
  tbl : Buf (Elt F) (tblLoc d)
  tid : Buf (Elt F) (tidLoc d)
  flg : Buf (Elt F) (flgLoc d)
  win : Buf (Elt F) (winLoc d)
  out0 : Buf (Elt F) (outLoc d)

variable (A : (d : Dev nD) → CallArrs (F := F) d)

/-- The row numbers and the output the call computes from those arrays. -/
def idxOf (d : Dev nD) : S204800.Idx → BitVec 32 := idxG (A d).tid (A d).flg (A d).win
def outOf (d : Dev nD) : Buf (Elt F) (outLoc d) := outG (F := F) (A d).tbl (idxOf A d)

/-- What the proof asks of the arrays: every row number names a row of the table. -/
def IdxOK : Prop := ∀ (d : Dev nD) (p : S204800.Idx), (idxOf A d p).toNat < 141088

/-! ## What the handshakes carry -/

/-- A worker's operands: its piece of the table's share, its slices of the three index arrays, its rows of the output. -/
def goRes (d : Dev nD) (w : Fin 32) : sProp 𝕄 :=
  iprop((tblLoc d ↦{tq w} (A d).tbl) ∗ (tidLoc d ↦[posSet w]{fullShare} (A d).tid) ∗ (flgLoc d ↦[posSet w]{fullShare} (A d).flg)
    ∗ (winLoc d ↦[posSet w]{fullShare} (A d).win) ∗ (outLoc d ↦[outSet w]{fullShare} (A d).out0))
/-- and what it hands back: the same, its rows of the output at the gathered rows. -/
def tdRes (d : Dev nD) (w : Fin 32) : sProp 𝕄 :=
  iprop((tblLoc d ↦{tq w} (A d).tbl) ∗ (tidLoc d ↦[posSet w]{fullShare} (A d).tid) ∗ (flgLoc d ↦[posSet w]{fullShare} (A d).flg)
    ∗ (winLoc d ↦[posSet w]{fullShare} (A d).win) ∗ ∃ f, (outLoc d ↦[outSet w]{fullShare} f) ∗ ⌜∀ j ∈ outSet w, f j = outOf A d j⌝)

def P : (K (F := F)).Pay (nD := nD) (Val := Elt F) (Name := ℕ) (U := UU) where
  st := fun q d c => match q with
    | 0 => bigSep Finset.univ fun s : Fin 16 => goRes A d (wid (Fin.cast nCore_zero c) s)
  dn := fun q d c => match q with
    | 0 => bigSep Finset.univ fun s : Fin 16 => tdRes A d (wid (Fin.cast nCore_zero c) s)
  go := fun q d c i => match q with
    | 0 => goRes A d (wid (Fin.cast nCore_zero c) (Fin.cast nSub_zero i))
  td := fun q d c i => match q with
    | 0 => tdRes A d (wid (Fin.cast nCore_zero c) (Fin.cast nSub_zero i))
  x := fun _ _ => iprop(emp)

instance goRes_storable (d : Dev nD) (w : Fin 32) : BI.Storable (upEmb : UEmb _ 𝕄) (goRes A d w) := by unfold goRes; infer_instance
instance tdRes_storable (d : Dev nD) (w : Fin 32) : BI.Storable (upEmb : UEmb _ 𝕄) (tdRes A d w) := by unfold tdRes; infer_instance

instance P_storable : (P (F := F) A).IsStorable where
  st q d c := match q with | 0 => (inferInstance : BI.Storable (upEmb : UEmb _ 𝕄) (bigSep Finset.univ fun s : Fin 16 => goRes A d (wid (Fin.cast nCore_zero c) s)))
  dn q d c := match q with | 0 => (inferInstance : BI.Storable (upEmb : UEmb _ 𝕄) (bigSep Finset.univ fun s : Fin 16 => tdRes A d (wid (Fin.cast nCore_zero c) s)))
  go q d c i := match q with | 0 => (inferInstance : BI.Storable (upEmb : UEmb _ 𝕄) (goRes A d (wid (Fin.cast nCore_zero c) (Fin.cast nSub_zero i))))
  td q d c i := match q with | 0 => (inferInstance : BI.Storable (upEmb : UEmb _ 𝕄) (tdRes A d (wid (Fin.cast nCore_zero c) (Fin.cast nSub_zero i))))

/-- A SparseCore's operands are its sixteen workers', and its results theirs. -/
theorem vecSplit : (K (F := F)).VecSplit' (P A) 0 := by
  intro d c
  show (bigSep Finset.univ fun s : Fin 16 => goRes A d (wid (Fin.cast nCore_zero c) s)) ⊢ |={Set.univ}=> iprop(
      (bigSep Finset.univ fun i : Fin ((K (F := F)).nSub 0) => goRes A d (wid (Fin.cast nCore_zero c) (Fin.cast nSub_zero i)))
      ∗ ((bigSep Finset.univ fun i : Fin ((K (F := F)).nSub 0) => tdRes A d (wid (Fin.cast nCore_zero c) (Fin.cast nSub_zero i)))
          -∗ bigSep Finset.univ fun s : Fin 16 => tdRes A d (wid (Fin.cast nCore_zero c) s)))
  iintro H; imodintro
  isplitl [H]; · iexact H
  iintro H; iexact H

end Cert.Proof.KB

end
-- ==== Proof.KBArrs.lean ====
/-
  @main of the embedding lookup's kernel program, before the call: the host operations as one straight line, the
  TensorCore's unscoped buffers as one held set, and the arrays of the call as terms of the arguments.
-/
import proofs.«213838_g73864847557071_cont_9to1_m_429_11_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq seq after launchContents)
open Idealize.ShloMosaic.Tactic

variable {F : FTy → Type}

local notation "𝕄" => MT nD τ sig (HIx 1) (Elt F) ℕ UU ℕ

/-! ## The host operations before the call -/

section Ops
variable [FloatOps F]

/-- The twenty-four operations @main runs before the call, in order: the table (the cache, 128 zero rows, the fresh
    embeddings), the flattened positions of the updates, the winners (a scatter-max of the update numbers from zero),
    the flattened token ids and flags. -/
abbrev hostOps : List (HloOp τ sig (Elt F)) :=
  [ StableHlo.nullary main_cst (constant S_ .f32 0x00000000#32),
    StableHlo.unary main_cst main_v0 (broadcastInDim S128x128 ![] bcast_S_S128x128 : (⟨S_, .f32⟩ : BufTy).Contents (Elt F) → (⟨S128x128, .f32⟩ : BufTy).Contents (Elt F)),
    StableHlo.nary ![main_arg0, main_v0, main_arg1] main_v1 (fun u => concatenate S141088x128 0 [⟨S100000x128, u 0⟩, ⟨S128x128, u 1⟩, ⟨S40960x128, u 2⟩] concatenates_S100000x128_S128x128_S40960x128_S141088x128_d0),
    StableHlo.nullary main_c (constantI S_ 32 200#32),
    StableHlo.unary main_c main_v2 (broadcastInDim S40960 ![] bcast_S_S40960 : (⟨S_, .i32⟩ : BufTy).Contents (Elt F) → (⟨S40960, .i32⟩ : BufTy).Contents (Elt F)),
    StableHlo.binary main_arg4 main_v2 main_v3 (muli : (⟨S40960, .i32⟩ : BufTy).Contents (Elt F) → (⟨S40960, .i32⟩ : BufTy).Contents (Elt F) → (⟨S40960, .i32⟩ : BufTy).Contents (Elt F)),
    StableHlo.binary main_v3 main_arg5 main_v4 (addi : (⟨S40960, .i32⟩ : BufTy).Contents (Elt F) → (⟨S40960, .i32⟩ : BufTy).Contents (Elt F) → (⟨S40960, .i32⟩ : BufTy).Contents (Elt F)),
    StableHlo.nullary main_c_0 (constantI S_ 32 0#32),
    StableHlo.unary main_c_0 main_v5 (broadcastInDim S204800 ![] bcast_S_S204800 : (⟨S_, .i32⟩ : BufTy).Contents (Elt F) → (⟨S204800, .i32⟩ : BufTy).Contents (Elt F)),
    StableHlo.nullary main_v6 (iotaInDim S40960 32 0),
    StableHlo.nullary main_c_1 (constantI S_ 32 1#32),
    StableHlo.unary main_c_1 main_v7 (broadcastInDim S40960 ![] bcast_S_S40960 : (⟨S_, .i32⟩ : BufTy).Contents (Elt F) → (⟨S40960, .i32⟩ : BufTy).Contents (Elt F)),
    StableHlo.binary main_v7 main_v6 main_v8 (addi : (⟨S40960, .i32⟩ : BufTy).Contents (Elt F) → (⟨S40960, .i32⟩ : BufTy).Contents (Elt F) → (⟨S40960, .i32⟩ : BufTy).Contents (Elt F)),
    StableHlo.nullary main_c_2 (constantI S_ 32 0#32),
    StableHlo.unary main_c_2 main_v9 (broadcastInDim S40960 ![] bcast_S_S40960 : (⟨S_, .i32⟩ : BufTy).Contents (Elt F) → (⟨S40960, .i32⟩ : BufTy).Contents (Elt F)),
    StableHlo.binary main_v4 main_v9 main_v10 (cmpi .slt : (⟨S40960, .i32⟩ : BufTy).Contents (Elt F) → (⟨S40960, .i32⟩ : BufTy).Contents (Elt F) → (⟨S40960, .i1⟩ : BufTy).Contents (Elt F)),
    StableHlo.nullary main_c_3 (constantI S_ 32 204800#32),
    StableHlo.unary main_c_3 main_v11 (broadcastInDim S40960 ![] bcast_S_S40960 : (⟨S_, .i32⟩ : BufTy).Contents (Elt F) → (⟨S40960, .i32⟩ : BufTy).Contents (Elt F)),
    StableHlo.binary main_v4 main_v11 main_v12 (addi : (⟨S40960, .i32⟩ : BufTy).Contents (Elt F) → (⟨S40960, .i32⟩ : BufTy).Contents (Elt F) → (⟨S40960, .i32⟩ : BufTy).Contents (Elt F)),
    StableHlo.ternary main_v10 main_v12 main_v4 main_v13 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    StableHlo.unary main_v13 main_v14 (broadcastInDim S40960x1 ![0] bcast_S40960_S40960x1_0 : (⟨S40960, .i32⟩ : BufTy).Contents (Elt F) → (⟨S40960x1, .i32⟩ : BufTy).Contents (Elt F)),
    StableHlo.ternary main_v5 main_v14 main_v8 main_v15 ((fun x i u => Host.scatter scatter_S204800_S40960x1_S40960_n_0_0_1 IntOp.maxsi x i u) : (⟨S204800, .i32⟩ : BufTy).Contents (Elt F) → (⟨S40960x1, .i32⟩ : BufTy).Contents (Elt F) → (⟨S40960, .i32⟩ : BufTy).Contents (Elt F) → (⟨S204800, .i32⟩ : BufTy).Contents (Elt F)),
    StableHlo.reshape main_arg2 main_v16 rfl shapeCasts_S1024x200_S204800,
    StableHlo.reshape main_arg3 main_v17 rfl shapeCasts_S1024x200_S204800 ]

/-- What follows the host operations: the call, the reshape of the lengths, the mask's call, the reshape of the output. -/
abbrev mainTail (d : Dev nD) : Prog (TpuEff nD τ sig (Elt F) (SparseCore.Sig (ΛP (F := F)) 1) .tc) PUnit := do
  sc.run d 0
  hlo rfl (StableHlo.reshape main_arg6 main_v19 rfl shapeCasts_S1024_S1024x1) (fun _ => .ret ⟨⟩)
  Prog.lift (.customCall (SparseCore.inner (Pipeline.entry 0)) ())
  hlo rfl (StableHlo.reshape main_v18 main_v21 rfl shapeCasts_S204800x128_S1024x200x128) (fun _ => .ret ⟨⟩)
  pure ⟨⟩

set_option maxRecDepth 2048 in
/-- @main is that straight line, then the rest. -/
theorem main_eq (d : Dev nD) : main (F := F) d = seq hostOps >>= fun _ => mainTail d := by
  simp only [main, mainTail, seq, bind_assoc, pure_bind]

theorem hostOps_tc : (hostOps (F := F)).Forall fun op => op.bufs ⊆ StableHlo.tcRefs τ sig :=
  ⟨StableHlo.nullary_bufs_sub .., StableHlo.unary_bufs_sub .., StableHlo.nary_bufs_sub .., StableHlo.nullary_bufs_sub .., StableHlo.unary_bufs_sub ..,
    StableHlo.binary_bufs_sub .., StableHlo.binary_bufs_sub .., StableHlo.nullary_bufs_sub .., StableHlo.unary_bufs_sub .., StableHlo.nullary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.ternary_bufs_sub .., StableHlo.reshape_bufs_sub .., StableHlo.reshape_bufs_sub ..⟩

end Ops

/-! ## The TensorCore's unscoped buffers as one held set -/

/-- The TensorCore's unscoped references, as device buffers. -/
def SU : Finset (DevRef τ sig) :=
  (Finset.univ.filter fun b : Ref sig .tc => ¬ b.isScoped).map ⟨Proc.devRef (sig := sig) (.tc : Proc τ), Proc.devRef_injective _⟩

theorem mem_SU (b : Ref sig .tc) (h : b.isScoped = false) : Proc.devRef (τ := τ) .tc b ∈ SU :=
  Finset.mem_map_of_mem _ (Finset.mem_filter.2 ⟨Finset.mem_univ b, by simp [h]⟩)

theorem mem_SU_of {b : DevRef τ sig} (ht : b ∈ StableHlo.tcRefs τ sig) (h : b.isScoped = false) : b ∈ SU := by
  obtain ⟨r, -, rfl⟩ := Finset.mem_map.1 ht
  exact mem_SU r h

theorem sub_SU {op : HloOp τ sig (Elt F)} (h : op.bufs ⊆ StableHlo.tcRefs τ sig) : op.bufs ⊆ SU :=
  fun b hb => mem_SU_of (h hb) (op.no_scoped b hb)

theorem unscoped_held (m : (ℓ : Loc nD τ sig) → Buf (Elt F) ℓ) (d : Dev nD) :
    (unscopedBufs d (fun b => m ((SparseCore.T d).loc b)) : sProp 𝕄) = held (T d) SU (launchContents m d) := by
  unfold unscopedBufs held SU; rw [bigSep_map]; rfl

section Arrs
variable [FloatOps F]

theorem hostOps_sub : ∀ op ∈ (hostOps (F := F)), op.bufs ⊆ SU :=
  fun op hop => sub_SU ((List.forall_iff_forall_mem.mp hostOps_tc) op hop)

theorem hostOps_fresh : ∀ op ∈ (hostOps (F := F)), op.fresh = ∅ := by
  intro op hop
  simp only [hostOps, List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl <;> rfl

variable (m : (ℓ : Loc nD τ sig) → Buf (Elt F) ℓ)

/-- What the buffers hold when @main reaches the call. -/
abbrev VC (d : Dev nD) : Valuation τ sig (Elt F) := after hostOps (launchContents m d)

/-- The flattened positions of the updates: row times 200 plus column. -/
def linOf (a4 a5 : S40960.Idx → BitVec 32) : S40960.Idx → BitVec 32 :=
  addi (muli a4 (broadcastInDim S40960 ![] bcast_S_S40960 (constantI S_ 32 200#32))) a5

/-- The winners: from zero, the maximum over the updates at each position of one plus the update's number. -/
def winOf (a4 a5 : S40960.Idx → BitVec 32) : S204800.Idx → BitVec 32 :=
  Host.scatter scatter_S204800_S40960x1_S40960_n_0_0_1 IntOp.maxsi
    (broadcastInDim S204800 ![] bcast_S_S204800 (constantI S_ 32 0#32))
    (broadcastInDim S40960x1 ![0] bcast_S40960_S40960x1_0
      (select (cmpi .slt (linOf a4 a5) (broadcastInDim S40960 ![] bcast_S_S40960 (constantI S_ 32 0#32)))
        (addi (linOf a4 a5) (broadcastInDim S40960 ![] bcast_S_S40960 (constantI S_ 32 204800#32))) (linOf a4 a5)))
    (addi (broadcastInDim S40960 ![] bcast_S_S40960 (constantI S_ 32 1#32)) (iotaInDim S40960 32 0))

/-- The table: the cache, 128 zero rows, the fresh embeddings. -/
def tblOf (a0 : S100000x128.Idx → Elt F .f32) (a1 : S40960x128.Idx → Elt F .f32) : S141088x128.Idx → Elt F .f32 :=
  concatenate S141088x128 0 [⟨S100000x128, a0⟩,
    ⟨S128x128, broadcastInDim S128x128 ![] bcast_S_S128x128 (constant (F := F) S_ .f32 0x00000000#32)⟩,
    ⟨S40960x128, a1⟩] concatenates_S100000x128_S128x128_S40960x128_S141088x128_d0

/-- The arrays of the call when @main reaches it, as terms of the arguments. -/
def arrs (d : Dev nD) : CallArrs (F := F) d where
  tbl := tblOf (m ((SparseCore.T d).loc main_arg0)) (m ((SparseCore.T d).loc main_arg1))
  tid := shapeCast S204800 (m ((SparseCore.T d).loc main_arg2)) shapeCasts_S1024x200_S204800
  flg := shapeCast S204800 (m ((SparseCore.T d).loc main_arg3)) shapeCasts_S1024x200_S204800
  win := winOf (m ((SparseCore.T d).loc main_arg4)) (m ((SparseCore.T d).loc main_arg5))
  out0 := m (outLoc d)

/-- That is what the host operations leave in the call's four input buffers. -/
theorem VC_tbl (d : Dev nD) : VC m d (Proc.devRef .tc main_v1) = tblOf (m ((SparseCore.T d).loc main_arg0)) (m ((SparseCore.T d).loc main_arg1)) := by
  after_results_simp
  rfl
theorem VC_tid (d : Dev nD) : VC m d (Proc.devRef .tc main_v16) = shapeCast S204800 (m ((SparseCore.T d).loc main_arg2)) shapeCasts_S1024x200_S204800 := by
  after_results_simp
  rfl
theorem VC_flg (d : Dev nD) : VC m d (Proc.devRef .tc main_v17) = shapeCast S204800 (m ((SparseCore.T d).loc main_arg3)) shapeCasts_S1024x200_S204800 := by
  after_results_simp
  rfl
theorem VC_win (d : Dev nD) : VC m d (Proc.devRef .tc main_v15) = winOf (m ((SparseCore.T d).loc main_arg4)) (m ((SparseCore.T d).loc main_arg5)) := by
  after_results_simp
  rfl

-- The two terms are opaque names from here on: nothing below depends on how the scatter's fold or the concatenation
-- evaluates (`unfold winOf` / `unfold tblOf` open them).
attribute [irreducible] winOf tblOf

theorem arrs_tbl (d : Dev nD) : (arrs m d).tbl = tblOf (m ((SparseCore.T d).loc main_arg0)) (m ((SparseCore.T d).loc main_arg1)) := rfl
theorem arrs_tid (d : Dev nD) : (arrs m d).tid = shapeCast S204800 (m ((SparseCore.T d).loc main_arg2)) shapeCasts_S1024x200_S204800 := rfl
theorem arrs_flg (d : Dev nD) : (arrs m d).flg = shapeCast S204800 (m ((SparseCore.T d).loc main_arg3)) shapeCasts_S1024x200_S204800 := rfl
theorem arrs_win (d : Dev nD) : (arrs m d).win = winOf (m ((SparseCore.T d).loc main_arg4)) (m ((SparseCore.T d).loc main_arg5)) := rfl
theorem arrs_out0 (d : Dev nD) : (arrs m d).out0 = m (outLoc d) := rfl

/-- The host operations write none of the arguments, nor the output, nor the three buffers written after the call. -/
theorem VC_keep (d : Dev nD) :
    VC m d (Proc.devRef .tc main_arg0) = m ((SparseCore.T d).loc main_arg0) ∧ VC m d (Proc.devRef .tc main_arg1) = m ((SparseCore.T d).loc main_arg1)
    ∧ VC m d (Proc.devRef .tc main_arg2) = m ((SparseCore.T d).loc main_arg2) ∧ VC m d (Proc.devRef .tc main_arg3) = m ((SparseCore.T d).loc main_arg3)
    ∧ VC m d (Proc.devRef .tc main_arg4) = m ((SparseCore.T d).loc main_arg4) ∧ VC m d (Proc.devRef .tc main_arg5) = m ((SparseCore.T d).loc main_arg5)
    ∧ VC m d (Proc.devRef .tc main_arg6) = m ((SparseCore.T d).loc main_arg6) ∧ VC m d (Proc.devRef .tc main_v18) = m (outLoc d) := by
  refine ⟨?_, ?_, ?_, ?_, ?_, ?_, ?_, ?_⟩ <;> (show after hostOps (launchContents m d) _ = _; after_results_simp)

end Arrs

end Cert.Proof.KB

end
-- ==== Proof.KBLaw.lean ====
import proofs.«213838_g73864847557071_cont_9to1_m_429_11_alg».proof.Proof.Gen.Kernel
import proofs.«213838_g73864847557071_cont_9to1_m_429_11_alg».proof.Proof.ScatterMax

/-!
# The kernel's scatter-maximum, read at one element

The kernel builds the table `winner` by an integer scatter-maximum of `1 + u` into zeros at the flat positions:
`winner[p]` is one more than the last `u` whose position is `p`, or `0`. This is the general law of `ScatterMax` at the
program's dimension numbers and sizes.
-/

namespace Cert.Proof.KBLaw

open Idealize.ShloMosaic Idealize.ShloMosaic.ValueIdx
open Cert.Proof.ScatterLaws

/-- The kernel's `zeros.at[pos].max(1 + iota)` read at `p`: one more than the greatest `u` with `pos u = p`; zero when
    there is no such `u`. -/
theorem lawB [Cert.Kernel.Facts₀]
    (idx : IVec Cert.Kernel.S40960x1 32) (upd : Cert.Kernel.S40960.Idx → BitVec 32)
    (hl : ∀ u : Fin 40960, (idx (ix2 u 0)).toNat < 204800)
    (hu : ∀ u : Fin 40960, upd (ix1 u) = BitVec.ofNat 32 (u.val + 1))
    (p : Fin 204800) :
    Host.scatter Cert.Kernel.scatter_S204800_S40960x1_S40960_n_0_0_1 IntOp.maxsi (fun _ => 0#32) idx upd (ix1 p)
      = match lastHit1 idx p with
        | some u => BitVec.ofNat 32 (u.val + 1)
        | none => 0#32 := by
  refine (scatter_max_apply (P := 204800) (U := 40960)
    Cert.Kernel.Facts₀.scatter_S204800_S40960x1_S40960_n_0_0_1_wf
    (by norm_num) (by norm_num) idx upd hl hu p).trans ?_
  cases lastHit1 idx p <;> rfl

end Cert.Proof.KBLaw
-- ==== Proof.KBVals.lean ====
import proofs.«213838_g73864847557071_cont_9to1_m_429_11_alg».proof.Proof.KBArrs
import proofs.«213838_g73864847557071_cont_9to1_m_429_11_alg».proof.Proof.KBLaw
import Idealize.ShloMosaic.Lib.Pipeline.Value

/-!
# The call's arrays read at an index, and the row numbers' range

Under the ranges of the arguments (rows below 1024, columns below 200, token ids below 100000) the flat position of
update `u` is `200 · rows u + cols u` without wrap-around, below `204800`, so the sign test leaves it alone; the
winners are then the scatter-maximum law: `winners[p]` is one more than the last update at position `p`, or zero.
Every row number the call computes is therefore a row of the table: a winner `w ≤ 40960` gives `w + 100127 < 141088`,
a cached token gives its id below `100000`, and otherwise one of the 128 zero rows from `100000` on.
-/

noncomputable section

namespace Cert.Proof.KB

open Cert.Kernel Cert.Kernel.Gen
open Idealize.ShloMosaic Idealize.ShloMosaic.ValueIdx
open Cert.Proof.ScatterLaws Cert.Proof.KBLaw

/-! ## The updates' positions -/

/-- The position of update `u` after the sign test. -/
def posOf (a4 a5 : S40960.Idx → BitVec 32) : S40960.Idx → BitVec 32 :=
  select (cmpi .slt (linOf a4 a5) (broadcastInDim S40960 ![] bcast_S_S40960 (constantI S_ 32 0#32)))
    (addi (linOf a4 a5) (broadcastInDim S40960 ![] bcast_S_S40960 (constantI S_ 32 204800#32))) (linOf a4 a5)

/-- The positions as the scatter's column of indices. -/
def posColOf (a4 a5 : S40960.Idx → BitVec 32) : S40960x1.Idx → BitVec 32 :=
  broadcastInDim S40960x1 ![0] bcast_S40960_S40960x1_0 (posOf a4 a5)

/-- The scatter's updates: one plus the update's number. -/
def updOf : S40960.Idx → BitVec 32 :=
  addi (broadcastInDim S40960 ![] bcast_S_S40960 (constantI S_ 32 1#32)) (iotaInDim S40960 32 0)

/-- The winners over those pieces, from zeros. -/
theorem winOf_eq (a4 a5 : S40960.Idx → BitVec 32) :
    winOf a4 a5 = Host.scatter scatter_S204800_S40960x1_S40960_n_0_0_1 IntOp.maxsi (fun _ => 0#32) (posColOf a4 a5) updOf := by
  unfold winOf
  rfl

theorem linOf_apply (a4 a5 : S40960.Idx → BitVec 32) (i : S40960.Idx) :
    linOf a4 a5 i = IntOp.addi (IntOp.muli (a4 i) 200#32) (a5 i) := rfl

/-- Row below 1024 and column below 200: the position is `200 · row + column`, no wrap-around. -/
theorem linOf_toNat (a4 a5 : S40960.Idx → BitVec 32) (i : S40960.Idx)
    (hr : (a4 i).toNat < 1024) (hc : (a5 i).toNat < 200) :
    (linOf a4 a5 i).toNat = 200 * (a4 i).toNat + (a5 i).toNat := by
  rw [linOf_apply]
  unfold IntOp.addi IntOp.muli
  rw [BitVec.toNat_add, BitVec.toNat_mul]
  show ((a4 i).toNat * 200 % 2 ^ 32 + (a5 i).toNat) % 2 ^ 32 = _
  omega

theorem posOf_apply (a4 a5 : S40960.Idx → BitVec 32) (i : S40960.Idx) :
    posOf a4 a5 i = Scalar.select (IntOp.cmpi .slt (linOf a4 a5 i) 0#32)
      (IntOp.addi (linOf a4 a5 i) 204800#32) (linOf a4 a5 i) := rfl

/-- … and the sign test leaves it alone. -/
theorem posOf_eq_linOf (a4 a5 : S40960.Idx → BitVec 32) (i : S40960.Idx)
    (hr : (a4 i).toNat < 1024) (hc : (a5 i).toNat < 200) :
    posOf a4 a5 i = linOf a4 a5 i := by
  have hlin := linOf_toNat a4 a5 i hr hc
  have hnn : ¬ (linOf a4 a5 i).slt 0#32 = true := by
    intro h
    have h1 := BitVec.slt_iff_toInt_lt.1 h
    rw [BitVec.toInt_eq_toNat_of_lt (by omega), BitVec.toInt_zero] at h1
    omega
  rw [posOf_apply]
  unfold IntOp.cmpi
  show Scalar.select (BitVec.ofBool ((linOf a4 a5 i).slt 0#32)) _ _ = _
  rw [Bool.eq_false_iff.2 hnn]
  exact select_zero _ _

theorem posColOf_apply (a4 a5 : S40960.Idx → BitVec 32) (u : Fin 40960) :
    posColOf a4 a5 (ix2 u 0) = posOf a4 a5 (ix1 u) := by
  unfold posColOf
  exact Idealize.ShloMosaic.broadcastInDim_apply _ _ _ _ (ix1 u) (fun a => by match a with | ⟨0, _⟩ => rfl)

/-- The position of update `u` as a natural number. -/
theorem posColOf_toNat (a4 a5 : S40960.Idx → BitVec 32) (u : Fin 40960)
    (hr : (a4 (ix1 u)).toNat < 1024) (hc : (a5 (ix1 u)).toNat < 200) :
    (posColOf a4 a5 (ix2 u 0)).toNat = 200 * (a4 (ix1 u)).toNat + (a5 (ix1 u)).toNat := by
  rw [posColOf_apply, posOf_eq_linOf a4 a5 _ hr hc, linOf_toNat a4 a5 _ hr hc]

theorem updOf_apply (u : Fin 40960) : updOf (ix1 u) = BitVec.ofNat 32 (u.val + 1) := by
  show IntOp.addi 1#32 (BitVec.ofNat 32 u.val) = _
  unfold IntOp.addi
  rw [Nat.add_comm, BitVec.ofNat_add]

/-! ## The winners -/

section Ranges
variable (a4 a5 : S40960.Idx → BitVec 32)
variable (hr : ∀ u : Fin 40960, (a4 (ix1 u)).toNat < 1024) (hc : ∀ u : Fin 40960, (a5 (ix1 u)).toNat < 200)
include hr hc

/-- THE WINNERS READ AT `p`: one more than the last update whose position is `p`; zero when there is none. -/
theorem winOf_apply (p : Fin 204800) :
    winOf a4 a5 (ix1 p) = match lastHit1 (posColOf a4 a5) p with
      | some u => BitVec.ofNat 32 (u.val + 1)
      | none => 0#32 := by
  rw [winOf_eq]
  refine (lawB (posColOf a4 a5) updOf
    (fun u => by rw [posColOf_toNat a4 a5 u (hr u) (hc u)]; have := hr u; have := hc u; omega)
    updOf_apply p).trans ?_
  cases lastHit1 (posColOf a4 a5) p <;> rfl

/-- A winner is at most the number of updates. -/
theorem winOf_toNat_le (p : S204800.Idx) : (winOf a4 a5 p).toNat ≤ 40960 := by
  obtain ⟨q, rfl⟩ : ∃ q : Fin 204800, p = ix1 q := ⟨p 0, eq_ix1 p⟩
  rw [winOf_apply a4 a5 hr hc]
  cases lastHit1 (posColOf a4 a5) q with
  | none => show (0#32).toNat ≤ 40960; decide
  | some u =>
    show (BitVec.ofNat 32 (u.val + 1)).toNat ≤ 40960
    rw [BitVec.toNat_ofNat]
    have := u.isLt
    omega

end Ranges

/-! ## The row numbers name rows of the table -/

/-- Token id below 100000 and winner at most 40960: the row number is below 141088, whatever the flag and the place. -/
theorem idxAt_lt (t f w pos : BitVec 32) (ht : t.toNat < 100000) (hw : w.toNat ≤ 40960) :
    (idxAt t f w pos).toNat < 141088 := by
  unfold idxAt Scalar.select
  split
  · unfold IntOp.addi
    rw [BitVec.toNat_add]
    show (w.toNat + 100127 % 2 ^ 32) % 2 ^ 32 < 141088
    omega
  · split
    · omega
    · unfold IntOp.addi IntOp.andi
      rw [BitVec.toNat_add, BitVec.toNat_and]
      have h127 : pos.toNat &&& (127#32).toNat ≤ 127 := Nat.and_le_right
      show (100000 % 2 ^ 32 + (pos.toNat &&& (127#32).toNat)) % 2 ^ 32 < 141088
      omega

/-- THE ROW NUMBERS' RANGE, over the arrays as terms of the arguments. -/
theorem idxOK_of_ranges (a2 a3 : S1024x200.Idx → BitVec 32) (a4 a5 : S40960.Idx → BitVec 32)
    (ht : ∀ i, (a2 i).toNat < 100000)
    (hr : ∀ u : Fin 40960, (a4 (ix1 u)).toNat < 1024) (hc : ∀ u : Fin 40960, (a5 (ix1 u)).toNat < 200)
    (p : S204800.Idx) :
    (idxG (shapeCast S204800 a2 shapeCasts_S1024x200_S204800) (shapeCast S204800 a3 shapeCasts_S1024x200_S204800)
      (winOf a4 a5) p).toNat < 141088 :=
  idxAt_lt _ _ _ _ (ht _) (winOf_toNat_le a4 a5 hr hc p)

/-- … and over the call's arrays at a launch memory whose argument arrays are in range. -/
theorem idxOK_arrs {F : FTy → Type} [FloatOps F] (m : (ℓ : Loc nD τ sig) → Buf (Elt F) ℓ)
    (ht : ∀ (d : Dev nD) i, (m ((SparseCore.T d).loc main_arg2) i).toNat < 100000)
    (hr : ∀ (d : Dev nD) (u : Fin 40960), (m ((SparseCore.T d).loc main_arg4) (ix1 u)).toNat < 1024)
    (hc : ∀ (d : Dev nD) (u : Fin 40960), (m ((SparseCore.T d).loc main_arg5) (ix1 u)).toNat < 200) :
    IdxOK (arrs m) :=
  fun d p => idxOK_of_ranges (m ((SparseCore.T d).loc main_arg2)) (m ((SparseCore.T d).loc main_arg3))
    (m ((SparseCore.T d).loc main_arg4)) (m ((SparseCore.T d).loc main_arg5)) (ht d) (hr d) (hc d) p

end Cert.Proof.KB

end
-- ==== Proof.KIMain.lean ====
/-
  @main of the embedding lookup's kernel program on the TensorCore, inside the SparseCore launch: the call (the table
  dealt as thirty-two share pieces, the index arrays and the output as thirty-two position blocks, the output joined
  back at what every block holds), the mask's call, the two reshapes; and the program's run.
-/
import proofs.«213838_g73864847557071_cont_9to1_m_429_11_alg».proof.Proof.KIArrs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq seq after launchContents)
open Idealize.ShloMosaic.Tactic

variable {F : FTy → Type}

local notation "𝕄" => MT nD τ sig (HIx 1) (Elt F) ℕ UU ℕ

/-! ## The thirty-two workers as two SparseCores of sixteen -/

/-- Worker `2·s + c` is vector subcore `s` of SparseCore `c`: a bijection. -/
def widE : Fin 2 × Fin 16 ≃ Fin 32 where
  toFun p := wid p.1 p.2
  invFun w := (⟨w.val % 2, Nat.mod_lt _ (by decide)⟩, ⟨w.val / 2, by omega⟩)
  left_inv := by
    rintro ⟨c, s⟩
    refine Prod.ext (Fin.ext ?_) (Fin.ext ?_)
    · show (s.val * 2 + c.val) % 2 = c.val
      omega
    · show (s.val * 2 + c.val) / 2 = s.val
      omega
  right_inv := by
    intro w
    refine Fin.ext ?_
    show (w.val / 2) * 2 + w.val % 2 = w.val
    omega

theorem bigSep_workers (Φ : Fin 32 → sProp 𝕄) :
    (bigSep Finset.univ fun c : Fin 2 => bigSep Finset.univ fun s : Fin 16 => Φ (wid c s)) = bigSep Finset.univ Φ := by
  rw [bigSep_univ_equiv widE Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The arrays split among the workers, and joined -/

theorem posSets_disjoint : ∀ i ∈ (Finset.univ : Finset (Fin 32)), ∀ j ∈ (Finset.univ : Finset (Fin 32)), i ≠ j → Disjoint (posSet i) (posSet j) :=
  fun _ _ _ _ h => Rect.part_disjoint pdiv h
theorem outSets_disjoint : ∀ i ∈ (Finset.univ : Finset (Fin 32)), ∀ j ∈ (Finset.univ : Finset (Fin 32)), i ≠ j → Disjoint (outSet i) (outSet j) :=
  fun _ _ _ _ h => Rect.part_disjoint odiv h
theorem posSets_cover : (Finset.univ : Finset (Fin 32)).biUnion posSet = Finset.univ := Rect.biUnion_part pdiv
theorem outSets_cover : (Finset.univ : Finset (Fin 32)).biUnion outSet = Finset.univ := Rect.biUnion_part odiv

theorem tbl_pieces (d : Dev nD) (f : Buf (Elt F) (tblLoc d)) :
    (tblLoc d ↦{fullShare} f : sProp 𝕄) = bigSep Finset.univ fun w : Fin 32 => tblLoc d ↦{tq w} f :=
  pointsTo_piecesOf Finset.univ f (by decide) fullShare
theorem tid_blocks (d : Dev nD) (f : Buf (Elt F) (tidLoc d)) :
    (tidLoc d ↦{fullShare} f : sProp 𝕄) = bigSep Finset.univ fun w : Fin 32 => tidLoc d ↦[posSet w]{fullShare} f := by
  rw [← pointsTo_biUnion Finset.univ (ℓ := tidLoc d) posSet posSets_disjoint, posSets_cover]; try rfl
theorem flg_blocks (d : Dev nD) (f : Buf (Elt F) (flgLoc d)) :
    (flgLoc d ↦{fullShare} f : sProp 𝕄) = bigSep Finset.univ fun w : Fin 32 => flgLoc d ↦[posSet w]{fullShare} f := by
  rw [← pointsTo_biUnion Finset.univ (ℓ := flgLoc d) posSet posSets_disjoint, posSets_cover]; try rfl
theorem win_blocks (d : Dev nD) (f : Buf (Elt F) (winLoc d)) :
    (winLoc d ↦{fullShare} f : sProp 𝕄) = bigSep Finset.univ fun w : Fin 32 => winLoc d ↦[posSet w]{fullShare} f := by
  rw [← pointsTo_biUnion Finset.univ (ℓ := winLoc d) posSet posSets_disjoint, posSets_cover]; try rfl
theorem out_blocks (d : Dev nD) (f : Buf (Elt F) (outLoc d)) :
    (outLoc d ↦{fullShare} f : sProp 𝕄) = bigSep Finset.univ fun w : Fin 32 => outLoc d ↦[outSet w]{fullShare} f := by
  rw [← pointsTo_biUnion Finset.univ (ℓ := outLoc d) outSet outSets_disjoint, outSets_cover]; try rfl

section Call
variable (A : (d : Dev nD) → CallArrs (F := F) d)

/-- The five arrays whole, the output at `o`. -/
abbrev fiveAt (d : Dev nD) (o : Buf (Elt F) (outLoc d)) : sProp 𝕄 :=
  iprop((tblLoc d ↦{fullShare} (A d).tbl) ∗ (tidLoc d ↦{fullShare} (A d).tid) ∗ (flgLoc d ↦{fullShare} (A d).flg)
    ∗ (winLoc d ↦{fullShare} (A d).win) ∗ (outLoc d ↦{fullShare} o))

/-- What the call takes for the two SparseCores: the five arrays whole. -/
theorem st0_eq (d : Dev nD) :
    (bigSep Finset.univ fun c : Fin ((K (F := F)).nCore 0) => (P A).st 0 d c) = fiveAt A d (A d).out0 := by
  show (bigSep Finset.univ fun c : Fin ((K (F := F)).nCore 0) => bigSep Finset.univ fun s : Fin 16 => goRes A d (wid (Fin.cast nCore_zero c) s)) = _
  rw [bigSep_cores (F := F) (fun c => bigSep Finset.univ fun s : Fin 16 => goRes A d (wid c s)), bigSep_workers (fun w => goRes A d w)]
  unfold goRes
  rw [bigSep_sep', bigSep_sep', bigSep_sep', bigSep_sep', ← tbl_pieces, ← tid_blocks, ← flg_blocks, ← win_blocks, ← out_blocks]

/-- What it hands back: the same, the output whole at the gathered rows. -/
theorem dn0_le (d : Dev nD) :
    (bigSep Finset.univ fun c : Fin ((K (F := F)).nCore 0) => (P A).dn 0 d c) ⊢ fiveAt A d (outOf A d) := by
  show (bigSep Finset.univ fun c : Fin ((K (F := F)).nCore 0) => bigSep Finset.univ fun s : Fin 16 => tdRes A d (wid (Fin.cast nCore_zero c) s)) ⊢ _
  rw [bigSep_cores (F := F) (fun c => bigSep Finset.univ fun s : Fin 16 => tdRes A d (wid c s)), bigSep_workers (fun w => tdRes A d w)]
  have h : ∀ w ∈ (Finset.univ : Finset (Fin 32)), tdRes A d w ⊢ iprop((tblLoc d ↦{tq w} (A d).tbl) ∗ (tidLoc d ↦[posSet w]{fullShare} (A d).tid)
      ∗ (flgLoc d ↦[posSet w]{fullShare} (A d).flg) ∗ (winLoc d ↦[posSet w]{fullShare} (A d).win) ∗ (outLoc d ↦[outSet w]{fullShare} outOf A d)) := by
    intro w _
    unfold tdRes
    iintro ⟨H1, H2, H3, H4, %f, Hf, %hf⟩
    isplitl [H1]; · iexact H1
    isplitl [H2]; · iexact H2
    isplitl [H3]; · iexact H3
    isplitl [H4]; · iexact H4
    rw [← pointsTo_congr (f := f) (g := outOf A d) hf]; iexact Hf
  refine (bigSep_mono h).trans ?_
  rw [bigSep_sep', bigSep_sep', bigSep_sep', bigSep_sep', ← tbl_pieces, ← tid_blocks, ← flg_blocks, ← win_blocks, ← out_blocks]
  exact BI.Entails.refl _

end Call

/-! ## The buffers the rest of @main touches, out of the held set -/

/-- A TensorCore reference as a device buffer. -/
def devE : Ref sig .tc ↪ DevRef τ sig := ⟨Proc.devRef (sig := sig) (.tc : Proc τ), Proc.devRef_injective _⟩

/-- The call's five arrays, the seven arguments, the three buffers written after the call. -/
def R15 : Finset (Ref sig .tc) :=
  {main_v1, main_v16, main_v17, main_v15, main_v18, main_arg0, main_arg1, main_arg2, main_arg3, main_arg4, main_arg5, main_arg6,
    main_v19, main_v20, main_v21}
def S15 : Finset (DevRef τ sig) := R15.map devE

theorem S15_sub : (S15 : Finset (DevRef τ sig)) ⊆ SU := by
  unfold S15 SU devE
  exact Finset.map_subset_map.2 (by decide)

theorem held_S15 (d : Dev nD) (W : Valuation τ sig (Elt F)) :
    (held (T d) S15 W : sProp 𝕄) = iprop(
      (tblLoc d ↦{fullShare} W (Proc.devRef .tc main_v1)) ∗ (tidLoc d ↦{fullShare} W (Proc.devRef .tc main_v16))
      ∗ (flgLoc d ↦{fullShare} W (Proc.devRef .tc main_v17)) ∗ (winLoc d ↦{fullShare} W (Proc.devRef .tc main_v15))
      ∗ (outLoc d ↦{fullShare} W (Proc.devRef .tc main_v18))
      ∗ ((SparseCore.T d).loc main_arg0 ↦{fullShare} W (Proc.devRef .tc main_arg0)) ∗ ((SparseCore.T d).loc main_arg1 ↦{fullShare} W (Proc.devRef .tc main_arg1))
      ∗ ((SparseCore.T d).loc main_arg2 ↦{fullShare} W (Proc.devRef .tc main_arg2)) ∗ ((SparseCore.T d).loc main_arg3 ↦{fullShare} W (Proc.devRef .tc main_arg3))
      ∗ ((SparseCore.T d).loc main_arg4 ↦{fullShare} W (Proc.devRef .tc main_arg4)) ∗ ((SparseCore.T d).loc main_arg5 ↦{fullShare} W (Proc.devRef .tc main_arg5))
      ∗ ((SparseCore.T d).loc main_arg6 ↦{fullShare} W (Proc.devRef .tc main_arg6))
      ∗ ((SparseCore.T d).loc main_v19 ↦{fullShare} W (Proc.devRef .tc main_v19)) ∗ ((SparseCore.T d).loc main_v20 ↦{fullShare} W (Proc.devRef .tc main_v20))
      ∗ ((SparseCore.T d).loc main_v21 ↦{fullShare} W (Proc.devRef .tc main_v21))) := by
  unfold held S15
  rw [bigSep_map]
  unfold R15
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

section Main
variable [FloatOps F] (m : (ℓ : Loc nD τ sig) → Buf (Elt F) ℓ) (ρ : Dev nD → PrngReg)

/-- What those buffers hold when @main reaches the call: the call's arrays at their terms, the arguments and the
    output at their launch contents. -/
theorem held_call (d : Dev nD) :
    (held (T d) S15 (VC m d) : sProp 𝕄) = iprop(
      (tblLoc d ↦{fullShare} (arrs m d).tbl) ∗ (tidLoc d ↦{fullShare} (arrs m d).tid) ∗ (flgLoc d ↦{fullShare} (arrs m d).flg)
      ∗ (winLoc d ↦{fullShare} (arrs m d).win) ∗ (outLoc d ↦{fullShare} (arrs m d).out0)
      ∗ ((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ ((SparseCore.T d).loc main_arg4 ↦{fullShare} m ((SparseCore.T d).loc main_arg4)) ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_v19 ↦{fullShare} VC m d (Proc.devRef .tc main_v19)) ∗ ((SparseCore.T d).loc main_v20 ↦{fullShare} VC m d (Proc.devRef .tc main_v20))
      ∗ ((SparseCore.T d).loc main_v21 ↦{fullShare} VC m d (Proc.devRef .tc main_v21))) := by
  obtain ⟨k0, k1, k2, k3, k4, k5, k6, k18⟩ := VC_keep m d
  rw [held_S15, VC_tbl, VC_tid, VC_flg, VC_win, k0, k1, k2, k3, k4, k5, k6, k18, arrs_tbl, arrs_tid, arrs_flg, arrs_win, arrs_out0]

end Main

/-! ## A reshape between two of the TensorCore's buffers -/

section Reshape
variable [FloatOps F]

theorem held_two (d : Dev nD) {a b : DevRef τ sig} (h : a ≠ b) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' (by simpa using h), bigSep_singleton]

set_option backward.isDefEq.respectTransparency.types false in
/-- `reshape x y` at the head of the TensorCore's program, holding the boundary and the two buffers whole: `y` ends at
    `x`'s elements in row-major order at its own shape, `x` keeps its contents. -/
theorem wp_reshape_two (d : Dev nD) {x y : Ref sig .tc} (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y) (W : Valuation τ sig (Elt F)) {α : Type}
    {k : ((b : (StableHlo.reshape (τ := τ) (Val := Elt F) x y he hn hx hy).writes) → b.1.ty.Contents (Elt F))
      → Prog (TpuEff nD τ sig (Elt F) (SparseCore.Sig (ΛP (F := F)) 1) .tc) α} {Q : α → sProp 𝕄} :
    iprop(boundary (T d) ∗ ((SparseCore.T d).loc x ↦{fullShare} W (Proc.devRef .tc x)) ∗ ((SparseCore.T d).loc y ↦{fullShare} W (Proc.devRef .tc y)))
      ⊢ iprop(((boundary (T d) ∗ ((SparseCore.T d).loc x ↦{fullShare} W (Proc.devRef .tc x))
            ∗ ((SparseCore.T d).loc y ↦{fullShare} (fun i => he ▸ shapeCast y.ty.shape (W (Proc.devRef .tc x)) hn i)))
          -∗ wp frame (wpE ((K (F := F)).defs (D (F := F))) 𝒱 (SparseCore.T d) none) Set.univ
              (k ((StableHlo.reshape (τ := τ) (Val := Elt F) x y he hn hx hy).fn fun b => W b.1)) Q)
        -∗ wp frame (wpE ((K (F := F)).defs (D (F := F))) 𝒱 (SparseCore.T d) none) Set.univ (hlo rfl (StableHlo.reshape x y he hn hx hy) k) Q) := by
  have hne : (Proc.devRef .tc x : DevRef τ sig) ≠ Proc.devRef .tc y := StableHlo.devRef_ne_of_ne hxy
  have hbufs : (StableHlo.reshape (τ := τ) (Val := Elt F) x y he hn hx hy).bufs = {Proc.devRef .tc x, Proc.devRef .tc y} := rfl
  have e2 : (held (T d) {Proc.devRef .tc x, Proc.devRef .tc y} ((StableHlo.reshape (τ := τ) (Val := Elt F) x y he hn hx hy).result W) : sProp 𝕄)
      = iprop(((SparseCore.T d).loc x ↦{fullShare} W (Proc.devRef .tc x))
          ∗ ((SparseCore.T d).loc y ↦{fullShare} (fun i => he ▸ shapeCast y.ty.shape (W (Proc.devRef .tc x)) hn i))) := by
    rw [held_two d hne, StableHlo.reshape_result_ne (τ := τ) (Val := Elt F) (x := x) (y := y) he hn hx hy W hxy, StableHlo.reshape_result]
  iintro ⟨Hb, Hx, Hy⟩ Hk
  iapply (wp_hlo_within 𝒱 (SparseCore.T d) none Set.univ (op := StableHlo.reshape (τ := τ) (Val := Elt F) x y he hn hx hy)
      (S := {Proc.devRef .tc x, Proc.devRef .tc y}) (Finset.Subset.refl _) (V := W)) $$ [Hb Hx Hy]
  · isplitl [Hb]; · iexact Hb
    rw [held_two d hne]
    isplitl [Hx]; · iexact Hx
    iexact Hy
  iintro ⟨Hb, Hh⟩
  ihave Hh' := (Entails.of_eq e2) $$ Hh
  icases Hh' with ⟨Hx, Hy⟩
  iapply Hk
  isplitl [Hb]; · iexact Hb
  isplitl [Hx]; · iexact Hx
  iexact Hy

end Reshape

/-! ## @main on the TensorCore -/

section Tail
variable [FloatOps F] (m : (ℓ : Loc nD τ sig) → Buf (Elt F) ℓ) (ρ : Dev nD → PrngReg)
variable (Gm : Dev nD → sProp (MT nD τ sig (HIx 1) (Elt F) ℕ UU ℕ)) (maskOf : (S1024x1.Idx → BitVec 32) → S1024x200.Idx → Elt F .f32)

/-- What the TensorCore owes and has recorded, before call `n` (the first component of its handshake state). -/
abbrev tcOwes (d : Dev nD) (n : ℕ) : sProp 𝕄 :=
  iprop(∃ W, ⌜(K (F := F)).WBelow (SparseCore.T d) W (8 * n)⌝ ∗ owes (SparseCore.T d) ((K (F := F)).Otc d n) W)

/-- What the proof of @main asks of the mask's call: from the boundary, the lengths, the mask's buffer, what the
    TensorCore owes after the call, the levels and the mask pipeline's part `Gm d` of the launch element, the call runs
    and leaves the mask's buffer at `maskOf` of the lengths. -/
def MaskLine : Prop :=
  ∀ (d : Dev nD) (lens : S1024x1.Idx → BitVec 32) (k : PUnit → Prog (TpuEff nD τ sig (Elt F) (SparseCore.Sig (ΛP (F := F)) 1) .tc) PUnit)
    (Q : PUnit → sProp 𝕄),
    iprop(boundary (SparseCore.T d) ∗ ((SparseCore.T d).loc main_v19 ↦{fullShare} lens) ∗ (∃ f, (SparseCore.T d).loc main_v20 ↦{fullShare} f)
        ∗ tcOwes (F := F) d 1 ∗ levAts (K (F := F)).L (K (F := F)).lev ∗ Gm d
        ∗ ((boundary (SparseCore.T d) ∗ ((SparseCore.T d).loc main_v19 ↦{fullShare} lens) ∗ ((SparseCore.T d).loc main_v20 ↦{fullShare} maskOf lens)
            ∗ tcOwes (F := F) d 1)
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (Prog.lift (.customCall (SparseCore.inner (Pipeline.entry 0)) ()) >>= k) Q

/-- The first result: the gathered rows at the result's shape. -/
def outFin (d : Dev nD) : S1024x200x128.Idx → Elt F .f32 :=
  shapeCast S1024x200x128 (outOf (arrs m) d) shapeCasts_S204800x128_S1024x200x128
/-- The lengths as the mask's call reads them. -/
def lensOf (d : Dev nD) : S1024x1.Idx → BitVec 32 :=
  shapeCast S1024x1 (m ((SparseCore.T d).loc main_arg6)) shapeCasts_S1024_S1024x1

/-- What @main leaves the claim: the two results at their terms, the seven arguments at their launch contents. -/
def FIN (d : Dev nD) : sProp 𝕄 :=
  iprop(((SparseCore.T d).loc main_v21 ↦{fullShare} outFin m d) ∗ ((SparseCore.T d).loc main_v20 ↦{fullShare} maskOf (lensOf m d))
    ∗ ((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)))

theorem FIN_intro (d : Dev nD) :
    iprop(((SparseCore.T d).loc main_v21 ↦{fullShare} outFin m d) ∗ ((SparseCore.T d).loc main_v20 ↦{fullShare} maskOf (lensOf m d))
      ∗ ((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ ((SparseCore.T d).loc main_arg4 ↦{fullShare} m ((SparseCore.T d).loc main_arg4)) ∗ ((SparseCore.T d).loc main_arg5 ↦{fullShare} m ((SparseCore.T d).loc main_arg5))
      ∗ ((SparseCore.T d).loc main_arg6 ↦{fullShare} m ((SparseCore.T d).loc main_arg6))) ⊢ (FIN m maskOf d : sProp 𝕄) := by
  unfold FIN; exact .rfl

theorem tcSt_split (d : Dev nD) (n : ℕ) :
    ∃ R : sProp 𝕄, ((K (F := F)).tcSt EH d n : sProp 𝕄) = iprop(tcOwes (F := F) d n ∗ R) := ⟨_, rfl⟩

/-- The valuation the last reshape reads: the output at the gathered rows. -/
def V18 (d : Dev nD) : Valuation τ sig (Elt F) := Function.update (VC m d) (Proc.devRef .tc main_v18) (outOf (arrs m) d)

set_option backward.isDefEq.respectTransparency.types false in
/-- The rest of @main after the host operations: the call (the library's `wp_run`, from the five arrays whole), the
    reshape of the lengths, the mask's call, the reshape of the output. -/
theorem wp_tail (hmask : MaskLine (F := F) Gm maskOf) (κ : GSem nD τ sig → ℕ) (d : Dev nD) :
    iprop((K (F := F)).ctx EH (P (arrs m)) κ ∗ (K (F := F)).tcSt EH d 0 ∗ boundary (SparseCore.T d) ∗ (held (T d) SU (VC m d) : sProp 𝕄) ∗ Gm d)
      ⊢ wp frame (wpE ((K (F := F)).defs (D (F := F))) 𝒱 (SparseCore.T d) none) Set.univ (mainTail d)
          fun _ => iprop((K (F := F)).tcSt EH d 1 ∗ FIN m maskOf d) := by
  obtain ⟨R, hR⟩ := tcSt_split (F := F) d 1
  obtain ⟨k0, k1, k2, k3, k4, k5, k6, k18⟩ := VC_keep m d
  unfold mainTail
  rw [wp_bind]
  iintro ⟨#Hctx, Hst, Hb, Hheld, HG⟩
  ihave Hlev := (SparseCore.Cfg.ctx_levAts κ) $$ Hctx
  ihave Hh := (Entails.of_eq (held_sub_split (T d) S15_sub (VC m d))) $$ Hheld
  icases Hh with ⟨H15, -⟩
  ihave Hh := (Entails.of_eq (held_call m d)) $$ H15
  icases Hh with ⟨Htbl, Htid, Hflg, Hwin, Hout, Ha0, Ha1, Ha2, Ha3, Ha4, Ha5, Ha6, H19, H20, H21⟩
  -- the call
  iapply ((K (F := F)).wp_run (D (F := F)) 𝒱 (EH := EH) (P := P (arrs m)) κ d 0) $$ [Hst Hb HG Htbl Htid Hflg Hwin Hout Ha0 Ha1 Ha2 Ha3 Ha4 Ha5 Ha6 H19 H20 H21]
  isplitr; · iexact Hctx
  isplitl [Hst]; · iexact Hst
  isplitl [Htbl Htid Hflg Hwin Hout]
  · rw [st0_eq]
    isplitl [Htbl]; · iexact Htbl
    isplitl [Htid]; · iexact Htid
    isplitl [Hflg]; · iexact Hflg
    isplitl [Hwin]; · iexact Hwin
    iexact Hout
  iintro ⟨Hst, Hdn⟩
  ihave Hdn' := (dn0_le (arrs m) d) $$ Hdn
  icases Hdn' with ⟨-, -, -, -, Hout⟩
  ihave Hst1 := (show ((K (F := F)).tcSt EH d 1 : sProp 𝕄) ⊢ (K (F := F)).tcSt EH d 1 from .rfl) $$ [Hst]
  · iexact Hst
  ihave Hst' := (Entails.of_eq hR) $$ Hst1
  icases Hst' with ⟨How, HR⟩
  -- the lengths reshaped
  have e6 : (((SparseCore.T d).loc main_arg6 ↦{fullShare} m ((SparseCore.T d).loc main_arg6)) : sProp 𝕄)
      = ((SparseCore.T d).loc main_arg6 ↦{fullShare} VC m d (Proc.devRef .tc main_arg6)) := by rw [k6]
  have e19 : (((SparseCore.T d).loc main_v19 ↦{fullShare}
        (fun i => (rfl : (main_arg6 : Ref sig .tc).ty.elt = (main_v19 : Ref sig .tc).ty.elt) ▸ shapeCast (main_v19 : Ref sig .tc).ty.shape (VC m d (Proc.devRef .tc main_arg6)) shapeCasts_S1024_S1024x1 i)) : sProp 𝕄)
      = ((SparseCore.T d).loc main_v19 ↦{fullShare} lensOf m d) := by rw [k6]; rfl
  have e18 : ((outLoc d ↦{fullShare} outOf (arrs m) d) : sProp 𝕄)
      = ((SparseCore.T d).loc main_v18 ↦{fullShare} V18 m d (Proc.devRef .tc main_v18)) := by unfold V18; rw [Function.update_self]
  have e21 : (((SparseCore.T d).loc main_v21 ↦{fullShare} VC m d (Proc.devRef .tc main_v21)) : sProp 𝕄)
      = ((SparseCore.T d).loc main_v21 ↦{fullShare} V18 m d (Proc.devRef .tc main_v21)) := by
    unfold V18; rw [Function.update_of_ne (StableHlo.devRef_ne_of_ne (by decide))]
  have e21' : (((SparseCore.T d).loc main_v21 ↦{fullShare}
        (fun i => (rfl : (main_v18 : Ref sig .tc).ty.elt = (main_v21 : Ref sig .tc).ty.elt) ▸ shapeCast (main_v21 : Ref sig .tc).ty.shape (V18 m d (Proc.devRef .tc main_v18)) shapeCasts_S204800x128_S1024x200x128 i)) : sProp 𝕄)
      = ((SparseCore.T d).loc main_v21 ↦{fullShare} outFin m d) := by unfold V18 outFin; rw [Function.update_self]; rfl
  rw [wp_bind]
  ihave Ha6' := (Entails.of_eq e6) $$ Ha6
  iapply (wp_reshape_two d (x := main_arg6) (y := main_v19) rfl shapeCasts_S1024_S1024x1 _ _ (by decide) (VC m d)) $$ [Hb Ha6' H19]
  · isplitl [Hb]; · iexact Hb
    isplitl [Ha6']; · iexact Ha6'
    iexact H19
  iintro ⟨Hb, Ha6', H19⟩
  ihave Ha6 := (Entails.of_eq e6.symm) $$ Ha6'
  ihave H19' := (Entails.of_eq e19) $$ H19
  rw [wp_ret]; imodintro
  -- the mask's call
  iapply (hmask d (lensOf m d) _ _)
  isplitl [Hb]; · iexact Hb
  isplitl [H19']; · iexact H19'
  isplitl [H20]; · iexists _; iexact H20
  isplitl [How]; · iexact How
  isplitl [Hlev]; · iexact Hlev
  isplitl [HG]; · iexact HG
  iintro ⟨Hb, H19', H20, How⟩
  -- the output reshaped
  rw [wp_bind]
  ihave Hout' := (Entails.of_eq e18) $$ Hout
  ihave H21' := (Entails.of_eq e21) $$ H21
  iapply (wp_reshape_two d (x := main_v18) (y := main_v21) rfl shapeCasts_S204800x128_S1024x200x128 _ _ (by decide) (V18 m d)) $$ [Hb Hout' H21']
  · isplitl [Hb]; · iexact Hb
    isplitl [Hout']; · iexact Hout'
    iexact H21'
  iintro ⟨Hb, Hout', H21'⟩
  ihave H21 := (Entails.of_eq e21') $$ H21'
  rw [wp_ret]; imodintro
  rw [wp_pure]; imodintro
  isplitl [How HR]
  · iapply (Entails.of_eq hR.symm)
    isplitl [How]; · iexact How
    iexact HR
  iapply (FIN_intro m maskOf d)
  isplitl [H21]; · iexact H21
  isplitl [H20]; · iexact H20
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Ha6

end Tail

section Run
variable [FloatOps F] (m : (ℓ : Loc nD τ sig) → Buf (Elt F) ℓ) (ρ : Dev nD → PrngReg)
variable (Gm : Dev nD → sProp (MT nD τ sig (HIx 1) (Elt F) ℕ UU ℕ)) (maskOf : (S1024x1.Idx → BitVec 32) → S1024x200.Idx → Elt F .f32)

set_option backward.isDefEq.respectTransparency.types false in
/-- @main on device `d`'s TensorCore: the host operations as one line, then the rest. -/
theorem hmain (hmask : MaskLine (F := F) Gm maskOf) (κ : GSem nD τ sig → ℕ) (d : Dev nD) :
    iprop((K (F := F)).ctx EH (P (arrs m)) κ ∗ (K (F := F)).tcSt EH d 0 ∗ (K (F := F)).tcRes m ρ d ∗ Gm d)
      ⊢ wp frame (wpE ((K (F := F)).defs (D (F := F))) 𝒱 (SparseCore.T d) none) Set.univ (main d)
          fun _ => iprop((K (F := F)).tcSt EH d 1 ∗ FIN m maskOf d) := by
  unfold SparseCore.Cfg.tcRes
  rw [unscoped_held, main_eq]
  iintro ⟨#Hctx, Hst, ⟨Hb, Hheld, -, -⟩, HG⟩
  iapply (wp_seq 𝒱 none Set.univ d SU (fun _ => mainTail d) hostOps hostOps_sub hostOps_fresh (launchContents m d)) $$ [Hb Hheld]
  · isplitl [Hb] <;> iassumption
  iintro ⟨Hb, Hheld⟩
  iapply (wp_tail m Gm maskOf hmask κ d)
  isplitr; · iexact Hctx
  isplitl [Hst]; · iexact Hst
  isplitl [Hb]; · iexact Hb
  isplitl [Hheld]; · iexact Hheld
  iexact HG

/-! ## The final memory read off, and the run -/

theorem agree1 (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

def fq (d : Dev nD) (s' : Phys nD τ sig (Elt F)) : Prop :=
  s'.mem.mem ((SparseCore.T d).loc main_v21) = outFin m d ∧ s'.mem.mem ((SparseCore.T d).loc main_v20) = maskOf (lensOf m d)
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4) ∧ s'.mem.mem ((SparseCore.T d).loc main_arg5) = m ((SparseCore.T d).loc main_arg5)
  ∧ s'.mem.mem ((SparseCore.T d).loc main_arg6) = m ((SparseCore.T d).loc main_arg6)

set_option maxRecDepth 16384 in
theorem hfin (d : Dev nD) (s' : Phys nD τ sig (Elt F)) : iprop(FIN m maskOf d ∗ SI s') ⊢ (⌜fq m maskOf d s'⌝ : sProp 𝕄) := by
  unfold FIN
  iintro ⟨⟨H21, H20, H0, H1, H2, H3, H4, H5, H6⟩, HSI⟩
  ihave H := (agree1 s' _ _) $$ [HSI H21]
  · isplitl [HSI] <;> iassumption
  icases H with ⟨%e21, HSI⟩
  ihave H := (agree1 s' _ _) $$ [HSI H20]
  · isplitl [HSI] <;> iassumption
  icases H with ⟨%e20, HSI⟩
  ihave H := (agree1 s' _ _) $$ [HSI H0]
  · isplitl [HSI] <;> iassumption
  icases H with ⟨%e0, HSI⟩
  ihave H := (agree1 s' _ _) $$ [HSI H1]
  · isplitl [HSI] <;> iassumption
  icases H with ⟨%e1, HSI⟩
  ihave H := (agree1 s' _ _) $$ [HSI H2]
  · isplitl [HSI] <;> iassumption
  icases H with ⟨%e2, HSI⟩
  ihave H := (agree1 s' _ _) $$ [HSI H3]
  · isplitl [HSI] <;> iassumption
  icases H with ⟨%e3, HSI⟩
  ihave H := (agree1 s' _ _) $$ [HSI H4]
  · isplitl [HSI] <;> iassumption
  icases H with ⟨%e4, HSI⟩
  ihave H := (agree1 s' _ _) $$ [HSI H5]
  · isplitl [HSI] <;> iassumption
  icases H with ⟨%e5, HSI⟩
  ihave H := (agree1 s' _ _) $$ [HSI H6]
  · isplitl [HSI] <;> iassumption
  icases H with ⟨%e6, -⟩
  ipureintro; exact ⟨e21, e20, e0, e1, e2, e3, e4, e5, e6⟩

/-- The run's post: on every device the two results at their terms, the seven arguments unchanged. -/
def QC : PUnit × MemSt nD τ sig (Elt F) → Prop := fun r => ∀ c : Dev nD,
  r.2.mem ((SparseCore.T c).loc main_v21) = outFin m c ∧ r.2.mem ((SparseCore.T c).loc main_v20) = maskOf (lensOf m c)
  ∧ r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)
  ∧ r.2.mem ((SparseCore.T c).loc main_arg4) = m ((SparseCore.T c).loc main_arg4) ∧ r.2.mem ((SparseCore.T c).loc main_arg5) = m ((SparseCore.T c).loc main_arg5)
  ∧ r.2.mem ((SparseCore.T c).loc main_arg6) = m ((SparseCore.T c).loc main_arg6)

/-- The launch element: the handshakes' rounds, the mask pipeline's staging rounds `uR`, the counters at one. -/
def u₀ (uR : UR) : UU := (initOf (K (F := F)).hsCells (K (F := F)).hsToks, (uR, 1))

theorem bigSep_emp' {I : Type} (s : Finset I) : (bigSep s fun _ => iprop(emp)) = (iprop(emp) : sProp 𝕄) := bigSep_emp_const s

theorem hu₀ (uR : UR) (hG : (BI.own ((ER (F := F)) uR) : sProp 𝕄) ⊢ |={Set.univ}=> bigSep Finset.univ Gm) :
    (ownU (u₀ (F := F) uR) : sProp 𝕄)
      ⊢ |={Set.univ}=> iprop(BI.own (EH (initOf (K (F := F)).hsCells (K (F := F)).hsToks)) ∗ bigSep Finset.univ Gm
        ∗ bigSep Finset.univ fun thr : Thread nD τ => bigSep Finset.univ fun q : Fin 1 => (P (arrs m)).x q thr) := by
  unfold u₀
  iintro Hu
  ihave H := (ownU_pair (initOf (K (F := F)).hsCells (K (F := F)).hsToks) ((uR, 1) : UR × Counters)) $$ Hu
  icases H with ⟨HH, HRC⟩
  ihave H2 := (own_pair_emb embR uR (1 : Counters)) $$ HRC
  icases H2 with ⟨HR, -⟩
  have eR : (BI.own (((Emb.inl : Emb UR (UR × Counters)).trans embR) uR) : sProp 𝕄) = BI.own ((ER (F := F)) uR) := rfl
  ihave HR' := (Entails.of_eq eR) $$ HR
  imod hG $$ HR' with HG
  imodintro
  isplitl [HH]; · iexact HH
  isplitl [HG]; · iexact HG
  rw [show (bigSep Finset.univ fun thr : Thread nD τ => bigSep Finset.univ fun q : Fin 1 => (P (F := F) (arrs m)).x q thr) = bigSep Finset.univ fun _ => iprop(emp) from
    bigSep_congr fun _ _ => bigSep_univ_of_subsingleton (0 : Fin 1), bigSep_emp']
  iempintro

/-- The kernel program's run: from any memory with zero counters every weakly fair execution of all its threads
    terminates, and on every device the two results end at their terms of the arguments, the arguments unchanged —
    given the vector subcores' obligation, the mask's call, and the mask pipeline's part of the launch element. -/
theorem run_main [∀ e, Nonempty (Elt F e)] (htile : (K (F := F)).TileObl (D (F := F)) 𝒱 (P (arrs m)) v₀ 0)
    (hmask : MaskLine (F := F) Gm maskOf) (uR : UR) (hG : (BI.own ((ER (F := F)) uR) : sProp 𝕄) ⊢ |={Set.univ}=> bigSep Finset.univ Gm) :
    θ_run (Cert.KernelIdeal.defs (F := F)) (Cert.KernelIdeal.threads (F := F)) ⟨m, fun _ => 0, ρ⟩ (QC m maskOf) :=
  SparseCore.Cfg.θ_run_sc (K := K (F := F)) (D := D (F := F)) (𝒱 := 𝒱) (EH := EH) (P := P (arrs m)) facts v₀
    (fun q hq => match q with | 0 => nomatch hq)
    (fun q _ => match q with | 0 => htile)
    (fun q _ => match q with | 0 => SparseCore.Cfg.VecSplit.of_plain (vecSplit (arrs m)))
    m ρ main Gm (FIN m maskOf) (u₀ (F := F) uR) (sep_elim_left.trans (hu₀ m Gm uR hG)) (hmain m ρ Gm maskOf hmask) (fq m maskOf) (hfin m maskOf) (QC m maskOf) (fun _ h => h)

end Run

end Cert.Proof.KI

end
-- ==== Proof.KITileVals.lean ====
/-
  Three facts about buffer contents that the proof of one vector subcore's body cites.

  The first loop of the body builds the worker's 6400 row numbers sixteen at a time: trip `k` reads lanes
  `[16k, 16k + 16)` of the token ids, the cache flags and the winners, and stores over the same lanes of the row-number
  buffer the row each lane reads (`idxAt`, at the lane's place `16k + l` inside the worker's slice). After `k` trips
  the buffer holds the row numbers below `16k` and its old contents from there on (`idxLoc`); after all 400 it holds
  them everywhere, and those are the row numbers of the whole flattened grid read at the worker's slice.
-/
import proofs.«213838_g73864847557071_cont_9to1_m_429_11_alg».proof.Proof.KISetup
import proofs.«213838_g73864847557071_cont_9to1_m_429_11_alg».proof.Proof.Gen.KernelIdeal.Skeleton
import Idealize.ShloMosaic.Lib.Writes
import Idealize.ShloMosaic.Lib.Pipeline.Value

noncomputable section

namespace Cert.Proof.KI

open Cert.KernelIdeal Cert.KernelIdeal.Gen
open Idealize.ShloMosaic

variable {F : FTy → Type} [FloatOps F]

/-- The first loop runs 400 trips. -/
theorem k0_t1_trips : k0_t1_loop.trips = 400 := by decide

/-- The row-number buffer after `k` trips of the first loop: the row numbers below lane `16k`, the old contents
    from there on. -/
def idxLoc (g7 g8 g9 g10 : S6400.Idx → BitVec 32) (k : Nat) : S6400.Idx → BitVec 32 :=
  fun x => if (x 0).val < 16 * k then idxAt (g7 x) (g8 x) (g9 x) (BitVec.ofNat 32 (x 0).val) else g10 x

/-- After all 400 trips the buffer holds the row numbers everywhere. -/
theorem idxLoc_all (g7 g8 g9 g10 : S6400.Idx → BitVec 32) :
    idxLoc g7 g8 g9 g10 400 = fun x => idxAt (g7 x) (g8 x) (g9 x) (BitVec.ofNat 32 (x 0).val) := by
  funext x
  have hx : (x 0).val < 6400 := (x 0).isLt
  unfold idxLoc
  rw [if_pos (by omega)]

/-- Worker `L`'s 6400 positions of the flattened grid, as the kernel slices them. -/
abbrev posK (L : grid0.Coords) : Rect S204800 := Rect.unit (s := S204800) (k0_off1 L) S6400.size (k0_off1_inb L)

/-- The row numbers a worker builds from its slices are the whole grid's at its positions: position `x` of the slice
    is position `6400·w + x` of the grid, whose place inside its worker's slice is `x` again. -/
theorem idxLoc_global (L : grid0.Coords) (tid flg win : S204800.Idx → BitVec 32) :
    (fun x : S6400.Idx => idxAt (tid ((posK L).emb x)) (flg ((posK L).emb x)) (win ((posK L).emb x)) (BitVec.ofNat 32 (x 0).val))
      = fun x => idxG tid flg win ((posK L).emb x) := by
  funext x
  have hx : (x 0).val < 6400 := (x 0).isLt
  have he : (((posK L).emb x) 0).val = 12800 * (L 1).val + 6400 * (L 0).val + (x 0).val := by
    rw [Rect.emb_apply]
    show k0_off1 L 0 + 1 * (x 0).val = _
    rw [k0_off1_eq L]
    simp
  unfold idxG
  rw [he]
  congr 2
  omega

/-! ## One trip of the first loop -/

section WholeWrites

variable {sig' : RefSig} {κ' : Kind} (Val : EltTy → Type) (b : Ref sig' κ')

/-- One unmasked write through a rectangle of a whole buffer: an element of the rectangle holds the payload, -/
theorem whole_writes_singleton_emb (f : b.ty.Contents Val) (r : Rect b.ty.shape) (w : r.shape.Idx → Val b.ty.elt)
    (x : r.shape.Idx) : (Memref.whole b).view.writes Val f [⟨r, w⟩] (r.emb x) = w x :=
  View.read_writes_cons_emb (Memref.whole b).view f r w [] x

/-- and an element outside it keeps its contents. -/
theorem whole_writes_singleton_of_not_mem (f : b.ty.Contents Val) (r : Rect b.ty.shape) (w : r.shape.Idx → Val b.ty.elt)
    {i : b.ty.shape.Idx} (hi : i ∉ r.set) : (Memref.whole b).view.writes Val f [⟨r, w⟩] i = f i :=
  View.read_writes_apply_of_forall_not_mem (Memref.whole b).view f i [⟨r, w⟩]
    (fun p hp => by rw [List.mem_singleton.mp hp]; exact hi)

end WholeWrites

/-- The place of lane `x` of trip `k` inside the worker's slice, as the kernel computes it (the trip number times sixteen plus
    the lane number, in 32-bit words), is `16k + x`. -/
theorem lane_word (k x : Nat) :
    IntOp.addi (Scalar.muli (Scalar.addi 0#32 (Scalar.muli (Scf.iv 0#32 1#32 k) 1#32)) 16#32) (BitVec.ofNat 32 x)
      = BitVec.ofNat 32 (16 * k + x) := by
  apply BitVec.eq_of_toNat_eq
  simp only [IntOp.addi, Scalar.muli, Scalar.addi, IntOp.muli, Scf.iv, BitVec.toNat_add, BitVec.toNat_mul, BitVec.toNat_ofNat]
  omega

/-- One trip of the first loop: storing trip `k`'s sixteen row numbers over lanes `[16k, 16k + 16)` of a buffer that
    holds the row numbers below lane `16k` leaves one that holds them below lane `16(k + 1)`. Lane `x` of the trip is
    position `16k + x`; its payload is the row that position reads; every other position keeps its contents. -/
theorem idxLoc_step (g7 g8 g9 g10 : S6400.Idx → BitVec 32) (k : Fin k0_t1_loop.trips) :
    (Memref.whole cc0_scratch3 : Memref sig .scVector .vmem S6400 .i32).view.writes (Elt F) (idxLoc g7 g8 g9 g10 k.val)
      [⟨Rect.unit (s := S6400) (k0_off2 k) S16.size (k0_off2_inb k),
        k0_pay1 (F := F) k
          ((Memref.whole cc0_scratch0 : Memref sig .scVector .vmem S6400 .i32).view.readAt (Elt F)
            (Rect.unit (s := S6400) (k0_off2 k) S16.size (k0_off2_inb k)).toLoadRect g7)
          ((Memref.whole cc0_scratch1 : Memref sig .scVector .vmem S6400 .i32).view.readAt (Elt F)
            (Rect.unit (s := S6400) (k0_off2 k) S16.size (k0_off2_inb k)).toLoadRect g8)
          ((Memref.whole cc0_scratch2 : Memref sig .scVector .vmem S6400 .i32).view.readAt (Elt F)
            (Rect.unit (s := S6400) (k0_off2 k) S16.size (k0_off2_inb k)).toLoadRect g9)⟩]
      = idxLoc g7 g8 g9 g10 (k.val + 1) := by
  funext i
  have hoff : k0_off2 k 0 = 16 * k.val := by rw [k0_off2_eq k]; rfl
  by_cases hi : i ∈ (Rect.unit (s := S6400) (k0_off2 k) S16.size (k0_off2_inb k)).set
  · obtain ⟨x, rfl⟩ := (Rect.unit (s := S6400) (k0_off2 k) S16.size (k0_off2_inb k)).exists_idx_of_mem hi
    have hx : (x 0).val < 16 := (x 0).isLt
    have he : (((Rect.unit (s := S6400) (k0_off2 k) S16.size (k0_off2_inb k)).toLoadRect.idx x) 0).val = 16 * k.val + (x 0).val := by
      rw [LoadRect.idx_apply]
      show k0_off2 k 0 + 1 * (x 0).val = _
      rw [hoff]; omega
    have hlt : (((Rect.unit (s := S6400) (k0_off2 k) S16.size (k0_off2_inb k)).toLoadRect.idx x) 0).val < 16 * (k.val + 1) := by
      rw [he]; omega
    refine (whole_writes_singleton_emb (Elt F) cc0_scratch3 _ _ _ x).trans ?_
    have hio : iota .scVector S16 32 [0] iota_S16_d0_w32_scVector x = BitVec.ofNat 32 (x 0).val :=
      iota_single_apply .scVector S16 32 0 iota_S16_d0_w32_scVector x
    simp only [k0_pay1, shapeCast_self, select, cmpi, addi, andi, broadcast]
    rw [hio, lane_word]
    unfold idxLoc
    rw [if_pos hlt, he]
    rfl
  · rw [whole_writes_singleton_of_not_mem (Elt F) cc0_scratch3 _ _ _ hi]
    have hi' : ¬ (16 * k.val ≤ (i 0).val ∧ (i 0).val < 16 * k.val + 16) := by
      intro h
      refine hi (Rect.mem_set_unit.mpr (Fin.forall_fin_one.mpr ?_))
      rw [hoff]; exact h
    unfold idxLoc
    by_cases hlt : (i 0).val < 16 * k.val
    · rw [if_pos hlt, if_pos (by omega)]
    · rw [if_neg hlt, if_neg (by omega)]

end Cert.Proof.KI

end
-- ==== Proof.KITileDefs.lean ====
/-
  The pieces a vector subcore's gathers and write-backs name: all of the table, a 128-chunk of the subcore's row numbers,
  a 128-row block of the output, and what one gather delivers.
-/
import proofs.«213838_g73864847557071_cont_9to1_m_429_11_alg».proof.Proof.KISetup
import proofs.«213838_g73864847557071_cont_9to1_m_429_11_alg».proof.Proof.KITileVals

noncomputable section

namespace Cert.Proof.KI

open Cert.KernelIdeal Cert.KernelIdeal.Gen
open Idealize.ShloMosaic

variable {F : FTy → Type}

/-- All of the table, as every gather names it. -/
abbrev tblAll : Memref sig .scVector .hbm S141088x128 .f32 :=
  (Memref.whole main_v1_scv : Memref sig .scVector .hbm S141088x128 .f32).slice
    (Rect.unit (s := S141088x128) ![0, 0] S141088x128.size inb_S141088x128_S141088x128_0_0) (fun _ => rfl)
/-- The 128 row numbers at offset `off` of a subcore's 6400. -/
abbrev idxSl (off : Fin 1 → Nat) (h : ∀ a, off a + S128.size a ≤ S6400.size a) : Memref sig .scVector .vmem S128 .i32 :=
  (Memref.whole cc0_scratch3 : Memref sig .scVector .vmem S6400 .i32).slice (Rect.unit (s := S6400) off S128.size h) (fun _ => rfl)
/-- Block `r` of trip `k` of the subcore at `L`: rows `6400·w + 640·k + 128·r …` of the output. -/
abbrev oBlk (L : grid0.Coords) (k : Fin k0_t2_loop.trips) (r : Fin 5) : Memref sig .scVector .hbm S128x128 .f32 :=
  (Memref.whole main_v18_scv : Memref sig .scVector .hbm S204800x128 .f32).slice
    (Rect.unit (s := S204800x128) (k0_off4 L k (BitVec.ofNat 32 r.val)) S128x128.size (k0_off4_inb L k r)) (fun _ => rfl)

/-- That every row number of a chunk names a row of the table. -/
abbrev InRange (idxF : S6400.Idx → BitVec 32) : Prop :=
  ∀ (off : Fin 1 → Nat) (hoff : ∀ a, off a + S128.size a ≤ S6400.size a) (j : S128.Idx),
    ((((Memref.whole cc0_scratch3 : Memref sig .scVector .vmem S6400 .i32).slice (Rect.unit (s := S6400) off S128.size hoff) (fun _ => rfl)).view.read (Elt F) idxF j : BitVec 32)).toNat
      < S141088x128.size gathers_S141088x128_S128x128.axis

/-- What a gather of the chunk at `off` delivers: row `j` of the buffer is the table's row number `idx[off + j]`. -/
def gath (tbl : S141088x128.Idx → Elt F .f32) (idxF : S6400.Idx → BitVec 32) (hinS : InRange (F := F) idxF)
    (off : Fin 1 → Nat) (h : ∀ a, off a + S128.size a ≤ S6400.size a) : S128x128.Idx → Elt F .f32 :=
  SparseCore.gatherPayload gathers_S141088x128_S128x128 ((tblAll).view.read (Elt F) tbl)
    (SparseCore.rows ((idxSl off h).view.read (Elt F) idxF) rfl (hinS off h))

theorem offA_inb (k : Fin 10) (b : Fin 5) : ∀ a, (![640 * k.val + 128 * b.val] : Fin 1 → Nat) a + S128.size a ≤ S6400.size a := by
  intro a; fin_cases a; simp; omega

end Cert.Proof.KI

end
-- ==== Proof.KITileIdx.lean ====
import proofs.«213838_g73864847557071_cont_9to1_m_429_11_alg».proof.Proof.KITileVals

/-!
# The row numbers a vector subcore has computed are the whole grid's at its positions

After its three fetches a worker's three scratch buffers hold its slices of the token ids, the cache flags and the
winners: each fetch overwrites a whole buffer with what the source array reads at the worker's 6400 positions. The
400 trips of the first loop then leave, at lane `x`, the row number of the grid's position `6400 · w + x`; so every
one of them names a row of the table as soon as every row number of the grid does.
-/

noncomputable section

namespace Cert.Proof.KI

open Cert.KernelIdeal Cert.KernelIdeal.Gen
open Idealize.ShloMosaic

variable {F : FTy → Type} [FloatOps F]

/-- THE ROW NUMBERS OF ONE WORKER, from the buffers as the three fetches leave them: the grid's row numbers at the
    worker's positions. -/
theorem idxF_eq (L : grid0.Coords) (tid flg win : S204800.Idx → BitVec 32) (f0 f1 f2 f3 : S6400.Idx → BitVec 32) :
    idxLoc
        (View.write (Elt F) (Memref.whole cc0_scratch0 : Memref sig .scVector .vmem S6400 .i32).view f0 (ReadAs.same.apply (View.read (Elt F) ((Memref.whole main_v16_scv : Memref sig .scVector .hbm S204800 .i32).slice (posK L) (fun _ => rfl)).view tid)) Finset.univ)
        (View.write (Elt F) (Memref.whole cc0_scratch1 : Memref sig .scVector .vmem S6400 .i32).view f1 (ReadAs.same.apply (View.read (Elt F) ((Memref.whole main_v17_scv : Memref sig .scVector .hbm S204800 .i32).slice (posK L) (fun _ => rfl)).view flg)) Finset.univ)
        (View.write (Elt F) (Memref.whole cc0_scratch2 : Memref sig .scVector .vmem S6400 .i32).view f2 (ReadAs.same.apply (View.read (Elt F) ((Memref.whole main_v15_scv : Memref sig .scVector .hbm S204800 .i32).slice (posK L) (fun _ => rfl)).view win)) Finset.univ)
        f3 400
      = fun x => idxG tid flg win ((posK L).emb x) := by
  have e0 : (View.write (Elt F) (Memref.whole cc0_scratch0 : Memref sig .scVector .vmem S6400 .i32).view f0 (ReadAs.same.apply (View.read (Elt F) ((Memref.whole main_v16_scv : Memref sig .scVector .hbm S204800 .i32).slice (posK L) (fun _ => rfl)).view tid)) Finset.univ)
      = fun x : S6400.Idx => tid ((posK L).emb x) :=
    (View.write_whole_univ (Val := Elt F) cc0_scratch0 f0 _).trans rfl
  have e1 : (View.write (Elt F) (Memref.whole cc0_scratch1 : Memref sig .scVector .vmem S6400 .i32).view f1 (ReadAs.same.apply (View.read (Elt F) ((Memref.whole main_v17_scv : Memref sig .scVector .hbm S204800 .i32).slice (posK L) (fun _ => rfl)).view flg)) Finset.univ)
      = fun x : S6400.Idx => flg ((posK L).emb x) :=
    (View.write_whole_univ (Val := Elt F) cc0_scratch1 f1 _).trans rfl
  have e2 : (View.write (Elt F) (Memref.whole cc0_scratch2 : Memref sig .scVector .vmem S6400 .i32).view f2 (ReadAs.same.apply (View.read (Elt F) ((Memref.whole main_v15_scv : Memref sig .scVector .hbm S204800 .i32).slice (posK L) (fun _ => rfl)).view win)) Finset.univ)
      = fun x : S6400.Idx => win ((posK L).emb x) :=
    (View.write_whole_univ (Val := Elt F) cc0_scratch2 f2 _).trans rfl
  rw [e0, e1, e2, idxLoc_all]
  exact idxLoc_global L tid flg win

/-- … so each names a row of the table when every row number of the grid does. -/
theorem idxF_lt (L : grid0.Coords) (tid flg win : S204800.Idx → BitVec 32) (f0 f1 f2 f3 : S6400.Idx → BitVec 32)
    (h : ∀ p : S204800.Idx, (idxG tid flg win p).toNat < 141088) (x : S6400.Idx) :
    ((idxLoc
        (View.write (Elt F) (Memref.whole cc0_scratch0 : Memref sig .scVector .vmem S6400 .i32).view f0 (ReadAs.same.apply (View.read (Elt F) ((Memref.whole main_v16_scv : Memref sig .scVector .hbm S204800 .i32).slice (posK L) (fun _ => rfl)).view tid)) Finset.univ)
        (View.write (Elt F) (Memref.whole cc0_scratch1 : Memref sig .scVector .vmem S6400 .i32).view f1 (ReadAs.same.apply (View.read (Elt F) ((Memref.whole main_v17_scv : Memref sig .scVector .hbm S204800 .i32).slice (posK L) (fun _ => rfl)).view flg)) Finset.univ)
        (View.write (Elt F) (Memref.whole cc0_scratch2 : Memref sig .scVector .vmem S6400 .i32).view f2 (ReadAs.same.apply (View.read (Elt F) ((Memref.whole main_v15_scv : Memref sig .scVector .hbm S204800 .i32).slice (posK L) (fun _ => rfl)).view win)) Finset.univ)
        f3 400) x).toNat < 141088 := by
  rw [idxF_eq (F := F) L tid flg win f0 f1 f2 f3]
  exact h _

end Cert.Proof.KI

end
-- ==== Proof.KITileOut.lean ====
/-
  Three facts about one vector subcore's output blocks.

  The subcore at `L` (worker `w`) writes its 6400 rows of the output as fifty blocks of 128 rows: block `r` of trip `k`
  is rows `6400·w + 640·k + 128·r …`. A block is copied out of a row buffer that a gather has just written whole, so the
  copy moves the gather's payload; what the block then holds is the output the call computes; and the fifty blocks are
  the subcore's rows, each once.
-/
import proofs.«213838_g73864847557071_cont_9to1_m_429_11_alg».proof.Proof.KITileDefs

noncomputable section

namespace Cert.Proof.KI

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem

variable {F : FTy → Type}

local notation "𝕄" => MT nD τ sig (HIx 1) (Elt F) ℕ UU ℕ

/-- The second loop runs 10 trips. -/
theorem k0_t2_trips : k0_t2_loop.trips = 10 := by decide

section Generic

variable {sig' : RefSig} {κ' : Kind} (Val : EltTy → Type) (b : Ref sig' κ')

/-- A whole buffer that one unmasked write has just filled reads as the payload. -/
theorem read_whole_writes (fb : b.ty.Contents Val) (g : (Rect.whole b.ty.shape).shape.Idx → Val b.ty.elt) :
    ReadAs.same.apply (View.read Val (Memref.whole b).view ((Memref.whole b).view.writes Val fb [⟨Rect.whole b.ty.shape, g⟩])) = g := by
  funext x
  have h := whole_writes_singleton_emb Val b fb (Rect.whole b.ty.shape) g x
  rw [Rect.emb_whole_apply] at h
  exact h

/-- A rectangle of a whole buffer that one unmasked write has just filled holds the payload, element by element. -/
theorem slice_whole_writes_emb (R : Rect b.ty.shape) (hR : ∀ a, R.stride a = 1) (fo : b.ty.Contents Val)
    (g : (Rect.whole R.shape).shape.Idx → Val b.ty.elt) (j : R.shape.Idx) :
    ((Memref.whole b).slice R hR).view.writes Val fo [⟨Rect.whole R.shape, g⟩] (R.emb j) = g j := by
  have h := View.read_writes_cons_emb ((Memref.whole b).slice R hR).view fo (Rect.whole R.shape) g [] j
  rw [Rect.emb_whole_apply] at h
  exact h

end Generic

/-- A rank-one index read back from its row-major number is that number. -/
theorem rowMajor_symm_val_one {d : Fin 1 → Nat} (q : Fin (⟨1, d⟩ : Shape).numel) :
    (((⟨1, d⟩ : Shape).rowMajor.symm q) 0).val = q.val := by
  rw [← Shape.rowMajor_val_one, Equiv.apply_symm_apply]

/-- What a written block holds: block `r` of trip `k` of the subcore at `L`, after the gather's payload for the chunk
    at `640·k + 128·r` of the subcore's row numbers is copied into it, holds the output the call computes. Element `(j, e)`
    of the block is row `6400·w + 640·k + 128·r + j`, column `e`; the payload there is the table's row numbered by entry
    `640·k + 128·r + j` of the subcore's row numbers, which is the grid's row number at position `6400·w + 640·k + 128·r + j`. -/
theorem oBlk_value (L : grid0.Coords) (k : Fin k0_t2_loop.trips) (r : Fin 5) (tbl : S141088x128.Idx → Elt F .f32)
    (idxg : S204800.Idx → BitVec 32) (idxF : S6400.Idx → BitVec 32) (hF : idxF = fun x => idxg ((posK L).emb x))
    (hinS : InRange (F := F) idxF) (hg : ∀ p, (idxg p).toNat < 141088) (fo : S204800x128.Idx → Elt F .f32) :
    ∀ x ∈ (oBlk L k r).view.set,
      ((oBlk L k r).view.writes (Elt F) fo
        [⟨Rect.whole S128x128, gath (F := F) tbl idxF hinS ![640 * k.val + 128 * r.val]
            (offA_inb ⟨k.val, Nat.lt_of_lt_of_eq k.isLt k0_t2_trips⟩ r)⟩]) x = outG (F := F) tbl idxg x := by
  intro x hx
  have hx' : x ∈ (Rect.unit (s := S204800x128) (k0_off4 L k (BitVec.ofNat 32 r.val)) S128x128.size (k0_off4_inb L k r)).set := by
    rw [← View.set_slice_whole (main_v18_scv : Ref sig .scVector)]; exact hx
  obtain ⟨j, rfl⟩ := (Rect.unit (s := S204800x128) (k0_off4 L k (BitVec.ofNat 32 r.val)) S128x128.size (k0_off4_inb L k r)).exists_idx_of_mem hx'
  refine (slice_whole_writes_emb (Elt F) (main_v18_scv : Ref sig .scVector) _ (fun _ => rfl) fo _ j).trans ?_
  clear hx hx'
  subst hF
  have hk : k.val < 10 := Nat.lt_of_lt_of_eq k.isLt k0_t2_trips
  have hr : r.val < 5 := r.isLt
  have hj0 : (j 0).val < 128 := (j 0).isLt
  have ho0 : k0_off4 L k (BitVec.ofNat 32 r.val) 0 = 12800 * (L 1).val + 6400 * (L 0).val + 640 * k.val + 128 * r.val := by
    rw [k0_off4_eq L k r]; rfl
  have ho1 : k0_off4 L k (BitVec.ofNat 32 r.val) 1 = 0 := by
    rw [k0_off4_eq L k r]; rfl
  have hR0 : (((Rect.unit (s := S204800x128) (k0_off4 L k (BitVec.ofNat 32 r.val)) S128x128.size (k0_off4_inb L k r)).toLoadRect.idx j) 0).val
      = 12800 * (L 1).val + 6400 * (L 0).val + 640 * k.val + 128 * r.val + (j 0).val := by
    rw [LoadRect.idx_apply]
    show k0_off4 L k (BitVec.ofNat 32 r.val) 0 + 1 * (j 0).val = _
    rw [ho0]; omega
  have hR1 : (((Rect.unit (s := S204800x128) (k0_off4 L k (BitVec.ofNat 32 r.val)) S128x128.size (k0_off4_inb L k r)).toLoadRect.idx j) 1).val
      = (j 1).val := by
    rw [LoadRect.idx_apply]
    show k0_off4 L k (BitVec.ofNat 32 r.val) 1 + 1 * (j 1).val = _
    rw [ho1]; omega
  generalize (Rect.unit (s := S204800x128) (k0_off4 L k (BitVec.ofNat 32 r.val)) S128x128.size (k0_off4_inb L k r)).toLoadRect.idx j = y at hR0 hR1 ⊢
  unfold gath SparseCore.gatherPayload outG
  rw [View.read_apply, cast_eq]
  refine congrArg tbl ?_
  -- the chunk's entry the block's row j names
  have hz : ((S128.rowMajor.symm ((j 0).cast (rfl : S128x128.size gathers_S141088x128_S128x128.axis' = S128.numel))) 0).val = (j 0).val :=
    rowMajor_symm_val_one _
  funext a
  apply Fin.ext
  match a with
  | ⟨0, _⟩ =>
    have hP : (posK L).emb ((Rect.unit (s := S6400) ![640 * k.val + 128 * r.val] S128.size (offA_inb ⟨k.val, hk⟩ r)).emb
        (S128.rowMajor.symm ((j 0).cast (rfl : S128x128.size gathers_S141088x128_S128x128.axis' = S128.numel)))) = ix1 (y 0) := by
      funext c
      apply Fin.ext
      match c with
      | ⟨0, _⟩ =>
        show k0_off1 L 0 + 1 * ((![640 * k.val + 128 * r.val] : Fin 1 → Nat) 0
          + 1 * ((S128.rowMajor.symm ((j 0).cast (rfl : S128x128.size gathers_S141088x128_S128x128.axis' = S128.numel))) 0).val) = (y 0).val
        rw [hz, hR0, show k0_off1 L 0 = 12800 * (L 1).val + 6400 * (L 0).val from by rw [k0_off1_eq L]; rfl]
        show _ + 1 * (640 * k.val + 128 * r.val + 1 * (j 0).val) = _
        omega
    show (![0, 0] : Fin 2 → Nat) 0 + 1 * (idxg ((posK L).emb ((Rect.unit (s := S6400) ![640 * k.val + 128 * r.val] S128.size (offA_inb ⟨k.val, hk⟩ r)).emb
        (S128.rowMajor.symm ((j 0).cast (rfl : S128x128.size gathers_S141088x128_S128x128.axis' = S128.numel)))))).toNat
      = (idxg (ix1 (y 0))).toNat % 141088
    rw [hP, Nat.mod_eq_of_lt (hg _)]
    exact (Nat.zero_add _).trans (Nat.one_mul _)
  | ⟨1, _⟩ =>
    show (![0, 0] : Fin 2 → Nat) 1 + 1 * ((gathers_S141088x128_S128x128.idx _ j) 1).val = (y 1).val
    rw [Shape.Gathers.idx_of_ne _ _ _ 1 (by decide), hR1]
    show 0 + 1 * (j 1).val = (j 1).val
    omega

/-! ## The fifty blocks are the subcore's rows -/

/-- The rows of block `r` of trip `k`. -/
abbrev oSet (L : grid0.Coords) (k : Fin k0_t2_loop.trips) (r : Fin 5) : Finset S204800x128.Idx :=
  (Rect.unit (s := S204800x128) (k0_off4 L k (BitVec.ofNat 32 r.val)) S128x128.size (k0_off4_inb L k r)).set

theorem set_oBlk (L : grid0.Coords) (k : Fin k0_t2_loop.trips) (r : Fin 5) : (oBlk L k r).view.set = oSet L k r :=
  View.set_slice_whole (main_v18_scv : Ref sig .scVector) _

/-- An element lies in block `r` of trip `k` when its row is one of the 128 from `6400·w + 640·k + 128·r` on. -/
theorem mem_oSet (L : grid0.Coords) (k : Fin k0_t2_loop.trips) (r : Fin 5) (x : S204800x128.Idx) :
    x ∈ oSet L k r ↔ 12800 * (L 1).val + 6400 * (L 0).val + 640 * k.val + 128 * r.val ≤ (x 0).val
      ∧ (x 0).val < 12800 * (L 1).val + 6400 * (L 0).val + 640 * k.val + 128 * r.val + 128 := by
  have ho0 : k0_off4 L k (BitVec.ofNat 32 r.val) 0 = 12800 * (L 1).val + 6400 * (L 0).val + 640 * k.val + 128 * r.val := by
    rw [k0_off4_eq L k r]; rfl
  have ho1 : k0_off4 L k (BitVec.ofNat 32 r.val) 1 = 0 := by
    rw [k0_off4_eq L k r]; rfl
  have h1 : (x 1).val < 128 := (x 1).isLt
  rw [Rect.mem_set_unit]
  constructor
  · intro h
    have h0 := h 0
    rw [ho0] at h0
    exact h0
  · intro h a
    match a with
    | ⟨0, _⟩ =>
      show k0_off4 L k (BitVec.ofNat 32 r.val) 0 ≤ (x 0).val ∧ (x 0).val < k0_off4 L k (BitVec.ofNat 32 r.val) 0 + 128
      rw [ho0]; exact h
    | ⟨1, _⟩ =>
      show k0_off4 L k (BitVec.ofNat 32 r.val) 1 ≤ (x 1).val ∧ (x 1).val < k0_off4 L k (BitVec.ofNat 32 r.val) 1 + 128
      rw [ho1]; exact ⟨Nat.zero_le _, by omega⟩

/-- An element lies in the subcore's rows when its row is one of the 6400 from `6400·w` on. -/
theorem mem_outSet_wid (L : grid0.Coords) (x : S204800x128.Idx) :
    x ∈ outSet (wid (L 0) (L 1)) ↔ 12800 * (L 1).val + 6400 * (L 0).val ≤ (x 0).val
      ∧ (x 0).val < 12800 * (L 1).val + 6400 * (L 0).val + 6400 := by
  have h1 : (x 1).val < 128 := (x 1).isLt
  rw [Rect.mem_set_unit]
  constructor
  · intro h
    have h0 := h 0
    simp [Shape.partIx, Shape.partSize, wid] at h0
    omega
  · intro h a
    match a with
    | ⟨0, _⟩ => simp [Shape.partIx, Shape.partSize, wid]; omega
    | ⟨1, _⟩ => simp [Shape.partIx, Shape.partSize]; omega

/-- The blocks of one trip are pairwise disjoint, -/
theorem oSet_disjoint_r (L : grid0.Coords) (k : Fin k0_t2_loop.trips) {r r' : Fin 5} (h : r ≠ r') :
    Disjoint (oSet L k r) (oSet L k r') :=
  Finset.disjoint_left.mpr fun x h1 h2 => by
    rw [mem_oSet] at h1 h2
    have hne : r.val ≠ r'.val := fun e => h (Fin.ext e)
    omega

/-- the rows of different trips are disjoint, -/
theorem oSet_disjoint_k (L : grid0.Coords) {k k' : Fin k0_t2_loop.trips} (h : k ≠ k') :
    Disjoint ((Finset.univ : Finset (Fin 5)).biUnion fun r => oSet L k r) ((Finset.univ : Finset (Fin 5)).biUnion fun r => oSet L k' r) :=
  Finset.disjoint_left.mpr fun x h1 h2 => by
    obtain ⟨r, -, h1⟩ := Finset.mem_biUnion.mp h1
    obtain ⟨r', -, h2⟩ := Finset.mem_biUnion.mp h2
    rw [mem_oSet] at h1 h2
    have hne : k.val ≠ k'.val := fun e => h (Fin.ext e)
    have hr := r.isLt
    have hr' := r'.isLt
    omega

/-- and all fifty together are the subcore's rows. -/
theorem oSets_cover (L : grid0.Coords) :
    ((Finset.univ : Finset (Fin k0_t2_loop.trips)).biUnion fun k => (Finset.univ : Finset (Fin 5)).biUnion fun r => oSet L k r)
      = outSet (wid (L 0) (L 1)) := by
  ext x
  rw [mem_outSet_wid]
  constructor
  · intro hx
    obtain ⟨k, -, hx⟩ := Finset.mem_biUnion.mp hx
    obtain ⟨r, -, hx⟩ := Finset.mem_biUnion.mp hx
    rw [mem_oSet] at hx
    have hk : k.val < 10 := Nat.lt_of_lt_of_eq k.isLt k0_t2_trips
    have hr := r.isLt
    omega
  · intro hx
    refine Finset.mem_biUnion.mpr ⟨⟨((x 0).val - (12800 * (L 1).val + 6400 * (L 0).val)) / 640, by rw [k0_t2_trips]; omega⟩, Finset.mem_univ _,
      Finset.mem_biUnion.mpr ⟨⟨(((x 0).val - (12800 * (L 1).val + 6400 * (L 0).val)) % 640) / 128, by omega⟩, Finset.mem_univ _, ?_⟩⟩
    rw [mem_oSet]
    show 12800 * (L 1).val + 6400 * (L 0).val + 640 * (((x 0).val - (12800 * (L 1).val + 6400 * (L 0).val)) / 640)
        + 128 * ((((x 0).val - (12800 * (L 1).val + 6400 * (L 0).val)) % 640) / 128) ≤ (x 0).val
      ∧ (x 0).val < 12800 * (L 1).val + 6400 * (L 0).val + 640 * (((x 0).val - (12800 * (L 1).val + 6400 * (L 0).val)) / 640)
        + 128 * ((((x 0).val - (12800 * (L 1).val + 6400 * (L 0).val)) % 640) / 128) + 128
    omega

/-- The subcore's rows of the output, held as its fifty blocks. -/
theorem oBlk_partition (L : grid0.Coords) (d : Dev nD) (f : Buf (Elt F) (outLoc d)) (q : PosShare TreeShare) :
    (outLoc d ↦[outSet (wid (L 0) (L 1))]{q} f : sProp 𝕄)
      = bigSep Finset.univ fun k : Fin k0_t2_loop.trips => bigSep Finset.univ fun r : Fin 5 => outLoc d ↦[(oBlk L k r).view.set]{q} f := by
  have hin : ∀ k : Fin k0_t2_loop.trips,
      (bigSep Finset.univ fun r : Fin 5 => (outLoc d ↦[(oBlk L k r).view.set]{q} f : sProp 𝕄))
        = (outLoc d ↦[(Finset.univ : Finset (Fin 5)).biUnion fun r => oSet L k r]{q} f : sProp 𝕄) := fun k => by
    rw [pointsTo_biUnion Finset.univ (ℓ := outLoc d) (fun r => oSet L k r) (fun r _ r' _ h => oSet_disjoint_r L k h)]
    exact bigSep_congr fun r _ => by rw [set_oBlk]
  rw [bigSep_congr (fun k _ => hin k),
    ← pointsTo_biUnion Finset.univ (ℓ := outLoc d) (fun k => (Finset.univ : Finset (Fin 5)).biUnion fun r => oSet L k r)
      (fun k _ k' _ h => oSet_disjoint_k L h),
    oSets_cover]

end Cert.Proof.KI

end
-- ==== Proof.KITile.lean ====
/-
  One vector subcore's task of the embedding lookup: the proof of its body.
-/
import proofs.«213838_g73864847557071_cont_9to1_m_429_11_alg».proof.Proof.KISetup
import proofs.«213838_g73864847557071_cont_9to1_m_429_11_alg».proof.Proof.KITileVals
import proofs.«213838_g73864847557071_cont_9to1_m_429_11_alg».proof.Proof.KITileDefs
import proofs.«213838_g73864847557071_cont_9to1_m_429_11_alg».proof.Proof.KITileIdx
import proofs.«213838_g73864847557071_cont_9to1_m_429_11_alg».proof.Proof.KITileOut

set_option pp.maxSteps 20000
set_option pp.deepTerms false

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own semaphores and buffers, one by one -/

/-- The thirteen DMA semaphores of a vector subcore's task: the five gathers', the five write-backs', the three fetches'. -/
def semOf : Fin 13 → DmaSem sig
  | 0 => cc0_scratch9.sem
  | 1 => cc0_scratch10.sem
  | 2 => cc0_scratch11.sem
  | 3 => cc0_scratch12.sem
  | 4 => cc0_scratch13.sem
  | 5 => cc0_scratch14.sem
  | 6 => cc0_scratch15.sem
  | 7 => cc0_scratch16.sem
  | 8 => cc0_scratch17.sem
  | 9 => cc0_scratch18.sem
  | 10 => cc0_scoped0.sem
  | 11 => cc0_scoped1.sem
  | 12 => cc0_scoped2.sem
theorem semOf_0 : semOf 0 = cc0_scratch9.sem := rfl
theorem semOf_1 : semOf 1 = cc0_scratch10.sem := rfl
theorem semOf_2 : semOf 2 = cc0_scratch11.sem := rfl
theorem semOf_3 : semOf 3 = cc0_scratch12.sem := rfl
theorem semOf_4 : semOf 4 = cc0_scratch13.sem := rfl
theorem semOf_5 : semOf 5 = cc0_scratch14.sem := rfl
theorem semOf_6 : semOf 6 = cc0_scratch15.sem := rfl
theorem semOf_7 : semOf 7 = cc0_scratch16.sem := rfl
theorem semOf_8 : semOf 8 = cc0_scratch17.sem := rfl
theorem semOf_9 : semOf 9 = cc0_scratch18.sem := rfl
theorem semOf_10 : semOf 10 = cc0_scoped0.sem := rfl
theorem semOf_11 : semOf 11 = cc0_scoped1.sem := rfl
theorem semOf_12 : semOf 12 = cc0_scoped2.sem := rfl
theorem semOf_inj : Function.Injective semOf := by decide
def cellK (thr : Thread nD τ) (k : Fin 13) : GSem nD τ sig := (thr, SemLoc.dma (semOf k))

theorem cellK_inj (thr : Thread nD τ) : Function.Injective (cellK thr) := by
  intro a b h
  have h2 := (Prod.mk.inj h).2
  have h3 : semOf a = semOf b := by injection h2
  exact semOf_inj h3

theorem cellK_mem (d : Dev nD) (c : Fin τ.nSC) (i : Fin τ.nSub) (k : Fin 13) : cellK (V d c i) k ∈ (ownCells (V d c i) : Finset (GSem nD τ sig)) :=
  mem_ownCells.mpr ⟨rfl, by
    show (SemLoc.dma (semOf k) : SemLoc sig).isScoped .scVector = true
    revert k; decide⟩

theorem ownSems0_V (d : Dev nD) (c : Fin τ.nSC) (i : Fin τ.nSub) :
    (ownSems0 (V d c i) : sProp 𝕄)
      = iprop((bigSep Finset.univ fun k : Fin 13 => semVal (cellK (V d c i) k) 0)
          ∗ bigSep (ownCells (V d c i) \ Finset.univ.image (cellK (V d c i))) fun g => semVal g 0) := by
  unfold SparseCore.Cfg.ownSems0
  rw [SparseCore.bigSep_sdiff_split' (t := Finset.univ.image (cellK (V d c i))) (by
      intro g hg; obtain ⟨k, -, rfl⟩ := Finset.mem_image.mp hg; exact cellK_mem d c i k),
    SparseCore.bigSep_image_of_injOn ((cellK_inj (V d c i)).injOn)]

/-- The nine scratch buffers of a task: the three fetched slices, the row numbers, the five row buffers. -/
def bufK : Fin 9 → Ref sig .scVector
  | 0 => cc0_scratch0 | 1 => cc0_scratch1 | 2 => cc0_scratch2 | 3 => cc0_scratch3 | 4 => cc0_scratch4
  | 5 => cc0_scratch5 | 6 => cc0_scratch6 | 7 => cc0_scratch7 | 8 => cc0_scratch8
theorem bufK_0 : bufK 0 = cc0_scratch0 := rfl
theorem bufK_1 : bufK 1 = cc0_scratch1 := rfl
theorem bufK_2 : bufK 2 = cc0_scratch2 := rfl
theorem bufK_3 : bufK 3 = cc0_scratch3 := rfl
theorem bufK_4 : bufK 4 = cc0_scratch4 := rfl
theorem bufK_5 : bufK 5 = cc0_scratch5 := rfl
theorem bufK_6 : bufK 6 = cc0_scratch6 := rfl
theorem bufK_7 : bufK 7 = cc0_scratch7 := rfl
theorem bufK_8 : bufK 8 = cc0_scratch8 := rfl
theorem bufK_inj : Function.Injective bufK := by decide

theorem ownBufs_V (d : Dev nD) (c : Fin τ.nSC) (i : Fin τ.nSub) :
    (ownBufs (V d c i) : sProp 𝕄)
      = iprop((bigSep Finset.univ fun k : Fin 9 => iprop(∃ f, (V d c i).loc (bufK k) ↦{fullShare} f))
          ∗ bigSep (ownRefs (τ := τ) (.scVector c i) \ Finset.univ.image (fun k => (Proc.scVector c i).devRef (bufK k)))
              fun b => iprop(∃ f, ((d, b) : Loc nD τ sig) ↦{fullShare} f)) := by
  unfold SparseCore.Cfg.ownBufs
  rw [SparseCore.bigSep_sdiff_split' (t := Finset.univ.image (fun k => (Proc.scVector c i).devRef (bufK k))) (by
      intro b hb; obtain ⟨k, -, rfl⟩ := Finset.mem_image.mp hb
      exact SparseCore.Cfg.mem_ownRefs_of_owner (by fin_cases k <;> rfl)),
    SparseCore.bigSep_image_of_injOn (Function.Injective.injOn fun a b h => bufK_inj (Proc.devRef_injective _ h))]

theorem bigSep_fin13 {M : Type} [URA M] (Φ : Fin 13 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [(0 : Fin 13), 1, 2, 3, 4, 5, 6, 7, 8, 9, 10, 11, 12] (by decide) (by decide) Φ
theorem bigSep_fin9 {M : Type} [URA M] (Φ : Fin 9 → sProp M) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

theorem ownBufs_V' (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f) ∗ (∃ f, (V d c i).loc cc0_scratch4 ↦{fullShare} f) ∗ (∃ f, (V d c i).loc cc0_scratch5 ↦{fullShare} f) ∗ (∃ f, (V d c i).loc cc0_scratch6 ↦{fullShare} f) ∗ (∃ f, (V d c i).loc cc0_scratch7 ↦{fullShare} f) ∗ (∃ f, (V d c i).loc cc0_scratch8 ↦{fullShare} f))
          ∗ bigSep (ownRefs (τ := τ) (.scVector c i) \ Finset.univ.image (fun k => (Proc.scVector c i).devRef (bufK k)))
              fun b => iprop(∃ f, ((d, b) : Loc nD τ sig) ↦{fullShare} f)) := by
  rw [ownBufs_V, bigSep_fin9]; rfl

theorem ownSems0_V' (d : Dev nD) (c : Fin τ.nSC) (i : Fin τ.nSub) :
    (ownSems0 (V d c i) : sProp 𝕄)
      = iprop((semVal ((V d c i, SemLoc.dma cc0_scratch9.sem) : GSem nD τ sig) 0 ∗ semVal ((V d c i, SemLoc.dma cc0_scratch10.sem) : GSem nD τ sig) 0 ∗ semVal ((V d c i, SemLoc.dma cc0_scratch11.sem) : GSem nD τ sig) 0 ∗ semVal ((V d c i, SemLoc.dma cc0_scratch12.sem) : GSem nD τ sig) 0 ∗ semVal ((V d c i, SemLoc.dma cc0_scratch13.sem) : GSem nD τ sig) 0 ∗ semVal ((V d c i, SemLoc.dma cc0_scratch14.sem) : GSem nD τ sig) 0 ∗ semVal ((V d c i, SemLoc.dma cc0_scratch15.sem) : GSem nD τ sig) 0 ∗ semVal ((V d c i, SemLoc.dma cc0_scratch16.sem) : GSem nD τ sig) 0 ∗ semVal ((V d c i, SemLoc.dma cc0_scratch17.sem) : GSem nD τ sig) 0 ∗ semVal ((V d c i, SemLoc.dma cc0_scratch18.sem) : GSem nD τ sig) 0 ∗ semVal ((V d c i, SemLoc.dma cc0_scoped0.sem) : GSem nD τ sig) 0 ∗ semVal ((V d c i, SemLoc.dma cc0_scoped1.sem) : GSem nD τ sig) 0 ∗ semVal ((V d c i, SemLoc.dma cc0_scoped2.sem) : GSem nD τ sig) 0)
          ∗ bigSep (ownCells (V d c i) \ Finset.univ.image (cellK (V d c i))) fun g => semVal g 0) := by
  rw [ownSems0_V, bigSep_fin13]; rfl

theorem bigSep_fin5 {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-! ## The task -/

section Tile

variable [FloatOps F] (A : (d : Dev nD) → CallArrs (F := F) d) (d : Dev nD) (L : grid0.Coords)

abbrev cV (L : grid0.Coords) : Fin τ.nSC := (L 0).castLE hcore0
abbrev jV (L : grid0.Coords) : Fin τ.nSub := (L 1).castLE hsub0
/-- The worker number of the subcore at grid point `L`. -/
def wL (L : grid0.Coords) : Fin 32 := wid (L 0) (L 1)

local notation "tblV" => (Memref.whole Cert.KernelIdeal.main_v1_scv : Memref Cert.KernelIdeal.sig Kind.scVector Space.hbm Cert.KernelIdeal.S141088x128 EltTy.f32)
local notation "tidV" => (Memref.whole Cert.KernelIdeal.main_v16_scv : Memref Cert.KernelIdeal.sig Kind.scVector Space.hbm Cert.KernelIdeal.S204800 EltTy.i32)
local notation "flgV" => (Memref.whole Cert.KernelIdeal.main_v17_scv : Memref Cert.KernelIdeal.sig Kind.scVector Space.hbm Cert.KernelIdeal.S204800 EltTy.i32)
local notation "winV" => (Memref.whole Cert.KernelIdeal.main_v15_scv : Memref Cert.KernelIdeal.sig Kind.scVector Space.hbm Cert.KernelIdeal.S204800 EltTy.i32)
local notation "outV" => (Memref.whole Cert.KernelIdeal.main_v18_scv : Memref Cert.KernelIdeal.sig Kind.scVector Space.hbm Cert.KernelIdeal.S204800x128 EltTy.f32)
local notation "s0V" => (Memref.whole Cert.KernelIdeal.cc0_scratch0 : Memref Cert.KernelIdeal.sig Kind.scVector Space.vmem Cert.KernelIdeal.S6400 EltTy.i32)
local notation "s1V" => (Memref.whole Cert.KernelIdeal.cc0_scratch1 : Memref Cert.KernelIdeal.sig Kind.scVector Space.vmem Cert.KernelIdeal.S6400 EltTy.i32)
local notation "s2V" => (Memref.whole Cert.KernelIdeal.cc0_scratch2 : Memref Cert.KernelIdeal.sig Kind.scVector Space.vmem Cert.KernelIdeal.S6400 EltTy.i32)
local notation "s3V" => (Memref.whole Cert.KernelIdeal.cc0_scratch3 : Memref Cert.KernelIdeal.sig Kind.scVector Space.vmem Cert.KernelIdeal.S6400 EltTy.i32)
local notation "r0V" => (Memref.whole Cert.KernelIdeal.cc0_scratch4 : Memref Cert.KernelIdeal.sig Kind.scVector Space.vmem Cert.KernelIdeal.S128x128 EltTy.f32)
local notation "r1V" => (Memref.whole Cert.KernelIdeal.cc0_scratch5 : Memref Cert.KernelIdeal.sig Kind.scVector Space.vmem Cert.KernelIdeal.S128x128 EltTy.f32)
local notation "r2V" => (Memref.whole Cert.KernelIdeal.cc0_scratch6 : Memref Cert.KernelIdeal.sig Kind.scVector Space.vmem Cert.KernelIdeal.S128x128 EltTy.f32)
local notation "r3V" => (Memref.whole Cert.KernelIdeal.cc0_scratch7 : Memref Cert.KernelIdeal.sig Kind.scVector Space.vmem Cert.KernelIdeal.S128x128 EltTy.f32)
local notation "r4V" => (Memref.whole Cert.KernelIdeal.cc0_scratch8 : Memref Cert.KernelIdeal.sig Kind.scVector Space.vmem Cert.KernelIdeal.S128x128 EltTy.f32)

omit [FloatOps F] in
theorem posK_eq (L : grid0.Coords) : posK L = posRect (wL L) := by
  unfold posK posRect Rect.part Rect.block
  congr 1 <;> funext a
  · rw [k0_off1_eq]
    match a with
    | 0 => simp [Shape.partIx, Shape.partSize, wL, wid]; omega
  · match a with
    | 0 => simp [Shape.partSize]

abbrev tidK (L : grid0.Coords) : Memref sig .scVector .hbm S6400 .i32 := (tidV).slice (posK L) (fun _ => rfl)
abbrev flgK (L : grid0.Coords) : Memref sig .scVector .hbm S6400 .i32 := (flgV).slice (posK L) (fun _ => rfl)
abbrev winK (L : grid0.Coords) : Memref sig .scVector .hbm S6400 .i32 := (winV).slice (posK L) (fun _ => rfl)

omit [FloatOps F] in
theorem set_tidK (L : grid0.Coords) : (tidK L).view.set = posSet (wL L) := by
  show ((View.whole (main_v16_scv : Ref sig .scVector)).slice (posK L)).set = _
  rw [View.set_slice, posK_eq]; exact Finset.map_refl
omit [FloatOps F] in
theorem set_flgK (L : grid0.Coords) : (flgK L).view.set = posSet (wL L) := by
  show ((View.whole (main_v17_scv : Ref sig .scVector)).slice (posK L)).set = _
  rw [View.set_slice, posK_eq]; exact Finset.map_refl
omit [FloatOps F] in
theorem set_winK (L : grid0.Coords) : (winK L).view.set = posSet (wL L) := by
  show ((View.whole (main_v15_scv : Ref sig .scVector)).slice (posK L)).set = _
  rw [View.set_slice, posK_eq]; exact Finset.map_refl

omit [FloatOps F] in
theorem pts_tidK (f : Buf (Elt F) (tidLoc d)) :
    ((tidK L).view.loc (V d (cV L) (jV L)) ↦[(tidK L).view.set]{fullShare} f : sProp 𝕄) = tidLoc d ↦[posSet (wL L)]{fullShare} f := by
  rw [set_tidK]
omit [FloatOps F] in
theorem pts_flgK (f : Buf (Elt F) (flgLoc d)) :
    ((flgK L).view.loc (V d (cV L) (jV L)) ↦[(flgK L).view.set]{fullShare} f : sProp 𝕄) = flgLoc d ↦[posSet (wL L)]{fullShare} f := by
  rw [set_flgK]
omit [FloatOps F] in
theorem pts_winK (f : Buf (Elt F) (winLoc d)) :
    ((winK L).view.loc (V d (cV L) (jV L)) ↦[(winK L).view.set]{fullShare} f : sProp 𝕄) = winLoc d ↦[posSet (wL L)]{fullShare} f := by
  rw [set_winK]
omit [FloatOps F] in
theorem pts_b0 (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((r0V).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((r1V).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((r2V).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((r3V).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((r4V).view.loc (V d (cV L) (jV L)) ↦{fullShare} f : sProp 𝕄) = (V d (cV L) (jV L)).loc cc0_scratch8 ↦{fullShare} f := rfl

theorem idxLoc_zero (g7 g8 g9 g10 : S6400.Idx → BitVec 32) : idxLoc g7 g8 g9 g10 0 = g10 := by
  funext x; simp [idxLoc]

/-- The first loop's invariant: the three fetched slices, and the row numbers computed so far. -/
def inv1 (g7 : Buf (Elt F) ((V d (cV L) (jV L)).loc cc0_scratch0)) (g8 : Buf (Elt F) ((V d (cV L) (jV L)).loc cc0_scratch1))
    (g9 : Buf (Elt F) ((V d (cV L) (jV L)).loc cc0_scratch2)) (g10 : Buf (Elt F) ((V d (cV L) (jV L)).loc cc0_scratch3)) (k : Nat) (_ : PUnit) : sProp 𝕄 :=
  iprop(((s0V).view.loc (V d (cV L) (jV L)) ↦{fullShare} g7) ∗ ((s1V).view.loc (V d (cV L) (jV L)) ↦{fullShare} g8)
    ∗ ((s2V).view.loc (V d (cV L) (jV L)) ↦{fullShare} g9)
    ∗ ((s3V).view.loc (V d (cV L) (jV L)) ↦{fullShare} (idxLoc g7 g8 g9 g10 k : Buf (Elt F) ((V d (cV L) (jV L)).loc cc0_scratch3))))

/-- One slot of the ring while its gather is in flight: the flight (delivering the row buffer written with the chunk's
    rows, the chunk of the row numbers and the table's elements back), and what is left of the three buffers beside it. -/
def slotA (rV : Memref sig .scVector .vmem S128x128 .f32) (sm : DmaSem sig) (n : Fin 5)
    (tbl : Buf (Elt F) (tblLoc d)) (idxF : S6400.Idx → BitVec 32)
    (hinS : InRange (F := F) idxF)
    (off : Fin 1 → Nat) (h : ∀ a, off a + S128.size a ≤ S6400.size a) : sProp 𝕄 :=
  iprop(∃ fb : Buf (Elt F) (rV.view.loc (V d (cV L) (jV L))),
    Transfers.Flight countersEmb (V d (cV L) (jV L)) (SemLoc.dma sm) (default : HIx 1) 524288
      iprop(((rV.view.loc (V d (cV L) (jV L)) ↦[rV.view.set]{fullShare} rV.view.writes (Elt F) fb [⟨Rect.whole _, gath (F := F) tbl idxF hinS off h⟩])
          ∗ ((s3V).view.loc (V d (cV L) (jV L)) ↦[(idxSl off h).view.set]{pieceOf fullShare 5 (by decide) n} idxF))
        ∗ ((tblV).view.loc (V d (cV L) (jV L)) ↦[(tblAll).view.set]{Transfers.shareTok (tq (wL L)) 5 n} tbl))
    ∗ ((tblV).view.loc (V d (cV L) (jV L)) ↦[Finset.univ \ (tblAll).view.set]{Transfers.shareTok (tq (wL L)) 5 n} tbl)
    ∗ (rV.view.loc (V d (cV L) (jV L)) ↦[Finset.univ \ rV.view.set]{fullShare} rV.view.writes (Elt F) fb [⟨Rect.whole _, gath (F := F) tbl idxF hinS off h⟩])
    ∗ ((s3V).view.loc (V d (cV L) (jV L)) ↦[Finset.univ \ (idxSl off h).view.set]{pieceOf fullShare 5 (by decide) n} idxF))

theorem trips2 : k0_t2_loop.trips = 10 := by decide

/-- The output's blocks of the trips in `S`: those before trip `n` hold the gathered rows, the others what they held. -/
def outBlocks (S : Finset (Fin k0_t2_loop.trips)) (n : Nat) : sProp 𝕄 :=
  bigSep S fun k' => bigSep Finset.univ fun r : Fin 5 =>
    outLoc d ↦[(oBlk L k' r).view.set]{fullShare} (if k'.val < n then outOf A d else (A d).out0)

theorem outBlocks_take (k : Fin k0_t2_loop.trips) (n : Nat) :
    outBlocks A d L Finset.univ n
      = iprop(((outLoc d ↦[(oBlk L k 0).view.set]{fullShare} (if k.val < n then outOf A d else (A d).out0))
          ∗ (outLoc d ↦[(oBlk L k 1).view.set]{fullShare} (if k.val < n then outOf A d else (A d).out0))
          ∗ (outLoc d ↦[(oBlk L k 2).view.set]{fullShare} (if k.val < n then outOf A d else (A d).out0))
          ∗ (outLoc d ↦[(oBlk L k 3).view.set]{fullShare} (if k.val < n then outOf A d else (A d).out0))
          ∗ (outLoc d ↦[(oBlk L k 4).view.set]{fullShare} (if k.val < n then outOf A d else (A d).out0)))
        ∗ outBlocks A d L (Finset.univ.erase k) n) := by
  unfold outBlocks
  rw [SparseCore.bigSep_erase' (Finset.mem_univ k), bigSep_fin5]

theorem outBlocks_erase_succ (k : Fin k0_t2_loop.trips) :
    outBlocks A d L (Finset.univ.erase k) k.val = outBlocks A d L (Finset.univ.erase k) (k.val + 1) := by
  unfold outBlocks
  refine bigSep_congr fun k' hk' => ?_
  have hne : k' ≠ k := Finset.ne_of_mem_erase hk'
  have hv : k'.val ≠ k.val := fun h => hne (Fin.ext h)
  have h1 : (k'.val < k.val) ↔ (k'.val < k.val + 1) := by omega
  simp only [h1]

theorem outBlocks_take_self (k : Fin k0_t2_loop.trips) :
    outBlocks A d L Finset.univ k.val
      = iprop(((outLoc d ↦[(oBlk L k 0).view.set]{fullShare} (A d).out0)
          ∗ (outLoc d ↦[(oBlk L k 1).view.set]{fullShare} (A d).out0)
          ∗ (outLoc d ↦[(oBlk L k 2).view.set]{fullShare} (A d).out0)
          ∗ (outLoc d ↦[(oBlk L k 3).view.set]{fullShare} (A d).out0)
          ∗ (outLoc d ↦[(oBlk L k 4).view.set]{fullShare} (A d).out0))
        ∗ outBlocks A d L (Finset.univ.erase k) k.val) := by
  rw [outBlocks_take A d L k k.val, if_neg (lt_irrefl _)]

theorem outBlocks_put (k : Fin k0_t2_loop.trips) :
    iprop(((outLoc d ↦[(oBlk L k 0).view.set]{fullShare} outOf A d)
          ∗ (outLoc d ↦[(oBlk L k 1).view.set]{fullShare} outOf A d)
          ∗ (outLoc d ↦[(oBlk L k 2).view.set]{fullShare} outOf A d)
          ∗ (outLoc d ↦[(oBlk L k 3).view.set]{fullShare} outOf A d)
          ∗ (outLoc d ↦[(oBlk L k 4).view.set]{fullShare} outOf A d))
        ∗ outBlocks A d L (Finset.univ.erase k) k.val) ⊢ outBlocks A d L Finset.univ (k.val + 1) := by
  rw [outBlocks_take A d L k (k.val + 1), if_pos (Nat.lt_succ_self _), outBlocks_erase_succ]

theorem outBlocks_init : (outLoc d ↦[outSet (wL L)]{fullShare} (A d).out0 : sProp 𝕄) ⊢ outBlocks A d L Finset.univ 0 := by
  unfold outBlocks
  rw [show wL L = wid (L 0) (L 1) from rfl, oBlk_partition (F := F) L d _ _]
  refine Entails.of_eq (bigSep_congr fun k' _ => bigSep_congr fun r _ => ?_)
  rw [if_neg (Nat.not_lt_zero _)]

theorem outBlocks_final : outBlocks A d L Finset.univ 10 ⊢ (outLoc d ↦[outSet (wL L)]{fullShare} outOf A d : sProp 𝕄) := by
  unfold outBlocks
  rw [show wL L = wid (L 0) (L 1) from rfl, oBlk_partition (F := F) L d _ _]
  refine Entails.of_eq (bigSep_congr fun k' _ => bigSep_congr fun r _ => ?_)
  rw [if_pos (show k'.val < 10 from trips2 ▸ k'.isLt)]

attribute [irreducible] outBlocks

omit [FloatOps F] in
theorem pts_oBlk (k : Fin k0_t2_loop.trips) (r : Fin 5) (f : Buf (Elt F) (outLoc d)) :
    ((oBlk L k r).view.loc (V d (cV L) (jV L)) ↦[(oBlk L k r).view.set]{fullShare} f : sProp 𝕄) = outLoc d ↦[(oBlk L k r).view.set]{fullShare} f := rfl

/-- The second loop's invariant before trip `k`: the five gathers of chunks `5k … 5k+4` in flight, the five write-back
    semaphores idle, the blocks of the earlier trips written. -/
def invA (idxF : S6400.Idx → BitVec 32)
    (hinS : InRange (F := F) idxF)
    (O : CellTallies nD τ sig (HIx 1)) (W : Waits sig (HIx 1)) (k : Fin 10) : sProp 𝕄 :=
  iprop(Transfers.MayWaits (V d (cV L) (jV L)) (default : HIx 1) O
    ∗ slotA (F := F) d L r0V cc0_scratch9.sem 0 (A d).tbl idxF hinS _ (offA_inb k 0)
    ∗ slotA (F := F) d L r1V cc0_scratch10.sem 1 (A d).tbl idxF hinS _ (offA_inb k 1)
    ∗ slotA (F := F) d L r2V cc0_scratch11.sem 2 (A d).tbl idxF hinS _ (offA_inb k 2)
    ∗ slotA (F := F) d L r3V cc0_scratch12.sem 3 (A d).tbl idxF hinS _ (offA_inb k 3)
    ∗ slotA (F := F) d L r4V cc0_scratch13.sem 4 (A d).tbl idxF hinS _ (offA_inb k 4)
    ∗ semVal ((V d (cV L) (jV L), SemLoc.dma cc0_scratch14.sem) : GSem nD τ sig) 0
    ∗ semVal ((V d (cV L) (jV L), SemLoc.dma cc0_scratch15.sem) : GSem nD τ sig) 0
    ∗ semVal ((V d (cV L) (jV L), SemLoc.dma cc0_scratch16.sem) : GSem nD τ sig) 0
    ∗ semVal ((V d (cV L) (jV L), SemLoc.dma cc0_scratch17.sem) : GSem nD τ sig) 0
    ∗ semVal ((V d (cV L) (jV L), SemLoc.dma cc0_scratch18.sem) : GSem nD τ sig) 0
    ∗ outBlocks A d L Finset.univ k.val
    ∗ ∃ W', ⌜∀ p ∈ W', p ∈ W ∨ p.2 = none⌝ ∗ owes (V d (cV L) (jV L)) O W')

/-- One slot of the ring after the last trip: the table's token, the gather semaphore and the row numbers' piece back,
    the slot's last write-back in flight (delivering its block of the output written with the row buffer's rows). -/
def slotB (rV : Memref sig .scVector .vmem S128x128 .f32) (smg smw : DmaSem sig) (n : Fin 5)
    (tbl : Buf (Elt F) (tblLoc d)) (out0 : Buf (Elt F) (outLoc d)) (idxF : S6400.Idx → BitVec 32) (hinS : InRange (F := F) idxF)
    (k : Fin k0_t2_loop.trips) (off : Fin 1 → Nat) (h : ∀ a, off a + S128.size a ≤ S6400.size a) : sProp 𝕄 :=
  iprop(((tblV).view.loc (V d (cV L) (jV L)) ↦{Transfers.shareTok (tq (wL L)) 5 n} tbl)
    ∗ semVal ((V d (cV L) (jV L), SemLoc.dma smg) : GSem nD τ sig) 0
    ∗ ((s3V).view.loc (V d (cV L) (jV L)) ↦{pieceOf fullShare 5 (by decide) n} idxF)
    ∗ ∃ (fb : Buf (Elt F) (rV.view.loc (V d (cV L) (jV L)))),
        Transfers.Flight countersEmb (V d (cV L) (jV L)) (SemLoc.dma smw) (default : HIx 1) 524288
            iprop(((oBlk L k n).view.loc (V d (cV L) (jV L)) ↦[(oBlk L k n).view.set]{fullShare} (oBlk L k n).view.writes (Elt F) out0
                [⟨Rect.whole S128x128, ReadAs.same.apply (View.read (Elt F) rV.view (rV.view.writes (Elt F) fb [⟨Rect.whole _, gath (F := F) tbl idxF hinS off h⟩]))⟩])
              ∗ (rV.view.loc (V d (cV L) (jV L)) ↦[rV.view.set]{fullShare} rV.view.writes (Elt F) fb [⟨Rect.whole _, gath (F := F) tbl idxF hinS off h⟩]))
        ∗ (rV.view.loc (V d (cV L) (jV L)) ↦[Finset.univ \ rV.view.set]{fullShare} rV.view.writes (Elt F) fb [⟨Rect.whole _, gath (F := F) tbl idxF hinS off h⟩]))

/-- The last trip. -/
def k9 : Fin k0_t2_loop.trips := ⟨9, by rw [trips2]; decide⟩

/-- The second loop's invariant after its last trip. -/
def invB (idxF : S6400.Idx → BitVec 32) (hinS : InRange (F := F) idxF)
    (O : CellTallies nD τ sig (HIx 1)) (W : Waits sig (HIx 1)) : sProp 𝕄 :=
  iprop(Transfers.MayWaits (V d (cV L) (jV L)) (default : HIx 1) O
    ∗ slotB (F := F) d L r0V cc0_scratch9.sem cc0_scratch14.sem 0 (A d).tbl (A d).out0 idxF hinS k9 _ (offA_inb ⟨k9.val, by decide⟩ 0)
    ∗ slotB (F := F) d L r1V cc0_scratch10.sem cc0_scratch15.sem 1 (A d).tbl (A d).out0 idxF hinS k9 _ (offA_inb ⟨k9.val, by decide⟩ 1)
    ∗ slotB (F := F) d L r2V cc0_scratch11.sem cc0_scratch16.sem 2 (A d).tbl (A d).out0 idxF hinS k9 _ (offA_inb ⟨k9.val, by decide⟩ 2)
    ∗ slotB (F := F) d L r3V cc0_scratch12.sem cc0_scratch17.sem 3 (A d).tbl (A d).out0 idxF hinS k9 _ (offA_inb ⟨k9.val, by decide⟩ 3)
    ∗ slotB (F := F) d L r4V cc0_scratch13.sem cc0_scratch18.sem 4 (A d).tbl (A d).out0 idxF hinS k9 _ (offA_inb ⟨k9.val, by decide⟩ 4)
    ∗ outBlocks A d L (Finset.univ.erase k9) 9
    ∗ ∃ W', ⌜∀ p ∈ W', p ∈ W ∨ p.2 = none⌝ ∗ owes (V d (cV L) (jV L)) O W')

def inv2 (idxF : S6400.Idx → BitVec 32)
    (hinS : InRange (F := F) idxF)
    (O : CellTallies nD τ sig (HIx 1)) (W : Waits sig (HIx 1)) (k : Nat) (_ : PUnit) : sProp 𝕄 :=
  if h : k < 10 then invA A d L idxF hinS O W ⟨k, h⟩ else invB A d L idxF hinS O W

/-- The invariant before a trip from its slots at offsets given by the program's own words. -/
theorem invA_intro (idxF : S6400.Idx → BitVec 32) (hinS : InRange (F := F) idxF)
    (O : CellTallies nD τ sig (HIx 1)) (W : Waits sig (HIx 1)) (k : Fin 10)
    (o0 o1 o2 o3 o4 : Fin 1 → Nat) (h0 : ∀ a, o0 a + S128.size a ≤ S6400.size a) (h1 : ∀ a, o1 a + S128.size a ≤ S6400.size a)
    (h2 : ∀ a, o2 a + S128.size a ≤ S6400.size a) (h3 : ∀ a, o3 a + S128.size a ≤ S6400.size a) (h4 : ∀ a, o4 a + S128.size a ≤ S6400.size a)
    (e0 : o0 = ![640 * k.val + 128 * (0 : Fin 5).val]) (e1 : o1 = ![640 * k.val + 128 * (1 : Fin 5).val]) (e2 : o2 = ![640 * k.val + 128 * (2 : Fin 5).val])
    (e3 : o3 = ![640 * k.val + 128 * (3 : Fin 5).val]) (e4 : o4 = ![640 * k.val + 128 * (4 : Fin 5).val]) :
    iprop(Transfers.MayWaits (V d (cV L) (jV L)) (default : HIx 1) O
      ∗ slotA (F := F) d L r0V cc0_scratch9.sem 0 (A d).tbl idxF hinS o0 h0
      ∗ slotA (F := F) d L r1V cc0_scratch10.sem 1 (A d).tbl idxF hinS o1 h1
      ∗ slotA (F := F) d L r2V cc0_scratch11.sem 2 (A d).tbl idxF hinS o2 h2
      ∗ slotA (F := F) d L r3V cc0_scratch12.sem 3 (A d).tbl idxF hinS o3 h3
      ∗ slotA (F := F) d L r4V cc0_scratch13.sem 4 (A d).tbl idxF hinS o4 h4
      ∗ semVal ((V d (cV L) (jV L), SemLoc.dma cc0_scratch14.sem) : GSem nD τ sig) 0
      ∗ semVal ((V d (cV L) (jV L), SemLoc.dma cc0_scratch15.sem) : GSem nD τ sig) 0
      ∗ semVal ((V d (cV L) (jV L), SemLoc.dma cc0_scratch16.sem) : GSem nD τ sig) 0
      ∗ semVal ((V d (cV L) (jV L), SemLoc.dma cc0_scratch17.sem) : GSem nD τ sig) 0
      ∗ semVal ((V d (cV L) (jV L), SemLoc.dma cc0_scratch18.sem) : GSem nD τ sig) 0
      ∗ outBlocks A d L Finset.univ k.val
      ∗ ∃ W', ⌜∀ p ∈ W', p ∈ W ∨ p.2 = none⌝ ∗ owes (V d (cV L) (jV L)) O W')
    ⊢ invA A d L idxF hinS O W k := by
  subst e0 e1 e2 e3 e4
  unfold invA
  exact BI.Entails.refl _

/-- A written block holds the output's rows. -/
theorem blk_done (hidx : IdxOK A) (idxF : S6400.Idx → BitVec 32) (hIdxF : idxF = fun x => idxOf A d ((posK L).emb x))
    (hinS : InRange (F := F) idxF) (k : Fin k0_t2_loop.trips) (r : Fin 5) (hk : k.val < 10)
    (rV : Memref sig .scVector .vmem S128x128 .f32) (fb : Buf (Elt F) (rV.view.loc (V d (cV L) (jV L))))
    (hW : ∀ (fb : Buf (Elt F) (rV.view.loc (V d (cV L) (jV L)))) (g : S128x128.Idx → Elt F .f32),
      ReadAs.same.apply (View.read (Elt F) rV.view (rV.view.writes (Elt F) fb [⟨Rect.whole _, g⟩])) = g) :
    ((oBlk L k r).view.loc (V d (cV L) (jV L)) ↦[(oBlk L k r).view.set]{fullShare} (oBlk L k r).view.writes (Elt F) (A d).out0
        [⟨Rect.whole S128x128, ReadAs.same.apply (View.read (Elt F) rV.view (rV.view.writes (Elt F) fb
          [⟨Rect.whole _, gath (F := F) (A d).tbl idxF hinS ![640 * k.val + 128 * r.val] (offA_inb ⟨k.val, hk⟩ r)⟩]))⟩] : sProp 𝕄)
      = outLoc d ↦[(oBlk L k r).view.set]{fullShare} outOf A d := by
  rw [hW]
  refine pointsTo_congr ?_
  have hv := oBlk_value (F := F) L k r (A d).tbl (idxOf A d) idxF hIdxF hinS (hidx d) (A d).out0
  intro x hx
  exact hv x hx

set_option maxHeartbeats 4000000 in
theorem tile_body (hF : (K (F := F)).Facts) (hidx : IdxOK A) (O : CellTallies nD τ sig (HIx 1)) (W : Waits sig (HIx 1)) (hO : ∀ g, O g none = 0) :
    iprop(levAts (K (F := F)).L (K (F := F)).lev ∗ emp ∗ goRes A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tblV (Memref.isWhole_whole _) tidV (Memref.isWhole_whole _) flgV (Memref.isWhole_whole _) winV (Memref.isWhole_whole _)
            outV (Memref.isWhole_whole _) s0V (Memref.isWhole_whole _) s1V (Memref.isWhole_whole _) s2V (Memref.isWhole_whole _)
            s3V (Memref.isWhole_whole _) r0V (Memref.isWhole_whole _) r1V (Memref.isWhole_whole _) r2V (Memref.isWhole_whole _)
            r3V (Memref.isWhole_whole _) r4V (Memref.isWhole_whole _)
            cc0_scratch9 cc0_scratch10 cc0_scratch11 cc0_scratch12 cc0_scratch13 cc0_scratch14 cc0_scratch15 cc0_scratch16 cc0_scratch17 cc0_scratch18
            cc0_scoped0 cc0_scoped1 cc0_scoped2)
          fun _ => iprop(tdRes A d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part3_eq_skeleton]; unfold k0_part3_skel
  simp only [bind_assoc, pure_bind]
  rw [(K (F := F)).scopedBufs_V hF d (cV L) (jV L), SparseCore.Cfg.scopedSems0_V (Val := Elt F) d (cV L) (jV L), ownSems0_V', ownBufs_V']
  unfold goRes
  iintro ⟨#Hlv, -, ⟨Htbl, Htid, Hflg, Hwin, Hout⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩⟩, Hbufs⟩, ⟨⟨Hg0, Hg1, Hg2, Hg3, Hg4, Hw0, Hw1, Hw2, Hw3, Hw4, Hc0, Hc1, Hc2⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htid' := (Entails.of_eq (pts_tidK (F := F) d L _).symm) $$ Htid
  ihave Hflg' := (Entails.of_eq (pts_flgK (F := F) d L _).symm) $$ Hflg
  ihave Hwin' := (Entails.of_eq (pts_winK (F := F) d L _).symm) $$ Hwin
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  sl_exec
  generalize hg7 : View.write (Elt F) (s0V).view f0 (tile_body.sl.dma0 A d L) Finset.univ = g7
  generalize hg8 : View.write (Elt F) (s1V).view f1 (tile_body.sl.dma0_1 A d L) Finset.univ = g8
  generalize hg9 : View.write (Elt F) (s2V).view f2 (tile_body.sl.dma0_2 A d L) Finset.univ = g9
  sl_for (inv1 (F := F) d L g7 g8 g9 f3) $$ [Hb0' Hb1' Hb2' Hb3']
  case region =>
    intro k _
    unfold inv1
    iintro ⟨H7, H8, H9, H10⟩
    sl_exec
    sl_step
    isplitl [H7]; · iexact H7
    isplitl [H8]; · iexact H8
    isplitl [H9]; · iexact H9
    rw [← idxLoc_step (F := F) g7 g8 g9 f3 k]
    iexact H10
  · unfold inv1
    isplitl [Hb0']; · iexact Hb0'
    isplitl [Hb1']; · iexact Hb1'
    isplitl [Hb2']; · iexact Hb2'
    rw [idxLoc_zero]; iexact Hb3'
  iintro %_ HI
  unfold inv1
  icases HI with ⟨H7, H8, H9, H10⟩
  have htrips : Scf.trips k0_t1_loop.lb k0_t1_loop.ub k0_t1_loop.st = 400 := by decide
  rw [htrips]
  generalize hI : idxLoc g7 g8 g9 f3 400 = idxF
  have hIdxF : idxF = fun x => idxOf A d ((posK L).emb x) := by
    rw [← hI, ← hg7, ← hg8, ← hg9]
    exact idxF_eq (F := F) L (A d).tid (A d).flg (A d).win f0 f1 f2 f3
  have hinG : ∀ x : S6400.Idx, ((idxF : S6400.Idx → BitVec 32) x).toNat < 141088 := by
    intro x; rw [hIdxF]; exact hidx d _
  have hinS : ∀ (off : Fin 1 → Nat) (hoff : ∀ a, off a + S128.size a ≤ S6400.size a) (j : S128.Idx),
      ((((s3V).slice (Rect.unit (s := S6400) off S128.size hoff) (fun _ => rfl)).view.read (Elt F) idxF j : BitVec 32)).toNat
        < S141088x128.size gathers_S141088x128_S128x128.axis := by
    intro off hoff j
    exact hinG _
  -- the table and the row numbers, each under five read tokens (one per gather semaphore) and a remainder
  ihave Htbl' := (Entails.of_eq (show ((tblV).view.loc (V d (cV L) (jV L)) ↦{tq (wL L)} (A d).tbl : sProp 𝕄) = tblLoc d ↦{tq (wL L)} (A d).tbl from rfl).symm) $$ Htbl
  ihave Ht := (Transfers.pointsTo_toks_split (tq (wL L)) 5) $$ Htbl'
  icases Ht with ⟨Htr, Htt⟩
  ihave Htt' := (Entails.of_eq (bigSep_fin5 _)) $$ Htt
  icases Htt' with ⟨Ht0, Ht1, Ht2, Ht3, Ht4⟩
  ihave Hit := (Entails.of_eq (pointsTo_piecesOf Finset.univ idxF (show 0 < 5 by decide) fullShare)) $$ H10
  ihave Hit' := (Entails.of_eq (bigSep_fin5 _)) $$ Hit
  icases Hit' with ⟨Hi0, Hi1, Hi2, Hi3, Hi4⟩
  ihave Hb4' := (Entails.of_eq (pts_b4 (F := F) d L _).symm) $$ Hb4
  ihave Hb5' := (Entails.of_eq (pts_b5 (F := F) d L _).symm) $$ Hb5
  ihave Hb6' := (Entails.of_eq (pts_b6 (F := F) d L _).symm) $$ Hb6
  ihave Hb7' := (Entails.of_eq (pts_b7 (F := F) d L _).symm) $$ Hb7
  ihave Hb8' := (Entails.of_eq (pts_b8 (F := F) d L _).symm) $$ Hb8
  sl_exec
  have htrips2 : k0_t2_loop.trips = 10 := by decide
  sl_for (inv2 (F := F) A d L idxF hinS O W) $$ [Hmw Hg0 Hg1 Hg2 Hg3 Hg4 Ht0 Ht1 Ht2 Ht3 Ht4 Hb4' Hb5' Hb6' Hb7' Hb8' Hi0 Hi1 Hi2 Hi3 Hi4 Hw0 Hw1 Hw2 Hw3 Hw4 Hout HO]
  case region =>
    intro k _
    have hk : k.val < 10 := htrips2 ▸ k.isLt
    have hpostA : ∀ h : k.val + 1 < 10, inv2 A d L idxF hinS O W (k.val + 1) = fun _ => invA A d L idxF hinS O W ⟨k.val + 1, h⟩ := by
      intro h; funext _; rw [inv2, dif_pos h]
    have hpostB : ¬ k.val + 1 < 10 → inv2 A d L idxF hinS O W (k.val + 1) = fun _ => invB A d L idxF hinS O W := by
      intro h; funext _; rw [inv2, dif_neg h]
    rw [inv2, dif_pos hk]
    unfold invA slotA
    iintro ⟨Hmw, ⟨%fb0, S0f, S0t, S0r, S0i⟩, ⟨%fb1, S1f, S1t, S1r, S1i⟩, ⟨%fb2, S2f, S2t, S2r, S2i⟩, ⟨%fb3, S3f, S3t, S3r, S3i⟩, ⟨%fb4, S4f, S4t, S4r, S4i⟩, Hw0, Hw1, Hw2, Hw3, Hw4, Hob, %W', %hW', HO⟩
    ihave Hob' := (Entails.of_eq (outBlocks_take_self A d L k)) $$ Hob
    icases Hob' with ⟨⟨Ho0, Ho1, Ho2, Ho3, Ho4⟩, Hrest⟩
    have hcond : ∀ k : Fin k0_t2_loop.trips, (k0_cond1 k = 1#1 ↔ k.val < 9) ∧ (k0_cond2 k = 1#1 ↔ k.val < 9) ∧ (k0_cond3 k = 1#1 ↔ k.val < 9)
        ∧ (k0_cond4 k = 1#1 ↔ k.val < 9) ∧ (k0_cond5 k = 1#1 ↔ k.val < 9) := by decide
    by_cases hk9 : k.val < 9
    · have k0_h1 : k0_cond1 k = 1#1 := (hcond k).1.mpr hk9
      have k0_h2 : k0_cond2 k = 1#1 := (hcond k).2.1.mpr hk9
      have k0_h3 : k0_cond3 k = 1#1 := (hcond k).2.2.1.mpr hk9
      have k0_h4 : k0_cond4 k = 1#1 := (hcond k).2.2.2.1.mpr hk9
      have k0_h5 : k0_cond5 k = 1#1 := (hcond k).2.2.2.2.mpr hk9
      ihave Ho0' := (Entails.of_eq (pts_oBlk (F := F) d L k 0 _).symm) $$ Ho0
      ihave Ho1' := (Entails.of_eq (pts_oBlk (F := F) d L k 1 _).symm) $$ Ho1
      ihave Ho2' := (Entails.of_eq (pts_oBlk (F := F) d L k 2 _).symm) $$ Ho2
      ihave Ho3' := (Entails.of_eq (pts_oBlk (F := F) d L k 3 _).symm) $$ Ho3
      ihave Ho4' := (Entails.of_eq (pts_oBlk (F := F) d L k 4 _).symm) $$ Ho4
      have hk1 : k.val + 1 < 10 := by omega
      rw [hpostA hk1]
      sl_exec
      sl_step
      iapply (invA_intro A d L idxF hinS O W ⟨k.val + 1, hk1⟩ (k0_off6 k) (k0_off8 k) (k0_off10 k) (k0_off12 k) (k0_off14 k)
        (k0_off6_inb k k0_h1) (k0_off8_inb k k0_h2) (k0_off10_inb k k0_h3) (k0_off12_inb k k0_h4) (k0_off14_inb k k0_h5)
        (by rw [k0_off6_eq]; exact congrArg (fun n : Nat => (![n] : Fin 1 → Nat)) (show 640 * k.val + 640 = 640 * (k.val + 1) + 128 * 0 by omega))
        (by rw [k0_off8_eq]; exact congrArg (fun n : Nat => (![n] : Fin 1 → Nat)) (show 640 * k.val + 768 = 640 * (k.val + 1) + 128 * 1 by omega))
        (by rw [k0_off10_eq]; exact congrArg (fun n : Nat => (![n] : Fin 1 → Nat)) (show 640 * k.val + 896 = 640 * (k.val + 1) + 128 * 2 by omega))
        (by rw [k0_off12_eq]; exact congrArg (fun n : Nat => (![n] : Fin 1 → Nat)) (show 640 * k.val + 1024 = 640 * (k.val + 1) + 128 * 3 by omega))
        (by rw [k0_off14_eq]; exact congrArg (fun n : Nat => (![n] : Fin 1 → Nat)) (show 640 * k.val + 1152 = 640 * (k.val + 1) + 128 * 4 by omega)))
      unfold slotA
      isplitl [Hmw]; · iexact Hmw
      isplitl [S0f S0t S0r S0i]
      · iexists _
        isplitl [S0f]; · iexact S0f
        isplitl [S0t]; · iexact S0t
        isplitl [S0r]; · iexact S0r
        iexact S0i
      isplitl [S1f S1t S1r S1i]
      · iexists _
        isplitl [S1f]; · iexact S1f
        isplitl [S1t]; · iexact S1t
        isplitl [S1r]; · iexact S1r
        iexact S1i
      isplitl [S2f S2t S2r S2i]
      · iexists _
        isplitl [S2f]; · iexact S2f
        isplitl [S2t]; · iexact S2t
        isplitl [S2r]; · iexact S2r
        iexact S2i
      isplitl [S3f S3t S3r S3i]
      · iexists _
        isplitl [S3f]; · iexact S3f
        isplitl [S3t]; · iexact S3t
        isplitl [S3r]; · iexact S3r
        iexact S3i
      isplitl [S4f S4t S4r S4i]
      · iexists _
        isplitl [S4f]; · iexact S4f
        isplitl [S4t]; · iexact S4t
        isplitl [S4r]; · iexact S4r
        iexact S4i
      isplitl [Hw0]; · iexact Hw0
      isplitl [Hw1]; · iexact Hw1
      isplitl [Hw2]; · iexact Hw2
      isplitl [Hw3]; · iexact Hw3
      isplitl [Hw4]; · iexact Hw4
      isplitl [Ho0' Ho1' Ho2' Ho3' Ho4' Hrest]
      · sl_unfold_run_names
        ihave D0 := (Entails.of_eq (blk_done A d L hidx idxF hIdxF hinS k 0 hk r0V _ (fun fb g => read_whole_writes (Elt F) cc0_scratch4 fb g))) $$ Ho0'
        ihave D1 := (Entails.of_eq (blk_done A d L hidx idxF hIdxF hinS k 1 hk r1V _ (fun fb g => read_whole_writes (Elt F) cc0_scratch5 fb g))) $$ Ho1'
        ihave D2 := (Entails.of_eq (blk_done A d L hidx idxF hIdxF hinS k 2 hk r2V _ (fun fb g => read_whole_writes (Elt F) cc0_scratch6 fb g))) $$ Ho2'
        ihave D3 := (Entails.of_eq (blk_done A d L hidx idxF hIdxF hinS k 3 hk r3V _ (fun fb g => read_whole_writes (Elt F) cc0_scratch7 fb g))) $$ Ho3'
        ihave D4 := (Entails.of_eq (blk_done A d L hidx idxF hIdxF hinS k 4 hk r4V _ (fun fb g => read_whole_writes (Elt F) cc0_scratch8 fb g))) $$ Ho4'
        iapply (outBlocks_put A d L k)
        isplitl [D0 D1 D2 D3 D4]
        · isplitl [D0]; · iexact D0
          isplitl [D1]; · iexact D1
          isplitl [D2]; · iexact D2
          isplitl [D3]; · iexact D3
          iexact D4
        · iexact Hrest
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    · have k0_h1 : ¬ k0_cond1 k = 1#1 := fun h => hk9 ((hcond k).1.mp h)
      have k0_h2 : ¬ k0_cond2 k = 1#1 := fun h => hk9 ((hcond k).2.1.mp h)
      have k0_h3 : ¬ k0_cond3 k = 1#1 := fun h => hk9 ((hcond k).2.2.1.mp h)
      have k0_h4 : ¬ k0_cond4 k = 1#1 := fun h => hk9 ((hcond k).2.2.2.1.mp h)
      have k0_h5 : ¬ k0_cond5 k = 1#1 := fun h => hk9 ((hcond k).2.2.2.2.mp h)
      ihave Ho0' := (Entails.of_eq (pts_oBlk (F := F) d L k 0 _).symm) $$ Ho0
      ihave Ho1' := (Entails.of_eq (pts_oBlk (F := F) d L k 1 _).symm) $$ Ho1
      ihave Ho2' := (Entails.of_eq (pts_oBlk (F := F) d L k 2 _).symm) $$ Ho2
      ihave Ho3' := (Entails.of_eq (pts_oBlk (F := F) d L k 3 _).symm) $$ Ho3
      ihave Ho4' := (Entails.of_eq (pts_oBlk (F := F) d L k 4 _).symm) $$ Ho4
      have hk1 : ¬ k.val + 1 < 10 := by omega
      rw [hpostB hk1]
      have hkk : k = k9 := Fin.ext (by simp [k9]; omega)
      sl_exec
      sl_step
      subst hkk
      unfold invB slotB
      isplitl [Hmw]; · iexact Hmw
      isplitl [S0t S0f S0i Hw0 S0r]
      · isplitl [S0t]; · iexact S0t
        isplitl [S0f]; · iexact S0f
        isplitl [S0i]; · iexact S0i
        iexists _
        isplitl [Hw0]; · iexact Hw0
        iexact S0r
      isplitl [S1t S1f S1i Hw1 S1r]
      · isplitl [S1t]; · iexact S1t
        isplitl [S1f]; · iexact S1f
        isplitl [S1i]; · iexact S1i
        iexists _
        isplitl [Hw1]; · iexact Hw1
        iexact S1r
      isplitl [S2t S2f S2i Hw2 S2r]
      · isplitl [S2t]; · iexact S2t
        isplitl [S2f]; · iexact S2f
        isplitl [S2i]; · iexact S2i
        iexists _
        isplitl [Hw2]; · iexact Hw2
        iexact S2r
      isplitl [S3t S3f S3i Hw3 S3r]
      · isplitl [S3t]; · iexact S3t
        isplitl [S3f]; · iexact S3f
        isplitl [S3i]; · iexact S3i
        iexists _
        isplitl [Hw3]; · iexact Hw3
        iexact S3r
      isplitl [S4t S4f S4i Hw4 S4r]
      · isplitl [S4t]; · iexact S4t
        isplitl [S4f]; · iexact S4f
        isplitl [S4i]; · iexact S4i
        iexists _
        isplitl [Hw4]; · iexact Hw4
        iexact S4r
      isplitl [Hrest]; · iexact Hrest
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · -- before the first trip
    rw [inv2, dif_pos (by decide : 0 < 10)]
    iapply (invA_intro A d L idxF hinS O W (0 : Fin 10) ![0] ![128] ![256] ![384] ![512]
      inb_S6400_S128_0 inb_S6400_S128_128 inb_S6400_S128_256 inb_S6400_S128_384 inb_S6400_S128_512 rfl rfl rfl rfl rfl)
    unfold slotA
    isplitl [Hmw]; · iexact Hmw
    isplitl [Hg0 Ht0 Hb4' Hi0]
    · iexists _
      isplitl [Hg0]; · iexact Hg0
      isplitl [Ht0]; · iexact Ht0
      isplitl [Hb4']; · iexact Hb4'
      iexact Hi0
    isplitl [Hg1 Ht1 Hb5' Hi1]
    · iexists _
      isplitl [Hg1]; · iexact Hg1
      isplitl [Ht1]; · iexact Ht1
      isplitl [Hb5']; · iexact Hb5'
      iexact Hi1
    isplitl [Hg2 Ht2 Hb6' Hi2]
    · iexists _
      isplitl [Hg2]; · iexact Hg2
      isplitl [Ht2]; · iexact Ht2
      isplitl [Hb6']; · iexact Hb6'
      iexact Hi2
    isplitl [Hg3 Ht3 Hb7' Hi3]
    · iexists _
      isplitl [Hg3]; · iexact Hg3
      isplitl [Ht3]; · iexact Ht3
      isplitl [Hb7']; · iexact Hb7'
      iexact Hi3
    isplitl [Hg4 Ht4 Hb8' Hi4]
    · iexists _
      isplitl [Hg4]; · iexact Hg4
      isplitl [Ht4]; · iexact Ht4
      isplitl [Hb8']; · iexact Hb8'
      iexact Hi4
    isplitl [Hw0]; · iexact Hw0
    isplitl [Hw1]; · iexact Hw1
    isplitl [Hw2]; · iexact Hw2
    isplitl [Hw3]; · iexact Hw3
    isplitl [Hw4]; · iexact Hw4
    isplitl [Hout]; · iapply (outBlocks_init A d L); iexact Hout
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %xx HI
  have hfinalEq : inv2 A d L idxF hinS O W (Scf.trips k0_t2_loop.lb k0_t2_loop.ub k0_t2_loop.st) xx = invB A d L idxF hinS O W := by
    rw [inv2, dif_neg (by decide)]
  ihave HI' := (Entails.of_eq hfinalEq) $$ HI
  unfold invB slotB
  icases HI' with ⟨Hmw, ⟨S0t, S0f, S0i, %fb0, Hw0, S0r⟩, ⟨S1t, S1f, S1i, %fb1, Hw1, S1r⟩, ⟨S2t, S2f, S2i, %fb2, Hw2, S2r⟩, ⟨S3t, S3f, S3i, %fb3, Hw3, S3r⟩, ⟨S4t, S4f, S4i, %fb4, Hw4, S4r⟩, Hrest, %W', %hW', HO⟩
  sl_exec
  sl_step
  unfold tdRes
  isplitl [Htr S0t S1t S2t S3t S4t Htid' Hflg' Hwin' Hw0_dst Hw1_dst Hw2_dst Hw3_dst Hw4_dst Hrest]
  · -- what the task hands back
    isplitl [Htr S0t S1t S2t S3t S4t]
    · iapply (Transfers.pointsTo_toks_join (tq (wL L)) 5)
      isplitl [Htr]; · iexact Htr
      iapply (Entails.of_eq (bigSep_fin5 _).symm)
      isplitl [S0t]; · iexact S0t
      isplitl [S1t]; · iexact S1t
      isplitl [S2t]; · iexact S2t
      isplitl [S3t]; · iexact S3t
      iexact S4t
    isplitl [Htid']; · iapply (Entails.of_eq (pts_tidK (F := F) d L _)); iexact Htid'
    isplitl [Hflg']; · iapply (Entails.of_eq (pts_flgK (F := F) d L _)); iexact Hflg'
    isplitl [Hwin']; · iapply (Entails.of_eq (pts_winK (F := F) d L _)); iexact Hwin'
    iexists (outOf A d)
    isplitl [Hw0_dst Hw1_dst Hw2_dst Hw3_dst Hw4_dst Hrest]
    · iapply (outBlocks_final A d L)
      ihave D0 := (Entails.of_eq (blk_done A d L hidx idxF hIdxF hinS k9 0 (by decide) r0V _ (fun fb g => read_whole_writes (Elt F) cc0_scratch4 fb g))) $$ Hw0_dst
      ihave D1 := (Entails.of_eq (blk_done A d L hidx idxF hIdxF hinS k9 1 (by decide) r1V _ (fun fb g => read_whole_writes (Elt F) cc0_scratch5 fb g))) $$ Hw1_dst
      ihave D2 := (Entails.of_eq (blk_done A d L hidx idxF hIdxF hinS k9 2 (by decide) r2V _ (fun fb g => read_whole_writes (Elt F) cc0_scratch6 fb g))) $$ Hw2_dst
      ihave D3 := (Entails.of_eq (blk_done A d L hidx idxF hIdxF hinS k9 3 (by decide) r3V _ (fun fb g => read_whole_writes (Elt F) cc0_scratch7 fb g))) $$ Hw3_dst
      ihave D4 := (Entails.of_eq (blk_done A d L hidx idxF hIdxF hinS k9 4 (by decide) r4V _ (fun fb g => read_whole_writes (Elt F) cc0_scratch8 fb g))) $$ Hw4_dst
      iapply (outBlocks_put A d L k9)
      isplitl [D0 D1 D2 D3 D4]
      · isplitl [D0]; · iexact D0
        isplitl [D1]; · iexact D1
        isplitl [D2]; · iexact D2
        isplitl [D3]; · iexact D3
        iexact D4
      · iexact Hrest
    · ipureintro; intro j _; rfl
  isplitl [H7 H8 H9 S0i S1i S2i S3i S4i S0r S1r S2r S3r S4r Hbufs]
  · -- the subcore's own buffers
    isplitl [H7 H8 H9 S0i S1i S2i S3i S4i S0r S1r S2r S3r S4r]
    · isplitl [H7]; · iexists _; iapply (Entails.of_eq (pts_b0 (F := F) d L _)); iexact H7
      isplitl [H8]; · iexists _; iapply (Entails.of_eq (pts_b1 (F := F) d L _)); iexact H8
      isplitl [H9]; · iexists _; iapply (Entails.of_eq (pts_b2 (F := F) d L _)); iexact H9
      isplitl [S0i S1i S2i S3i S4i]
      · iexists idxF
        iapply (Entails.of_eq (pts_b3 (F := F) d L _))
        iapply (Entails.of_eq (pointsTo_piecesOf Finset.univ idxF (show 0 < 5 by decide) fullShare).symm)
        iapply (Entails.of_eq (bigSep_fin5 _).symm)
        isplitl [S0i]; · iexact S0i
        isplitl [S1i]; · iexact S1i
        isplitl [S2i]; · iexact S2i
        isplitl [S3i]; · iexact S3i
        iexact S4i
      isplitl [S0r]; · iexists _; iapply (Entails.of_eq (pts_b4 (F := F) d L _)); iexact S0r
      isplitl [S1r]; · iexists _; iapply (Entails.of_eq (pts_b5 (F := F) d L _)); iexact S1r
      isplitl [S2r]; · iexists _; iapply (Entails.of_eq (pts_b6 (F := F) d L _)); iexact S2r
      isplitl [S3r]; · iexists _; iapply (Entails.of_eq (pts_b7 (F := F) d L _)); iexact S3r
      iexists _; iapply (Entails.of_eq (pts_b8 (F := F) d L _)); iexact S4r
    · iexact Hbufs
  isplitl [S0f S1f S2f S3f S4f Hw0 Hw1 Hw2 Hw3 Hw4 Hc0 Hc1 Hc2 Hsems]
  · -- and semaphores
    isplitl [S0f S1f S2f S3f S4f Hw0 Hw1 Hw2 Hw3 Hw4 Hc0 Hc1 Hc2]
    · isplitl [S0f]; · iexact S0f
      isplitl [S1f]; · iexact S1f
      isplitl [S2f]; · iexact S2f
      isplitl [S3f]; · iexact S3f
      isplitl [S4f]; · iexact S4f
      isplitl [Hw0]; · iexact Hw0
      isplitl [Hw1]; · iexact Hw1
      isplitl [Hw2]; · iexact Hw2
      isplitl [Hw3]; · iexact Hw3
      isplitl [Hw4]; · iexact Hw4
      isplitl [Hc0]; · iexact Hc0
      isplitl [Hc1]; · iexact Hc1
      iexact Hc2
    · iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

end Cert.Proof.KI

end
-- ==== Proof.KITileObl.lean ====
/-
  The vector subcores' obligation of the embedding lookup's call, from the proof of one task's body.
-/
import proofs.«213838_g73864847557071_cont_9to1_m_429_11_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch theorem's obligation -/

section Obl

variable [FloatOps F] (A : (d : Dev nD) → CallArrs (F := F) d)

/-- The coordinates of vector subcore `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v16_scv) (Memref.isWhole_whole _)
          (Memref.whole main_v17_scv) (Memref.isWhole_whole _) (Memref.whole main_v15_scv) (Memref.isWhole_whole _)
          (Memref.whole main_v18_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          cc0_scratch9 cc0_scratch10 cc0_scratch11 cc0_scratch12 cc0_scratch13 cc0_scratch14 cc0_scratch15 cc0_scratch16 cc0_scratch17 cc0_scratch18
          cc0_scoped0 cc0_scoped1 cc0_scoped2) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
/-- The vector subcores' obligation at the call: subcore `i` of SparseCore `c` runs the task's body at its own
    coordinates, from its worker's operands to its worker's results. -/
theorem tileObl (hF : (K (F := F)).Facts) (hidx : IdxOK A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hidx O W hO).trans (wp_mono frame _ _ fun _ => obl_post)

end Obl

end Cert.Proof.KI

end
-- ==== Proof.KIClosed.lean ====
/- The kernel program's run, closed: the vector subcores' obligation, the mask's call on the TensorCore and the
   mask pipeline's share of the launch state supplied to the program's run. What is left is the one condition on the
   data: every row number the SparseCore call computes names a row of its table. -/
import proofs.«213838_g73864847557071_cont_9to1_m_429_11_alg».proof.Proof.KIMain
import proofs.«213838_g73864847557071_cont_9to1_m_429_11_alg».proof.Proof.KIMask
import proofs.«213838_g73864847557071_cont_9to1_m_429_11_alg».proof.Proof.KITileObl

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The mask's call, as the program's run asks for it: at the TensorCore's level function and what it owes after the
    SparseCore call. -/
theorem maskLine : MaskLine (F := F) (maskG (F := F)) (maskOf (F := F)) :=
  fun d lens k Q => wp_mask (F := F) (lens := lens) (b := 8 * 1) (lv := (K (F := F)).lev) (by sl_refines_lev)
    (fun g => by rw [(K (F := F)).Otc_end d (le_refl 1)]; rfl) d k Q

/-- The launch state of the mask pipeline's staging cells and transfers. -/
abbrev uR₀ : UR :=
  initOf (Pipeline.cells (nD := nD) (τ := τ) cfgs cellOf_inj) (Pipeline.launchToks (nD := nD) (τ := τ) cfgs cellOf_inj)

/-- It funds, on every device, what the mask's call takes from the launch. -/
theorem hGm : (BI.own ((ER (F := F)) uR₀) : sProp 𝕄) ⊢ |={Set.univ}=> bigSep Finset.univ fun d : Dev nD => maskG (F := F) d := by
  iintro H
  imod (fund_maskG (F := F)) $$ H with H'
  imodintro
  iexact H'

/-- THE KERNEL PROGRAM'S RUN: from any memory with zero counters whose row numbers name rows of the table, every
    weakly fair execution of all its threads terminates; on every device the flat output viewed as [1024, 200, 128]
    and the mask end at their terms of the arguments, and the seven arguments end unchanged. -/
theorem run_closed [∀ e, Nonempty (Elt F e)] (m : (ℓ : Loc nD τ sig) → Buf (Elt F) ℓ) (ρ : Dev nD → PrngReg)
    (hidx : IdxOK (arrs m)) :
    θ_run (Cert.KernelIdeal.defs (F := F)) (Cert.KernelIdeal.threads (F := F)) ⟨m, fun _ => 0, ρ⟩ (QC m (maskOf (F := F))) :=
  run_main m ρ (maskG (F := F)) (maskOf (F := F)) (tileObl (arrs m) facts hidx) maskLine uR₀ hGm

end Cert.Proof.KI

end
-- ==== Proof.KBMain.lean ====
/-
  @main of the embedding lookup's kernel program on the TensorCore, inside the SparseCore launch: the call (the table
  dealt as thirty-two share pieces, the index arrays and the output as thirty-two position blocks, the output joined
  back at what every block holds), the mask's call, the two reshapes; and the program's run.
-/
import proofs.«213838_g73864847557071_cont_9to1_m_429_11_alg».proof.Proof.KBArrs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr held_sdiff_result wp_hlo_within wp_seq seq after launchContents)
open Idealize.ShloMosaic.Tactic

variable {F : FTy → Type}

local notation "𝕄" => MT nD τ sig (HIx 1) (Elt F) ℕ UU ℕ

/-! ## The thirty-two workers as two SparseCores of sixteen -/

/-- Worker `2·s + c` is vector subcore `s` of SparseCore `c`: a bijection. -/
def widE : Fin 2 × Fin 16 ≃ Fin 32 where
  toFun p := wid p.1 p.2
  invFun w := (⟨w.val % 2, Nat.mod_lt _ (by decide)⟩, ⟨w.val / 2, by omega⟩)
  left_inv := by
    rintro ⟨c, s⟩
    refine Prod.ext (Fin.ext ?_) (Fin.ext ?_)
    · show (s.val * 2 + c.val) % 2 = c.val
      omega
    · show (s.val * 2 + c.val) / 2 = s.val
      omega
  right_inv := by
    intro w
    refine Fin.ext ?_
    show (w.val / 2) * 2 + w.val % 2 = w.val
    omega

theorem bigSep_workers (Φ : Fin 32 → sProp 𝕄) :
    (bigSep Finset.univ fun c : Fin 2 => bigSep Finset.univ fun s : Fin 16 => Φ (wid c s)) = bigSep Finset.univ Φ := by
  rw [bigSep_univ_equiv widE Φ, bigSep_univ_prod]; rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The arrays split among the workers, and joined -/

theorem posSets_disjoint : ∀ i ∈ (Finset.univ : Finset (Fin 32)), ∀ j ∈ (Finset.univ : Finset (Fin 32)), i ≠ j → Disjoint (posSet i) (posSet j) :=
  fun _ _ _ _ h => Rect.part_disjoint pdiv h
theorem outSets_disjoint : ∀ i ∈ (Finset.univ : Finset (Fin 32)), ∀ j ∈ (Finset.univ : Finset (Fin 32)), i ≠ j → Disjoint (outSet i) (outSet j) :=
  fun _ _ _ _ h => Rect.part_disjoint odiv h
theorem posSets_cover : (Finset.univ : Finset (Fin 32)).biUnion posSet = Finset.univ := Rect.biUnion_part pdiv
theorem outSets_cover : (Finset.univ : Finset (Fin 32)).biUnion outSet = Finset.univ := Rect.biUnion_part odiv

theorem tbl_pieces (d : Dev nD) (f : Buf (Elt F) (tblLoc d)) :
    (tblLoc d ↦{fullShare} f : sProp 𝕄) = bigSep Finset.univ fun w : Fin 32 => tblLoc d ↦{tq w} f :=
  pointsTo_piecesOf Finset.univ f (by decide) fullShare
theorem tid_blocks (d : Dev nD) (f : Buf (Elt F) (tidLoc d)) :
    (tidLoc d ↦{fullShare} f : sProp 𝕄) = bigSep Finset.univ fun w : Fin 32 => tidLoc d ↦[posSet w]{fullShare} f := by
  rw [← pointsTo_biUnion Finset.univ (ℓ := tidLoc d) posSet posSets_disjoint, posSets_cover]; try rfl
theorem flg_blocks (d : Dev nD) (f : Buf (Elt F) (flgLoc d)) :
    (flgLoc d ↦{fullShare} f : sProp 𝕄) = bigSep Finset.univ fun w : Fin 32 => flgLoc d ↦[posSet w]{fullShare} f := by
  rw [← pointsTo_biUnion Finset.univ (ℓ := flgLoc d) posSet posSets_disjoint, posSets_cover]; try rfl
theorem win_blocks (d : Dev nD) (f : Buf (Elt F) (winLoc d)) :
    (winLoc d ↦{fullShare} f : sProp 𝕄) = bigSep Finset.univ fun w : Fin 32 => winLoc d ↦[posSet w]{fullShare} f := by
  rw [← pointsTo_biUnion Finset.univ (ℓ := winLoc d) posSet posSets_disjoint, posSets_cover]; try rfl
theorem out_blocks (d : Dev nD) (f : Buf (Elt F) (outLoc d)) :
    (outLoc d ↦{fullShare} f : sProp 𝕄) = bigSep Finset.univ fun w : Fin 32 => outLoc d ↦[outSet w]{fullShare} f := by
  rw [← pointsTo_biUnion Finset.univ (ℓ := outLoc d) outSet outSets_disjoint, outSets_cover]; try rfl

section Call
variable (A : (d : Dev nD) → CallArrs (F := F) d)

/-- The five arrays whole, the output at `o`. -/
abbrev fiveAt (d : Dev nD) (o : Buf (Elt F) (outLoc d)) : sProp 𝕄 :=
  iprop((tblLoc d ↦{fullShare} (A d).tbl) ∗ (tidLoc d ↦{fullShare} (A d).tid) ∗ (flgLoc d ↦{fullShare} (A d).flg)
    ∗ (winLoc d ↦{fullShare} (A d).win) ∗ (outLoc d ↦{fullShare} o))

/-- What the call takes for the two SparseCores: the five arrays whole. -/
theorem st0_eq (d : Dev nD) :
    (bigSep Finset.univ fun c : Fin ((K (F := F)).nCore 0) => (P A).st 0 d c) = fiveAt A d (A d).out0 := by
  show (bigSep Finset.univ fun c : Fin ((K (F := F)).nCore 0) => bigSep Finset.univ fun s : Fin 16 => goRes A d (wid (Fin.cast nCore_zero c) s)) = _
  rw [bigSep_cores (F := F) (fun c => bigSep Finset.univ fun s : Fin 16 => goRes A d (wid c s)), bigSep_workers (fun w => goRes A d w)]
  unfold goRes
  rw [bigSep_sep', bigSep_sep', bigSep_sep', bigSep_sep', ← tbl_pieces, ← tid_blocks, ← flg_blocks, ← win_blocks, ← out_blocks]

/-- What it hands back: the same, the output whole at the gathered rows. -/
theorem dn0_le (d : Dev nD) :
    (bigSep Finset.univ fun c : Fin ((K (F := F)).nCore 0) => (P A).dn 0 d c) ⊢ fiveAt A d (outOf A d) := by
  show (bigSep Finset.univ fun c : Fin ((K (F := F)).nCore 0) => bigSep Finset.univ fun s : Fin 16 => tdRes A d (wid (Fin.cast nCore_zero c) s)) ⊢ _
  rw [bigSep_cores (F := F) (fun c => bigSep Finset.univ fun s : Fin 16 => tdRes A d (wid c s)), bigSep_workers (fun w => tdRes A d w)]
  have h : ∀ w ∈ (Finset.univ : Finset (Fin 32)), tdRes A d w ⊢ iprop((tblLoc d ↦{tq w} (A d).tbl) ∗ (tidLoc d ↦[posSet w]{fullShare} (A d).tid)
      ∗ (flgLoc d ↦[posSet w]{fullShare} (A d).flg) ∗ (winLoc d ↦[posSet w]{fullShare} (A d).win) ∗ (outLoc d ↦[outSet w]{fullShare} outOf A d)) := by
    intro w _
    unfold tdRes
    iintro ⟨H1, H2, H3, H4, %f, Hf, %hf⟩
    isplitl [H1]; · iexact H1
    isplitl [H2]; · iexact H2
    isplitl [H3]; · iexact H3
    isplitl [H4]; · iexact H4
    rw [← pointsTo_congr (f := f) (g := outOf A d) hf]; iexact Hf
  refine (bigSep_mono h).trans ?_
  rw [bigSep_sep', bigSep_sep', bigSep_sep', bigSep_sep', ← tbl_pieces, ← tid_blocks, ← flg_blocks, ← win_blocks, ← out_blocks]
  exact BI.Entails.refl _

end Call

/-! ## The buffers the rest of @main touches, out of the held set -/

/-- A TensorCore reference as a device buffer. -/
def devE : Ref sig .tc ↪ DevRef τ sig := ⟨Proc.devRef (sig := sig) (.tc : Proc τ), Proc.devRef_injective _⟩

/-- The call's five arrays, the seven arguments, the three buffers written after the call. -/
def R15 : Finset (Ref sig .tc) :=
  {main_v1, main_v16, main_v17, main_v15, main_v18, main_arg0, main_arg1, main_arg2, main_arg3, main_arg4, main_arg5, main_arg6,
    main_v19, main_v20, main_v21}
def S15 : Finset (DevRef τ sig) := R15.map devE

theorem S15_sub : (S15 : Finset (DevRef τ sig)) ⊆ SU := by
  unfold S15 SU devE
  exact Finset.map_subset_map.2 (by decide)

theorem held_S15 (d : Dev nD) (W : Valuation τ sig (Elt F)) :
    (held (T d) S15 W : sProp 𝕄) = iprop(
      (tblLoc d ↦{fullShare} W (Proc.devRef .tc main_v1)) ∗ (tidLoc d ↦{fullShare} W (Proc.devRef .tc main_v16))
      ∗ (flgLoc d ↦{fullShare} W (Proc.devRef .tc main_v17)) ∗ (winLoc d ↦{fullShare} W (Proc.devRef .tc main_v15))
      ∗ (outLoc d ↦{fullShare} W (Proc.devRef .tc main_v18))
      ∗ ((SparseCore.T d).loc main_arg0 ↦{fullShare} W (Proc.devRef .tc main_arg0)) ∗ ((SparseCore.T d).loc main_arg1 ↦{fullShare} W (Proc.devRef .tc main_arg1))
      ∗ ((SparseCore.T d).loc main_arg2 ↦{fullShare} W (Proc.devRef .tc main_arg2)) ∗ ((SparseCore.T d).loc main_arg3 ↦{fullShare} W (Proc.devRef .tc main_arg3))
      ∗ ((SparseCore.T d).loc main_arg4 ↦{fullShare} W (Proc.devRef .tc main_arg4)) ∗ ((SparseCore.T d).loc main_arg5 ↦{fullShare} W (Proc.devRef .tc main_arg5))
      ∗ ((SparseCore.T d).loc main_arg6 ↦{fullShare} W (Proc.devRef .tc main_arg6))
      ∗ ((SparseCore.T d).loc main_v19 ↦{fullShare} W (Proc.devRef .tc main_v19)) ∗ ((SparseCore.T d).loc main_v20 ↦{fullShare} W (Proc.devRef .tc main_v20))
      ∗ ((SparseCore.T d).loc main_v21 ↦{fullShare} W (Proc.devRef .tc main_v21))) := by
  unfold held S15
  rw [bigSep_map]
  unfold R15
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

section Main
variable [FloatOps F] (m : (ℓ : Loc nD τ sig) → Buf (Elt F) ℓ) (ρ : Dev nD → PrngReg)

/-- What those buffers hold when @main reaches the call: the call's arrays at their terms, the arguments and the
    output at their launch contents. -/
theorem held_call (d : Dev nD) :
    (held (T d) S15 (VC m d) : sProp 𝕄) = iprop(
      (tblLoc d ↦{fullShare} (arrs m d).tbl) ∗ (tidLoc d ↦{fullShare} (arrs m d).tid) ∗ (flgLoc d ↦{fullShare} (arrs m d).flg)
      ∗ (winLoc d ↦{fullShare} (arrs m d).win) ∗ (outLoc d ↦{fullShare} (arrs m d).out0)
      ∗ ((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ ((SparseCore.T d).loc main_arg4 ↦{fullShare} m ((SparseCore.T d).loc main_arg4)) ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_v19 ↦{fullShare} VC m d (Proc.devRef .tc main_v19)) ∗ ((SparseCore.T d).loc main_v20 ↦{fullShare} VC m d (Proc.devRef .tc main_v20))
      ∗ ((SparseCore.T d).loc main_v21 ↦{fullShare} VC m d (Proc.devRef .tc main_v21))) := by
  obtain ⟨k0, k1, k2, k3, k4, k5, k6, k18⟩ := VC_keep m d
  rw [held_S15, VC_tbl, VC_tid, VC_flg, VC_win, k0, k1, k2, k3, k4, k5, k6, k18, arrs_tbl, arrs_tid, arrs_flg, arrs_win, arrs_out0]

end Main

/-! ## A reshape between two of the TensorCore's buffers -/

section Reshape
variable [FloatOps F]

theorem held_two (d : Dev nD) {a b : DevRef τ sig} (h : a ≠ b) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' (by simpa using h), bigSep_singleton]

set_option backward.isDefEq.respectTransparency.types false in
/-- `reshape x y` at the head of the TensorCore's program, holding the boundary and the two buffers whole: `y` ends at
    `x`'s elements in row-major order at its own shape, `x` keeps its contents. -/
theorem wp_reshape_two (d : Dev nD) {x y : Ref sig .tc} (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : x ≠ y) (W : Valuation τ sig (Elt F)) {α : Type}
    {k : ((b : (StableHlo.reshape (τ := τ) (Val := Elt F) x y he hn hx hy).writes) → b.1.ty.Contents (Elt F))
      → Prog (TpuEff nD τ sig (Elt F) (SparseCore.Sig (ΛP (F := F)) 1) .tc) α} {Q : α → sProp 𝕄} :
    iprop(boundary (T d) ∗ ((SparseCore.T d).loc x ↦{fullShare} W (Proc.devRef .tc x)) ∗ ((SparseCore.T d).loc y ↦{fullShare} W (Proc.devRef .tc y)))
      ⊢ iprop(((boundary (T d) ∗ ((SparseCore.T d).loc x ↦{fullShare} W (Proc.devRef .tc x))
            ∗ ((SparseCore.T d).loc y ↦{fullShare} (fun i => he ▸ shapeCast y.ty.shape (W (Proc.devRef .tc x)) hn i)))
          -∗ wp frame (wpE ((K (F := F)).defs (D (F := F))) 𝒱 (SparseCore.T d) none) Set.univ
              (k ((StableHlo.reshape (τ := τ) (Val := Elt F) x y he hn hx hy).fn fun b => W b.1)) Q)
        -∗ wp frame (wpE ((K (F := F)).defs (D (F := F))) 𝒱 (SparseCore.T d) none) Set.univ (hlo rfl (StableHlo.reshape x y he hn hx hy) k) Q) := by
  have hne : (Proc.devRef .tc x : DevRef τ sig) ≠ Proc.devRef .tc y := StableHlo.devRef_ne_of_ne hxy
  have hbufs : (StableHlo.reshape (τ := τ) (Val := Elt F) x y he hn hx hy).bufs = {Proc.devRef .tc x, Proc.devRef .tc y} := rfl
  have e2 : (held (T d) {Proc.devRef .tc x, Proc.devRef .tc y} ((StableHlo.reshape (τ := τ) (Val := Elt F) x y he hn hx hy).result W) : sProp 𝕄)
      = iprop(((SparseCore.T d).loc x ↦{fullShare} W (Proc.devRef .tc x))
          ∗ ((SparseCore.T d).loc y ↦{fullShare} (fun i => he ▸ shapeCast y.ty.shape (W (Proc.devRef .tc x)) hn i))) := by
    rw [held_two d hne, StableHlo.reshape_result_ne (τ := τ) (Val := Elt F) (x := x) (y := y) he hn hx hy W hxy, StableHlo.reshape_result]
  iintro ⟨Hb, Hx, Hy⟩ Hk
  iapply (wp_hlo_within 𝒱 (SparseCore.T d) none Set.univ (op := StableHlo.reshape (τ := τ) (Val := Elt F) x y he hn hx hy)
      (S := {Proc.devRef .tc x, Proc.devRef .tc y}) (Finset.Subset.refl _) (V := W)) $$ [Hb Hx Hy]
  · isplitl [Hb]; · iexact Hb
    rw [held_two d hne]
    isplitl [Hx]; · iexact Hx
    iexact Hy
  iintro ⟨Hb, Hh⟩
  ihave Hh' := (Entails.of_eq e2) $$ Hh
  icases Hh' with ⟨Hx, Hy⟩
  iapply Hk
  isplitl [Hb]; · iexact Hb
  isplitl [Hx]; · iexact Hx
  iexact Hy

end Reshape

/-! ## @main on the TensorCore -/

section Tail
variable [FloatOps F] (m : (ℓ : Loc nD τ sig) → Buf (Elt F) ℓ) (ρ : Dev nD → PrngReg)
variable (Gm : Dev nD → sProp (MT nD τ sig (HIx 1) (Elt F) ℕ UU ℕ)) (maskOf : (S1024x1.Idx → BitVec 32) → S1024x200.Idx → Elt F .f32)

/-- What the TensorCore owes and has recorded, before call `n` (the first component of its handshake state). -/
abbrev tcOwes (d : Dev nD) (n : ℕ) : sProp 𝕄 :=
  iprop(∃ W, ⌜(K (F := F)).WBelow (SparseCore.T d) W (8 * n)⌝ ∗ owes (SparseCore.T d) ((K (F := F)).Otc d n) W)

/-- What the proof of @main asks of the mask's call: from the boundary, the lengths, the mask's buffer, what the
    TensorCore owes after the call, the levels and the mask pipeline's part `Gm d` of the launch element, the call runs
    and leaves the mask's buffer at `maskOf` of the lengths. -/
def MaskLine : Prop :=
  ∀ (d : Dev nD) (lens : S1024x1.Idx → BitVec 32) (k : PUnit → Prog (TpuEff nD τ sig (Elt F) (SparseCore.Sig (ΛP (F := F)) 1) .tc) PUnit)
    (Q : PUnit → sProp 𝕄),
    iprop(boundary (SparseCore.T d) ∗ ((SparseCore.T d).loc main_v19 ↦{fullShare} lens) ∗ (∃ f, (SparseCore.T d).loc main_v20 ↦{fullShare} f)
        ∗ tcOwes (F := F) d 1 ∗ levAts (K (F := F)).L (K (F := F)).lev ∗ Gm d
        ∗ ((boundary (SparseCore.T d) ∗ ((SparseCore.T d).loc main_v19 ↦{fullShare} lens) ∗ ((SparseCore.T d).loc main_v20 ↦{fullShare} maskOf lens)
            ∗ tcOwes (F := F) d 1)
          -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (Prog.lift (.customCall (SparseCore.inner (Pipeline.entry 0)) ()) >>= k) Q

/-- The first result: the gathered rows at the result's shape. -/
def outFin (d : Dev nD) : S1024x200x128.Idx → Elt F .f32 :=
  shapeCast S1024x200x128 (outOf (arrs m) d) shapeCasts_S204800x128_S1024x200x128
/-- The lengths as the mask's call reads them. -/
def lensOf (d : Dev nD) : S1024x1.Idx → BitVec 32 :=
  shapeCast S1024x1 (m ((SparseCore.T d).loc main_arg6)) shapeCasts_S1024_S1024x1

/-- What @main leaves the claim: the two results at their terms, the seven arguments at their launch contents. -/
def FIN (d : Dev nD) : sProp 𝕄 :=
  iprop(((SparseCore.T d).loc main_v21 ↦{fullShare} outFin m d) ∗ ((SparseCore.T d).loc main_v20 ↦{fullShare} maskOf (lensOf m d))
    ∗ ((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)))

theorem FIN_intro (d : Dev nD) :
    iprop(((SparseCore.T d).loc main_v21 ↦{fullShare} outFin m d) ∗ ((SparseCore.T d).loc main_v20 ↦{fullShare} maskOf (lensOf m d))
      ∗ ((SparseCore.T d).loc main_arg0 ↦{fullShare} m ((SparseCore.T d).loc main_arg0)) ∗ ((SparseCore.T d).loc main_arg1 ↦{fullShare} m ((SparseCore.T d).loc main_arg1))
      ∗ ((SparseCore.T d).loc main_arg2 ↦{fullShare} m ((SparseCore.T d).loc main_arg2)) ∗ ((SparseCore.T d).loc main_arg3 ↦{fullShare} m ((SparseCore.T d).loc main_arg3))
      ∗ ((SparseCore.T d).loc main_arg4 ↦{fullShare} m ((SparseCore.T d).loc main_arg4)) ∗ ((SparseCore.T d).loc main_arg5 ↦{fullShare} m ((SparseCore.T d).loc main_arg5))
      ∗ ((SparseCore.T d).loc main_arg6 ↦{fullShare} m ((SparseCore.T d).loc main_arg6))) ⊢ (FIN m maskOf d : sProp 𝕄) := by
  unfold FIN; exact .rfl

theorem tcSt_split (d : Dev nD) (n : ℕ) :
    ∃ R : sProp 𝕄, ((K (F := F)).tcSt EH d n : sProp 𝕄) = iprop(tcOwes (F := F) d n ∗ R) := ⟨_, rfl⟩

/-- The valuation the last reshape reads: the output at the gathered rows. -/
def V18 (d : Dev nD) : Valuation τ sig (Elt F) := Function.update (VC m d) (Proc.devRef .tc main_v18) (outOf (arrs m) d)

set_option backward.isDefEq.respectTransparency.types false in
/-- The rest of @main after the host operations: the call (the library's `wp_run`, from the five arrays whole), the
    reshape of the lengths, the mask's call, the reshape of the output. -/
theorem wp_tail (hmask : MaskLine (F := F) Gm maskOf) (κ : GSem nD τ sig → ℕ) (d : Dev nD) :
    iprop((K (F := F)).ctx EH (P (arrs m)) κ ∗ (K (F := F)).tcSt EH d 0 ∗ boundary (SparseCore.T d) ∗ (held (T d) SU (VC m d) : sProp 𝕄) ∗ Gm d)
      ⊢ wp frame (wpE ((K (F := F)).defs (D (F := F))) 𝒱 (SparseCore.T d) none) Set.univ (mainTail d)
          fun _ => iprop((K (F := F)).tcSt EH d 1 ∗ FIN m maskOf d) := by
  obtain ⟨R, hR⟩ := tcSt_split (F := F) d 1
  obtain ⟨k0, k1, k2, k3, k4, k5, k6, k18⟩ := VC_keep m d
  unfold mainTail
  rw [wp_bind]
  iintro ⟨#Hctx, Hst, Hb, Hheld, HG⟩
  ihave Hlev := (SparseCore.Cfg.ctx_levAts κ) $$ Hctx
  ihave Hh := (Entails.of_eq (held_sub_split (T d) S15_sub (VC m d))) $$ Hheld
  icases Hh with ⟨H15, -⟩
  ihave Hh := (Entails.of_eq (held_call m d)) $$ H15
  icases Hh with ⟨Htbl, Htid, Hflg, Hwin, Hout, Ha0, Ha1, Ha2, Ha3, Ha4, Ha5, Ha6, H19, H20, H21⟩
  -- the call
  iapply ((K (F := F)).wp_run (D (F := F)) 𝒱 (EH := EH) (P := P (arrs m)) κ d 0) $$ [Hst Hb HG Htbl Htid Hflg Hwin Hout Ha0 Ha1 Ha2 Ha3 Ha4 Ha5 Ha6 H19 H20 H21]
  isplitr; · iexact Hctx
  isplitl [Hst]; · iexact Hst
  isplitl [Htbl Htid Hflg Hwin Hout]
  · rw [st0_eq]
    isplitl [Htbl]; · iexact Htbl
    isplitl [Htid]; · iexact Htid
    isplitl [Hflg]; · iexact Hflg
    isplitl [Hwin]; · iexact Hwin
    iexact Hout
  iintro ⟨Hst, Hdn⟩
  ihave Hdn' := (dn0_le (arrs m) d) $$ Hdn
  icases Hdn' with ⟨-, -, -, -, Hout⟩
  ihave Hst1 := (show ((K (F := F)).tcSt EH d 1 : sProp 𝕄) ⊢ (K (F := F)).tcSt EH d 1 from .rfl) $$ [Hst]
  · iexact Hst
  ihave Hst' := (Entails.of_eq hR) $$ Hst1
  icases Hst' with ⟨How, HR⟩
  -- the lengths reshaped
  have e6 : (((SparseCore.T d).loc main_arg6 ↦{fullShare} m ((SparseCore.T d).loc main_arg6)) : sProp 𝕄)
      = ((SparseCore.T d).loc main_arg6 ↦{fullShare} VC m d (Proc.devRef .tc main_arg6)) := by rw [k6]
  have e19 : (((SparseCore.T d).loc main_v19 ↦{fullShare}
        (fun i => (rfl : (main_arg6 : Ref sig .tc).ty.elt = (main_v19 : Ref sig .tc).ty.elt) ▸ shapeCast (main_v19 : Ref sig .tc).ty.shape (VC m d (Proc.devRef .tc main_arg6)) shapeCasts_S1024_S1024x1 i)) : sProp 𝕄)
      = ((SparseCore.T d).loc main_v19 ↦{fullShare} lensOf m d) := by rw [k6]; rfl
  have e18 : ((outLoc d ↦{fullShare} outOf (arrs m) d) : sProp 𝕄)
      = ((SparseCore.T d).loc main_v18 ↦{fullShare} V18 m d (Proc.devRef .tc main_v18)) := by unfold V18; rw [Function.update_self]
  have e21 : (((SparseCore.T d).loc main_v21 ↦{fullShare} VC m d (Proc.devRef .tc main_v21)) : sProp 𝕄)
      = ((SparseCore.T d).loc main_v21 ↦{fullShare} V18 m d (Proc.devRef .tc main_v21)) := by
    unfold V18; rw [Function.update_of_ne (StableHlo.devRef_ne_of_ne (by decide))]
  have e21' : (((SparseCore.T d).loc main_v21 ↦{fullShare}
        (fun i => (rfl : (main_v18 : Ref sig .tc).ty.elt = (main_v21 : Ref sig .tc).ty.elt) ▸ shapeCast (main_v21 : Ref sig .tc).ty.shape (V18 m d (Proc.devRef .tc main_v18)) shapeCasts_S204800x128_S1024x200x128 i)) : sProp 𝕄)
      = ((SparseCore.T d).loc main_v21 ↦{fullShare} outFin m d) := by unfold V18 outFin; rw [Function.update_self]; rfl
  rw [wp_bind]
  ihave Ha6' := (Entails.of_eq e6) $$ Ha6
  iapply (wp_reshape_two d (x := main_arg6) (y := main_v19) rfl shapeCasts_S1024_S1024x1 _ _ (by decide) (VC m d)) $$ [Hb Ha6' H19]
  · isplitl [Hb]; · iexact Hb
    isplitl [Ha6']; · iexact Ha6'
    iexact H19
  iintro ⟨Hb, Ha6', H19⟩
  ihave Ha6 := (Entails.of_eq e6.symm) $$ Ha6'
  ihave H19' := (Entails.of_eq e19) $$ H19
  rw [wp_ret]; imodintro
  -- the mask's call
  iapply (hmask d (lensOf m d) _ _)
  isplitl [Hb]; · iexact Hb
  isplitl [H19']; · iexact H19'
  isplitl [H20]; · iexists _; iexact H20
  isplitl [How]; · iexact How
  isplitl [Hlev]; · iexact Hlev
  isplitl [HG]; · iexact HG
  iintro ⟨Hb, H19', H20, How⟩
  -- the output reshaped
  rw [wp_bind]
  ihave Hout' := (Entails.of_eq e18) $$ Hout
  ihave H21' := (Entails.of_eq e21) $$ H21
  iapply (wp_reshape_two d (x := main_v18) (y := main_v21) rfl shapeCasts_S204800x128_S1024x200x128 _ _ (by decide) (V18 m d)) $$ [Hb Hout' H21']
  · isplitl [Hb]; · iexact Hb
    isplitl [Hout']; · iexact Hout'
    iexact H21'
  iintro ⟨Hb, Hout', H21'⟩
  ihave H21 := (Entails.of_eq e21') $$ H21'
  rw [wp_ret]; imodintro
  rw [wp_pure]; imodintro
  isplitl [How HR]
  · iapply (Entails.of_eq hR.symm)
    isplitl [How]; · iexact How
    iexact HR
  iapply (FIN_intro m maskOf d)
  isplitl [H21]; · iexact H21
  isplitl [H20]; · iexact H20
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Ha6

end Tail

section Run
variable [FloatOps F] (m : (ℓ : Loc nD τ sig) → Buf (Elt F) ℓ) (ρ : Dev nD → PrngReg)
variable (Gm : Dev nD → sProp (MT nD τ sig (HIx 1) (Elt F) ℕ UU ℕ)) (maskOf : (S1024x1.Idx → BitVec 32) → S1024x200.Idx → Elt F .f32)

set_option backward.isDefEq.respectTransparency.types false in
/-- @main on device `d`'s TensorCore: the host operations as one line, then the rest. -/
theorem hmain (hmask : MaskLine (F := F) Gm maskOf) (κ : GSem nD τ sig → ℕ) (d : Dev nD) :
    iprop((K (F := F)).ctx EH (P (arrs m)) κ ∗ (K (F := F)).tcSt EH d 0 ∗ (K (F := F)).tcRes m ρ d ∗ Gm d)
      ⊢ wp frame (wpE ((K (F := F)).defs (D (F := F))) 𝒱 (SparseCore.T d) none) Set.univ (main d)
          fun _ => iprop((K (F := F)).tcSt EH d 1 ∗ FIN m maskOf d) := by
  unfold SparseCore.Cfg.tcRes
  rw [unscoped_held, main_eq]
  iintro ⟨#Hctx, Hst, ⟨Hb, Hheld, -, -⟩, HG⟩
  iapply (wp_seq 𝒱 none Set.univ d SU (fun _ => mainTail d) hostOps hostOps_sub hostOps_fresh (launchContents m d)) $$ [Hb Hheld]
  · isplitl [Hb] <;> iassumption
  iintro ⟨Hb, Hheld⟩
  iapply (wp_tail m Gm maskOf hmask κ d)
  isplitr; · iexact Hctx
  isplitl [Hst]; · iexact Hst
  isplitl [Hb]; · iexact Hb
  isplitl [Hheld]; · iexact Hheld
  iexact HG

/-! ## The final memory read off, and the run -/

theorem agree1 (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

def fq (d : Dev nD) (s' : Phys nD τ sig (Elt F)) : Prop :=
  s'.mem.mem ((SparseCore.T d).loc main_v21) = outFin m d ∧ s'.mem.mem ((SparseCore.T d).loc main_v20) = maskOf (lensOf m d)
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4) ∧ s'.mem.mem ((SparseCore.T d).loc main_arg5) = m ((SparseCore.T d).loc main_arg5)
  ∧ s'.mem.mem ((SparseCore.T d).loc main_arg6) = m ((SparseCore.T d).loc main_arg6)

set_option maxRecDepth 16384 in
theorem hfin (d : Dev nD) (s' : Phys nD τ sig (Elt F)) : iprop(FIN m maskOf d ∗ SI s') ⊢ (⌜fq m maskOf d s'⌝ : sProp 𝕄) := by
  unfold FIN
  iintro ⟨⟨H21, H20, H0, H1, H2, H3, H4, H5, H6⟩, HSI⟩
  ihave H := (agree1 s' _ _) $$ [HSI H21]
  · isplitl [HSI] <;> iassumption
  icases H with ⟨%e21, HSI⟩
  ihave H := (agree1 s' _ _) $$ [HSI H20]
  · isplitl [HSI] <;> iassumption
  icases H with ⟨%e20, HSI⟩
  ihave H := (agree1 s' _ _) $$ [HSI H0]
  · isplitl [HSI] <;> iassumption
  icases H with ⟨%e0, HSI⟩
  ihave H := (agree1 s' _ _) $$ [HSI H1]
  · isplitl [HSI] <;> iassumption
  icases H with ⟨%e1, HSI⟩
  ihave H := (agree1 s' _ _) $$ [HSI H2]
  · isplitl [HSI] <;> iassumption
  icases H with ⟨%e2, HSI⟩
  ihave H := (agree1 s' _ _) $$ [HSI H3]
  · isplitl [HSI] <;> iassumption
  icases H with ⟨%e3, HSI⟩
  ihave H := (agree1 s' _ _) $$ [HSI H4]
  · isplitl [HSI] <;> iassumption
  icases H with ⟨%e4, HSI⟩
  ihave H := (agree1 s' _ _) $$ [HSI H5]
  · isplitl [HSI] <;> iassumption
  icases H with ⟨%e5, HSI⟩
  ihave H := (agree1 s' _ _) $$ [HSI H6]
  · isplitl [HSI] <;> iassumption
  icases H with ⟨%e6, -⟩
  ipureintro; exact ⟨e21, e20, e0, e1, e2, e3, e4, e5, e6⟩

/-- The run's post: on every device the two results at their terms, the seven arguments unchanged. -/
def QC : PUnit × MemSt nD τ sig (Elt F) → Prop := fun r => ∀ c : Dev nD,
  r.2.mem ((SparseCore.T c).loc main_v21) = outFin m c ∧ r.2.mem ((SparseCore.T c).loc main_v20) = maskOf (lensOf m c)
  ∧ r.2.mem ((SparseCore.T c).loc main_arg0) = m ((SparseCore.T c).loc main_arg0) ∧ r.2.mem ((SparseCore.T c).loc main_arg1) = m ((SparseCore.T c).loc main_arg1)
  ∧ r.2.mem ((SparseCore.T c).loc main_arg2) = m ((SparseCore.T c).loc main_arg2) ∧ r.2.mem ((SparseCore.T c).loc main_arg3) = m ((SparseCore.T c).loc main_arg3)
  ∧ r.2.mem ((SparseCore.T c).loc main_arg4) = m ((SparseCore.T c).loc main_arg4) ∧ r.2.mem ((SparseCore.T c).loc main_arg5) = m ((SparseCore.T c).loc main_arg5)
  ∧ r.2.mem ((SparseCore.T c).loc main_arg6) = m ((SparseCore.T c).loc main_arg6)

/-- The launch element: the handshakes' rounds, the mask pipeline's staging rounds `uR`, the counters at one. -/
def u₀ (uR : UR) : UU := (initOf (K (F := F)).hsCells (K (F := F)).hsToks, (uR, 1))

theorem bigSep_emp' {I : Type} (s : Finset I) : (bigSep s fun _ => iprop(emp)) = (iprop(emp) : sProp 𝕄) := bigSep_emp_const s

theorem hu₀ (uR : UR) (hG : (BI.own ((ER (F := F)) uR) : sProp 𝕄) ⊢ |={Set.univ}=> bigSep Finset.univ Gm) :
    (ownU (u₀ (F := F) uR) : sProp 𝕄)
      ⊢ |={Set.univ}=> iprop(BI.own (EH (initOf (K (F := F)).hsCells (K (F := F)).hsToks)) ∗ bigSep Finset.univ Gm
        ∗ bigSep Finset.univ fun thr : Thread nD τ => bigSep Finset.univ fun q : Fin 1 => (P (arrs m)).x q thr) := by
  unfold u₀
  iintro Hu
  ihave H := (ownU_pair (initOf (K (F := F)).hsCells (K (F := F)).hsToks) ((uR, 1) : UR × Counters)) $$ Hu
  icases H with ⟨HH, HRC⟩
  ihave H2 := (own_pair_emb embR uR (1 : Counters)) $$ HRC
  icases H2 with ⟨HR, -⟩
  have eR : (BI.own (((Emb.inl : Emb UR (UR × Counters)).trans embR) uR) : sProp 𝕄) = BI.own ((ER (F := F)) uR) := rfl
  ihave HR' := (Entails.of_eq eR) $$ HR
  imod hG $$ HR' with HG
  imodintro
  isplitl [HH]; · iexact HH
  isplitl [HG]; · iexact HG
  rw [show (bigSep Finset.univ fun thr : Thread nD τ => bigSep Finset.univ fun q : Fin 1 => (P (F := F) (arrs m)).x q thr) = bigSep Finset.univ fun _ => iprop(emp) from
    bigSep_congr fun _ _ => bigSep_univ_of_subsingleton (0 : Fin 1), bigSep_emp']
  iempintro

/-- The kernel program's run: from any memory with zero counters every weakly fair execution of all its threads
    terminates, and on every device the two results end at their terms of the arguments, the arguments unchanged —
    given the vector subcores' obligation, the mask's call, and the mask pipeline's part of the launch element. -/
theorem run_main [∀ e, Nonempty (Elt F e)] (htile : (K (F := F)).TileObl (D (F := F)) 𝒱 (P (arrs m)) v₀ 0)
    (hmask : MaskLine (F := F) Gm maskOf) (uR : UR) (hG : (BI.own ((ER (F := F)) uR) : sProp 𝕄) ⊢ |={Set.univ}=> bigSep Finset.univ Gm) :
    θ_run (Cert.Kernel.defs (F := F)) (Cert.Kernel.threads (F := F)) ⟨m, fun _ => 0, ρ⟩ (QC m maskOf) :=
  SparseCore.Cfg.θ_run_sc (K := K (F := F)) (D := D (F := F)) (𝒱 := 𝒱) (EH := EH) (P := P (arrs m)) facts v₀
    (fun q hq => match q with | 0 => nomatch hq)
    (fun q _ => match q with | 0 => htile)
    (fun q _ => match q with | 0 => SparseCore.Cfg.VecSplit.of_plain (vecSplit (arrs m)))
    m ρ main Gm (FIN m maskOf) (u₀ (F := F) uR) (sep_elim_left.trans (hu₀ m Gm uR hG)) (hmain m ρ Gm maskOf hmask) (fq m maskOf) (hfin m maskOf) (QC m maskOf) (fun _ h => h)

end Run

end Cert.Proof.KB

end
-- ==== Proof.KBMask.lean ====
/-
  The padding mask of the embedding lookup: the one TensorCore call of the kernel program, which stands inside the
  SparseCore program's @main.

  The call stages the 1024×1 array of sequence lengths whole, computes `mask[i, j] = (j < lens[i]) ? 1.0 : 0.0` (a signed
  comparison of the column index with the row's length, zero-extended and converted to a float) and writes the
  1024×200 result back whole. It is a pipeline of one point over two whole-array windows. This module gives

  * `maskOf`, the mask as a pure function of the lengths — the value the body stores;
  * the body's run on its two staging buffers (`maskRun`) and the pipeline's proof data around it (`mdat`): the result's
    array ends holding `maskOf lens` (`arrAt_out`), the lengths' array what it held (`arrAt_in`);
  * `wp_mask`: inside @main on the TensorCore of device `d`, from the region boundary, the two arrays, what the core owes
    and the ghost state of the pipeline's two staging cells (`maskG d`), the call runs to the same with the result's
    array at `maskOf lens`; the TensorCore's waits on the two staging semaphores sit at index `none`, level zero, below
    everything it owes;
  * `fund_maskG`: the rounds' launch element at the staging cells funds `maskG d` on every device.
-/
import proofs.«213838_g73864847557071_cont_9to1_m_429_11_alg».proof.Proof.KBSetup
import proofs.«213838_g73864847557071_cont_9to1_m_429_11_alg».proof.Proof.Gen.Kernel.Launch
import proofs.«213838_g73864847557071_cont_9to1_m_429_11_alg».proof.Proof.Gen.Kernel.Points
import Idealize.ShloMosaic.Lib.Pipeline.Regions
import Idealize.ShloMosaic.Lib.Pipeline.Value

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The mask as a pure function, and the body -/

/-- The padding mask as a pure function of the lengths: entry `(i, j)` is `1.0` when `j < lens i` (as signed words), else `0.0`. -/
def maskOf (lens : S1024x1.Idx → BitVec 32) : S1024x200.Idx → Elt F .f32 :=
  sitofp .f32 (extui 32 (cmpi .slt (iota .tc S1024x200 32 [1] iota_S1024x200_d1_w32)
    (broadcastTo S1024x200 (shapeCast S1024x1 lens shapeCasts_S1024x1_S1024x1) broadcasts_S1024x1_S1024x200)) natLt_1_32)

/-- It is the value the body stores, as the generated skeleton names it. -/
theorem maskOf_eq_pay (lens : S1024x1.Idx → BitVec 32) : maskOf (F := F) lens = k1_pay1 (F := F) lens := rfl

/-- A buffer's contents type on core `c`, and the buffer held whole. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

theorem offsets_zero : (![0, 0] : Fin 2 → Nat) = fun _ => 0 := funext fun a => by fin_cases a <;> rfl

/-- A load of a whole buffer through the unit rectangle at zero offsets reads its contents. -/
theorem readAt_stg0 (f0 : S1024x1.Idx → BitVec 32) :
    View.readAt (Elt F) (Memref.whole cc1_stg0_0).view (Rect.unit ![0, 0] S1024x1.size inb_S1024x1_S1024x1_0_0).toLoadRect f0 = f0 := by
  rw [View.readAt_eq_ld]
  exact View.ld_unit_zero (Val := Elt F) (S := S1024x1) (e := EltTy.i32) offsets_zero inb_S1024x1_S1024x1_0_0 f0

/-- One store through it over a whole buffer leaves its payload. -/
theorem writes_stg1 (f1 X : S1024x200.Idx → Elt F .f32) :
    (Memref.whole cc1_stg1_0).view.writes (Elt F) f1 [⟨Rect.unit ![0, 0] S1024x200.size inb_S1024x200_S1024x200_0_0, X⟩] = X := by
  have hcov : ∀ y : S1024x200.Idx, ∃ p ∈ [(⟨Rect.unit ![0, 0] S1024x200.size inb_S1024x200_S1024x200_0_0, X⟩ : View.Piece (Elt F) S1024x200 .f32)], y ∈ p.1.set :=
    fun y => ⟨_, List.mem_singleton_self _, View.mem_set_unit_zero (S := S1024x200) offsets_zero inb_S1024x200_S1024x200_0_0 y⟩
  have h := View.read_writes_eq_canon (Val := Elt F) (View.whole cc1_stg1_0) f1 _ hcov
  rw [View.read_whole] at h
  exact h.trans (View.canon_unit_zero (Val := Elt F) (S := S1024x200) offsets_zero inb_S1024x200_S1024x200_0_0 X)

/-- The body: it loads the lengths, and stores the mask over whatever the result's buffer held. -/
theorem maskRun (c : Dev nD) (f0 : S1024x1.Idx → BitVec 32) (f1 : S1024x200.Idx → Elt F .f32) (Q : PUnit → sProp 𝕄) :
    iprop(pt c (Memref.whole cc1_stg0_0) f0 ∗ pt c (Memref.whole cc1_stg1_0) f1
      ∗ (iprop(pt c (Memref.whole cc1_stg0_0) f0 ∗ pt c (Memref.whole cc1_stg1_0) (maskOf (F := F) f0)) -∗ Q ⟨⟩))
    ⊢ wp frame (wpE (defs₀ (F := F)) Variants.none c none) Set.univ
        (cc1_body (Memref.whole cc1_stg0_0) (Memref.isWhole_whole _) (Memref.whole cc1_stg1_0) (Memref.isWhole_whole _)) Q := by
  iintro ⟨H0, H1, Hk⟩
  simp only [cc1_body_eq_skeleton]; unfold cc1_body_skel
  sl_exec
  sl_step
  rw [writes_stg1, readAt_stg0]
  iapply Hk
  isplitl [H0]; · iexact H0
  iexact H1

/-! ## The pipeline's proof data -/

/-- The prefetched tables' admissible contents: no table. -/
abbrev adm : (p : Fin 1) → (pcfgs (F := F) p).Adm := fun p => (cfgs p).toPCfg_adm

abbrev 𝒱m : Variants := Variants.none

/-- The proof data on core `c`: the lengths' array at `lens`, the result's at `out0`; after the body the lengths' staging
    buffer as fetched and the result's at the mask; no invariant; the core owing `O` throughout, its recorded pairs at
    levels at most `b`. -/
def mdat (lens : S1024x1.Idx → BitVec 32) (out0 : S1024x200.Idx → Elt F .f32) (O : CellTallies nD τ sig (HIx 1)) (b : ℕ) (c : Dev nD) :
    Dat τ (Elt F) (HIx 1) ℕ UU ℕ cfg1 c where
  A w := match w with
    | ⟨0, _⟩ => lens
    | ⟨1, _⟩ => out0
  after w _ := match w with
    | ⟨0, _⟩ => lens
    | ⟨1, _⟩ => maskOf (F := F) lens
  Φ _ := iprop(emp)
  q _ := fullShare
  owed _ := O
  recorded _ := {p | (K (F := F)).lev ((T c : Thread nD τ), p.1) p.2 ≤ b}

def mdats (lens : S1024x1.Idx → BitVec 32) (out0 : S1024x200.Idx → Elt F .f32) (O : CellTallies nD τ sig (HIx 1)) (b : ℕ) :
    (p : Fin 1) → (c : Dev nD) → Dat τ (Elt F) (HIx 1) ℕ UU ℕ (Pipeline.pin (pcfgs (F := F)) adm p) c
  | 0 => mdat lens out0 O b

variable (lens : S1024x1.Idx → BitVec 32) (out0 : S1024x200.Idx → Elt F .f32) (O : CellTallies nD τ sig (HIx 1)) (b : ℕ)

/-- A whole-array window's one block is the array: an index under it is itself. -/
theorem emb_blk0 (x : S1024x1.Idx) : ((cfg1.win 0).blk t1_0).view.emb x = x := by
  funext a
  apply Fin.ext
  show (((View.whole main_v19).slice (win1_0.rect t1_0)).emb x a).val = (x a).val
  rw [View.emb_slice, Function.Embedding.trans_apply, View.emb_whole, Function.Embedding.refl_apply, Rect.emb_apply]
  have h1 : (win1_0.rect t1_0).off a = 0 := by
    show win1_0.index t1_0 a * win1_0.size a = 0
    rw [show win1_0.index t1_0 a = 0 from rfl, Nat.zero_mul]
  have h2 : (win1_0.rect t1_0).stride a = 1 := rfl
  rw [h1, h2, Nat.zero_add, Nat.one_mul]

theorem emb_blk1 (x : S1024x200.Idx) : ((cfg1.win 1).blk t1_0).view.emb x = x := by
  funext a
  apply Fin.ext
  show (((View.whole main_v20).slice (win1_1.rect t1_0)).emb x a).val = (x a).val
  rw [View.emb_slice, Function.Embedding.trans_apply, View.emb_whole, Function.Embedding.refl_apply, Rect.emb_apply]
  have h1 : (win1_1.rect t1_0).off a = 0 := by
    show win1_1.index t1_0 a * win1_1.size a = 0
    rw [show win1_1.index t1_0 a = 0 from rfl, Nat.zero_mul]
  have h2 : (win1_1.rect t1_0).stride a = 1 := rfl
  rw [h1, h2, Nat.zero_add, Nat.one_mul]

/-- The lengths' staging buffer holds the array when the body runs. -/
theorem before_in (c : Dev nD) (d : (cfg1.win 0).block.Idx → Elt F (cfg1.win 0).elt) :
    (mdat (F := F) lens out0 O b c).before 0 t1_0 d = lens := by
  unfold Dat.before; rw [if_pos (fetch1_0 t1_0)]
  funext x
  show ((cfg1.win 0).blk t1_0).view.read (Elt F) lens x = lens x
  rw [View.read_apply, emb_blk0]
  rfl

/-- Every index of the result lies in its one block. -/
theorem cover1 (i : S1024x200.Idx) : ∃ t : Fin cfg1.N, (cfg1.win 1).flush t = true ∧ i ∈ ((cfg1.win 1).blk t).view.set :=
  ⟨t1_0, flush1_1 _, by
    have h := ((cfg1.win 1).blk t1_0).view.emb_mem_set i
    rwa [emb_blk1] at h⟩

/-- What the write-back writes is the mask, read through the block. -/
theorem flushed1 (c : Dev nD) (t : Fin cfg1.N) :
    (mdat (F := F) lens out0 O b c).flushed 1 t = ((cfg1.win 1).blk t).view.read (Elt F) (maskOf (F := F) lens) := by
  obtain rfl := fin_N1 t
  funext x
  rw [View.read_apply, emb_blk1]
  rfl

/-- After the region the result's array holds the mask, -/
theorem arrAt_out (c : Dev nD) : (mdat (F := F) lens out0 O b c).arrAt 1 cfg1.N = maskOf (F := F) lens :=
  (mdat (F := F) lens out0 O b c).arrAt_eq_of_cover 1 (maskOf (F := F) lens) (fun t _ => flushed1 lens out0 O b c t) cover1

/-- and the lengths' array what it held. -/
theorem arrAt_in (c : Dev nD) : (mdat (F := F) lens out0 O b c).arrAt 0 cfg1.N = lens :=
  (mdat (F := F) lens out0 O b c).arrAt_in 0 rfl _

/-! ## The body obligation -/

/-- The body's obligation at the one point: from the lengths' staging buffer holding the array and the result's holding
    anything, the body leaves the first as it was and the second at the mask; what the core owes passes through. -/
theorem body_obligation (c : Dev nD) : BodyObligation (mdat (F := F) lens out0 O b c) (defs₀ (F := F)) 𝒱m none Set.univ := fun t => by
  obtain rfl := fin_N1 t
  rw [bigSep_W1, bigSep_W1]
  simp only [owns_whole_eq]
  rw [show (mdat (F := F) lens out0 O b c).Φ t1_0.castSucc = iprop(emp) from rfl, show (mdat (F := F) lens out0 O b c).Φ t1_0.succ = iprop(emp) from rfl]
  iintro ⟨-, HO, ⟨%d0, %f0, %hf0, H0⟩, ⟨%d1, %f1, %hf1, H1⟩⟩
  rw [before_in] at hf0
  subst hf0
  iapply (maskRun c f0 f1)
  isplitl [H0]; · iexact H0
  isplitl [H1]; · iexact H1
  iintro ⟨H0, H1⟩
  isplitr; · iempintro
  isplitl [HO]; · iexact HO
  isplitl [H0]
  · iexists _; isplitr; swap; (· iexact H0); ipureintro; dsimp only [mdat]
  · iexists _; isplitr; swap; (· iexact H1); ipureintro; dsimp only [mdat]

/-! ## The region -/

omit [FloatOps F] in
/-- A pair recorded by the region's own waits sits at level zero: within any bound. -/
theorem wbelow_of_bound (c : Dev nD) (W : Waits sig (HIx 1))
    (hW : (↑W : Set (SemLoc sig × HIx 1)) ⊆ {p | (K (F := F)).lev ((T c : Thread nD τ), p.1) p.2 ≤ b} ∪ Pipeline.Cfg.waitPairs cfg1 (none : HIx 1)) :
    (K (F := F)).WBelow (T c) W b := by
  intro p hp
  rcases hW (Finset.mem_coe.mpr hp) with h | ⟨w, s, rfl⟩
  · exact h
  · exact Nat.zero_le _

variable (lv : GSem nD τ sig → HIx 1 → ℕ) (hlv : (K (F := F)).Refines lv) (hO : ∀ g, O g none = 0)

-- the pipeline's configuration pinned at its (empty) prefetched tables is the configuration itself, by unfolding
set_option backward.isDefEq.respectTransparency.types false in
/-- The mask's call as a region of @main: entered from the two arrays and what the core owes, left with the lengths as
    they were, the result at the mask and the same owed; the kernel has no semaphore of its own and keeps no invariant. -/
def mreg : Pipeline.RegionSeg (pcfgs (F := F)) adm (mdats (F := F) lens out0 O b) (none : HIx 1) defs₀ 𝒱m (K (F := F)).L lv 0 where
  win := launch1.win.to₀
  block_pos := launch1.block_pos
  stage_whole := launch1.stage_whole
  K := PEmpty
  osem := fun k => k.elim
  ho := Pipeline.OwnSemFacts.none _
  hbody c := (body_obligation lens out0 O b c).loose
  hwaits c := Pipeline.cellsWaits_intro (Pipeline.pin (pcfgs (F := F)) adm) (mdats (F := F) lens out0 O b) none 0 c
    fun w s t => (K (F := F)).mayWait_none _ hO lv hlv
  pre c := iprop(((T c : Thread nD τ).loc main_v19 ↦{fullShare} lens) ∗ ((T c : Thread nD τ).loc main_v20 ↦{fullShare} out0)
    ∗ ∃ W, ⌜(K (F := F)).WBelow (T c) W b⌝ ∗ owes (T c) O W)
  post c := iprop(((T c : Thread nD τ).loc main_v19 ↦{fullShare} lens) ∗ ((T c : Thread nD τ).loc main_v20 ↦{fullShare} maskOf (F := F) lens)
    ∗ ∃ W, ⌜(K (F := F)).WBelow (T c) W b⌝ ∗ owes (T c) O W)
  X _ := iprop(emp)
  Y _ := iprop(emp)
  Z _ := iprop(emp)
  hentry c := by
    rw [Pipeline.arrays_eq (Pipeline.pin (pcfgs (F := F)) adm) (mdats (F := F) lens out0 O b) 0 c launch1.arr_whole
      ((mdats (F := F) lens out0 O b 0 c).share_full fun _ => rfl), bigSep_W1]
    iintro ⟨⟨H19, H20, ⟨%W, %hW, HO⟩⟩, -, -⟩
    imodintro
    isplitl [H19 H20]
    · isplitl [H19]; · iexact H19
      iexact H20
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    iintro -
    rw [show (mdats (F := F) lens out0 O b 0 c).Φ 0 = iprop(emp) from rfl]
    iempintro
  hout c := by
    rw [Pipeline.ownSems0_none, scopedRest1_eq]
    iintro -
    isplitr; · iempintro
    isplitr <;> iempintro
  hexit c := by
    rw [Pipeline.arrays_eq (Pipeline.pin (pcfgs (F := F)) adm) (mdats (F := F) lens out0 O b) 0 c launch1.arr_whole
      ((mdats (F := F) lens out0 O b 0 c).share_full fun _ => rfl), bigSep_W1]
    iintro ⟨⟨H19, H20⟩, HO, -, -⟩
    imodintro
    isplitl [H19]
    · rw [show (mdats (F := F) lens out0 O b 0 c).arrAt 0 (Pipeline.pin (pcfgs (F := F)) adm 0).N = lens from arrAt_in lens out0 O b c]
      iexact H19
    isplitl [H20]
    · rw [show (mdats (F := F) lens out0 O b 0 c).arrAt 1 (Pipeline.pin (pcfgs (F := F)) adm 0).N = maskOf (F := F) lens from arrAt_out lens out0 O b c]
      iexact H20
    unfold Pipeline.Dat.owesAt Pipeline.owesWithin
    icases HO with ⟨%W, %hW, HO⟩
    iexists W; isplitr; · ipureintro; exact wbelow_of_bound b c W hW
    iexact HO

/-! ## The launch element's half, and the region inside @main -/

/-- What the launch deals device `d` for the mask's pipeline: its two staging cells' ghost state and the duty tokens of
    its two transfers. -/
def maskG (d : Dev nD) : sProp 𝕄 :=
  iprop(Pipeline.cellsGhost (Pipeline.pin (pcfgs (F := F)) adm) (ER (F := F)) 0 d ∗ Pipeline.toksInit (Pipeline.pin (pcfgs (F := F)) adm) (ER (F := F)) 0 d)

/-- The rounds' launch element at the staging cells and the pipeline's transfers funds it on every device. -/
theorem fund_maskG :
    BI.own ((ER (F := F)) (initOf (Pipeline.cells (nD := nD) (τ := τ) cfgs cellOf_inj) (Pipeline.launchToks (nD := nD) (τ := τ) cfgs cellOf_inj)))
      ⊢ iprop(|==> bigSep Finset.univ fun d : Dev nD => maskG (F := F) d) := by
  have e1 : ∀ Φ : Fin 1 → sProp 𝕄, bigSep Finset.univ Φ = Φ 0 := fun Φ => by
    rw [show (Finset.univ : Finset (Fin 1)) = {0} from rfl, bigSep_singleton]
  iintro H
  imod (Pipeline.fund_ghost (nD := nD) (τ := τ) cfgs (ER (F := F)) cellOf_inj) $$ H with ⟨Hg, Ht⟩
  imodintro
  unfold maskG
  rw [bigSep_sep']
  simp only [e1]
  isplitl [Hg]
  · iexact Hg
  · iexact Ht

variable {lens O b lv}

/-- THE MASK'S CALL inside @main: from the region boundary, the lengths' array, the result's array at anything, the core's
    `owes` (owing nothing at index `none`, its recorded pairs at levels at most `b`), the level facts and what the launch
    dealt the pipeline, the call runs to the same with the result's array at the mask. -/
theorem wp_mask (hlv : (K (F := F)).Refines lv) (hO : ∀ g, O g none = 0) (d : Dev nD)
    {α : Type} (k : PUnit → Prog (TpuEff nD τ sig (Elt F) (SparseCore.Sig (ΛP (F := F)) 1) .tc) α) (Q : α → sProp 𝕄) :
    iprop(boundary (T d) ∗ ((T d : Thread nD τ).loc main_v19 ↦{fullShare} lens) ∗ (∃ f : S1024x200.Idx → Elt F .f32, (T d : Thread nD τ).loc main_v20 ↦{fullShare} f)
        ∗ (∃ W, ⌜(K (F := F)).WBelow (T d) W b⌝ ∗ owes (T d) O W) ∗ levAts (K (F := F)).L lv ∗ maskG (F := F) d
        ∗ ((boundary (T d) ∗ ((T d : Thread nD τ).loc main_v19 ↦{fullShare} lens) ∗ ((T d : Thread nD τ).loc main_v20 ↦{fullShare} maskOf (F := F) lens)
              ∗ (∃ W, ⌜(K (F := F)).WBelow (T d) W b⌝ ∗ owes (T d) O W))
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q := by
  unfold maskG
  iintro ⟨Hb, H19, ⟨%f, H20⟩, HO, #Hlev, ⟨Hg, Ht⟩, Hk⟩
  rw [wp_bind]
  iapply ((K (F := F)).wp_liftProg D 𝒱 (T d) Set.univ none (Prog.op (.customCall (Pipeline.entry 0) ()) fun u => .ret u) _)
  iapply (Pipeline.RegionSeg.wp (pcfgs (F := F)) adm (mdats (F := F) lens f O b) (none : HIx 1) cellOf_inj (ER (F := F)) defs₀ 𝒱m (K (F := F)).L lv
    (mreg lens f O b lv hlv hO) d none (fun u hu => nomatch hu) (fun u => .ret u) _)
  rw [show (mreg lens f O b lv hlv hO).pre d = iprop(((T d : Thread nD τ).loc main_v19 ↦{fullShare} lens) ∗ ((T d : Thread nD τ).loc main_v20 ↦{fullShare} f)
        ∗ ∃ W, ⌜(K (F := F)).WBelow (T d) W b⌝ ∗ owes (T d) O W) from rfl,
    show (mreg lens f O b lv hlv hO).post d = iprop(((T d : Thread nD τ).loc main_v19 ↦{fullShare} lens) ∗ ((T d : Thread nD τ).loc main_v20 ↦{fullShare} maskOf (F := F) lens)
        ∗ ∃ W, ⌜(K (F := F)).WBelow (T d) W b⌝ ∗ owes (T d) O W) from rfl]
  isplitl [Hk]
  · iintro ⟨Hb, H19, H20, HO⟩
    rw [wp_ret]; imodintro
    iapply Hk
    isplitl [Hb]; · iexact Hb
    isplitl [H19]; · iexact H19
    isplitl [H20]; · iexact H20
    iexact HO
  isplitl [Hb]; · iexact Hb
  isplitl [H19 H20 HO]
  · isplitl [H19]; · iexact H19
    isplitl [H20]; · iexact H20
    iexact HO
  isplitr; · iexact Hlev
  isplitl [Hg]; · iexact Hg
  iexact Ht

end Cert.Proof.KB

end
-- ==== Proof.KBTileVals.lean ====
/-
  Three facts about buffer contents that the proof of one vector subcore's body cites.

  The first loop of the body builds the worker's 6400 row numbers sixteen at a time: trip `k` reads lanes
  `[16k, 16k + 16)` of the token ids, the cache flags and the winners, and stores over the same lanes of the row-number
  buffer the row each lane reads (`idxAt`, at the lane's place `16k + l` inside the worker's slice). After `k` trips
  the buffer holds the row numbers below `16k` and its old contents from there on (`idxLoc`); after all 400 it holds
  them everywhere, and those are the row numbers of the whole flattened grid read at the worker's slice.
-/
import proofs.«213838_g73864847557071_cont_9to1_m_429_11_alg».proof.Proof.KBSetup
import proofs.«213838_g73864847557071_cont_9to1_m_429_11_alg».proof.Proof.Gen.Kernel.Skeleton
import Idealize.ShloMosaic.Lib.Writes
import Idealize.ShloMosaic.Lib.Pipeline.Value

noncomputable section

namespace Cert.Proof.KB

open Cert.Kernel Cert.Kernel.Gen
open Idealize.ShloMosaic

variable {F : FTy → Type} [FloatOps F]

/-- The first loop runs 400 trips. -/
theorem k0_t1_trips : k0_t1_loop.trips = 400 := by decide

/-- The row-number buffer after `k` trips of the first loop: the row numbers below lane `16k`, the old contents
    from there on. -/
def idxLoc (g7 g8 g9 g10 : S6400.Idx → BitVec 32) (k : Nat) : S6400.Idx → BitVec 32 :=
  fun x => if (x 0).val < 16 * k then idxAt (g7 x) (g8 x) (g9 x) (BitVec.ofNat 32 (x 0).val) else g10 x

/-- After all 400 trips the buffer holds the row numbers everywhere. -/
theorem idxLoc_all (g7 g8 g9 g10 : S6400.Idx → BitVec 32) :
    idxLoc g7 g8 g9 g10 400 = fun x => idxAt (g7 x) (g8 x) (g9 x) (BitVec.ofNat 32 (x 0).val) := by
  funext x
  have hx : (x 0).val < 6400 := (x 0).isLt
  unfold idxLoc
  rw [if_pos (by omega)]

/-- Worker `L`'s 6400 positions of the flattened grid, as the kernel slices them. -/
abbrev posK (L : grid0.Coords) : Rect S204800 := Rect.unit (s := S204800) (k0_off1 L) S6400.size (k0_off1_inb L)

/-- The row numbers a worker builds from its slices are the whole grid's at its positions: position `x` of the slice
    is position `6400·w + x` of the grid, whose place inside its worker's slice is `x` again. -/
theorem idxLoc_global (L : grid0.Coords) (tid flg win : S204800.Idx → BitVec 32) :
    (fun x : S6400.Idx => idxAt (tid ((posK L).emb x)) (flg ((posK L).emb x)) (win ((posK L).emb x)) (BitVec.ofNat 32 (x 0).val))
      = fun x => idxG tid flg win ((posK L).emb x) := by
  funext x
  have hx : (x 0).val < 6400 := (x 0).isLt
  have he : (((posK L).emb x) 0).val = 12800 * (L 1).val + 6400 * (L 0).val + (x 0).val := by
    rw [Rect.emb_apply]
    show k0_off1 L 0 + 1 * (x 0).val = _
    rw [k0_off1_eq L]
    simp
  unfold idxG
  rw [he]
  congr 2
  omega

/-! ## One trip of the first loop -/

section WholeWrites

variable {sig' : RefSig} {κ' : Kind} (Val : EltTy → Type) (b : Ref sig' κ')

/-- One unmasked write through a rectangle of a whole buffer: an element of the rectangle holds the payload, -/
theorem whole_writes_singleton_emb (f : b.ty.Contents Val) (r : Rect b.ty.shape) (w : r.shape.Idx → Val b.ty.elt)
    (x : r.shape.Idx) : (Memref.whole b).view.writes Val f [⟨r, w⟩] (r.emb x) = w x :=
  View.read_writes_cons_emb (Memref.whole b).view f r w [] x

/-- and an element outside it keeps its contents. -/
theorem whole_writes_singleton_of_not_mem (f : b.ty.Contents Val) (r : Rect b.ty.shape) (w : r.shape.Idx → Val b.ty.elt)
    {i : b.ty.shape.Idx} (hi : i ∉ r.set) : (Memref.whole b).view.writes Val f [⟨r, w⟩] i = f i :=
  View.read_writes_apply_of_forall_not_mem (Memref.whole b).view f i [⟨r, w⟩]
    (fun p hp => by rw [List.mem_singleton.mp hp]; exact hi)

end WholeWrites

/-- The place of lane `x` of trip `k` inside the worker's slice, as the kernel computes it (the trip number times sixteen plus
    the lane number, in 32-bit words), is `16k + x`. -/
theorem lane_word (k x : Nat) :
    IntOp.addi (Scalar.muli (Scalar.addi 0#32 (Scalar.muli (Scf.iv 0#32 1#32 k) 1#32)) 16#32) (BitVec.ofNat 32 x)
      = BitVec.ofNat 32 (16 * k + x) := by
  apply BitVec.eq_of_toNat_eq
  simp only [IntOp.addi, Scalar.muli, Scalar.addi, IntOp.muli, Scf.iv, BitVec.toNat_add, BitVec.toNat_mul, BitVec.toNat_ofNat]
  omega

/-- One trip of the first loop: storing trip `k`'s sixteen row numbers over lanes `[16k, 16k + 16)` of a buffer that
    holds the row numbers below lane `16k` leaves one that holds them below lane `16(k + 1)`. Lane `x` of the trip is
    position `16k + x`; its payload is the row that position reads; every other position keeps its contents. -/
theorem idxLoc_step (g7 g8 g9 g10 : S6400.Idx → BitVec 32) (k : Fin k0_t1_loop.trips) :
    (Memref.whole cc0_scratch3 : Memref sig .scVector .vmem S6400 .i32).view.writes (Elt F) (idxLoc g7 g8 g9 g10 k.val)
      [⟨Rect.unit (s := S6400) (k0_off2 k) S16.size (k0_off2_inb k),
        k0_pay1 (F := F) k
          ((Memref.whole cc0_scratch0 : Memref sig .scVector .vmem S6400 .i32).view.readAt (Elt F)
            (Rect.unit (s := S6400) (k0_off2 k) S16.size (k0_off2_inb k)).toLoadRect g7)
          ((Memref.whole cc0_scratch1 : Memref sig .scVector .vmem S6400 .i32).view.readAt (Elt F)
            (Rect.unit (s := S6400) (k0_off2 k) S16.size (k0_off2_inb k)).toLoadRect g8)
          ((Memref.whole cc0_scratch2 : Memref sig .scVector .vmem S6400 .i32).view.readAt (Elt F)
            (Rect.unit (s := S6400) (k0_off2 k) S16.size (k0_off2_inb k)).toLoadRect g9)⟩]
      = idxLoc g7 g8 g9 g10 (k.val + 1) := by
  funext i
  have hoff : k0_off2 k 0 = 16 * k.val := by rw [k0_off2_eq k]; rfl
  by_cases hi : i ∈ (Rect.unit (s := S6400) (k0_off2 k) S16.size (k0_off2_inb k)).set
  · obtain ⟨x, rfl⟩ := (Rect.unit (s := S6400) (k0_off2 k) S16.size (k0_off2_inb k)).exists_idx_of_mem hi
    have hx : (x 0).val < 16 := (x 0).isLt
    have he : (((Rect.unit (s := S6400) (k0_off2 k) S16.size (k0_off2_inb k)).toLoadRect.idx x) 0).val = 16 * k.val + (x 0).val := by
      rw [LoadRect.idx_apply]
      show k0_off2 k 0 + 1 * (x 0).val = _
      rw [hoff]; omega
    have hlt : (((Rect.unit (s := S6400) (k0_off2 k) S16.size (k0_off2_inb k)).toLoadRect.idx x) 0).val < 16 * (k.val + 1) := by
      rw [he]; omega
    refine (whole_writes_singleton_emb (Elt F) cc0_scratch3 _ _ _ x).trans ?_
    have hio : iota .scVector S16 32 [0] iota_S16_d0_w32_scVector x = BitVec.ofNat 32 (x 0).val :=
      iota_single_apply .scVector S16 32 0 iota_S16_d0_w32_scVector x
    simp only [k0_pay1, shapeCast_self, select, cmpi, addi, andi, broadcast]
    rw [hio, lane_word]
    unfold idxLoc
    rw [if_pos hlt, he]
    rfl
  · rw [whole_writes_singleton_of_not_mem (Elt F) cc0_scratch3 _ _ _ hi]
    have hi' : ¬ (16 * k.val ≤ (i 0).val ∧ (i 0).val < 16 * k.val + 16) := by
      intro h
      refine hi (Rect.mem_set_unit.mpr (Fin.forall_fin_one.mpr ?_))
      rw [hoff]; exact h
    unfold idxLoc
    by_cases hlt : (i 0).val < 16 * k.val
    · rw [if_pos hlt, if_pos (by omega)]
    · rw [if_neg hlt, if_neg (by omega)]

end Cert.Proof.KB

end
-- ==== Proof.KBTileDefs.lean ====
/-
  The pieces a vector subcore's gathers and write-backs name: all of the table, a 128-chunk of the subcore's row numbers,
  a 128-row block of the output, and what one gather delivers.
-/
import proofs.«213838_g73864847557071_cont_9to1_m_429_11_alg».proof.Proof.KBSetup
import proofs.«213838_g73864847557071_cont_9to1_m_429_11_alg».proof.Proof.KBTileVals

noncomputable section

namespace Cert.Proof.KB

open Cert.Kernel Cert.Kernel.Gen
open Idealize.ShloMosaic

variable {F : FTy → Type}

/-- All of the table, as every gather names it. -/
abbrev tblAll : Memref sig .scVector .hbm S141088x128 .f32 :=
  (Memref.whole main_v1_scv : Memref sig .scVector .hbm S141088x128 .f32).slice
    (Rect.unit (s := S141088x128) ![0, 0] S141088x128.size inb_S141088x128_S141088x128_0_0) (fun _ => rfl)
/-- The 128 row numbers at offset `off` of a subcore's 6400. -/
abbrev idxSl (off : Fin 1 → Nat) (h : ∀ a, off a + S128.size a ≤ S6400.size a) : Memref sig .scVector .vmem S128 .i32 :=
  (Memref.whole cc0_scratch3 : Memref sig .scVector .vmem S6400 .i32).slice (Rect.unit (s := S6400) off S128.size h) (fun _ => rfl)
/-- Block `r` of trip `k` of the subcore at `L`: rows `6400·w + 640·k + 128·r …` of the output. -/
abbrev oBlk (L : grid0.Coords) (k : Fin k0_t2_loop.trips) (r : Fin 5) : Memref sig .scVector .hbm S128x128 .f32 :=
  (Memref.whole main_v18_scv : Memref sig .scVector .hbm S204800x128 .f32).slice
    (Rect.unit (s := S204800x128) (k0_off4 L k (BitVec.ofNat 32 r.val)) S128x128.size (k0_off4_inb L k r)) (fun _ => rfl)

/-- That every row number of a chunk names a row of the table. -/
abbrev InRange (idxF : S6400.Idx → BitVec 32) : Prop :=
  ∀ (off : Fin 1 → Nat) (hoff : ∀ a, off a + S128.size a ≤ S6400.size a) (j : S128.Idx),
    ((((Memref.whole cc0_scratch3 : Memref sig .scVector .vmem S6400 .i32).slice (Rect.unit (s := S6400) off S128.size hoff) (fun _ => rfl)).view.read (Elt F) idxF j : BitVec 32)).toNat
      < S141088x128.size gathers_S141088x128_S128x128.axis

/-- What a gather of the chunk at `off` delivers: row `j` of the buffer is the table's row number `idx[off + j]`. -/
def gath (tbl : S141088x128.Idx → Elt F .f32) (idxF : S6400.Idx → BitVec 32) (hinS : InRange (F := F) idxF)
    (off : Fin 1 → Nat) (h : ∀ a, off a + S128.size a ≤ S6400.size a) : S128x128.Idx → Elt F .f32 :=
  SparseCore.gatherPayload gathers_S141088x128_S128x128 ((tblAll).view.read (Elt F) tbl)
    (SparseCore.rows ((idxSl off h).view.read (Elt F) idxF) rfl (hinS off h))

theorem offA_inb (k : Fin 10) (b : Fin 5) : ∀ a, (![640 * k.val + 128 * b.val] : Fin 1 → Nat) a + S128.size a ≤ S6400.size a := by
  intro a; fin_cases a; simp; omega

end Cert.Proof.KB

end
-- ==== Proof.KBTileIdx.lean ====
import proofs.«213838_g73864847557071_cont_9to1_m_429_11_alg».proof.Proof.KBTileVals

/-!
# The row numbers a vector subcore has computed are the whole grid's at its positions

After its three fetches a worker's three scratch buffers hold its slices of the token ids, the cache flags and the
winners: each fetch overwrites a whole buffer with what the source array reads at the worker's 6400 positions. The
400 trips of the first loop then leave, at lane `x`, the row number of the grid's position `6400 · w + x`; so every
one of them names a row of the table as soon as every row number of the grid does.
-/

noncomputable section

namespace Cert.Proof.KB

open Cert.Kernel Cert.Kernel.Gen
open Idealize.ShloMosaic

variable {F : FTy → Type} [FloatOps F]

/-- THE ROW NUMBERS OF ONE WORKER, from the buffers as the three fetches leave them: the grid's row numbers at the
    worker's positions. -/
theorem idxF_eq (L : grid0.Coords) (tid flg win : S204800.Idx → BitVec 32) (f0 f1 f2 f3 : S6400.Idx → BitVec 32) :
    idxLoc
        (View.write (Elt F) (Memref.whole cc0_scratch0 : Memref sig .scVector .vmem S6400 .i32).view f0 (ReadAs.same.apply (View.read (Elt F) ((Memref.whole main_v16_scv : Memref sig .scVector .hbm S204800 .i32).slice (posK L) (fun _ => rfl)).view tid)) Finset.univ)
        (View.write (Elt F) (Memref.whole cc0_scratch1 : Memref sig .scVector .vmem S6400 .i32).view f1 (ReadAs.same.apply (View.read (Elt F) ((Memref.whole main_v17_scv : Memref sig .scVector .hbm S204800 .i32).slice (posK L) (fun _ => rfl)).view flg)) Finset.univ)
        (View.write (Elt F) (Memref.whole cc0_scratch2 : Memref sig .scVector .vmem S6400 .i32).view f2 (ReadAs.same.apply (View.read (Elt F) ((Memref.whole main_v15_scv : Memref sig .scVector .hbm S204800 .i32).slice (posK L) (fun _ => rfl)).view win)) Finset.univ)
        f3 400
      = fun x => idxG tid flg win ((posK L).emb x) := by
  have e0 : (View.write (Elt F) (Memref.whole cc0_scratch0 : Memref sig .scVector .vmem S6400 .i32).view f0 (ReadAs.same.apply (View.read (Elt F) ((Memref.whole main_v16_scv : Memref sig .scVector .hbm S204800 .i32).slice (posK L) (fun _ => rfl)).view tid)) Finset.univ)
      = fun x : S6400.Idx => tid ((posK L).emb x) :=
    (View.write_whole_univ (Val := Elt F) cc0_scratch0 f0 _).trans rfl
  have e1 : (View.write (Elt F) (Memref.whole cc0_scratch1 : Memref sig .scVector .vmem S6400 .i32).view f1 (ReadAs.same.apply (View.read (Elt F) ((Memref.whole main_v17_scv : Memref sig .scVector .hbm S204800 .i32).slice (posK L) (fun _ => rfl)).view flg)) Finset.univ)
      = fun x : S6400.Idx => flg ((posK L).emb x) :=
    (View.write_whole_univ (Val := Elt F) cc0_scratch1 f1 _).trans rfl
  have e2 : (View.write (Elt F) (Memref.whole cc0_scratch2 : Memref sig .scVector .vmem S6400 .i32).view f2 (ReadAs.same.apply (View.read (Elt F) ((Memref.whole main_v15_scv : Memref sig .scVector .hbm S204800 .i32).slice (posK L) (fun _ => rfl)).view win)) Finset.univ)
      = fun x : S6400.Idx => win ((posK L).emb x) :=
    (View.write_whole_univ (Val := Elt F) cc0_scratch2 f2 _).trans rfl
  rw [e0, e1, e2, idxLoc_all]
  exact idxLoc_global L tid flg win

/-- … so each names a row of the table when every row number of the grid does. -/
theorem idxF_lt (L : grid0.Coords) (tid flg win : S204800.Idx → BitVec 32) (f0 f1 f2 f3 : S6400.Idx → BitVec 32)
    (h : ∀ p : S204800.Idx, (idxG tid flg win p).toNat < 141088) (x : S6400.Idx) :
    ((idxLoc
        (View.write (Elt F) (Memref.whole cc0_scratch0 : Memref sig .scVector .vmem S6400 .i32).view f0 (ReadAs.same.apply (View.read (Elt F) ((Memref.whole main_v16_scv : Memref sig .scVector .hbm S204800 .i32).slice (posK L) (fun _ => rfl)).view tid)) Finset.univ)
        (View.write (Elt F) (Memref.whole cc0_scratch1 : Memref sig .scVector .vmem S6400 .i32).view f1 (ReadAs.same.apply (View.read (Elt F) ((Memref.whole main_v17_scv : Memref sig .scVector .hbm S204800 .i32).slice (posK L) (fun _ => rfl)).view flg)) Finset.univ)
        (View.write (Elt F) (Memref.whole cc0_scratch2 : Memref sig .scVector .vmem S6400 .i32).view f2 (ReadAs.same.apply (View.read (Elt F) ((Memref.whole main_v15_scv : Memref sig .scVector .hbm S204800 .i32).slice (posK L) (fun _ => rfl)).view win)) Finset.univ)
        f3 400) x).toNat < 141088 := by
  rw [idxF_eq (F := F) L tid flg win f0 f1 f2 f3]
  exact h _

end Cert.Proof.KB

end
-- ==== Proof.KBTileOut.lean ====
/-
  Three facts about one vector subcore's output blocks.

  The subcore at `L` (worker `w`) writes its 6400 rows of the output as fifty blocks of 128 rows: block `r` of trip `k`
  is rows `6400·w + 640·k + 128·r …`. A block is copied out of a row buffer that a gather has just written whole, so the
  copy moves the gather's payload; what the block then holds is the output the call computes; and the fifty blocks are
  the subcore's rows, each once.
-/
import proofs.«213838_g73864847557071_cont_9to1_m_429_11_alg».proof.Proof.KBTileDefs

noncomputable section

namespace Cert.Proof.KB

open Cert.Kernel Cert.Kernel.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem

variable {F : FTy → Type}

local notation "𝕄" => MT nD τ sig (HIx 1) (Elt F) ℕ UU ℕ

/-- The second loop runs 10 trips. -/
theorem k0_t2_trips : k0_t2_loop.trips = 10 := by decide

section Generic

variable {sig' : RefSig} {κ' : Kind} (Val : EltTy → Type) (b : Ref sig' κ')

/-- A whole buffer that one unmasked write has just filled reads as the payload. -/
theorem read_whole_writes (fb : b.ty.Contents Val) (g : (Rect.whole b.ty.shape).shape.Idx → Val b.ty.elt) :
    ReadAs.same.apply (View.read Val (Memref.whole b).view ((Memref.whole b).view.writes Val fb [⟨Rect.whole b.ty.shape, g⟩])) = g := by
  funext x
  have h := whole_writes_singleton_emb Val b fb (Rect.whole b.ty.shape) g x
  rw [Rect.emb_whole_apply] at h
  exact h

/-- A rectangle of a whole buffer that one unmasked write has just filled holds the payload, element by element. -/
theorem slice_whole_writes_emb (R : Rect b.ty.shape) (hR : ∀ a, R.stride a = 1) (fo : b.ty.Contents Val)
    (g : (Rect.whole R.shape).shape.Idx → Val b.ty.elt) (j : R.shape.Idx) :
    ((Memref.whole b).slice R hR).view.writes Val fo [⟨Rect.whole R.shape, g⟩] (R.emb j) = g j := by
  have h := View.read_writes_cons_emb ((Memref.whole b).slice R hR).view fo (Rect.whole R.shape) g [] j
  rw [Rect.emb_whole_apply] at h
  exact h

end Generic

/-- A rank-one index read back from its row-major number is that number. -/
theorem rowMajor_symm_val_one {d : Fin 1 → Nat} (q : Fin (⟨1, d⟩ : Shape).numel) :
    (((⟨1, d⟩ : Shape).rowMajor.symm q) 0).val = q.val := by
  rw [← Shape.rowMajor_val_one, Equiv.apply_symm_apply]

/-- What a written block holds: block `r` of trip `k` of the subcore at `L`, after the gather's payload for the chunk
    at `640·k + 128·r` of the subcore's row numbers is copied into it, holds the output the call computes. Element `(j, e)`
    of the block is row `6400·w + 640·k + 128·r + j`, column `e`; the payload there is the table's row numbered by entry
    `640·k + 128·r + j` of the subcore's row numbers, which is the grid's row number at position `6400·w + 640·k + 128·r + j`. -/
theorem oBlk_value (L : grid0.Coords) (k : Fin k0_t2_loop.trips) (r : Fin 5) (tbl : S141088x128.Idx → Elt F .f32)
    (idxg : S204800.Idx → BitVec 32) (idxF : S6400.Idx → BitVec 32) (hF : idxF = fun x => idxg ((posK L).emb x))
    (hinS : InRange (F := F) idxF) (hg : ∀ p, (idxg p).toNat < 141088) (fo : S204800x128.Idx → Elt F .f32) :
    ∀ x ∈ (oBlk L k r).view.set,
      ((oBlk L k r).view.writes (Elt F) fo
        [⟨Rect.whole S128x128, gath (F := F) tbl idxF hinS ![640 * k.val + 128 * r.val]
            (offA_inb ⟨k.val, Nat.lt_of_lt_of_eq k.isLt k0_t2_trips⟩ r)⟩]) x = outG (F := F) tbl idxg x := by
  intro x hx
  have hx' : x ∈ (Rect.unit (s := S204800x128) (k0_off4 L k (BitVec.ofNat 32 r.val)) S128x128.size (k0_off4_inb L k r)).set := by
    rw [← View.set_slice_whole (main_v18_scv : Ref sig .scVector)]; exact hx
  obtain ⟨j, rfl⟩ := (Rect.unit (s := S204800x128) (k0_off4 L k (BitVec.ofNat 32 r.val)) S128x128.size (k0_off4_inb L k r)).exists_idx_of_mem hx'
  refine (slice_whole_writes_emb (Elt F) (main_v18_scv : Ref sig .scVector) _ (fun _ => rfl) fo _ j).trans ?_
  clear hx hx'
  subst hF
  have hk : k.val < 10 := Nat.lt_of_lt_of_eq k.isLt k0_t2_trips
  have hr : r.val < 5 := r.isLt
  have hj0 : (j 0).val < 128 := (j 0).isLt
  have ho0 : k0_off4 L k (BitVec.ofNat 32 r.val) 0 = 12800 * (L 1).val + 6400 * (L 0).val + 640 * k.val + 128 * r.val := by
    rw [k0_off4_eq L k r]; rfl
  have ho1 : k0_off4 L k (BitVec.ofNat 32 r.val) 1 = 0 := by
    rw [k0_off4_eq L k r]; rfl
  have hR0 : (((Rect.unit (s := S204800x128) (k0_off4 L k (BitVec.ofNat 32 r.val)) S128x128.size (k0_off4_inb L k r)).toLoadRect.idx j) 0).val
      = 12800 * (L 1).val + 6400 * (L 0).val + 640 * k.val + 128 * r.val + (j 0).val := by
    rw [LoadRect.idx_apply]
    show k0_off4 L k (BitVec.ofNat 32 r.val) 0 + 1 * (j 0).val = _
    rw [ho0]; omega
  have hR1 : (((Rect.unit (s := S204800x128) (k0_off4 L k (BitVec.ofNat 32 r.val)) S128x128.size (k0_off4_inb L k r)).toLoadRect.idx j) 1).val
      = (j 1).val := by
    rw [LoadRect.idx_apply]
    show k0_off4 L k (BitVec.ofNat 32 r.val) 1 + 1 * (j 1).val = _
    rw [ho1]; omega
  generalize (Rect.unit (s := S204800x128) (k0_off4 L k (BitVec.ofNat 32 r.val)) S128x128.size (k0_off4_inb L k r)).toLoadRect.idx j = y at hR0 hR1 ⊢
  unfold gath SparseCore.gatherPayload outG
  rw [View.read_apply, cast_eq]
  refine congrArg tbl ?_
  -- the chunk's entry the block's row j names
  have hz : ((S128.rowMajor.symm ((j 0).cast (rfl : S128x128.size gathers_S141088x128_S128x128.axis' = S128.numel))) 0).val = (j 0).val :=
    rowMajor_symm_val_one _
  funext a
  apply Fin.ext
  match a with
  | ⟨0, _⟩ =>
    have hP : (posK L).emb ((Rect.unit (s := S6400) ![640 * k.val + 128 * r.val] S128.size (offA_inb ⟨k.val, hk⟩ r)).emb
        (S128.rowMajor.symm ((j 0).cast (rfl : S128x128.size gathers_S141088x128_S128x128.axis' = S128.numel)))) = ix1 (y 0) := by
      funext c
      apply Fin.ext
      match c with
      | ⟨0, _⟩ =>
        show k0_off1 L 0 + 1 * ((![640 * k.val + 128 * r.val] : Fin 1 → Nat) 0
          + 1 * ((S128.rowMajor.symm ((j 0).cast (rfl : S128x128.size gathers_S141088x128_S128x128.axis' = S128.numel))) 0).val) = (y 0).val
        rw [hz, hR0, show k0_off1 L 0 = 12800 * (L 1).val + 6400 * (L 0).val from by rw [k0_off1_eq L]; rfl]
        show _ + 1 * (640 * k.val + 128 * r.val + 1 * (j 0).val) = _
        omega
    show (![0, 0] : Fin 2 → Nat) 0 + 1 * (idxg ((posK L).emb ((Rect.unit (s := S6400) ![640 * k.val + 128 * r.val] S128.size (offA_inb ⟨k.val, hk⟩ r)).emb
        (S128.rowMajor.symm ((j 0).cast (rfl : S128x128.size gathers_S141088x128_S128x128.axis' = S128.numel)))))).toNat
      = (idxg (ix1 (y 0))).toNat % 141088
    rw [hP, Nat.mod_eq_of_lt (hg _)]
    exact (Nat.zero_add _).trans (Nat.one_mul _)
  | ⟨1, _⟩ =>
    show (![0, 0] : Fin 2 → Nat) 1 + 1 * ((gathers_S141088x128_S128x128.idx _ j) 1).val = (y 1).val
    rw [Shape.Gathers.idx_of_ne _ _ _ 1 (by decide), hR1]
    show 0 + 1 * (j 1).val = (j 1).val
    omega

/-! ## The fifty blocks are the subcore's rows -/

/-- The rows of block `r` of trip `k`. -/
abbrev oSet (L : grid0.Coords) (k : Fin k0_t2_loop.trips) (r : Fin 5) : Finset S204800x128.Idx :=
  (Rect.unit (s := S204800x128) (k0_off4 L k (BitVec.ofNat 32 r.val)) S128x128.size (k0_off4_inb L k r)).set

theorem set_oBlk (L : grid0.Coords) (k : Fin k0_t2_loop.trips) (r : Fin 5) : (oBlk L k r).view.set = oSet L k r :=
  View.set_slice_whole (main_v18_scv : Ref sig .scVector) _

/-- An element lies in block `r` of trip `k` when its row is one of the 128 from `6400·w + 640·k + 128·r` on. -/
theorem mem_oSet (L : grid0.Coords) (k : Fin k0_t2_loop.trips) (r : Fin 5) (x : S204800x128.Idx) :
    x ∈ oSet L k r ↔ 12800 * (L 1).val + 6400 * (L 0).val + 640 * k.val + 128 * r.val ≤ (x 0).val
      ∧ (x 0).val < 12800 * (L 1).val + 6400 * (L 0).val + 640 * k.val + 128 * r.val + 128 := by
  have ho0 : k0_off4 L k (BitVec.ofNat 32 r.val) 0 = 12800 * (L 1).val + 6400 * (L 0).val + 640 * k.val + 128 * r.val := by
    rw [k0_off4_eq L k r]; rfl
  have ho1 : k0_off4 L k (BitVec.ofNat 32 r.val) 1 = 0 := by
    rw [k0_off4_eq L k r]; rfl
  have h1 : (x 1).val < 128 := (x 1).isLt
  rw [Rect.mem_set_unit]
  constructor
  · intro h
    have h0 := h 0
    rw [ho0] at h0
    exact h0
  · intro h a
    match a with
    | ⟨0, _⟩ =>
      show k0_off4 L k (BitVec.ofNat 32 r.val) 0 ≤ (x 0).val ∧ (x 0).val < k0_off4 L k (BitVec.ofNat 32 r.val) 0 + 128
      rw [ho0]; exact h
    | ⟨1, _⟩ =>
      show k0_off4 L k (BitVec.ofNat 32 r.val) 1 ≤ (x 1).val ∧ (x 1).val < k0_off4 L k (BitVec.ofNat 32 r.val) 1 + 128
      rw [ho1]; exact ⟨Nat.zero_le _, by omega⟩

/-- An element lies in the subcore's rows when its row is one of the 6400 from `6400·w` on. -/
theorem mem_outSet_wid (L : grid0.Coords) (x : S204800x128.Idx) :
    x ∈ outSet (wid (L 0) (L 1)) ↔ 12800 * (L 1).val + 6400 * (L 0).val ≤ (x 0).val
      ∧ (x 0).val < 12800 * (L 1).val + 6400 * (L 0).val + 6400 := by
  have h1 : (x 1).val < 128 := (x 1).isLt
  rw [Rect.mem_set_unit]
  constructor
  · intro h
    have h0 := h 0
    simp [Shape.partIx, Shape.partSize, wid] at h0
    omega
  · intro h a
    match a with
    | ⟨0, _⟩ => simp [Shape.partIx, Shape.partSize, wid]; omega
    | ⟨1, _⟩ => simp [Shape.partIx, Shape.partSize]; omega

/-- The blocks of one trip are pairwise disjoint, -/
theorem oSet_disjoint_r (L : grid0.Coords) (k : Fin k0_t2_loop.trips) {r r' : Fin 5} (h : r ≠ r') :
    Disjoint (oSet L k r) (oSet L k r') :=
  Finset.disjoint_left.mpr fun x h1 h2 => by
    rw [mem_oSet] at h1 h2
    have hne : r.val ≠ r'.val := fun e => h (Fin.ext e)
    omega

/-- the rows of different trips are disjoint, -/
theorem oSet_disjoint_k (L : grid0.Coords) {k k' : Fin k0_t2_loop.trips} (h : k ≠ k') :
    Disjoint ((Finset.univ : Finset (Fin 5)).biUnion fun r => oSet L k r) ((Finset.univ : Finset (Fin 5)).biUnion fun r => oSet L k' r) :=
  Finset.disjoint_left.mpr fun x h1 h2 => by
    obtain ⟨r, -, h1⟩ := Finset.mem_biUnion.mp h1
    obtain ⟨r', -, h2⟩ := Finset.mem_biUnion.mp h2
    rw [mem_oSet] at h1 h2
    have hne : k.val ≠ k'.val := fun e => h (Fin.ext e)
    have hr := r.isLt
    have hr' := r'.isLt
    omega

/-- and all fifty together are the subcore's rows. -/
theorem oSets_cover (L : grid0.Coords) :
    ((Finset.univ : Finset (Fin k0_t2_loop.trips)).biUnion fun k => (Finset.univ : Finset (Fin 5)).biUnion fun r => oSet L k r)
      = outSet (wid (L 0) (L 1)) := by
  ext x
  rw [mem_outSet_wid]
  constructor
  · intro hx
    obtain ⟨k, -, hx⟩ := Finset.mem_biUnion.mp hx
    obtain ⟨r, -, hx⟩ := Finset.mem_biUnion.mp hx
    rw [mem_oSet] at hx
    have hk : k.val < 10 := Nat.lt_of_lt_of_eq k.isLt k0_t2_trips
    have hr := r.isLt
    omega
  · intro hx
    refine Finset.mem_biUnion.mpr ⟨⟨((x 0).val - (12800 * (L 1).val + 6400 * (L 0).val)) / 640, by rw [k0_t2_trips]; omega⟩, Finset.mem_univ _,
      Finset.mem_biUnion.mpr ⟨⟨(((x 0).val - (12800 * (L 1).val + 6400 * (L 0).val)) % 640) / 128, by omega⟩, Finset.mem_univ _, ?_⟩⟩
    rw [mem_oSet]
    show 12800 * (L 1).val + 6400 * (L 0).val + 640 * (((x 0).val - (12800 * (L 1).val + 6400 * (L 0).val)) / 640)
        + 128 * ((((x 0).val - (12800 * (L 1).val + 6400 * (L 0).val)) % 640) / 128) ≤ (x 0).val
      ∧ (x 0).val < 12800 * (L 1).val + 6400 * (L 0).val + 640 * (((x 0).val - (12800 * (L 1).val + 6400 * (L 0).val)) / 640)
        + 128 * ((((x 0).val - (12800 * (L 1).val + 6400 * (L 0).val)) % 640) / 128) + 128
    omega

/-- The subcore's rows of the output, held as its fifty blocks. -/
theorem oBlk_partition (L : grid0.Coords) (d : Dev nD) (f : Buf (Elt F) (outLoc d)) (q : PosShare TreeShare) :
    (outLoc d ↦[outSet (wid (L 0) (L 1))]{q} f : sProp 𝕄)
      = bigSep Finset.univ fun k : Fin k0_t2_loop.trips => bigSep Finset.univ fun r : Fin 5 => outLoc d ↦[(oBlk L k r).view.set]{q} f := by
  have hin : ∀ k : Fin k0_t2_loop.trips,
      (bigSep Finset.univ fun r : Fin 5 => (outLoc d ↦[(oBlk L k r).view.set]{q} f : sProp 𝕄))
        = (outLoc d ↦[(Finset.univ : Finset (Fin 5)).biUnion fun r => oSet L k r]{q} f : sProp 𝕄) := fun k => by
    rw [pointsTo_biUnion Finset.univ (ℓ := outLoc d) (fun r => oSet L k r) (fun r _ r' _ h => oSet_disjoint_r L k h)]
    exact bigSep_congr fun r _ => by rw [set_oBlk]
  rw [bigSep_congr (fun k _ => hin k),
    ← pointsTo_biUnion Finset.univ (ℓ := outLoc d) (fun k => (Finset.univ : Finset (Fin 5)).biUnion fun r => oSet L k r)
      (fun k _ k' _ h => oSet_disjoint_k L h),
    oSets_cover]

end Cert.Proof.KB

end
-- ==== Proof.KBTile.lean ====
/-
  One vector subcore's task of the embedding lookup: the proof of its body.
-/
import proofs.«213838_g73864847557071_cont_9to1_m_429_11_alg».proof.Proof.KBSetup
import proofs.«213838_g73864847557071_cont_9to1_m_429_11_alg».proof.Proof.KBTileVals
import proofs.«213838_g73864847557071_cont_9to1_m_429_11_alg».proof.Proof.KBTileDefs
import proofs.«213838_g73864847557071_cont_9to1_m_429_11_alg».proof.Proof.KBTileIdx
import proofs.«213838_g73864847557071_cont_9to1_m_429_11_alg».proof.Proof.KBTileOut

set_option pp.maxSteps 20000
set_option pp.deepTerms false

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A subcore's own semaphores and buffers, one by one -/

/-- The thirteen DMA semaphores of a vector subcore's task: the five gathers', the five write-backs', the three fetches'. -/
def semOf : Fin 13 → DmaSem sig
  | 0 => cc0_scratch9.sem
  | 1 => cc0_scratch10.sem
  | 2 => cc0_scratch11.sem
  | 3 => cc0_scratch12.sem
  | 4 => cc0_scratch13.sem
  | 5 => cc0_scratch14.sem
  | 6 => cc0_scratch15.sem
  | 7 => cc0_scratch16.sem
  | 8 => cc0_scratch17.sem
  | 9 => cc0_scratch18.sem
  | 10 => cc0_scoped0.sem
  | 11 => cc0_scoped1.sem
  | 12 => cc0_scoped2.sem
theorem semOf_0 : semOf 0 = cc0_scratch9.sem := rfl
theorem semOf_1 : semOf 1 = cc0_scratch10.sem := rfl
theorem semOf_2 : semOf 2 = cc0_scratch11.sem := rfl
theorem semOf_3 : semOf 3 = cc0_scratch12.sem := rfl
theorem semOf_4 : semOf 4 = cc0_scratch13.sem := rfl
theorem semOf_5 : semOf 5 = cc0_scratch14.sem := rfl
theorem semOf_6 : semOf 6 = cc0_scratch15.sem := rfl
theorem semOf_7 : semOf 7 = cc0_scratch16.sem := rfl
theorem semOf_8 : semOf 8 = cc0_scratch17.sem := rfl
theorem semOf_9 : semOf 9 = cc0_scratch18.sem := rfl
theorem semOf_10 : semOf 10 = cc0_scoped0.sem := rfl
theorem semOf_11 : semOf 11 = cc0_scoped1.sem := rfl
theorem semOf_12 : semOf 12 = cc0_scoped2.sem := rfl
theorem semOf_inj : Function.Injective semOf := by decide
def cellK (thr : Thread nD τ) (k : Fin 13) : GSem nD τ sig := (thr, SemLoc.dma (semOf k))

theorem cellK_inj (thr : Thread nD τ) : Function.Injective (cellK thr) := by
  intro a b h
  have h2 := (Prod.mk.inj h).2
  have h3 : semOf a = semOf b := by injection h2
  exact semOf_inj h3

theorem cellK_mem (d : Dev nD) (c : Fin τ.nSC) (i : Fin τ.nSub) (k : Fin 13) : cellK (V d c i) k ∈ (ownCells (V d c i) : Finset (GSem nD τ sig)) :=
  mem_ownCells.mpr ⟨rfl, by
    show (SemLoc.dma (semOf k) : SemLoc sig).isScoped .scVector = true
    revert k; decide⟩

theorem ownSems0_V (d : Dev nD) (c : Fin τ.nSC) (i : Fin τ.nSub) :
    (ownSems0 (V d c i) : sProp 𝕄)
      = iprop((bigSep Finset.univ fun k : Fin 13 => semVal (cellK (V d c i) k) 0)
          ∗ bigSep (ownCells (V d c i) \ Finset.univ.image (cellK (V d c i))) fun g => semVal g 0) := by
  unfold SparseCore.Cfg.ownSems0
  rw [SparseCore.bigSep_sdiff_split' (t := Finset.univ.image (cellK (V d c i))) (by
      intro g hg; obtain ⟨k, -, rfl⟩ := Finset.mem_image.mp hg; exact cellK_mem d c i k),
    SparseCore.bigSep_image_of_injOn ((cellK_inj (V d c i)).injOn)]

/-- The nine scratch buffers of a task: the three fetched slices, the row numbers, the five row buffers. -/
def bufK : Fin 9 → Ref sig .scVector
  | 0 => cc0_scratch0 | 1 => cc0_scratch1 | 2 => cc0_scratch2 | 3 => cc0_scratch3 | 4 => cc0_scratch4
  | 5 => cc0_scratch5 | 6 => cc0_scratch6 | 7 => cc0_scratch7 | 8 => cc0_scratch8
theorem bufK_0 : bufK 0 = cc0_scratch0 := rfl
theorem bufK_1 : bufK 1 = cc0_scratch1 := rfl
theorem bufK_2 : bufK 2 = cc0_scratch2 := rfl
theorem bufK_3 : bufK 3 = cc0_scratch3 := rfl
theorem bufK_4 : bufK 4 = cc0_scratch4 := rfl
theorem bufK_5 : bufK 5 = cc0_scratch5 := rfl
theorem bufK_6 : bufK 6 = cc0_scratch6 := rfl
theorem bufK_7 : bufK 7 = cc0_scratch7 := rfl
theorem bufK_8 : bufK 8 = cc0_scratch8 := rfl
theorem bufK_inj : Function.Injective bufK := by decide

theorem ownBufs_V (d : Dev nD) (c : Fin τ.nSC) (i : Fin τ.nSub) :
    (ownBufs (V d c i) : sProp 𝕄)
      = iprop((bigSep Finset.univ fun k : Fin 9 => iprop(∃ f, (V d c i).loc (bufK k) ↦{fullShare} f))
          ∗ bigSep (ownRefs (τ := τ) (.scVector c i) \ Finset.univ.image (fun k => (Proc.scVector c i).devRef (bufK k)))
              fun b => iprop(∃ f, ((d, b) : Loc nD τ sig) ↦{fullShare} f)) := by
  unfold SparseCore.Cfg.ownBufs
  rw [SparseCore.bigSep_sdiff_split' (t := Finset.univ.image (fun k => (Proc.scVector c i).devRef (bufK k))) (by
      intro b hb; obtain ⟨k, -, rfl⟩ := Finset.mem_image.mp hb
      exact SparseCore.Cfg.mem_ownRefs_of_owner (by fin_cases k <;> rfl)),
    SparseCore.bigSep_image_of_injOn (Function.Injective.injOn fun a b h => bufK_inj (Proc.devRef_injective _ h))]

theorem bigSep_fin13 {M : Type} [URA M] (Φ : Fin 13 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [(0 : Fin 13), 1, 2, 3, 4, 5, 6, 7, 8, 9, 10, 11, 12] (by decide) (by decide) Φ
theorem bigSep_fin9 {M : Type} [URA M] (Φ : Fin 9 → sProp M) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

theorem ownBufs_V' (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f) ∗ (∃ f, (V d c i).loc cc0_scratch2 ↦{fullShare} f) ∗ (∃ f, (V d c i).loc cc0_scratch3 ↦{fullShare} f) ∗ (∃ f, (V d c i).loc cc0_scratch4 ↦{fullShare} f) ∗ (∃ f, (V d c i).loc cc0_scratch5 ↦{fullShare} f) ∗ (∃ f, (V d c i).loc cc0_scratch6 ↦{fullShare} f) ∗ (∃ f, (V d c i).loc cc0_scratch7 ↦{fullShare} f) ∗ (∃ f, (V d c i).loc cc0_scratch8 ↦{fullShare} f))
          ∗ bigSep (ownRefs (τ := τ) (.scVector c i) \ Finset.univ.image (fun k => (Proc.scVector c i).devRef (bufK k)))
              fun b => iprop(∃ f, ((d, b) : Loc nD τ sig) ↦{fullShare} f)) := by
  rw [ownBufs_V, bigSep_fin9]; rfl

theorem ownSems0_V' (d : Dev nD) (c : Fin τ.nSC) (i : Fin τ.nSub) :
    (ownSems0 (V d c i) : sProp 𝕄)
      = iprop((semVal ((V d c i, SemLoc.dma cc0_scratch9.sem) : GSem nD τ sig) 0 ∗ semVal ((V d c i, SemLoc.dma cc0_scratch10.sem) : GSem nD τ sig) 0 ∗ semVal ((V d c i, SemLoc.dma cc0_scratch11.sem) : GSem nD τ sig) 0 ∗ semVal ((V d c i, SemLoc.dma cc0_scratch12.sem) : GSem nD τ sig) 0 ∗ semVal ((V d c i, SemLoc.dma cc0_scratch13.sem) : GSem nD τ sig) 0 ∗ semVal ((V d c i, SemLoc.dma cc0_scratch14.sem) : GSem nD τ sig) 0 ∗ semVal ((V d c i, SemLoc.dma cc0_scratch15.sem) : GSem nD τ sig) 0 ∗ semVal ((V d c i, SemLoc.dma cc0_scratch16.sem) : GSem nD τ sig) 0 ∗ semVal ((V d c i, SemLoc.dma cc0_scratch17.sem) : GSem nD τ sig) 0 ∗ semVal ((V d c i, SemLoc.dma cc0_scratch18.sem) : GSem nD τ sig) 0 ∗ semVal ((V d c i, SemLoc.dma cc0_scoped0.sem) : GSem nD τ sig) 0 ∗ semVal ((V d c i, SemLoc.dma cc0_scoped1.sem) : GSem nD τ sig) 0 ∗ semVal ((V d c i, SemLoc.dma cc0_scoped2.sem) : GSem nD τ sig) 0)
          ∗ bigSep (ownCells (V d c i) \ Finset.univ.image (cellK (V d c i))) fun g => semVal g 0) := by
  rw [ownSems0_V, bigSep_fin13]; rfl

theorem bigSep_fin5 {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-! ## The task -/

section Tile

variable [FloatOps F] (A : (d : Dev nD) → CallArrs (F := F) d) (d : Dev nD) (L : grid0.Coords)

abbrev cV (L : grid0.Coords) : Fin τ.nSC := (L 0).castLE hcore0
abbrev jV (L : grid0.Coords) : Fin τ.nSub := (L 1).castLE hsub0
/-- The worker number of the subcore at grid point `L`. -/
def wL (L : grid0.Coords) : Fin 32 := wid (L 0) (L 1)

local notation "tblV" => (Memref.whole Cert.Kernel.main_v1_scv : Memref Cert.Kernel.sig Kind.scVector Space.hbm Cert.Kernel.S141088x128 EltTy.f32)
local notation "tidV" => (Memref.whole Cert.Kernel.main_v16_scv : Memref Cert.Kernel.sig Kind.scVector Space.hbm Cert.Kernel.S204800 EltTy.i32)
local notation "flgV" => (Memref.whole Cert.Kernel.main_v17_scv : Memref Cert.Kernel.sig Kind.scVector Space.hbm Cert.Kernel.S204800 EltTy.i32)
local notation "winV" => (Memref.whole Cert.Kernel.main_v15_scv : Memref Cert.Kernel.sig Kind.scVector Space.hbm Cert.Kernel.S204800 EltTy.i32)
local notation "outV" => (Memref.whole Cert.Kernel.main_v18_scv : Memref Cert.Kernel.sig Kind.scVector Space.hbm Cert.Kernel.S204800x128 EltTy.f32)
local notation "s0V" => (Memref.whole Cert.Kernel.cc0_scratch0 : Memref Cert.Kernel.sig Kind.scVector Space.vmem Cert.Kernel.S6400 EltTy.i32)
local notation "s1V" => (Memref.whole Cert.Kernel.cc0_scratch1 : Memref Cert.Kernel.sig Kind.scVector Space.vmem Cert.Kernel.S6400 EltTy.i32)
local notation "s2V" => (Memref.whole Cert.Kernel.cc0_scratch2 : Memref Cert.Kernel.sig Kind.scVector Space.vmem Cert.Kernel.S6400 EltTy.i32)
local notation "s3V" => (Memref.whole Cert.Kernel.cc0_scratch3 : Memref Cert.Kernel.sig Kind.scVector Space.vmem Cert.Kernel.S6400 EltTy.i32)
local notation "r0V" => (Memref.whole Cert.Kernel.cc0_scratch4 : Memref Cert.Kernel.sig Kind.scVector Space.vmem Cert.Kernel.S128x128 EltTy.f32)
local notation "r1V" => (Memref.whole Cert.Kernel.cc0_scratch5 : Memref Cert.Kernel.sig Kind.scVector Space.vmem Cert.Kernel.S128x128 EltTy.f32)
local notation "r2V" => (Memref.whole Cert.Kernel.cc0_scratch6 : Memref Cert.Kernel.sig Kind.scVector Space.vmem Cert.Kernel.S128x128 EltTy.f32)
local notation "r3V" => (Memref.whole Cert.Kernel.cc0_scratch7 : Memref Cert.Kernel.sig Kind.scVector Space.vmem Cert.Kernel.S128x128 EltTy.f32)
local notation "r4V" => (Memref.whole Cert.Kernel.cc0_scratch8 : Memref Cert.Kernel.sig Kind.scVector Space.vmem Cert.Kernel.S128x128 EltTy.f32)

omit [FloatOps F] in
theorem posK_eq (L : grid0.Coords) : posK L = posRect (wL L) := by
  unfold posK posRect Rect.part Rect.block
  congr 1 <;> funext a
  · rw [k0_off1_eq]
    match a with
    | 0 => simp [Shape.partIx, Shape.partSize, wL, wid]; omega
  · match a with
    | 0 => simp [Shape.partSize]

abbrev tidK (L : grid0.Coords) : Memref sig .scVector .hbm S6400 .i32 := (tidV).slice (posK L) (fun _ => rfl)
abbrev flgK (L : grid0.Coords) : Memref sig .scVector .hbm S6400 .i32 := (flgV).slice (posK L) (fun _ => rfl)
abbrev winK (L : grid0.Coords) : Memref sig .scVector .hbm S6400 .i32 := (winV).slice (posK L) (fun _ => rfl)

omit [FloatOps F] in
theorem set_tidK (L : grid0.Coords) : (tidK L).view.set = posSet (wL L) := by
  show ((View.whole (main_v16_scv : Ref sig .scVector)).slice (posK L)).set = _
  rw [View.set_slice, posK_eq]; exact Finset.map_refl
omit [FloatOps F] in
theorem set_flgK (L : grid0.Coords) : (flgK L).view.set = posSet (wL L) := by
  show ((View.whole (main_v17_scv : Ref sig .scVector)).slice (posK L)).set = _
  rw [View.set_slice, posK_eq]; exact Finset.map_refl
omit [FloatOps F] in
theorem set_winK (L : grid0.Coords) : (winK L).view.set = posSet (wL L) := by
  show ((View.whole (main_v15_scv : Ref sig .scVector)).slice (posK L)).set = _
  rw [View.set_slice, posK_eq]; exact Finset.map_refl

omit [FloatOps F] in
theorem pts_tidK (f : Buf (Elt F) (tidLoc d)) :
    ((tidK L).view.loc (V d (cV L) (jV L)) ↦[(tidK L).view.set]{fullShare} f : sProp 𝕄) = tidLoc d ↦[posSet (wL L)]{fullShare} f := by
  rw [set_tidK]
omit [FloatOps F] in
theorem pts_flgK (f : Buf (Elt F) (flgLoc d)) :
    ((flgK L).view.loc (V d (cV L) (jV L)) ↦[(flgK L).view.set]{fullShare} f : sProp 𝕄) = flgLoc d ↦[posSet (wL L)]{fullShare} f := by
  rw [set_flgK]
omit [FloatOps F] in
theorem pts_winK (f : Buf (Elt F) (winLoc d)) :
    ((winK L).view.loc (V d (cV L) (jV L)) ↦[(winK L).view.set]{fullShare} f : sProp 𝕄) = winLoc d ↦[posSet (wL L)]{fullShare} f := by
  rw [set_winK]
omit [FloatOps F] in
theorem pts_b0 (f : Buf (Elt F) ((V d (cV L) (jV L)).loc cc0_scratch0)) :
    ((s0V).view.loc (V d (cV L) (jV L)) ↦{fullShare} f : sProp 𝕄) = (V d (cV L) (jV L)).loc cc0_scratch0 ↦{fullShare} f := rfl
omit [FloatOps F] in
theorem pts_b1 (f : Buf (Elt F) ((V d (cV L) (jV L)).loc cc0_scratch1)) :
    ((s1V).view.loc (V d (cV L) (jV L)) ↦{fullShare} f : sProp 𝕄) = (V d (cV L) (jV L)).loc cc0_scratch1 ↦{fullShare} f := rfl
omit [FloatOps F] in
theorem pts_b2 (f : Buf (Elt F) ((V d (cV L) (jV L)).loc cc0_scratch2)) :
    ((s2V).view.loc (V d (cV L) (jV L)) ↦{fullShare} f : sProp 𝕄) = (V d (cV L) (jV L)).loc cc0_scratch2 ↦{fullShare} f := rfl
omit [FloatOps F] in
theorem pts_b3 (f : Buf (Elt F) ((V d (cV L) (jV L)).loc cc0_scratch3)) :
    ((s3V).view.loc (V d (cV L) (jV L)) ↦{fullShare} f : sProp 𝕄) = (V d (cV L) (jV L)).loc cc0_scratch3 ↦{fullShare} f := rfl
omit [FloatOps F] in
theorem pts_b4 (f : Buf (Elt F) ((V d (cV L) (jV L)).loc cc0_scratch4)) :
    ((r0V).view.loc (V d (cV L) (jV L)) ↦{fullShare} f : sProp 𝕄) = (V d (cV L) (jV L)).loc cc0_scratch4 ↦{fullShare} f := rfl
omit [FloatOps F] in
theorem pts_b5 (f : Buf (Elt F) ((V d (cV L) (jV L)).loc cc0_scratch5)) :
    ((r1V).view.loc (V d (cV L) (jV L)) ↦{fullShare} f : sProp 𝕄) = (V d (cV L) (jV L)).loc cc0_scratch5 ↦{fullShare} f := rfl
omit [FloatOps F] in
theorem pts_b6 (f : Buf (Elt F) ((V d (cV L) (jV L)).loc cc0_scratch6)) :
    ((r2V).view.loc (V d (cV L) (jV L)) ↦{fullShare} f : sProp 𝕄) = (V d (cV L) (jV L)).loc cc0_scratch6 ↦{fullShare} f := rfl
omit [FloatOps F] in
theorem pts_b7 (f : Buf (Elt F) ((V d (cV L) (jV L)).loc cc0_scratch7)) :
    ((r3V).view.loc (V d (cV L) (jV L)) ↦{fullShare} f : sProp 𝕄) = (V d (cV L) (jV L)).loc cc0_scratch7 ↦{fullShare} f := rfl
omit [FloatOps F] in
theorem pts_b8 (f : Buf (Elt F) ((V d (cV L) (jV L)).loc cc0_scratch8)) :
    ((r4V).view.loc (V d (cV L) (jV L)) ↦{fullShare} f : sProp 𝕄) = (V d (cV L) (jV L)).loc cc0_scratch8 ↦{fullShare} f := rfl

theorem idxLoc_zero (g7 g8 g9 g10 : S6400.Idx → BitVec 32) : idxLoc g7 g8 g9 g10 0 = g10 := by
  funext x; simp [idxLoc]

/-- The first loop's invariant: the three fetched slices, and the row numbers computed so far. -/
def inv1 (g7 : Buf (Elt F) ((V d (cV L) (jV L)).loc cc0_scratch0)) (g8 : Buf (Elt F) ((V d (cV L) (jV L)).loc cc0_scratch1))
    (g9 : Buf (Elt F) ((V d (cV L) (jV L)).loc cc0_scratch2)) (g10 : Buf (Elt F) ((V d (cV L) (jV L)).loc cc0_scratch3)) (k : Nat) (_ : PUnit) : sProp 𝕄 :=
  iprop(((s0V).view.loc (V d (cV L) (jV L)) ↦{fullShare} g7) ∗ ((s1V).view.loc (V d (cV L) (jV L)) ↦{fullShare} g8)
    ∗ ((s2V).view.loc (V d (cV L) (jV L)) ↦{fullShare} g9)
    ∗ ((s3V).view.loc (V d (cV L) (jV L)) ↦{fullShare} (idxLoc g7 g8 g9 g10 k : Buf (Elt F) ((V d (cV L) (jV L)).loc cc0_scratch3))))

/-- One slot of the ring while its gather is in flight: the flight (delivering the row buffer written with the chunk's
    rows, the chunk of the row numbers and the table's elements back), and what is left of the three buffers beside it. -/
def slotA (rV : Memref sig .scVector .vmem S128x128 .f32) (sm : DmaSem sig) (n : Fin 5)
    (tbl : Buf (Elt F) (tblLoc d)) (idxF : S6400.Idx → BitVec 32)
    (hinS : InRange (F := F) idxF)
    (off : Fin 1 → Nat) (h : ∀ a, off a + S128.size a ≤ S6400.size a) : sProp 𝕄 :=
  iprop(∃ fb : Buf (Elt F) (rV.view.loc (V d (cV L) (jV L))),
    Transfers.Flight countersEmb (V d (cV L) (jV L)) (SemLoc.dma sm) (default : HIx 1) 524288
      iprop(((rV.view.loc (V d (cV L) (jV L)) ↦[rV.view.set]{fullShare} rV.view.writes (Elt F) fb [⟨Rect.whole _, gath (F := F) tbl idxF hinS off h⟩])
          ∗ ((s3V).view.loc (V d (cV L) (jV L)) ↦[(idxSl off h).view.set]{pieceOf fullShare 5 (by decide) n} idxF))
        ∗ ((tblV).view.loc (V d (cV L) (jV L)) ↦[(tblAll).view.set]{Transfers.shareTok (tq (wL L)) 5 n} tbl))
    ∗ ((tblV).view.loc (V d (cV L) (jV L)) ↦[Finset.univ \ (tblAll).view.set]{Transfers.shareTok (tq (wL L)) 5 n} tbl)
    ∗ (rV.view.loc (V d (cV L) (jV L)) ↦[Finset.univ \ rV.view.set]{fullShare} rV.view.writes (Elt F) fb [⟨Rect.whole _, gath (F := F) tbl idxF hinS off h⟩])
    ∗ ((s3V).view.loc (V d (cV L) (jV L)) ↦[Finset.univ \ (idxSl off h).view.set]{pieceOf fullShare 5 (by decide) n} idxF))

theorem trips2 : k0_t2_loop.trips = 10 := by decide

/-- The output's blocks of the trips in `S`: those before trip `n` hold the gathered rows, the others what they held. -/
def outBlocks (S : Finset (Fin k0_t2_loop.trips)) (n : Nat) : sProp 𝕄 :=
  bigSep S fun k' => bigSep Finset.univ fun r : Fin 5 =>
    outLoc d ↦[(oBlk L k' r).view.set]{fullShare} (if k'.val < n then outOf A d else (A d).out0)

theorem outBlocks_take (k : Fin k0_t2_loop.trips) (n : Nat) :
    outBlocks A d L Finset.univ n
      = iprop(((outLoc d ↦[(oBlk L k 0).view.set]{fullShare} (if k.val < n then outOf A d else (A d).out0))
          ∗ (outLoc d ↦[(oBlk L k 1).view.set]{fullShare} (if k.val < n then outOf A d else (A d).out0))
          ∗ (outLoc d ↦[(oBlk L k 2).view.set]{fullShare} (if k.val < n then outOf A d else (A d).out0))
          ∗ (outLoc d ↦[(oBlk L k 3).view.set]{fullShare} (if k.val < n then outOf A d else (A d).out0))
          ∗ (outLoc d ↦[(oBlk L k 4).view.set]{fullShare} (if k.val < n then outOf A d else (A d).out0)))
        ∗ outBlocks A d L (Finset.univ.erase k) n) := by
  unfold outBlocks
  rw [SparseCore.bigSep_erase' (Finset.mem_univ k), bigSep_fin5]

theorem outBlocks_erase_succ (k : Fin k0_t2_loop.trips) :
    outBlocks A d L (Finset.univ.erase k) k.val = outBlocks A d L (Finset.univ.erase k) (k.val + 1) := by
  unfold outBlocks
  refine bigSep_congr fun k' hk' => ?_
  have hne : k' ≠ k := Finset.ne_of_mem_erase hk'
  have hv : k'.val ≠ k.val := fun h => hne (Fin.ext h)
  have h1 : (k'.val < k.val) ↔ (k'.val < k.val + 1) := by omega
  simp only [h1]

theorem outBlocks_take_self (k : Fin k0_t2_loop.trips) :
    outBlocks A d L Finset.univ k.val
      = iprop(((outLoc d ↦[(oBlk L k 0).view.set]{fullShare} (A d).out0)
          ∗ (outLoc d ↦[(oBlk L k 1).view.set]{fullShare} (A d).out0)
          ∗ (outLoc d ↦[(oBlk L k 2).view.set]{fullShare} (A d).out0)
          ∗ (outLoc d ↦[(oBlk L k 3).view.set]{fullShare} (A d).out0)
          ∗ (outLoc d ↦[(oBlk L k 4).view.set]{fullShare} (A d).out0))
        ∗ outBlocks A d L (Finset.univ.erase k) k.val) := by
  rw [outBlocks_take A d L k k.val, if_neg (lt_irrefl _)]

theorem outBlocks_put (k : Fin k0_t2_loop.trips) :
    iprop(((outLoc d ↦[(oBlk L k 0).view.set]{fullShare} outOf A d)
          ∗ (outLoc d ↦[(oBlk L k 1).view.set]{fullShare} outOf A d)
          ∗ (outLoc d ↦[(oBlk L k 2).view.set]{fullShare} outOf A d)
          ∗ (outLoc d ↦[(oBlk L k 3).view.set]{fullShare} outOf A d)
          ∗ (outLoc d ↦[(oBlk L k 4).view.set]{fullShare} outOf A d))
        ∗ outBlocks A d L (Finset.univ.erase k) k.val) ⊢ outBlocks A d L Finset.univ (k.val + 1) := by
  rw [outBlocks_take A d L k (k.val + 1), if_pos (Nat.lt_succ_self _), outBlocks_erase_succ]

theorem outBlocks_init : (outLoc d ↦[outSet (wL L)]{fullShare} (A d).out0 : sProp 𝕄) ⊢ outBlocks A d L Finset.univ 0 := by
  unfold outBlocks
  rw [show wL L = wid (L 0) (L 1) from rfl, oBlk_partition (F := F) L d _ _]
  refine Entails.of_eq (bigSep_congr fun k' _ => bigSep_congr fun r _ => ?_)
  rw [if_neg (Nat.not_lt_zero _)]

theorem outBlocks_final : outBlocks A d L Finset.univ 10 ⊢ (outLoc d ↦[outSet (wL L)]{fullShare} outOf A d : sProp 𝕄) := by
  unfold outBlocks
  rw [show wL L = wid (L 0) (L 1) from rfl, oBlk_partition (F := F) L d _ _]
  refine Entails.of_eq (bigSep_congr fun k' _ => bigSep_congr fun r _ => ?_)
  rw [if_pos (show k'.val < 10 from trips2 ▸ k'.isLt)]

attribute [irreducible] outBlocks

omit [FloatOps F] in
theorem pts_oBlk (k : Fin k0_t2_loop.trips) (r : Fin 5) (f : Buf (Elt F) (outLoc d)) :
    ((oBlk L k r).view.loc (V d (cV L) (jV L)) ↦[(oBlk L k r).view.set]{fullShare} f : sProp 𝕄) = outLoc d ↦[(oBlk L k r).view.set]{fullShare} f := rfl

/-- The second loop's invariant before trip `k`: the five gathers of chunks `5k … 5k+4` in flight, the five write-back
    semaphores idle, the blocks of the earlier trips written. -/
def invA (idxF : S6400.Idx → BitVec 32)
    (hinS : InRange (F := F) idxF)
    (O : CellTallies nD τ sig (HIx 1)) (W : Waits sig (HIx 1)) (k : Fin 10) : sProp 𝕄 :=
  iprop(Transfers.MayWaits (V d (cV L) (jV L)) (default : HIx 1) O
    ∗ slotA (F := F) d L r0V cc0_scratch9.sem 0 (A d).tbl idxF hinS _ (offA_inb k 0)
    ∗ slotA (F := F) d L r1V cc0_scratch10.sem 1 (A d).tbl idxF hinS _ (offA_inb k 1)
    ∗ slotA (F := F) d L r2V cc0_scratch11.sem 2 (A d).tbl idxF hinS _ (offA_inb k 2)
    ∗ slotA (F := F) d L r3V cc0_scratch12.sem 3 (A d).tbl idxF hinS _ (offA_inb k 3)
    ∗ slotA (F := F) d L r4V cc0_scratch13.sem 4 (A d).tbl idxF hinS _ (offA_inb k 4)
    ∗ semVal ((V d (cV L) (jV L), SemLoc.dma cc0_scratch14.sem) : GSem nD τ sig) 0
    ∗ semVal ((V d (cV L) (jV L), SemLoc.dma cc0_scratch15.sem) : GSem nD τ sig) 0
    ∗ semVal ((V d (cV L) (jV L), SemLoc.dma cc0_scratch16.sem) : GSem nD τ sig) 0
    ∗ semVal ((V d (cV L) (jV L), SemLoc.dma cc0_scratch17.sem) : GSem nD τ sig) 0
    ∗ semVal ((V d (cV L) (jV L), SemLoc.dma cc0_scratch18.sem) : GSem nD τ sig) 0
    ∗ outBlocks A d L Finset.univ k.val
    ∗ ∃ W', ⌜∀ p ∈ W', p ∈ W ∨ p.2 = none⌝ ∗ owes (V d (cV L) (jV L)) O W')

/-- One slot of the ring after the last trip: the table's token, the gather semaphore and the row numbers' piece back,
    the slot's last write-back in flight (delivering its block of the output written with the row buffer's rows). -/
def slotB (rV : Memref sig .scVector .vmem S128x128 .f32) (smg smw : DmaSem sig) (n : Fin 5)
    (tbl : Buf (Elt F) (tblLoc d)) (out0 : Buf (Elt F) (outLoc d)) (idxF : S6400.Idx → BitVec 32) (hinS : InRange (F := F) idxF)
    (k : Fin k0_t2_loop.trips) (off : Fin 1 → Nat) (h : ∀ a, off a + S128.size a ≤ S6400.size a) : sProp 𝕄 :=
  iprop(((tblV).view.loc (V d (cV L) (jV L)) ↦{Transfers.shareTok (tq (wL L)) 5 n} tbl)
    ∗ semVal ((V d (cV L) (jV L), SemLoc.dma smg) : GSem nD τ sig) 0
    ∗ ((s3V).view.loc (V d (cV L) (jV L)) ↦{pieceOf fullShare 5 (by decide) n} idxF)
    ∗ ∃ (fb : Buf (Elt F) (rV.view.loc (V d (cV L) (jV L)))),
        Transfers.Flight countersEmb (V d (cV L) (jV L)) (SemLoc.dma smw) (default : HIx 1) 524288
            iprop(((oBlk L k n).view.loc (V d (cV L) (jV L)) ↦[(oBlk L k n).view.set]{fullShare} (oBlk L k n).view.writes (Elt F) out0
                [⟨Rect.whole S128x128, ReadAs.same.apply (View.read (Elt F) rV.view (rV.view.writes (Elt F) fb [⟨Rect.whole _, gath (F := F) tbl idxF hinS off h⟩]))⟩])
              ∗ (rV.view.loc (V d (cV L) (jV L)) ↦[rV.view.set]{fullShare} rV.view.writes (Elt F) fb [⟨Rect.whole _, gath (F := F) tbl idxF hinS off h⟩]))
        ∗ (rV.view.loc (V d (cV L) (jV L)) ↦[Finset.univ \ rV.view.set]{fullShare} rV.view.writes (Elt F) fb [⟨Rect.whole _, gath (F := F) tbl idxF hinS off h⟩]))

/-- The last trip. -/
def k9 : Fin k0_t2_loop.trips := ⟨9, by rw [trips2]; decide⟩

/-- The second loop's invariant after its last trip. -/
def invB (idxF : S6400.Idx → BitVec 32) (hinS : InRange (F := F) idxF)
    (O : CellTallies nD τ sig (HIx 1)) (W : Waits sig (HIx 1)) : sProp 𝕄 :=
  iprop(Transfers.MayWaits (V d (cV L) (jV L)) (default : HIx 1) O
    ∗ slotB (F := F) d L r0V cc0_scratch9.sem cc0_scratch14.sem 0 (A d).tbl (A d).out0 idxF hinS k9 _ (offA_inb ⟨k9.val, by decide⟩ 0)
    ∗ slotB (F := F) d L r1V cc0_scratch10.sem cc0_scratch15.sem 1 (A d).tbl (A d).out0 idxF hinS k9 _ (offA_inb ⟨k9.val, by decide⟩ 1)
    ∗ slotB (F := F) d L r2V cc0_scratch11.sem cc0_scratch16.sem 2 (A d).tbl (A d).out0 idxF hinS k9 _ (offA_inb ⟨k9.val, by decide⟩ 2)
    ∗ slotB (F := F) d L r3V cc0_scratch12.sem cc0_scratch17.sem 3 (A d).tbl (A d).out0 idxF hinS k9 _ (offA_inb ⟨k9.val, by decide⟩ 3)
    ∗ slotB (F := F) d L r4V cc0_scratch13.sem cc0_scratch18.sem 4 (A d).tbl (A d).out0 idxF hinS k9 _ (offA_inb ⟨k9.val, by decide⟩ 4)
    ∗ outBlocks A d L (Finset.univ.erase k9) 9
    ∗ ∃ W', ⌜∀ p ∈ W', p ∈ W ∨ p.2 = none⌝ ∗ owes (V d (cV L) (jV L)) O W')

def inv2 (idxF : S6400.Idx → BitVec 32)
    (hinS : InRange (F := F) idxF)
    (O : CellTallies nD τ sig (HIx 1)) (W : Waits sig (HIx 1)) (k : Nat) (_ : PUnit) : sProp 𝕄 :=
  if h : k < 10 then invA A d L idxF hinS O W ⟨k, h⟩ else invB A d L idxF hinS O W

/-- The invariant before a trip from its slots at offsets given by the program's own words. -/
theorem invA_intro (idxF : S6400.Idx → BitVec 32) (hinS : InRange (F := F) idxF)
    (O : CellTallies nD τ sig (HIx 1)) (W : Waits sig (HIx 1)) (k : Fin 10)
    (o0 o1 o2 o3 o4 : Fin 1 → Nat) (h0 : ∀ a, o0 a + S128.size a ≤ S6400.size a) (h1 : ∀ a, o1 a + S128.size a ≤ S6400.size a)
    (h2 : ∀ a, o2 a + S128.size a ≤ S6400.size a) (h3 : ∀ a, o3 a + S128.size a ≤ S6400.size a) (h4 : ∀ a, o4 a + S128.size a ≤ S6400.size a)
    (e0 : o0 = ![640 * k.val + 128 * (0 : Fin 5).val]) (e1 : o1 = ![640 * k.val + 128 * (1 : Fin 5).val]) (e2 : o2 = ![640 * k.val + 128 * (2 : Fin 5).val])
    (e3 : o3 = ![640 * k.val + 128 * (3 : Fin 5).val]) (e4 : o4 = ![640 * k.val + 128 * (4 : Fin 5).val]) :
    iprop(Transfers.MayWaits (V d (cV L) (jV L)) (default : HIx 1) O
      ∗ slotA (F := F) d L r0V cc0_scratch9.sem 0 (A d).tbl idxF hinS o0 h0
      ∗ slotA (F := F) d L r1V cc0_scratch10.sem 1 (A d).tbl idxF hinS o1 h1
      ∗ slotA (F := F) d L r2V cc0_scratch11.sem 2 (A d).tbl idxF hinS o2 h2
      ∗ slotA (F := F) d L r3V cc0_scratch12.sem 3 (A d).tbl idxF hinS o3 h3
      ∗ slotA (F := F) d L r4V cc0_scratch13.sem 4 (A d).tbl idxF hinS o4 h4
      ∗ semVal ((V d (cV L) (jV L), SemLoc.dma cc0_scratch14.sem) : GSem nD τ sig) 0
      ∗ semVal ((V d (cV L) (jV L), SemLoc.dma cc0_scratch15.sem) : GSem nD τ sig) 0
      ∗ semVal ((V d (cV L) (jV L), SemLoc.dma cc0_scratch16.sem) : GSem nD τ sig) 0
      ∗ semVal ((V d (cV L) (jV L), SemLoc.dma cc0_scratch17.sem) : GSem nD τ sig) 0
      ∗ semVal ((V d (cV L) (jV L), SemLoc.dma cc0_scratch18.sem) : GSem nD τ sig) 0
      ∗ outBlocks A d L Finset.univ k.val
      ∗ ∃ W', ⌜∀ p ∈ W', p ∈ W ∨ p.2 = none⌝ ∗ owes (V d (cV L) (jV L)) O W')
    ⊢ invA A d L idxF hinS O W k := by
  subst e0 e1 e2 e3 e4
  unfold invA
  exact BI.Entails.refl _

/-- A written block holds the output's rows. -/
theorem blk_done (hidx : IdxOK A) (idxF : S6400.Idx → BitVec 32) (hIdxF : idxF = fun x => idxOf A d ((posK L).emb x))
    (hinS : InRange (F := F) idxF) (k : Fin k0_t2_loop.trips) (r : Fin 5) (hk : k.val < 10)
    (rV : Memref sig .scVector .vmem S128x128 .f32) (fb : Buf (Elt F) (rV.view.loc (V d (cV L) (jV L))))
    (hW : ∀ (fb : Buf (Elt F) (rV.view.loc (V d (cV L) (jV L)))) (g : S128x128.Idx → Elt F .f32),
      ReadAs.same.apply (View.read (Elt F) rV.view (rV.view.writes (Elt F) fb [⟨Rect.whole _, g⟩])) = g) :
    ((oBlk L k r).view.loc (V d (cV L) (jV L)) ↦[(oBlk L k r).view.set]{fullShare} (oBlk L k r).view.writes (Elt F) (A d).out0
        [⟨Rect.whole S128x128, ReadAs.same.apply (View.read (Elt F) rV.view (rV.view.writes (Elt F) fb
          [⟨Rect.whole _, gath (F := F) (A d).tbl idxF hinS ![640 * k.val + 128 * r.val] (offA_inb ⟨k.val, hk⟩ r)⟩]))⟩] : sProp 𝕄)
      = outLoc d ↦[(oBlk L k r).view.set]{fullShare} outOf A d := by
  rw [hW]
  refine pointsTo_congr ?_
  have hv := oBlk_value (F := F) L k r (A d).tbl (idxOf A d) idxF hIdxF hinS (hidx d) (A d).out0
  intro x hx
  exact hv x hx

set_option maxHeartbeats 4000000 in
theorem tile_body (hF : (K (F := F)).Facts) (hidx : IdxOK A) (O : CellTallies nD τ sig (HIx 1)) (W : Waits sig (HIx 1)) (hO : ∀ g, O g none = 0) :
    iprop(levAts (K (F := F)).L (K (F := F)).lev ∗ emp ∗ goRes A d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tblV (Memref.isWhole_whole _) tidV (Memref.isWhole_whole _) flgV (Memref.isWhole_whole _) winV (Memref.isWhole_whole _)
            outV (Memref.isWhole_whole _) s0V (Memref.isWhole_whole _) s1V (Memref.isWhole_whole _) s2V (Memref.isWhole_whole _)
            s3V (Memref.isWhole_whole _) r0V (Memref.isWhole_whole _) r1V (Memref.isWhole_whole _) r2V (Memref.isWhole_whole _)
            r3V (Memref.isWhole_whole _) r4V (Memref.isWhole_whole _)
            cc0_scratch9 cc0_scratch10 cc0_scratch11 cc0_scratch12 cc0_scratch13 cc0_scratch14 cc0_scratch15 cc0_scratch16 cc0_scratch17 cc0_scratch18
            cc0_scoped0 cc0_scoped1 cc0_scoped2)
          fun _ => iprop(tdRes A d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part3_eq_skeleton]; unfold k0_part3_skel
  simp only [bind_assoc, pure_bind]
  rw [(K (F := F)).scopedBufs_V hF d (cV L) (jV L), SparseCore.Cfg.scopedSems0_V (Val := Elt F) d (cV L) (jV L), ownSems0_V', ownBufs_V']
  unfold goRes
  iintro ⟨#Hlv, -, ⟨Htbl, Htid, Hflg, Hwin, Hout⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩⟩, Hbufs⟩, ⟨⟨Hg0, Hg1, Hg2, Hg3, Hg4, Hw0, Hw1, Hw2, Hw3, Hw4, Hc0, Hc1, Hc2⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Htid' := (Entails.of_eq (pts_tidK (F := F) d L _).symm) $$ Htid
  ihave Hflg' := (Entails.of_eq (pts_flgK (F := F) d L _).symm) $$ Hflg
  ihave Hwin' := (Entails.of_eq (pts_winK (F := F) d L _).symm) $$ Hwin
  ihave Hb0' := (Entails.of_eq (pts_b0 (F := F) d L _).symm) $$ Hb0
  ihave Hb1' := (Entails.of_eq (pts_b1 (F := F) d L _).symm) $$ Hb1
  ihave Hb2' := (Entails.of_eq (pts_b2 (F := F) d L _).symm) $$ Hb2
  ihave Hb3' := (Entails.of_eq (pts_b3 (F := F) d L _).symm) $$ Hb3
  sl_exec
  generalize hg7 : View.write (Elt F) (s0V).view f0 (tile_body.sl.dma0 A d L) Finset.univ = g7
  generalize hg8 : View.write (Elt F) (s1V).view f1 (tile_body.sl.dma0_1 A d L) Finset.univ = g8
  generalize hg9 : View.write (Elt F) (s2V).view f2 (tile_body.sl.dma0_2 A d L) Finset.univ = g9
  sl_for (inv1 (F := F) d L g7 g8 g9 f3) $$ [Hb0' Hb1' Hb2' Hb3']
  case region =>
    intro k _
    unfold inv1
    iintro ⟨H7, H8, H9, H10⟩
    sl_exec
    sl_step
    isplitl [H7]; · iexact H7
    isplitl [H8]; · iexact H8
    isplitl [H9]; · iexact H9
    rw [← idxLoc_step (F := F) g7 g8 g9 f3 k]
    iexact H10
  · unfold inv1
    isplitl [Hb0']; · iexact Hb0'
    isplitl [Hb1']; · iexact Hb1'
    isplitl [Hb2']; · iexact Hb2'
    rw [idxLoc_zero]; iexact Hb3'
  iintro %_ HI
  unfold inv1
  icases HI with ⟨H7, H8, H9, H10⟩
  have htrips : Scf.trips k0_t1_loop.lb k0_t1_loop.ub k0_t1_loop.st = 400 := by decide
  rw [htrips]
  generalize hI : idxLoc g7 g8 g9 f3 400 = idxF
  have hIdxF : idxF = fun x => idxOf A d ((posK L).emb x) := by
    rw [← hI, ← hg7, ← hg8, ← hg9]
    exact idxF_eq (F := F) L (A d).tid (A d).flg (A d).win f0 f1 f2 f3
  have hinG : ∀ x : S6400.Idx, ((idxF : S6400.Idx → BitVec 32) x).toNat < 141088 := by
    intro x; rw [hIdxF]; exact hidx d _
  have hinS : ∀ (off : Fin 1 → Nat) (hoff : ∀ a, off a + S128.size a ≤ S6400.size a) (j : S128.Idx),
      ((((s3V).slice (Rect.unit (s := S6400) off S128.size hoff) (fun _ => rfl)).view.read (Elt F) idxF j : BitVec 32)).toNat
        < S141088x128.size gathers_S141088x128_S128x128.axis := by
    intro off hoff j
    exact hinG _
  -- the table and the row numbers, each under five read tokens (one per gather semaphore) and a remainder
  ihave Htbl' := (Entails.of_eq (show ((tblV).view.loc (V d (cV L) (jV L)) ↦{tq (wL L)} (A d).tbl : sProp 𝕄) = tblLoc d ↦{tq (wL L)} (A d).tbl from rfl).symm) $$ Htbl
  ihave Ht := (Transfers.pointsTo_toks_split (tq (wL L)) 5) $$ Htbl'
  icases Ht with ⟨Htr, Htt⟩
  ihave Htt' := (Entails.of_eq (bigSep_fin5 _)) $$ Htt
  icases Htt' with ⟨Ht0, Ht1, Ht2, Ht3, Ht4⟩
  ihave Hit := (Entails.of_eq (pointsTo_piecesOf Finset.univ idxF (show 0 < 5 by decide) fullShare)) $$ H10
  ihave Hit' := (Entails.of_eq (bigSep_fin5 _)) $$ Hit
  icases Hit' with ⟨Hi0, Hi1, Hi2, Hi3, Hi4⟩
  ihave Hb4' := (Entails.of_eq (pts_b4 (F := F) d L _).symm) $$ Hb4
  ihave Hb5' := (Entails.of_eq (pts_b5 (F := F) d L _).symm) $$ Hb5
  ihave Hb6' := (Entails.of_eq (pts_b6 (F := F) d L _).symm) $$ Hb6
  ihave Hb7' := (Entails.of_eq (pts_b7 (F := F) d L _).symm) $$ Hb7
  ihave Hb8' := (Entails.of_eq (pts_b8 (F := F) d L _).symm) $$ Hb8
  sl_exec
  have htrips2 : k0_t2_loop.trips = 10 := by decide
  sl_for (inv2 (F := F) A d L idxF hinS O W) $$ [Hmw Hg0 Hg1 Hg2 Hg3 Hg4 Ht0 Ht1 Ht2 Ht3 Ht4 Hb4' Hb5' Hb6' Hb7' Hb8' Hi0 Hi1 Hi2 Hi3 Hi4 Hw0 Hw1 Hw2 Hw3 Hw4 Hout HO]
  case region =>
    intro k _
    have hk : k.val < 10 := htrips2 ▸ k.isLt
    have hpostA : ∀ h : k.val + 1 < 10, inv2 A d L idxF hinS O W (k.val + 1) = fun _ => invA A d L idxF hinS O W ⟨k.val + 1, h⟩ := by
      intro h; funext _; rw [inv2, dif_pos h]
    have hpostB : ¬ k.val + 1 < 10 → inv2 A d L idxF hinS O W (k.val + 1) = fun _ => invB A d L idxF hinS O W := by
      intro h; funext _; rw [inv2, dif_neg h]
    rw [inv2, dif_pos hk]
    unfold invA slotA
    iintro ⟨Hmw, ⟨%fb0, S0f, S0t, S0r, S0i⟩, ⟨%fb1, S1f, S1t, S1r, S1i⟩, ⟨%fb2, S2f, S2t, S2r, S2i⟩, ⟨%fb3, S3f, S3t, S3r, S3i⟩, ⟨%fb4, S4f, S4t, S4r, S4i⟩, Hw0, Hw1, Hw2, Hw3, Hw4, Hob, %W', %hW', HO⟩
    ihave Hob' := (Entails.of_eq (outBlocks_take_self A d L k)) $$ Hob
    icases Hob' with ⟨⟨Ho0, Ho1, Ho2, Ho3, Ho4⟩, Hrest⟩
    have hcond : ∀ k : Fin k0_t2_loop.trips, (k0_cond1 k = 1#1 ↔ k.val < 9) ∧ (k0_cond2 k = 1#1 ↔ k.val < 9) ∧ (k0_cond3 k = 1#1 ↔ k.val < 9)
        ∧ (k0_cond4 k = 1#1 ↔ k.val < 9) ∧ (k0_cond5 k = 1#1 ↔ k.val < 9) := by decide
    by_cases hk9 : k.val < 9
    · have k0_h1 : k0_cond1 k = 1#1 := (hcond k).1.mpr hk9
      have k0_h2 : k0_cond2 k = 1#1 := (hcond k).2.1.mpr hk9
      have k0_h3 : k0_cond3 k = 1#1 := (hcond k).2.2.1.mpr hk9
      have k0_h4 : k0_cond4 k = 1#1 := (hcond k).2.2.2.1.mpr hk9
      have k0_h5 : k0_cond5 k = 1#1 := (hcond k).2.2.2.2.mpr hk9
      ihave Ho0' := (Entails.of_eq (pts_oBlk (F := F) d L k 0 _).symm) $$ Ho0
      ihave Ho1' := (Entails.of_eq (pts_oBlk (F := F) d L k 1 _).symm) $$ Ho1
      ihave Ho2' := (Entails.of_eq (pts_oBlk (F := F) d L k 2 _).symm) $$ Ho2
      ihave Ho3' := (Entails.of_eq (pts_oBlk (F := F) d L k 3 _).symm) $$ Ho3
      ihave Ho4' := (Entails.of_eq (pts_oBlk (F := F) d L k 4 _).symm) $$ Ho4
      have hk1 : k.val + 1 < 10 := by omega
      rw [hpostA hk1]
      sl_exec
      sl_step
      iapply (invA_intro A d L idxF hinS O W ⟨k.val + 1, hk1⟩ (k0_off6 k) (k0_off8 k) (k0_off10 k) (k0_off12 k) (k0_off14 k)
        (k0_off6_inb k k0_h1) (k0_off8_inb k k0_h2) (k0_off10_inb k k0_h3) (k0_off12_inb k k0_h4) (k0_off14_inb k k0_h5)
        (by rw [k0_off6_eq]; exact congrArg (fun n : Nat => (![n] : Fin 1 → Nat)) (show 640 * k.val + 640 = 640 * (k.val + 1) + 128 * 0 by omega))
        (by rw [k0_off8_eq]; exact congrArg (fun n : Nat => (![n] : Fin 1 → Nat)) (show 640 * k.val + 768 = 640 * (k.val + 1) + 128 * 1 by omega))
        (by rw [k0_off10_eq]; exact congrArg (fun n : Nat => (![n] : Fin 1 → Nat)) (show 640 * k.val + 896 = 640 * (k.val + 1) + 128 * 2 by omega))
        (by rw [k0_off12_eq]; exact congrArg (fun n : Nat => (![n] : Fin 1 → Nat)) (show 640 * k.val + 1024 = 640 * (k.val + 1) + 128 * 3 by omega))
        (by rw [k0_off14_eq]; exact congrArg (fun n : Nat => (![n] : Fin 1 → Nat)) (show 640 * k.val + 1152 = 640 * (k.val + 1) + 128 * 4 by omega)))
      unfold slotA
      isplitl [Hmw]; · iexact Hmw
      isplitl [S0f S0t S0r S0i]
      · iexists _
        isplitl [S0f]; · iexact S0f
        isplitl [S0t]; · iexact S0t
        isplitl [S0r]; · iexact S0r
        iexact S0i
      isplitl [S1f S1t S1r S1i]
      · iexists _
        isplitl [S1f]; · iexact S1f
        isplitl [S1t]; · iexact S1t
        isplitl [S1r]; · iexact S1r
        iexact S1i
      isplitl [S2f S2t S2r S2i]
      · iexists _
        isplitl [S2f]; · iexact S2f
        isplitl [S2t]; · iexact S2t
        isplitl [S2r]; · iexact S2r
        iexact S2i
      isplitl [S3f S3t S3r S3i]
      · iexists _
        isplitl [S3f]; · iexact S3f
        isplitl [S3t]; · iexact S3t
        isplitl [S3r]; · iexact S3r
        iexact S3i
      isplitl [S4f S4t S4r S4i]
      · iexists _
        isplitl [S4f]; · iexact S4f
        isplitl [S4t]; · iexact S4t
        isplitl [S4r]; · iexact S4r
        iexact S4i
      isplitl [Hw0]; · iexact Hw0
      isplitl [Hw1]; · iexact Hw1
      isplitl [Hw2]; · iexact Hw2
      isplitl [Hw3]; · iexact Hw3
      isplitl [Hw4]; · iexact Hw4
      isplitl [Ho0' Ho1' Ho2' Ho3' Ho4' Hrest]
      · sl_unfold_run_names
        ihave D0 := (Entails.of_eq (blk_done A d L hidx idxF hIdxF hinS k 0 hk r0V _ (fun fb g => read_whole_writes (Elt F) cc0_scratch4 fb g))) $$ Ho0'
        ihave D1 := (Entails.of_eq (blk_done A d L hidx idxF hIdxF hinS k 1 hk r1V _ (fun fb g => read_whole_writes (Elt F) cc0_scratch5 fb g))) $$ Ho1'
        ihave D2 := (Entails.of_eq (blk_done A d L hidx idxF hIdxF hinS k 2 hk r2V _ (fun fb g => read_whole_writes (Elt F) cc0_scratch6 fb g))) $$ Ho2'
        ihave D3 := (Entails.of_eq (blk_done A d L hidx idxF hIdxF hinS k 3 hk r3V _ (fun fb g => read_whole_writes (Elt F) cc0_scratch7 fb g))) $$ Ho3'
        ihave D4 := (Entails.of_eq (blk_done A d L hidx idxF hIdxF hinS k 4 hk r4V _ (fun fb g => read_whole_writes (Elt F) cc0_scratch8 fb g))) $$ Ho4'
        iapply (outBlocks_put A d L k)
        isplitl [D0 D1 D2 D3 D4]
        · isplitl [D0]; · iexact D0
          isplitl [D1]; · iexact D1
          isplitl [D2]; · iexact D2
          isplitl [D3]; · iexact D3
          iexact D4
        · iexact Hrest
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    · have k0_h1 : ¬ k0_cond1 k = 1#1 := fun h => hk9 ((hcond k).1.mp h)
      have k0_h2 : ¬ k0_cond2 k = 1#1 := fun h => hk9 ((hcond k).2.1.mp h)
      have k0_h3 : ¬ k0_cond3 k = 1#1 := fun h => hk9 ((hcond k).2.2.1.mp h)
      have k0_h4 : ¬ k0_cond4 k = 1#1 := fun h => hk9 ((hcond k).2.2.2.1.mp h)
      have k0_h5 : ¬ k0_cond5 k = 1#1 := fun h => hk9 ((hcond k).2.2.2.2.mp h)
      ihave Ho0' := (Entails.of_eq (pts_oBlk (F := F) d L k 0 _).symm) $$ Ho0
      ihave Ho1' := (Entails.of_eq (pts_oBlk (F := F) d L k 1 _).symm) $$ Ho1
      ihave Ho2' := (Entails.of_eq (pts_oBlk (F := F) d L k 2 _).symm) $$ Ho2
      ihave Ho3' := (Entails.of_eq (pts_oBlk (F := F) d L k 3 _).symm) $$ Ho3
      ihave Ho4' := (Entails.of_eq (pts_oBlk (F := F) d L k 4 _).symm) $$ Ho4
      have hk1 : ¬ k.val + 1 < 10 := by omega
      rw [hpostB hk1]
      have hkk : k = k9 := Fin.ext (by simp [k9]; omega)
      sl_exec
      sl_step
      subst hkk
      unfold invB slotB
      isplitl [Hmw]; · iexact Hmw
      isplitl [S0t S0f S0i Hw0 S0r]
      · isplitl [S0t]; · iexact S0t
        isplitl [S0f]; · iexact S0f
        isplitl [S0i]; · iexact S0i
        iexists _
        isplitl [Hw0]; · iexact Hw0
        iexact S0r
      isplitl [S1t S1f S1i Hw1 S1r]
      · isplitl [S1t]; · iexact S1t
        isplitl [S1f]; · iexact S1f
        isplitl [S1i]; · iexact S1i
        iexists _
        isplitl [Hw1]; · iexact Hw1
        iexact S1r
      isplitl [S2t S2f S2i Hw2 S2r]
      · isplitl [S2t]; · iexact S2t
        isplitl [S2f]; · iexact S2f
        isplitl [S2i]; · iexact S2i
        iexists _
        isplitl [Hw2]; · iexact Hw2
        iexact S2r
      isplitl [S3t S3f S3i Hw3 S3r]
      · isplitl [S3t]; · iexact S3t
        isplitl [S3f]; · iexact S3f
        isplitl [S3i]; · iexact S3i
        iexists _
        isplitl [Hw3]; · iexact Hw3
        iexact S3r
      isplitl [S4t S4f S4i Hw4 S4r]
      · isplitl [S4t]; · iexact S4t
        isplitl [S4f]; · iexact S4f
        isplitl [S4i]; · iexact S4i
        iexists _
        isplitl [Hw4]; · iexact Hw4
        iexact S4r
      isplitl [Hrest]; · iexact Hrest
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · -- before the first trip
    rw [inv2, dif_pos (by decide : 0 < 10)]
    iapply (invA_intro A d L idxF hinS O W (0 : Fin 10) ![0] ![128] ![256] ![384] ![512]
      inb_S6400_S128_0 inb_S6400_S128_128 inb_S6400_S128_256 inb_S6400_S128_384 inb_S6400_S128_512 rfl rfl rfl rfl rfl)
    unfold slotA
    isplitl [Hmw]; · iexact Hmw
    isplitl [Hg0 Ht0 Hb4' Hi0]
    · iexists _
      isplitl [Hg0]; · iexact Hg0
      isplitl [Ht0]; · iexact Ht0
      isplitl [Hb4']; · iexact Hb4'
      iexact Hi0
    isplitl [Hg1 Ht1 Hb5' Hi1]
    · iexists _
      isplitl [Hg1]; · iexact Hg1
      isplitl [Ht1]; · iexact Ht1
      isplitl [Hb5']; · iexact Hb5'
      iexact Hi1
    isplitl [Hg2 Ht2 Hb6' Hi2]
    · iexists _
      isplitl [Hg2]; · iexact Hg2
      isplitl [Ht2]; · iexact Ht2
      isplitl [Hb6']; · iexact Hb6'
      iexact Hi2
    isplitl [Hg3 Ht3 Hb7' Hi3]
    · iexists _
      isplitl [Hg3]; · iexact Hg3
      isplitl [Ht3]; · iexact Ht3
      isplitl [Hb7']; · iexact Hb7'
      iexact Hi3
    isplitl [Hg4 Ht4 Hb8' Hi4]
    · iexists _
      isplitl [Hg4]; · iexact Hg4
      isplitl [Ht4]; · iexact Ht4
      isplitl [Hb8']; · iexact Hb8'
      iexact Hi4
    isplitl [Hw0]; · iexact Hw0
    isplitl [Hw1]; · iexact Hw1
    isplitl [Hw2]; · iexact Hw2
    isplitl [Hw3]; · iexact Hw3
    isplitl [Hw4]; · iexact Hw4
    isplitl [Hout]; · iapply (outBlocks_init A d L); iexact Hout
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %xx HI
  have hfinalEq : inv2 A d L idxF hinS O W (Scf.trips k0_t2_loop.lb k0_t2_loop.ub k0_t2_loop.st) xx = invB A d L idxF hinS O W := by
    rw [inv2, dif_neg (by decide)]
  ihave HI' := (Entails.of_eq hfinalEq) $$ HI
  unfold invB slotB
  icases HI' with ⟨Hmw, ⟨S0t, S0f, S0i, %fb0, Hw0, S0r⟩, ⟨S1t, S1f, S1i, %fb1, Hw1, S1r⟩, ⟨S2t, S2f, S2i, %fb2, Hw2, S2r⟩, ⟨S3t, S3f, S3i, %fb3, Hw3, S3r⟩, ⟨S4t, S4f, S4i, %fb4, Hw4, S4r⟩, Hrest, %W', %hW', HO⟩
  sl_exec
  sl_step
  unfold tdRes
  isplitl [Htr S0t S1t S2t S3t S4t Htid' Hflg' Hwin' Hw0_dst Hw1_dst Hw2_dst Hw3_dst Hw4_dst Hrest]
  · -- what the task hands back
    isplitl [Htr S0t S1t S2t S3t S4t]
    · iapply (Transfers.pointsTo_toks_join (tq (wL L)) 5)
      isplitl [Htr]; · iexact Htr
      iapply (Entails.of_eq (bigSep_fin5 _).symm)
      isplitl [S0t]; · iexact S0t
      isplitl [S1t]; · iexact S1t
      isplitl [S2t]; · iexact S2t
      isplitl [S3t]; · iexact S3t
      iexact S4t
    isplitl [Htid']; · iapply (Entails.of_eq (pts_tidK (F := F) d L _)); iexact Htid'
    isplitl [Hflg']; · iapply (Entails.of_eq (pts_flgK (F := F) d L _)); iexact Hflg'
    isplitl [Hwin']; · iapply (Entails.of_eq (pts_winK (F := F) d L _)); iexact Hwin'
    iexists (outOf A d)
    isplitl [Hw0_dst Hw1_dst Hw2_dst Hw3_dst Hw4_dst Hrest]
    · iapply (outBlocks_final A d L)
      ihave D0 := (Entails.of_eq (blk_done A d L hidx idxF hIdxF hinS k9 0 (by decide) r0V _ (fun fb g => read_whole_writes (Elt F) cc0_scratch4 fb g))) $$ Hw0_dst
      ihave D1 := (Entails.of_eq (blk_done A d L hidx idxF hIdxF hinS k9 1 (by decide) r1V _ (fun fb g => read_whole_writes (Elt F) cc0_scratch5 fb g))) $$ Hw1_dst
      ihave D2 := (Entails.of_eq (blk_done A d L hidx idxF hIdxF hinS k9 2 (by decide) r2V _ (fun fb g => read_whole_writes (Elt F) cc0_scratch6 fb g))) $$ Hw2_dst
      ihave D3 := (Entails.of_eq (blk_done A d L hidx idxF hIdxF hinS k9 3 (by decide) r3V _ (fun fb g => read_whole_writes (Elt F) cc0_scratch7 fb g))) $$ Hw3_dst
      ihave D4 := (Entails.of_eq (blk_done A d L hidx idxF hIdxF hinS k9 4 (by decide) r4V _ (fun fb g => read_whole_writes (Elt F) cc0_scratch8 fb g))) $$ Hw4_dst
      iapply (outBlocks_put A d L k9)
      isplitl [D0 D1 D2 D3 D4]
      · isplitl [D0]; · iexact D0
        isplitl [D1]; · iexact D1
        isplitl [D2]; · iexact D2
        isplitl [D3]; · iexact D3
        iexact D4
      · iexact Hrest
    · ipureintro; intro j _; rfl
  isplitl [H7 H8 H9 S0i S1i S2i S3i S4i S0r S1r S2r S3r S4r Hbufs]
  · -- the subcore's own buffers
    isplitl [H7 H8 H9 S0i S1i S2i S3i S4i S0r S1r S2r S3r S4r]
    · isplitl [H7]; · iexists _; iapply (Entails.of_eq (pts_b0 (F := F) d L _)); iexact H7
      isplitl [H8]; · iexists _; iapply (Entails.of_eq (pts_b1 (F := F) d L _)); iexact H8
      isplitl [H9]; · iexists _; iapply (Entails.of_eq (pts_b2 (F := F) d L _)); iexact H9
      isplitl [S0i S1i S2i S3i S4i]
      · iexists idxF
        iapply (Entails.of_eq (pts_b3 (F := F) d L _))
        iapply (Entails.of_eq (pointsTo_piecesOf Finset.univ idxF (show 0 < 5 by decide) fullShare).symm)
        iapply (Entails.of_eq (bigSep_fin5 _).symm)
        isplitl [S0i]; · iexact S0i
        isplitl [S1i]; · iexact S1i
        isplitl [S2i]; · iexact S2i
        isplitl [S3i]; · iexact S3i
        iexact S4i
      isplitl [S0r]; · iexists _; iapply (Entails.of_eq (pts_b4 (F := F) d L _)); iexact S0r
      isplitl [S1r]; · iexists _; iapply (Entails.of_eq (pts_b5 (F := F) d L _)); iexact S1r
      isplitl [S2r]; · iexists _; iapply (Entails.of_eq (pts_b6 (F := F) d L _)); iexact S2r
      isplitl [S3r]; · iexists _; iapply (Entails.of_eq (pts_b7 (F := F) d L _)); iexact S3r
      iexists _; iapply (Entails.of_eq (pts_b8 (F := F) d L _)); iexact S4r
    · iexact Hbufs
  isplitl [S0f S1f S2f S3f S4f Hw0 Hw1 Hw2 Hw3 Hw4 Hc0 Hc1 Hc2 Hsems]
  · -- and semaphores
    isplitl [S0f S1f S2f S3f S4f Hw0 Hw1 Hw2 Hw3 Hw4 Hc0 Hc1 Hc2]
    · isplitl [S0f]; · iexact S0f
      isplitl [S1f]; · iexact S1f
      isplitl [S2f]; · iexact S2f
      isplitl [S3f]; · iexact S3f
      isplitl [S4f]; · iexact S4f
      isplitl [Hw0]; · iexact Hw0
      isplitl [Hw1]; · iexact Hw1
      isplitl [Hw2]; · iexact Hw2
      isplitl [Hw3]; · iexact Hw3
      isplitl [Hw4]; · iexact Hw4
      isplitl [Hc0]; · iexact Hc0
      isplitl [Hc1]; · iexact Hc1
      iexact Hc2
    · iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Tile

end Cert.Proof.KB

end
-- ==== Proof.KBTileObl.lean ====
/-
  The vector subcores' obligation of the embedding lookup's call, from the proof of one task's body.
-/
import proofs.«213838_g73864847557071_cont_9to1_m_429_11_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The launch theorem's obligation -/

section Obl

variable [FloatOps F] (A : (d : Dev nD) → CallArrs (F := F) d)

/-- The coordinates of vector subcore `s` of SparseCore `c` in the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          (Memref.whole main_v1_scv) (Memref.isWhole_whole _) (Memref.whole main_v16_scv) (Memref.isWhole_whole _)
          (Memref.whole main_v17_scv) (Memref.isWhole_whole _) (Memref.whole main_v15_scv) (Memref.isWhole_whole _)
          (Memref.whole main_v18_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          cc0_scratch9 cc0_scratch10 cc0_scratch11 cc0_scratch12 cc0_scratch13 cc0_scratch14 cc0_scratch15 cc0_scratch16 cc0_scratch17 cc0_scratch18
          cc0_scoped0 cc0_scoped1 cc0_scoped2) ⟨⟩ c s := rfl

omit [FloatOps F] in
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
/-- The vector subcores' obligation at the call: subcore `i` of SparseCore `c` runs the task's body at its own
    coordinates, from its worker's operands to its worker's results. -/
theorem tileObl (hF : (K (F := F)).Facts) (hidx : IdxOK A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hidx O W hO).trans (wp_mono frame _ _ fun _ => obl_post)

end Obl

end Cert.Proof.KB

end
-- ==== Proof.KBClosed.lean ====
/- The kernel program's run, closed: the vector subcores' obligation, the mask's call on the TensorCore and the
   mask pipeline's share of the launch state supplied to the program's run. What is left is the one condition on the
   data: every row number the SparseCore call computes names a row of its table. -/
import proofs.«213838_g73864847557071_cont_9to1_m_429_11_alg».proof.Proof.KBMain
import proofs.«213838_g73864847557071_cont_9to1_m_429_11_alg».proof.Proof.KBMask
import proofs.«213838_g73864847557071_cont_9to1_m_429_11_alg».proof.Proof.KBTileObl

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The mask's call, as the program's run asks for it: at the TensorCore's level function and what it owes after the
    SparseCore call. -/
theorem maskLine : MaskLine (F := F) (maskG (F := F)) (maskOf (F := F)) :=
  fun d lens k Q => wp_mask (F := F) (lens := lens) (b := 8 * 1) (lv := (K (F := F)).lev) (by sl_refines_lev)
    (fun g => by rw [(K (F := F)).Otc_end d (le_refl 1)]; rfl) d k Q

/-- The launch state of the mask pipeline's staging cells and transfers. -/
abbrev uR₀ : UR :=
  initOf (Pipeline.cells (nD := nD) (τ := τ) cfgs cellOf_inj) (Pipeline.launchToks (nD := nD) (τ := τ) cfgs cellOf_inj)

/-- It funds, on every device, what the mask's call takes from the launch. -/
theorem hGm : (BI.own ((ER (F := F)) uR₀) : sProp 𝕄) ⊢ |={Set.univ}=> bigSep Finset.univ fun d : Dev nD => maskG (F := F) d := by
  iintro H
  imod (fund_maskG (F := F)) $$ H with H'
  imodintro
  iexact H'

/-- THE KERNEL PROGRAM'S RUN: from any memory with zero counters whose row numbers name rows of the table, every
    weakly fair execution of all its threads terminates; on every device the flat output viewed as [1024, 200, 128]
    and the mask end at their terms of the arguments, and the seven arguments end unchanged. -/
theorem run_closed [∀ e, Nonempty (Elt F e)] (m : (ℓ : Loc nD τ sig) → Buf (Elt F) ℓ) (ρ : Dev nD → PrngReg)
    (hidx : IdxOK (arrs m)) :
    θ_run (Cert.Kernel.defs (F := F)) (Cert.Kernel.threads (F := F)) ⟨m, fun _ => 0, ρ⟩ (QC m (maskOf (F := F))) :=
  run_main m ρ (maskG (F := F)) (maskOf (F := F)) (tileObl (arrs m) facts hidx) maskLine uR₀ hGm

end Cert.Proof.KB

end
-- ==== Proof.lean ====
/- The embedding lookup with overrides, on the SparseCore, against its jnp reference.

   Both programs compute, for every position `(r, c)` of a [1024, 200] grid, a row of 128 numbers and a mask bit.
   The row is: the update row `u` for the LAST update `u` whose (row, column) pair is `(r, c)`, if there is one;
   else the cache table's row `ids[r, c]` when the flag `flags[r, c]` is one; else zero. The reference says it as a
   gather times the flag followed by a scatter that overwrites (a left fold over the updates, so the last one wins). The
   kernel program says it as one gather from the table `cache ++ 128 zero rows ++ updates` at a row number chosen by
   the winner `1 + max {u : pair u = (r, c)}` (an integer scatter-max, zero where no update hits), the flag and the id.
   The mask is `column < length[r]` as a float, computed by the kernel program on the TensorCore and by the reference
   with an iota and a comparison.

   Under the precondition — the ids, flags, rows, columns and lengths inside their ranges — the greatest update number
   hitting a position IS the last one in the fold's order, the flag is zero or one (so the product with it is the
   row or zero, on every extended real), no id is wrapped or clamped by the gather, and the two results agree entry
   by entry at the ideal instance. The claim's fourth conjunct is `True`: its statement records that the idealized kernel
   program is the printed program's own text read at the ideal instance. Each program's run is read back with its
   arguments unchanged; the three frames are those runs with the results dropped. -/
import proofs.«213838_g73864847557071_cont_9to1_m_429_11_alg».proof.Defs
import proofs.«213838_g73864847557071_cont_9to1_m_429_11_alg».proof.Proof.Gen.Kernel
import proofs.«213838_g73864847557071_cont_9to1_m_429_11_alg».proof.Proof.Gen.KernelIdeal
import proofs.«213838_g73864847557071_cont_9to1_m_429_11_alg».proof.Proof.Gen.ReferenceIdeal
import proofs.«213838_g73864847557071_cont_9to1_m_429_11_alg».proof.Proof.Gen.Pre_input_domain
import proofs.«213838_g73864847557071_cont_9to1_m_429_11_alg».proof.Proof.RefRead
import proofs.«213838_g73864847557071_cont_9to1_m_429_11_alg».proof.Proof.PreRanges
import proofs.«213838_g73864847557071_cont_9to1_m_429_11_alg».proof.Proof.MaskBridge
import proofs.«213838_g73864847557071_cont_9to1_m_429_11_alg».proof.Proof.EmbBridge
import proofs.«213838_g73864847557071_cont_9to1_m_429_11_alg».proof.Proof.KIVals
import proofs.«213838_g73864847557071_cont_9to1_m_429_11_alg».proof.Proof.KBVals
import proofs.«213838_g73864847557071_cont_9to1_m_429_11_alg».proof.Proof.KIClosed
import proofs.«213838_g73864847557071_cont_9to1_m_429_11_alg».proof.Proof.KBClosed

noncomputable section

namespace Cert.Proof

open Idealize.ShloMosaic Idealize.ShloMosaic.TcCoe Idealize.SL.Sem Idealize.ShloMosaic.ValueIdx

/-! ## The precondition at a launch memory -/

/-- The integer arguments of a launch memory that satisfies the precondition are in range, at the ideal instance. -/
theorem ranges_KI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (c : Dev Cert.KernelIdeal.nD) :
    (∀ i, (m ((c.tc : Thread Cert.KernelIdeal.nD Cert.KernelIdeal.τ).loc Cert.KernelIdeal.main_arg2) i).toNat < 100000) ∧ (∀ i, (m ((c.tc : Thread Cert.KernelIdeal.nD Cert.KernelIdeal.τ).loc Cert.KernelIdeal.main_arg3) i).toNat ≤ 1)
    ∧ (∀ i, (m ((c.tc : Thread Cert.KernelIdeal.nD Cert.KernelIdeal.τ).loc Cert.KernelIdeal.main_arg4) i).toNat < 1024) ∧ (∀ i, (m ((c.tc : Thread Cert.KernelIdeal.nD Cert.KernelIdeal.τ).loc Cert.KernelIdeal.main_arg5) i).toNat < 200)
    ∧ (∀ i, (m ((c.tc : Thread Cert.KernelIdeal.nD Cert.KernelIdeal.τ).loc Cert.KernelIdeal.main_arg6) i).toNat ≤ 199) :=
  PreRanges.ranges_of_pre _ _ _ _ _ _ _ (hpre c)

/-- … hence every row number the SparseCore call computes names a row of its table. -/
theorem idxOK_KI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) : KI.IdxOK (KI.arrs m) :=
  KI.idxOK_arrs m (fun d i => (ranges_KI m hpre d).1 i) (fun d u => (ranges_KI m hpre d).2.2.1 (ix1 u))
    (fun d u => (ranges_KI m hpre d).2.2.2.1 (ix1 u))

/-- The integer arguments of a launch memory that satisfies the precondition are in range, at the word-level instance. -/
theorem ranges_KB (m : (ℓ : Loc Cert.Kernel.nD Cert.Kernel.τ Cert.Kernel.sig) → Buf (Elt Bits) ℓ)
    (hpre : Cert.Pre_Kernel (hPre_input_domain := Cert.Pre_input_domain.Gen.facts) m) (c : Dev Cert.Kernel.nD) :
    (∀ i, (m ((c.tc : Thread Cert.Kernel.nD Cert.Kernel.τ).loc Cert.Kernel.main_arg2) i).toNat < 100000) ∧ (∀ i, (m ((c.tc : Thread Cert.Kernel.nD Cert.Kernel.τ).loc Cert.Kernel.main_arg3) i).toNat ≤ 1)
    ∧ (∀ i, (m ((c.tc : Thread Cert.Kernel.nD Cert.Kernel.τ).loc Cert.Kernel.main_arg4) i).toNat < 1024) ∧ (∀ i, (m ((c.tc : Thread Cert.Kernel.nD Cert.Kernel.τ).loc Cert.Kernel.main_arg5) i).toNat < 200)
    ∧ (∀ i, (m ((c.tc : Thread Cert.Kernel.nD Cert.Kernel.τ).loc Cert.Kernel.main_arg6) i).toNat ≤ 199) :=
  PreRanges.ranges_of_pre _ _ _ _ _ _ _ (hpre c)

/-- … hence every row number the SparseCore call computes names a row of its table. -/
theorem idxOK_KB (m : (ℓ : Loc Cert.Kernel.nD Cert.Kernel.τ Cert.Kernel.sig) → Buf (Elt Bits) ℓ)
    (hpre : Cert.Pre_Kernel (hPre_input_domain := Cert.Pre_input_domain.Gen.facts) m) : KB.IdxOK (KB.arrs m) :=
  KB.idxOK_arrs m (fun d i => (ranges_KB m hpre d).1 i) (fun d u => (ranges_KB m hpre d).2.2.1 (ix1 u))
    (fun d u => (ranges_KB m hpre d).2.2.2.1 (ix1 u))

/-! ## The five claims -/

/-- The word-level kernel program runs and leaves its arguments as they were. -/
theorem frame_k : Cert.frame_Kernel (hKernel := Cert.Kernel.Gen.facts) (hPre_input_domain := Cert.Pre_input_domain.Gen.facts) :=
  fun m g hpre => (θ_run Cert.Kernel.defs _ _).mono (fun _ h c => (h c).2.2) (KB.run_closed m g (idxOK_KB m hpre))

/-- So does the kernel program read at the ideal instance. -/
theorem frame_ki : Cert.frame_KernelIdeal (hKernelIdeal := Cert.KernelIdeal.Gen.facts) (hPre_input_domain := Cert.Pre_input_domain.Gen.facts) :=
  fun m g hpre => (θ_run Cert.KernelIdeal.defs _ _).mono (fun _ h c => (h c).2.2) (KI.run_closed m g (idxOK_KI m hpre))

/-- And the reference, whatever its arguments hold. -/
theorem frame_ri : Cert.frame_ReferenceIdeal (hReferenceIdeal := Cert.ReferenceIdeal.Gen.facts) (hPre_input_domain := Cert.Pre_input_domain.Gen.facts) :=
  fun m g _ => (θ_run Cert.ReferenceIdeal.defs _ _).mono (fun _ h c => (h c).2.2) (Cert.ReferenceIdeal.RefRun.run m g)

/-- At the ideal instance, from memories that agree on the seven arguments, both programs end with the same two
    results: the rows (the kernel program's flat output viewed as [1024, 200, 128]) and the mask. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => KI.outFin m c, fun c => KI.maskOf (F := Ideal) (KI.lensOf m c), KI.run_closed m g (idxOK_KI m hpre), ?_⟩
  refine (θ_run Cert.ReferenceIdeal.defs _ _).mono (fun _ h c => ⟨(h c).1.trans ?_, (h c).2.1.trans ?_, (h c).2.2⟩)
    (Cert.ReferenceIdeal.RefRun.run m' g')
  · rw [(hagree c).1, (hagree c).2.1, (hagree c).2.2.1, (hagree c).2.2.2.1, (hagree c).2.2.2.2.1, (hagree c).2.2.2.2.2.1]
    obtain ⟨ht, hf, hr, hc, -⟩ := ranges_KI m hpre c
    exact (EmbBridge.out_reshape_eq_emb m c _ ht hf hr hc).symm
  · rw [(hagree c).2.2.2.2.2.2]
    exact (MaskBridge.maskOf_eq_maskTerm _ _).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
